-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S10000 : Shape := ⟨1, ![10000]⟩
abbrev S10000x32 : Shape := ⟨2, ![10000, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000 : S_.BroadcastsInDim S10000 (![] : Fin 0 → Fin S10000.rank)
  reducesTo_S10000_S_d0 : S10000.ReducesTo [0] S_
  bcast_S_S10000x32 : S_.BroadcastsInDim S10000x32 (![] : Fin 0 → Fin S10000x32.rank)
  reducesTo_S10000x32_S_d0_1 : S10000x32.ReducesTo [0, 1] S_

variable [Facts]

def fn_part1 {F : FTy → Type} [FloatOps F] (main_v10 : IVec S_ 1) (main_v15 : IVec S10000x32 1) (main_c_5 : IVec S_ 1) : IVec S_ 1 :=
  let main_v16 : IVec S_ 1 := (fun x v => Host.reduce IntOp.andi x v reducesTo_S10000x32_S_d0_1 h_S_) main_v15 main_c_5
  let main_v17 : IVec S_ 1 := andi main_v10 main_v16
  main_v17

def fn {F : FTy → Type} [FloatOps F] (main_arg0 : FVec F S100000x128 .f32) (main_arg1 : IVec S10000 32) (main_arg2 : IVec S10000x32 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S10000 32 := broadcastInDim S10000 ![] bcast_S_S10000 main_c_0
  let main_v5 : IVec S10000 1 := cmpi .sge main_arg1 main_v4
  let main_c_1 : IVec S_ 32 := constantI S_ 32 99999#32
  let main_v6 : IVec S10000 32 := broadcastInDim S10000 ![] bcast_S_S10000 main_c_1
  let main_v7 : IVec S10000 1 := cmpi .sle main_arg1 main_v6
  let main_v8 : IVec S10000 1 := andi main_v5 main_v7
  let main_c_2 : IVec S_ 1 := constantI S_ 1 1#1
  let main_v9 : IVec S_ 1 := (fun x v => Host.reduce IntOp.andi x v reducesTo_S10000_S_d0 h_S_) main_v8 main_c_2
  let main_v10 : IVec S_ 1 := andi main_v3 main_v9
  let main_c_3 : IVec S_ 32 := constantI S_ 32 0#32
  let main_v11 : IVec S10000x32 32 := broadcastInDim S10000x32 ![] bcast_S_S10000x32 main_c_3
  let main_v12 : IVec S10000x32 1 := cmpi .sge main_arg2 main_v11
  let main_c_4 : IVec S_ 32 := constantI S_ 32 99999#32
  let main_v13 : IVec S10000x32 32 := broadcastInDim S10000x32 ![] bcast_S_S10000x32 main_c_4
  let main_v14 : IVec S10000x32 1 := cmpi .sle main_arg2 main_v13
  let main_v15 : IVec S10000x32 1 := andi main_v12 main_v14
  let main_c_5 : IVec S_ 1 := constantI S_ 1 1#1
  fn_part1 (F := F) main_v10 main_v15 main_c_5
-- ==== Kernel.lean ====
abbrev S100000x128 : Shape := ⟨2, ![100000, 128]⟩
abbrev S10000 : Shape := ⟨1, ![10000]⟩
abbrev S10000x32 : Shape := ⟨2, ![10000, 32]⟩
abbrev S_ : Shape := ⟨0, ![]⟩
abbrev S10240x32 : Shape := ⟨2, ![10240, 32]⟩
abbrev S32x80x128 : Shape := ⟨3, ![32, 80, 128]⟩
abbrev S10240x128 : Shape := ⟨2, ![10240, 128]⟩
abbrev S80x128 : Shape := ⟨2, ![80, 128]⟩
abbrev S320x128 : Shape := ⟨2, ![320, 128]⟩
abbrev S128x128 : Shape := ⟨2, ![128, 128]⟩
abbrev S1x80x128 : Shape := ⟨3, ![1, 80, 128]⟩
abbrev S1x128 : Shape := ⟨2, ![1, 128]⟩
abbrev S128 : Shape := ⟨1, ![128]⟩
abbrev S1x16 : Shape := ⟨2, ![1, 16]⟩
abbrev S16 : Shape := ⟨1, ![16]⟩
abbrev S10000x128 : Shape := ⟨2, ![10000, 128]⟩

abbrev nBuf : Table → Nat
  | .hbm => 9
  | .local .scVector .vmem => 6
  | _ => 0

abbrev bufTy : (tb : Table) → Fin (nBuf tb) → BufTy
  | .hbm, ⟨0, _⟩ => ⟨S100000x128, .f32⟩
  | .hbm, ⟨1, _⟩ => ⟨S10000, .i32⟩
  | .hbm, ⟨2, _⟩ => ⟨S10000x32, .i32⟩
  | .hbm, ⟨3, _⟩ => ⟨S_, .i32⟩
  | .hbm, ⟨4, _⟩ => ⟨S_, .i32⟩
  | .hbm, ⟨5, _⟩ => ⟨S10240x32, .i32⟩
  | .hbm, ⟨6, _⟩ => ⟨S32x80x128, .i32⟩
  | .hbm, ⟨7, _⟩ => ⟨S10240x128, .f32⟩
  | .hbm, ⟨8, _⟩ => ⟨S10000x128, .f32⟩
  | .local .scVector .vmem, ⟨0, _⟩ => ⟨S80x128, .i32⟩
  | .local .scVector .vmem, ⟨1, _⟩ => ⟨S320x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0_scv : Ref sig .scVector := ⟨.hbm, 0, rfl⟩
abbrev main_v1_scv : Ref sig .scVector := ⟨.hbm, 6, rfl⟩
abbrev main_v2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r0 : BitVec 32 := 0#32
  let c0_i32_18_r0 : BitVec 32 := 0#32
  ![v1.toNat, 0, 0]
@[reducible] def k0_t1_loop : Scf.Loop 32 :=
  let c0_i32_14 : BitVec 32 := 0#32
  let c20_i32 : BitVec 32 := 20#32
  let v14 : BitVec 32 := Scalar.addi c0_i32_14 c20_i32
  let c1_i32_15 : BitVec 32 := 1#32
  ⟨c0_i32_14, v14, c1_i32_15⟩
def k0_off2 (k0_t1 : Fin k0_t1_loop.trips) (c0_i32_17 : BitVec 32) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let v17 : BitVec 32 := Scalar.addi v16 c0_i32_17
  let c0_i32_18 : BitVec 32 := 0#32
  ![v17.toNat, 0]
@[reducible] def k0_t2_loop : Scf.Loop 32 :=
  let c0_i32_22 : BitVec 32 := 0#32
  let c4_i32_23 : BitVec 32 := 4#32
  let v21 : BitVec 32 := Scalar.addi c0_i32_22 c4_i32_23
  let c1_i32_24 : BitVec 32 := 1#32
  ⟨c0_i32_22, v21, c1_i32_24⟩
def k0_off3 (k0_t2 : Fin k0_t2_loop.trips) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v54 : Index := Scalar.indexCast v53
  let c0 : Index := 0#32
  ![v54.toNat, 0]
def k0_off4 (k0_t2 : Fin k0_t2_loop.trips) (c1_i32_64 : BitVec 32) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v57 : BitVec 32 := Scalar.addi v53 c1_i32_64
  let v58 : Index := Scalar.indexCast v57
  let c0_65 : Index := 0#32
  ![v58.toNat, 0]
def k0_off5 (k0_t1 : Fin k0_t1_loop.trips) (k0_t2 : Fin k0_t2_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c0_i32_17 : BitVec 32 := 0#32
  let v17 : BitVec 32 := Scalar.addi v16 c0_i32_17
  let c4_i32_100 : BitVec 32 := 4#32
  let v212 : BitVec 32 := Scalar.muli v17 c4_i32_100
  let c0_i32_22 : BitVec 32 := 0#32
  let c1_i32_24 : BitVec 32 := 1#32
  let arg16 : BitVec 32 := Scf.iv c0_i32_22 c1_i32_24 k0_t2
  let v213 : BitVec 32 := Scalar.addi v212 arg16
  let v214 : Index := Scalar.indexCast v213
  let c0_101 : Index := 0#32
  ![v214.toNat, 0]
def k0_off6 (k0_t2 : Fin k0_t2_loop.trips) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v218 : Index := Scalar.indexCast v53
  let c16 : Index := 16#32
  ![v218.toNat, 16]
def k0_off7 (k0_t2 : Fin k0_t2_loop.trips) (c1_i32_102 : BitVec 32) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v221 : BitVec 32 := Scalar.addi v53 c1_i32_102
  let v222 : Index := Scalar.indexCast v221
  let c16_103 : Index := 16#32
  ![v222.toNat, 16]
def k0_off8 (k0_t1 : Fin k0_t1_loop.trips) (k0_t2 : Fin k0_t2_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c0_i32_17 : BitVec 32 := 0#32
  let v17 : BitVec 32 := Scalar.addi v16 c0_i32_17
  let c4_i32_164 : BitVec 32 := 4#32
  let v376 : BitVec 32 := Scalar.muli v17 c4_i32_164
  let c0_i32_22 : BitVec 32 := 0#32
  let c1_i32_24 : BitVec 32 := 1#32
  let arg16 : BitVec 32 := Scf.iv c0_i32_22 c1_i32_24 k0_t2
  let v377 : BitVec 32 := Scalar.addi v376 arg16
  let v378 : Index := Scalar.indexCast v377
  let c16_165 : Index := 16#32
  ![v378.toNat, 16]
def k0_off9 (k0_t2 : Fin k0_t2_loop.trips) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v382 : Index := Scalar.indexCast v53
  let c32 : Index := 32#32
  ![v382.toNat, 32]
def k0_off10 (k0_t2 : Fin k0_t2_loop.trips) (c1_i32_166 : BitVec 32) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v385 : BitVec 32 := Scalar.addi v53 c1_i32_166
  let v386 : Index := Scalar.indexCast v385
  let c32_167 : Index := 32#32
  ![v386.toNat, 32]
def k0_off11 (k0_t1 : Fin k0_t1_loop.trips) (k0_t2 : Fin k0_t2_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c0_i32_17 : BitVec 32 := 0#32
  let v17 : BitVec 32 := Scalar.addi v16 c0_i32_17
  let c4_i32_228 : BitVec 32 := 4#32
  let v540 : BitVec 32 := Scalar.muli v17 c4_i32_228
  let c0_i32_22 : BitVec 32 := 0#32
  let c1_i32_24 : BitVec 32 := 1#32
  let arg16 : BitVec 32 := Scf.iv c0_i32_22 c1_i32_24 k0_t2
  let v541 : BitVec 32 := Scalar.addi v540 arg16
  let v542 : Index := Scalar.indexCast v541
  let c32_229 : Index := 32#32
  ![v542.toNat, 32]
def k0_off12 (k0_t2 : Fin k0_t2_loop.trips) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v546 : Index := Scalar.indexCast v53
  let c48 : Index := 48#32
  ![v546.toNat, 48]
def k0_off13 (k0_t2 : Fin k0_t2_loop.trips) (c1_i32_230 : BitVec 32) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v549 : BitVec 32 := Scalar.addi v53 c1_i32_230
  let v550 : Index := Scalar.indexCast v549
  let c48_231 : Index := 48#32
  ![v550.toNat, 48]
def k0_off14 (k0_t1 : Fin k0_t1_loop.trips) (k0_t2 : Fin k0_t2_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c0_i32_17 : BitVec 32 := 0#32
  let v17 : BitVec 32 := Scalar.addi v16 c0_i32_17
  let c4_i32_292 : BitVec 32 := 4#32
  let v704 : BitVec 32 := Scalar.muli v17 c4_i32_292
  let c0_i32_22 : BitVec 32 := 0#32
  let c1_i32_24 : BitVec 32 := 1#32
  let arg16 : BitVec 32 := Scf.iv c0_i32_22 c1_i32_24 k0_t2
  let v705 : BitVec 32 := Scalar.addi v704 arg16
  let v706 : Index := Scalar.indexCast v705
  let c48_293 : Index := 48#32
  ![v706.toNat, 48]
def k0_off15 (k0_t2 : Fin k0_t2_loop.trips) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v710 : Index := Scalar.indexCast v53
  let c64 : Index := 64#32
  ![v710.toNat, 64]
def k0_off16 (k0_t2 : Fin k0_t2_loop.trips) (c1_i32_294 : BitVec 32) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v713 : BitVec 32 := Scalar.addi v53 c1_i32_294
  let v714 : Index := Scalar.indexCast v713
  let c64_295 : Index := 64#32
  ![v714.toNat, 64]
def k0_off17 (k0_t1 : Fin k0_t1_loop.trips) (k0_t2 : Fin k0_t2_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c0_i32_17 : BitVec 32 := 0#32
  let v17 : BitVec 32 := Scalar.addi v16 c0_i32_17
  let c4_i32_356 : BitVec 32 := 4#32
  let v868 : BitVec 32 := Scalar.muli v17 c4_i32_356
  let c0_i32_22 : BitVec 32 := 0#32
  let c1_i32_24 : BitVec 32 := 1#32
  let arg16 : BitVec 32 := Scf.iv c0_i32_22 c1_i32_24 k0_t2
  let v869 : BitVec 32 := Scalar.addi v868 arg16
  let v870 : Index := Scalar.indexCast v869
  let c64_357 : Index := 64#32
  ![v870.toNat, 64]
def k0_off18 (k0_t2 : Fin k0_t2_loop.trips) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v874 : Index := Scalar.indexCast v53
  let c80 : Index := 80#32
  ![v874.toNat, 80]
def k0_off19 (k0_t2 : Fin k0_t2_loop.trips) (c1_i32_358 : BitVec 32) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v877 : BitVec 32 := Scalar.addi v53 c1_i32_358
  let v878 : Index := Scalar.indexCast v877
  let c80_359 : Index := 80#32
  ![v878.toNat, 80]
def k0_off20 (k0_t1 : Fin k0_t1_loop.trips) (k0_t2 : Fin k0_t2_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c0_i32_17 : BitVec 32 := 0#32
  let v17 : BitVec 32 := Scalar.addi v16 c0_i32_17
  let c4_i32_420 : BitVec 32 := 4#32
  let v1032 : BitVec 32 := Scalar.muli v17 c4_i32_420
  let c0_i32_22 : BitVec 32 := 0#32
  let c1_i32_24 : BitVec 32 := 1#32
  let arg16 : BitVec 32 := Scf.iv c0_i32_22 c1_i32_24 k0_t2
  let v1033 : BitVec 32 := Scalar.addi v1032 arg16
  let v1034 : Index := Scalar.indexCast v1033
  let c80_421 : Index := 80#32
  ![v1034.toNat, 80]
def k0_off21 (k0_t2 : Fin k0_t2_loop.trips) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v1038 : Index := Scalar.indexCast v53
  let c96 : Index := 96#32
  ![v1038.toNat, 96]
def k0_off22 (k0_t2 : Fin k0_t2_loop.trips) (c1_i32_422 : BitVec 32) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v1041 : BitVec 32 := Scalar.addi v53 c1_i32_422
  let v1042 : Index := Scalar.indexCast v1041
  let c96_423 : Index := 96#32
  ![v1042.toNat, 96]
def k0_off23 (k0_t1 : Fin k0_t1_loop.trips) (k0_t2 : Fin k0_t2_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c0_i32_17 : BitVec 32 := 0#32
  let v17 : BitVec 32 := Scalar.addi v16 c0_i32_17
  let c4_i32_484 : BitVec 32 := 4#32
  let v1196 : BitVec 32 := Scalar.muli v17 c4_i32_484
  let c0_i32_22 : BitVec 32 := 0#32
  let c1_i32_24 : BitVec 32 := 1#32
  let arg16 : BitVec 32 := Scf.iv c0_i32_22 c1_i32_24 k0_t2
  let v1197 : BitVec 32 := Scalar.addi v1196 arg16
  let v1198 : Index := Scalar.indexCast v1197
  let c96_485 : Index := 96#32
  ![v1198.toNat, 96]
def k0_off24 (k0_t2 : Fin k0_t2_loop.trips) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v1202 : Index := Scalar.indexCast v53
  let c112 : Index := 112#32
  ![v1202.toNat, 112]
def k0_off25 (k0_t2 : Fin k0_t2_loop.trips) (c1_i32_486 : BitVec 32) : Fin 2 → Nat :=
  let c0_i32_22 : BitVec 32 := 0#32
  let c1_i32_24 : BitVec 32 := 1#32
  let arg16 : BitVec 32 := Scf.iv c0_i32_22 c1_i32_24 k0_t2
  let c32_i32 : BitVec 32 := 32#32
  let v53 : BitVec 32 := Scalar.muli arg16 c32_i32
  let v1205 : BitVec 32 := Scalar.addi v53 c1_i32_486
  let v1206 : Index := Scalar.indexCast v1205
  let c112_487 : Index := 112#32
  ![v1206.toNat, 112]
def k0_off26 (k0_t1 : Fin k0_t1_loop.trips) (k0_t2 : Fin k0_t2_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c0_i32_17 : BitVec 32 := 0#32
  let v17 : BitVec 32 := Scalar.addi v16 c0_i32_17
  let c4_i32_548 : BitVec 32 := 4#32
  let v1360 : BitVec 32 := Scalar.muli v17 c4_i32_548
  let c0_i32_22 : BitVec 32 := 0#32
  let c1_i32_24 : BitVec 32 := 1#32
  let arg16 : BitVec 32 := Scf.iv c0_i32_22 c1_i32_24 k0_t2
  let v1361 : BitVec 32 := Scalar.addi v1360 arg16
  let v1362 : Index := Scalar.indexCast v1361
  let c112_549 : Index := 112#32
  ![v1362.toNat, 112]
def k0_cond1 (k0_t1 : Fin k0_t1_loop.trips) : BitVec 1 :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c0_i32_17 : BitVec 32 := 0#32
  let v17 : BitVec 32 := Scalar.addi v16 c0_i32_17
  let c4_i32_26 : BitVec 32 := 4#32
  let v22 : BitVec 32 := Scalar.addi v17 c4_i32_26
  let c80_i32 : BitVec 32 := 80#32
  let v23 : BitVec 1 := Scalar.cmpi .slt v22 c80_i32
  let v24 : BitVec 32 := Scalar.extui v23
  let c0_i32_27 : BitVec 32 := 0#32
  let v25 : BitVec 1 := Scalar.cmpi .ne v24 c0_i32_27
  v25

def k0_off27 (k0_t1 : Fin k0_t1_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c0_i32_17 : BitVec 32 := 0#32
  let v17 : BitVec 32 := Scalar.addi v16 c0_i32_17
  let c4_i32_64 : BitVec 32 := 4#32
  let v53 : BitVec 32 := Scalar.addi v17 c4_i32_64
  let c0_i32_65 : BitVec 32 := 0#32
  ![v53.toNat, 0]
@[reducible] def k0_t3_loop : Scf.Loop 32 :=
  let c0_i32_33 : BitVec 32 := 0#32
  let c4_i32_34 : BitVec 32 := 4#32
  let v30 : BitVec 32 := Scalar.addi c0_i32_33 c4_i32_34
  let c1_i32_35 : BitVec 32 := 1#32
  ⟨c0_i32_33, v30, c1_i32_35⟩
def k0_off28 (k0_t3 : Fin k0_t3_loop.trips) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v54 : Index := Scalar.indexCast v53
  let c0 : Index := 0#32
  ![v54.toNat, 0]
def k0_off29 (k0_t3 : Fin k0_t3_loop.trips) (c1_i32_64 : BitVec 32) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v57 : BitVec 32 := Scalar.addi v53 c1_i32_64
  let v58 : Index := Scalar.indexCast v57
  let c0_65 : Index := 0#32
  ![v58.toNat, 0]
def k0_off30 (k0_t1 : Fin k0_t1_loop.trips) (k0_t3 : Fin k0_t3_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c1_i32_28 : BitVec 32 := 1#32
  let v26 : BitVec 32 := Scalar.addi v16 c1_i32_28
  let c4_i32_100 : BitVec 32 := 4#32
  let v212 : BitVec 32 := Scalar.muli v26 c4_i32_100
  let c0_i32_33 : BitVec 32 := 0#32
  let c1_i32_35 : BitVec 32 := 1#32
  let arg16 : BitVec 32 := Scf.iv c0_i32_33 c1_i32_35 k0_t3
  let v213 : BitVec 32 := Scalar.addi v212 arg16
  let v214 : Index := Scalar.indexCast v213
  let c0_101 : Index := 0#32
  ![v214.toNat, 0]
def k0_off31 (k0_t3 : Fin k0_t3_loop.trips) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v218 : Index := Scalar.indexCast v53
  let c16 : Index := 16#32
  ![v218.toNat, 16]
def k0_off32 (k0_t3 : Fin k0_t3_loop.trips) (c1_i32_102 : BitVec 32) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v221 : BitVec 32 := Scalar.addi v53 c1_i32_102
  let v222 : Index := Scalar.indexCast v221
  let c16_103 : Index := 16#32
  ![v222.toNat, 16]
def k0_off33 (k0_t1 : Fin k0_t1_loop.trips) (k0_t3 : Fin k0_t3_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c1_i32_28 : BitVec 32 := 1#32
  let v26 : BitVec 32 := Scalar.addi v16 c1_i32_28
  let c4_i32_164 : BitVec 32 := 4#32
  let v376 : BitVec 32 := Scalar.muli v26 c4_i32_164
  let c0_i32_33 : BitVec 32 := 0#32
  let c1_i32_35 : BitVec 32 := 1#32
  let arg16 : BitVec 32 := Scf.iv c0_i32_33 c1_i32_35 k0_t3
  let v377 : BitVec 32 := Scalar.addi v376 arg16
  let v378 : Index := Scalar.indexCast v377
  let c16_165 : Index := 16#32
  ![v378.toNat, 16]
def k0_off34 (k0_t3 : Fin k0_t3_loop.trips) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v382 : Index := Scalar.indexCast v53
  let c32 : Index := 32#32
  ![v382.toNat, 32]
def k0_off35 (k0_t3 : Fin k0_t3_loop.trips) (c1_i32_166 : BitVec 32) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v385 : BitVec 32 := Scalar.addi v53 c1_i32_166
  let v386 : Index := Scalar.indexCast v385
  let c32_167 : Index := 32#32
  ![v386.toNat, 32]
def k0_off36 (k0_t1 : Fin k0_t1_loop.trips) (k0_t3 : Fin k0_t3_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c1_i32_28 : BitVec 32 := 1#32
  let v26 : BitVec 32 := Scalar.addi v16 c1_i32_28
  let c4_i32_228 : BitVec 32 := 4#32
  let v540 : BitVec 32 := Scalar.muli v26 c4_i32_228
  let c0_i32_33 : BitVec 32 := 0#32
  let c1_i32_35 : BitVec 32 := 1#32
  let arg16 : BitVec 32 := Scf.iv c0_i32_33 c1_i32_35 k0_t3
  let v541 : BitVec 32 := Scalar.addi v540 arg16
  let v542 : Index := Scalar.indexCast v541
  let c32_229 : Index := 32#32
  ![v542.toNat, 32]
def k0_off37 (k0_t3 : Fin k0_t3_loop.trips) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v546 : Index := Scalar.indexCast v53
  let c48 : Index := 48#32
  ![v546.toNat, 48]
def k0_off38 (k0_t3 : Fin k0_t3_loop.trips) (c1_i32_230 : BitVec 32) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v549 : BitVec 32 := Scalar.addi v53 c1_i32_230
  let v550 : Index := Scalar.indexCast v549
  let c48_231 : Index := 48#32
  ![v550.toNat, 48]
def k0_off39 (k0_t1 : Fin k0_t1_loop.trips) (k0_t3 : Fin k0_t3_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c1_i32_28 : BitVec 32 := 1#32
  let v26 : BitVec 32 := Scalar.addi v16 c1_i32_28
  let c4_i32_292 : BitVec 32 := 4#32
  let v704 : BitVec 32 := Scalar.muli v26 c4_i32_292
  let c0_i32_33 : BitVec 32 := 0#32
  let c1_i32_35 : BitVec 32 := 1#32
  let arg16 : BitVec 32 := Scf.iv c0_i32_33 c1_i32_35 k0_t3
  let v705 : BitVec 32 := Scalar.addi v704 arg16
  let v706 : Index := Scalar.indexCast v705
  let c48_293 : Index := 48#32
  ![v706.toNat, 48]
def k0_off40 (k0_t3 : Fin k0_t3_loop.trips) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v710 : Index := Scalar.indexCast v53
  let c64 : Index := 64#32
  ![v710.toNat, 64]
def k0_off41 (k0_t3 : Fin k0_t3_loop.trips) (c1_i32_294 : BitVec 32) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v713 : BitVec 32 := Scalar.addi v53 c1_i32_294
  let v714 : Index := Scalar.indexCast v713
  let c64_295 : Index := 64#32
  ![v714.toNat, 64]
def k0_off42 (k0_t1 : Fin k0_t1_loop.trips) (k0_t3 : Fin k0_t3_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c1_i32_28 : BitVec 32 := 1#32
  let v26 : BitVec 32 := Scalar.addi v16 c1_i32_28
  let c4_i32_356 : BitVec 32 := 4#32
  let v868 : BitVec 32 := Scalar.muli v26 c4_i32_356
  let c0_i32_33 : BitVec 32 := 0#32
  let c1_i32_35 : BitVec 32 := 1#32
  let arg16 : BitVec 32 := Scf.iv c0_i32_33 c1_i32_35 k0_t3
  let v869 : BitVec 32 := Scalar.addi v868 arg16
  let v870 : Index := Scalar.indexCast v869
  let c64_357 : Index := 64#32
  ![v870.toNat, 64]
def k0_off43 (k0_t3 : Fin k0_t3_loop.trips) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v874 : Index := Scalar.indexCast v53
  let c80 : Index := 80#32
  ![v874.toNat, 80]
def k0_off44 (k0_t3 : Fin k0_t3_loop.trips) (c1_i32_358 : BitVec 32) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v877 : BitVec 32 := Scalar.addi v53 c1_i32_358
  let v878 : Index := Scalar.indexCast v877
  let c80_359 : Index := 80#32
  ![v878.toNat, 80]
def k0_off45 (k0_t1 : Fin k0_t1_loop.trips) (k0_t3 : Fin k0_t3_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c1_i32_28 : BitVec 32 := 1#32
  let v26 : BitVec 32 := Scalar.addi v16 c1_i32_28
  let c4_i32_420 : BitVec 32 := 4#32
  let v1032 : BitVec 32 := Scalar.muli v26 c4_i32_420
  let c0_i32_33 : BitVec 32 := 0#32
  let c1_i32_35 : BitVec 32 := 1#32
  let arg16 : BitVec 32 := Scf.iv c0_i32_33 c1_i32_35 k0_t3
  let v1033 : BitVec 32 := Scalar.addi v1032 arg16
  let v1034 : Index := Scalar.indexCast v1033
  let c80_421 : Index := 80#32
  ![v1034.toNat, 80]
def k0_off46 (k0_t3 : Fin k0_t3_loop.trips) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v1038 : Index := Scalar.indexCast v53
  let c96 : Index := 96#32
  ![v1038.toNat, 96]
def k0_off47 (k0_t3 : Fin k0_t3_loop.trips) (c1_i32_422 : BitVec 32) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v1041 : BitVec 32 := Scalar.addi v53 c1_i32_422
  let v1042 : Index := Scalar.indexCast v1041
  let c96_423 : Index := 96#32
  ![v1042.toNat, 96]
def k0_off48 (k0_t1 : Fin k0_t1_loop.trips) (k0_t3 : Fin k0_t3_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c1_i32_28 : BitVec 32 := 1#32
  let v26 : BitVec 32 := Scalar.addi v16 c1_i32_28
  let c4_i32_484 : BitVec 32 := 4#32
  let v1196 : BitVec 32 := Scalar.muli v26 c4_i32_484
  let c0_i32_33 : BitVec 32 := 0#32
  let c1_i32_35 : BitVec 32 := 1#32
  let arg16 : BitVec 32 := Scf.iv c0_i32_33 c1_i32_35 k0_t3
  let v1197 : BitVec 32 := Scalar.addi v1196 arg16
  let v1198 : Index := Scalar.indexCast v1197
  let c96_485 : Index := 96#32
  ![v1198.toNat, 96]
def k0_off49 (k0_t3 : Fin k0_t3_loop.trips) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v1202 : Index := Scalar.indexCast v53
  let c112 : Index := 112#32
  ![v1202.toNat, 112]
def k0_off50 (k0_t3 : Fin k0_t3_loop.trips) (c1_i32_486 : BitVec 32) : Fin 2 → Nat :=
  let c0_i32_33 : BitVec 32 := 0#32
  let c1_i32_35 : BitVec 32 := 1#32
  let arg16 : BitVec 32 := Scf.iv c0_i32_33 c1_i32_35 k0_t3
  let c32_i32 : BitVec 32 := 32#32
  let v53 : BitVec 32 := Scalar.muli arg16 c32_i32
  let v1205 : BitVec 32 := Scalar.addi v53 c1_i32_486
  let v1206 : Index := Scalar.indexCast v1205
  let c112_487 : Index := 112#32
  ![v1206.toNat, 112]
def k0_off51 (k0_t1 : Fin k0_t1_loop.trips) (k0_t3 : Fin k0_t3_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c1_i32_28 : BitVec 32 := 1#32
  let v26 : BitVec 32 := Scalar.addi v16 c1_i32_28
  let c4_i32_548 : BitVec 32 := 4#32
  let v1360 : BitVec 32 := Scalar.muli v26 c4_i32_548
  let c0_i32_33 : BitVec 32 := 0#32
  let c1_i32_35 : BitVec 32 := 1#32
  let arg16 : BitVec 32 := Scf.iv c0_i32_33 c1_i32_35 k0_t3
  let v1361 : BitVec 32 := Scalar.addi v1360 arg16
  let v1362 : Index := Scalar.indexCast v1361
  let c112_549 : Index := 112#32
  ![v1362.toNat, 112]
def k0_cond2 (k0_t1 : Fin k0_t1_loop.trips) : BitVec 1 :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c1_i32_28 : BitVec 32 := 1#32
  let v26 : BitVec 32 := Scalar.addi v16 c1_i32_28
  let c4_i32_37 : BitVec 32 := 4#32
  let v31 : BitVec 32 := Scalar.addi v26 c4_i32_37
  let c80_i32_38 : BitVec 32 := 80#32
  let v32 : BitVec 1 := Scalar.cmpi .slt v31 c80_i32_38
  let v33 : BitVec 32 := Scalar.extui v32
  let c0_i32_39 : BitVec 32 := 0#32
  let v34 : BitVec 1 := Scalar.cmpi .ne v33 c0_i32_39
  v34

def k0_off52 (k0_t1 : Fin k0_t1_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c1_i32_28 : BitVec 32 := 1#32
  let v26 : BitVec 32 := Scalar.addi v16 c1_i32_28
  let c4_i32_64 : BitVec 32 := 4#32
  let v53 : BitVec 32 := Scalar.addi v26 c4_i32_64
  let c0_i32_65 : BitVec 32 := 0#32
  ![v53.toNat, 0]
@[reducible] def k0_t4_loop : Scf.Loop 32 :=
  let c0_i32_45 : BitVec 32 := 0#32
  let c4_i32_46 : BitVec 32 := 4#32
  let v39 : BitVec 32 := Scalar.addi c0_i32_45 c4_i32_46
  let c1_i32_47 : BitVec 32 := 1#32
  ⟨c0_i32_45, v39, c1_i32_47⟩
def k0_off53 (k0_t4 : Fin k0_t4_loop.trips) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v54 : Index := Scalar.indexCast v53
  let c0 : Index := 0#32
  ![v54.toNat, 0]
def k0_off54 (k0_t4 : Fin k0_t4_loop.trips) (c1_i32_64 : BitVec 32) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v57 : BitVec 32 := Scalar.addi v53 c1_i32_64
  let v58 : Index := Scalar.indexCast v57
  let c0_65 : Index := 0#32
  ![v58.toNat, 0]
def k0_off55 (k0_t1 : Fin k0_t1_loop.trips) (k0_t4 : Fin k0_t4_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c2_i32_40 : BitVec 32 := 2#32
  let v35 : BitVec 32 := Scalar.addi v16 c2_i32_40
  let c4_i32_100 : BitVec 32 := 4#32
  let v212 : BitVec 32 := Scalar.muli v35 c4_i32_100
  let c0_i32_45 : BitVec 32 := 0#32
  let c1_i32_47 : BitVec 32 := 1#32
  let arg16 : BitVec 32 := Scf.iv c0_i32_45 c1_i32_47 k0_t4
  let v213 : BitVec 32 := Scalar.addi v212 arg16
  let v214 : Index := Scalar.indexCast v213
  let c0_101 : Index := 0#32
  ![v214.toNat, 0]
def k0_off56 (k0_t4 : Fin k0_t4_loop.trips) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v218 : Index := Scalar.indexCast v53
  let c16 : Index := 16#32
  ![v218.toNat, 16]
def k0_off57 (k0_t4 : Fin k0_t4_loop.trips) (c1_i32_102 : BitVec 32) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v221 : BitVec 32 := Scalar.addi v53 c1_i32_102
  let v222 : Index := Scalar.indexCast v221
  let c16_103 : Index := 16#32
  ![v222.toNat, 16]
def k0_off58 (k0_t1 : Fin k0_t1_loop.trips) (k0_t4 : Fin k0_t4_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c2_i32_40 : BitVec 32 := 2#32
  let v35 : BitVec 32 := Scalar.addi v16 c2_i32_40
  let c4_i32_164 : BitVec 32 := 4#32
  let v376 : BitVec 32 := Scalar.muli v35 c4_i32_164
  let c0_i32_45 : BitVec 32 := 0#32
  let c1_i32_47 : BitVec 32 := 1#32
  let arg16 : BitVec 32 := Scf.iv c0_i32_45 c1_i32_47 k0_t4
  let v377 : BitVec 32 := Scalar.addi v376 arg16
  let v378 : Index := Scalar.indexCast v377
  let c16_165 : Index := 16#32
  ![v378.toNat, 16]
def k0_off59 (k0_t4 : Fin k0_t4_loop.trips) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v382 : Index := Scalar.indexCast v53
  let c32 : Index := 32#32
  ![v382.toNat, 32]
def k0_off60 (k0_t4 : Fin k0_t4_loop.trips) (c1_i32_166 : BitVec 32) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v385 : BitVec 32 := Scalar.addi v53 c1_i32_166
  let v386 : Index := Scalar.indexCast v385
  let c32_167 : Index := 32#32
  ![v386.toNat, 32]
def k0_off61 (k0_t1 : Fin k0_t1_loop.trips) (k0_t4 : Fin k0_t4_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c2_i32_40 : BitVec 32 := 2#32
  let v35 : BitVec 32 := Scalar.addi v16 c2_i32_40
  let c4_i32_228 : BitVec 32 := 4#32
  let v540 : BitVec 32 := Scalar.muli v35 c4_i32_228
  let c0_i32_45 : BitVec 32 := 0#32
  let c1_i32_47 : BitVec 32 := 1#32
  let arg16 : BitVec 32 := Scf.iv c0_i32_45 c1_i32_47 k0_t4
  let v541 : BitVec 32 := Scalar.addi v540 arg16
  let v542 : Index := Scalar.indexCast v541
  let c32_229 : Index := 32#32
  ![v542.toNat, 32]
def k0_off62 (k0_t4 : Fin k0_t4_loop.trips) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v546 : Index := Scalar.indexCast v53
  let c48 : Index := 48#32
  ![v546.toNat, 48]
def k0_off63 (k0_t4 : Fin k0_t4_loop.trips) (c1_i32_230 : BitVec 32) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v549 : BitVec 32 := Scalar.addi v53 c1_i32_230
  let v550 : Index := Scalar.indexCast v549
  let c48_231 : Index := 48#32
  ![v550.toNat, 48]
def k0_off64 (k0_t1 : Fin k0_t1_loop.trips) (k0_t4 : Fin k0_t4_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c2_i32_40 : BitVec 32 := 2#32
  let v35 : BitVec 32 := Scalar.addi v16 c2_i32_40
  let c4_i32_292 : BitVec 32 := 4#32
  let v704 : BitVec 32 := Scalar.muli v35 c4_i32_292
  let c0_i32_45 : BitVec 32 := 0#32
  let c1_i32_47 : BitVec 32 := 1#32
  let arg16 : BitVec 32 := Scf.iv c0_i32_45 c1_i32_47 k0_t4
  let v705 : BitVec 32 := Scalar.addi v704 arg16
  let v706 : Index := Scalar.indexCast v705
  let c48_293 : Index := 48#32
  ![v706.toNat, 48]
def k0_off65 (k0_t4 : Fin k0_t4_loop.trips) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v710 : Index := Scalar.indexCast v53
  let c64 : Index := 64#32
  ![v710.toNat, 64]
def k0_off66 (k0_t4 : Fin k0_t4_loop.trips) (c1_i32_294 : BitVec 32) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v713 : BitVec 32 := Scalar.addi v53 c1_i32_294
  let v714 : Index := Scalar.indexCast v713
  let c64_295 : Index := 64#32
  ![v714.toNat, 64]
def k0_off67 (k0_t1 : Fin k0_t1_loop.trips) (k0_t4 : Fin k0_t4_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c2_i32_40 : BitVec 32 := 2#32
  let v35 : BitVec 32 := Scalar.addi v16 c2_i32_40
  let c4_i32_356 : BitVec 32 := 4#32
  let v868 : BitVec 32 := Scalar.muli v35 c4_i32_356
  let c0_i32_45 : BitVec 32 := 0#32
  let c1_i32_47 : BitVec 32 := 1#32
  let arg16 : BitVec 32 := Scf.iv c0_i32_45 c1_i32_47 k0_t4
  let v869 : BitVec 32 := Scalar.addi v868 arg16
  let v870 : Index := Scalar.indexCast v869
  let c64_357 : Index := 64#32
  ![v870.toNat, 64]
def k0_off68 (k0_t4 : Fin k0_t4_loop.trips) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v874 : Index := Scalar.indexCast v53
  let c80 : Index := 80#32
  ![v874.toNat, 80]
def k0_off69 (k0_t4 : Fin k0_t4_loop.trips) (c1_i32_358 : BitVec 32) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v877 : BitVec 32 := Scalar.addi v53 c1_i32_358
  let v878 : Index := Scalar.indexCast v877
  let c80_359 : Index := 80#32
  ![v878.toNat, 80]
def k0_off70 (k0_t1 : Fin k0_t1_loop.trips) (k0_t4 : Fin k0_t4_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c2_i32_40 : BitVec 32 := 2#32
  let v35 : BitVec 32 := Scalar.addi v16 c2_i32_40
  let c4_i32_420 : BitVec 32 := 4#32
  let v1032 : BitVec 32 := Scalar.muli v35 c4_i32_420
  let c0_i32_45 : BitVec 32 := 0#32
  let c1_i32_47 : BitVec 32 := 1#32
  let arg16 : BitVec 32 := Scf.iv c0_i32_45 c1_i32_47 k0_t4
  let v1033 : BitVec 32 := Scalar.addi v1032 arg16
  let v1034 : Index := Scalar.indexCast v1033
  let c80_421 : Index := 80#32
  ![v1034.toNat, 80]
def k0_off71 (k0_t4 : Fin k0_t4_loop.trips) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v1038 : Index := Scalar.indexCast v53
  let c96 : Index := 96#32
  ![v1038.toNat, 96]
def k0_off72 (k0_t4 : Fin k0_t4_loop.trips) (c1_i32_422 : BitVec 32) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v1041 : BitVec 32 := Scalar.addi v53 c1_i32_422
  let v1042 : Index := Scalar.indexCast v1041
  let c96_423 : Index := 96#32
  ![v1042.toNat, 96]
def k0_off73 (k0_t1 : Fin k0_t1_loop.trips) (k0_t4 : Fin k0_t4_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c2_i32_40 : BitVec 32 := 2#32
  let v35 : BitVec 32 := Scalar.addi v16 c2_i32_40
  let c4_i32_484 : BitVec 32 := 4#32
  let v1196 : BitVec 32 := Scalar.muli v35 c4_i32_484
  let c0_i32_45 : BitVec 32 := 0#32
  let c1_i32_47 : BitVec 32 := 1#32
  let arg16 : BitVec 32 := Scf.iv c0_i32_45 c1_i32_47 k0_t4
  let v1197 : BitVec 32 := Scalar.addi v1196 arg16
  let v1198 : Index := Scalar.indexCast v1197
  let c96_485 : Index := 96#32
  ![v1198.toNat, 96]
def k0_off74 (k0_t4 : Fin k0_t4_loop.trips) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v1202 : Index := Scalar.indexCast v53
  let c112 : Index := 112#32
  ![v1202.toNat, 112]
def k0_off75 (k0_t4 : Fin k0_t4_loop.trips) (c1_i32_486 : BitVec 32) : Fin 2 → Nat :=
  let c0_i32_45 : BitVec 32 := 0#32
  let c1_i32_47 : BitVec 32 := 1#32
  let arg16 : BitVec 32 := Scf.iv c0_i32_45 c1_i32_47 k0_t4
  let c32_i32 : BitVec 32 := 32#32
  let v53 : BitVec 32 := Scalar.muli arg16 c32_i32
  let v1205 : BitVec 32 := Scalar.addi v53 c1_i32_486
  let v1206 : Index := Scalar.indexCast v1205
  let c112_487 : Index := 112#32
  ![v1206.toNat, 112]
def k0_off76 (k0_t1 : Fin k0_t1_loop.trips) (k0_t4 : Fin k0_t4_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c2_i32_40 : BitVec 32 := 2#32
  let v35 : BitVec 32 := Scalar.addi v16 c2_i32_40
  let c4_i32_548 : BitVec 32 := 4#32
  let v1360 : BitVec 32 := Scalar.muli v35 c4_i32_548
  let c0_i32_45 : BitVec 32 := 0#32
  let c1_i32_47 : BitVec 32 := 1#32
  let arg16 : BitVec 32 := Scf.iv c0_i32_45 c1_i32_47 k0_t4
  let v1361 : BitVec 32 := Scalar.addi v1360 arg16
  let v1362 : Index := Scalar.indexCast v1361
  let c112_549 : Index := 112#32
  ![v1362.toNat, 112]
def k0_cond3 (k0_t1 : Fin k0_t1_loop.trips) : BitVec 1 :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c2_i32_40 : BitVec 32 := 2#32
  let v35 : BitVec 32 := Scalar.addi v16 c2_i32_40
  let c4_i32_49 : BitVec 32 := 4#32
  let v40 : BitVec 32 := Scalar.addi v35 c4_i32_49
  let c80_i32_50 : BitVec 32 := 80#32
  let v41 : BitVec 1 := Scalar.cmpi .slt v40 c80_i32_50
  let v42 : BitVec 32 := Scalar.extui v41
  let c0_i32_51 : BitVec 32 := 0#32
  let v43 : BitVec 1 := Scalar.cmpi .ne v42 c0_i32_51
  v43

def k0_off77 (k0_t1 : Fin k0_t1_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c2_i32_40 : BitVec 32 := 2#32
  let v35 : BitVec 32 := Scalar.addi v16 c2_i32_40
  let c4_i32_64 : BitVec 32 := 4#32
  let v53 : BitVec 32 := Scalar.addi v35 c4_i32_64
  let c0_i32_65 : BitVec 32 := 0#32
  ![v53.toNat, 0]
@[reducible] def k0_t5_loop : Scf.Loop 32 :=
  let c0_i32_57 : BitVec 32 := 0#32
  let c4_i32_58 : BitVec 32 := 4#32
  let v48 : BitVec 32 := Scalar.addi c0_i32_57 c4_i32_58
  let c1_i32_59 : BitVec 32 := 1#32
  ⟨c0_i32_57, v48, c1_i32_59⟩
def k0_off78 (k0_t5 : Fin k0_t5_loop.trips) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v54 : Index := Scalar.indexCast v53
  let c0 : Index := 0#32
  ![v54.toNat, 0]
def k0_off79 (k0_t5 : Fin k0_t5_loop.trips) (c1_i32_64 : BitVec 32) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v57 : BitVec 32 := Scalar.addi v53 c1_i32_64
  let v58 : Index := Scalar.indexCast v57
  let c0_65 : Index := 0#32
  ![v58.toNat, 0]
def k0_off80 (k0_t1 : Fin k0_t1_loop.trips) (k0_t5 : Fin k0_t5_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c3_i32_52 : BitVec 32 := 3#32
  let v44 : BitVec 32 := Scalar.addi v16 c3_i32_52
  let c4_i32_100 : BitVec 32 := 4#32
  let v212 : BitVec 32 := Scalar.muli v44 c4_i32_100
  let c0_i32_57 : BitVec 32 := 0#32
  let c1_i32_59 : BitVec 32 := 1#32
  let arg16 : BitVec 32 := Scf.iv c0_i32_57 c1_i32_59 k0_t5
  let v213 : BitVec 32 := Scalar.addi v212 arg16
  let v214 : Index := Scalar.indexCast v213
  let c0_101 : Index := 0#32
  ![v214.toNat, 0]
def k0_off81 (k0_t5 : Fin k0_t5_loop.trips) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v218 : Index := Scalar.indexCast v53
  let c16 : Index := 16#32
  ![v218.toNat, 16]
def k0_off82 (k0_t5 : Fin k0_t5_loop.trips) (c1_i32_102 : BitVec 32) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v221 : BitVec 32 := Scalar.addi v53 c1_i32_102
  let v222 : Index := Scalar.indexCast v221
  let c16_103 : Index := 16#32
  ![v222.toNat, 16]
def k0_off83 (k0_t1 : Fin k0_t1_loop.trips) (k0_t5 : Fin k0_t5_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c3_i32_52 : BitVec 32 := 3#32
  let v44 : BitVec 32 := Scalar.addi v16 c3_i32_52
  let c4_i32_164 : BitVec 32 := 4#32
  let v376 : BitVec 32 := Scalar.muli v44 c4_i32_164
  let c0_i32_57 : BitVec 32 := 0#32
  let c1_i32_59 : BitVec 32 := 1#32
  let arg16 : BitVec 32 := Scf.iv c0_i32_57 c1_i32_59 k0_t5
  let v377 : BitVec 32 := Scalar.addi v376 arg16
  let v378 : Index := Scalar.indexCast v377
  let c16_165 : Index := 16#32
  ![v378.toNat, 16]
def k0_off84 (k0_t5 : Fin k0_t5_loop.trips) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v382 : Index := Scalar.indexCast v53
  let c32 : Index := 32#32
  ![v382.toNat, 32]
def k0_off85 (k0_t5 : Fin k0_t5_loop.trips) (c1_i32_166 : BitVec 32) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v385 : BitVec 32 := Scalar.addi v53 c1_i32_166
  let v386 : Index := Scalar.indexCast v385
  let c32_167 : Index := 32#32
  ![v386.toNat, 32]
def k0_off86 (k0_t1 : Fin k0_t1_loop.trips) (k0_t5 : Fin k0_t5_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c3_i32_52 : BitVec 32 := 3#32
  let v44 : BitVec 32 := Scalar.addi v16 c3_i32_52
  let c4_i32_228 : BitVec 32 := 4#32
  let v540 : BitVec 32 := Scalar.muli v44 c4_i32_228
  let c0_i32_57 : BitVec 32 := 0#32
  let c1_i32_59 : BitVec 32 := 1#32
  let arg16 : BitVec 32 := Scf.iv c0_i32_57 c1_i32_59 k0_t5
  let v541 : BitVec 32 := Scalar.addi v540 arg16
  let v542 : Index := Scalar.indexCast v541
  let c32_229 : Index := 32#32
  ![v542.toNat, 32]
def k0_off87 (k0_t5 : Fin k0_t5_loop.trips) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v546 : Index := Scalar.indexCast v53
  let c48 : Index := 48#32
  ![v546.toNat, 48]
def k0_off88 (k0_t5 : Fin k0_t5_loop.trips) (c1_i32_230 : BitVec 32) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v549 : BitVec 32 := Scalar.addi v53 c1_i32_230
  let v550 : Index := Scalar.indexCast v549
  let c48_231 : Index := 48#32
  ![v550.toNat, 48]
def k0_off89 (k0_t1 : Fin k0_t1_loop.trips) (k0_t5 : Fin k0_t5_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c3_i32_52 : BitVec 32 := 3#32
  let v44 : BitVec 32 := Scalar.addi v16 c3_i32_52
  let c4_i32_292 : BitVec 32 := 4#32
  let v704 : BitVec 32 := Scalar.muli v44 c4_i32_292
  let c0_i32_57 : BitVec 32 := 0#32
  let c1_i32_59 : BitVec 32 := 1#32
  let arg16 : BitVec 32 := Scf.iv c0_i32_57 c1_i32_59 k0_t5
  let v705 : BitVec 32 := Scalar.addi v704 arg16
  let v706 : Index := Scalar.indexCast v705
  let c48_293 : Index := 48#32
  ![v706.toNat, 48]
def k0_off90 (k0_t5 : Fin k0_t5_loop.trips) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v710 : Index := Scalar.indexCast v53
  let c64 : Index := 64#32
  ![v710.toNat, 64]
def k0_off91 (k0_t5 : Fin k0_t5_loop.trips) (c1_i32_294 : BitVec 32) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v713 : BitVec 32 := Scalar.addi v53 c1_i32_294
  let v714 : Index := Scalar.indexCast v713
  let c64_295 : Index := 64#32
  ![v714.toNat, 64]
def k0_off92 (k0_t1 : Fin k0_t1_loop.trips) (k0_t5 : Fin k0_t5_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c3_i32_52 : BitVec 32 := 3#32
  let v44 : BitVec 32 := Scalar.addi v16 c3_i32_52
  let c4_i32_356 : BitVec 32 := 4#32
  let v868 : BitVec 32 := Scalar.muli v44 c4_i32_356
  let c0_i32_57 : BitVec 32 := 0#32
  let c1_i32_59 : BitVec 32 := 1#32
  let arg16 : BitVec 32 := Scf.iv c0_i32_57 c1_i32_59 k0_t5
  let v869 : BitVec 32 := Scalar.addi v868 arg16
  let v870 : Index := Scalar.indexCast v869
  let c64_357 : Index := 64#32
  ![v870.toNat, 64]
def k0_off93 (k0_t5 : Fin k0_t5_loop.trips) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v874 : Index := Scalar.indexCast v53
  let c80 : Index := 80#32
  ![v874.toNat, 80]
def k0_off94 (k0_t5 : Fin k0_t5_loop.trips) (c1_i32_358 : BitVec 32) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v877 : BitVec 32 := Scalar.addi v53 c1_i32_358
  let v878 : Index := Scalar.indexCast v877
  let c80_359 : Index := 80#32
  ![v878.toNat, 80]
def k0_off95 (k0_t1 : Fin k0_t1_loop.trips) (k0_t5 : Fin k0_t5_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c3_i32_52 : BitVec 32 := 3#32
  let v44 : BitVec 32 := Scalar.addi v16 c3_i32_52
  let c4_i32_420 : BitVec 32 := 4#32
  let v1032 : BitVec 32 := Scalar.muli v44 c4_i32_420
  let c0_i32_57 : BitVec 32 := 0#32
  let c1_i32_59 : BitVec 32 := 1#32
  let arg16 : BitVec 32 := Scf.iv c0_i32_57 c1_i32_59 k0_t5
  let v1033 : BitVec 32 := Scalar.addi v1032 arg16
  let v1034 : Index := Scalar.indexCast v1033
  let c80_421 : Index := 80#32
  ![v1034.toNat, 80]
def k0_off96 (k0_t5 : Fin k0_t5_loop.trips) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v1038 : Index := Scalar.indexCast v53
  let c96 : Index := 96#32
  ![v1038.toNat, 96]
def k0_off97 (k0_t5 : Fin k0_t5_loop.trips) (c1_i32_422 : BitVec 32) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v1041 : BitVec 32 := Scalar.addi v53 c1_i32_422
  let v1042 : Index := Scalar.indexCast v1041
  let c96_423 : Index := 96#32
  ![v1042.toNat, 96]
def k0_off98 (k0_t1 : Fin k0_t1_loop.trips) (k0_t5 : Fin k0_t5_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c3_i32_52 : BitVec 32 := 3#32
  let v44 : BitVec 32 := Scalar.addi v16 c3_i32_52
  let c4_i32_484 : BitVec 32 := 4#32
  let v1196 : BitVec 32 := Scalar.muli v44 c4_i32_484
  let c0_i32_57 : BitVec 32 := 0#32
  let c1_i32_59 : BitVec 32 := 1#32
  let arg16 : BitVec 32 := Scf.iv c0_i32_57 c1_i32_59 k0_t5
  let v1197 : BitVec 32 := Scalar.addi v1196 arg16
  let v1198 : Index := Scalar.indexCast v1197
  let c96_485 : Index := 96#32
  ![v1198.toNat, 96]
def k0_off99 (k0_t5 : Fin k0_t5_loop.trips) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v1202 : Index := Scalar.indexCast v53
  let c112 : Index := 112#32
  ![v1202.toNat, 112]
def k0_off100 (k0_t5 : Fin k0_t5_loop.trips) (c1_i32_486 : BitVec 32) : Fin 2 → Nat :=
  let c0_i32_57 : BitVec 32 := 0#32
  let c1_i32_59 : BitVec 32 := 1#32
  let arg16 : BitVec 32 := Scf.iv c0_i32_57 c1_i32_59 k0_t5
  let c32_i32 : BitVec 32 := 32#32
  let v53 : BitVec 32 := Scalar.muli arg16 c32_i32
  let v1205 : BitVec 32 := Scalar.addi v53 c1_i32_486
  let v1206 : Index := Scalar.indexCast v1205
  let c112_487 : Index := 112#32
  ![v1206.toNat, 112]
def k0_off101 (k0_t1 : Fin k0_t1_loop.trips) (k0_t5 : Fin k0_t5_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c3_i32_52 : BitVec 32 := 3#32
  let v44 : BitVec 32 := Scalar.addi v16 c3_i32_52
  let c4_i32_548 : BitVec 32 := 4#32
  let v1360 : BitVec 32 := Scalar.muli v44 c4_i32_548
  let c0_i32_57 : BitVec 32 := 0#32
  let c1_i32_59 : BitVec 32 := 1#32
  let arg16 : BitVec 32 := Scf.iv c0_i32_57 c1_i32_59 k0_t5
  let v1361 : BitVec 32 := Scalar.addi v1360 arg16
  let v1362 : Index := Scalar.indexCast v1361
  let c112_549 : Index := 112#32
  ![v1362.toNat, 112]
def k0_cond4 (k0_t1 : Fin k0_t1_loop.trips) : BitVec 1 :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c3_i32_52 : BitVec 32 := 3#32
  let v44 : BitVec 32 := Scalar.addi v16 c3_i32_52
  let c4_i32_61 : BitVec 32 := 4#32
  let v49 : BitVec 32 := Scalar.addi v44 c4_i32_61
  let c80_i32_62 : BitVec 32 := 80#32
  let v50 : BitVec 1 := Scalar.cmpi .slt v49 c80_i32_62
  let v51 : BitVec 32 := Scalar.extui v50
  let c0_i32_63 : BitVec 32 := 0#32
  let v52 : BitVec 1 := Scalar.cmpi .ne v51 c0_i32_63
  v52

def k0_off102 (k0_t1 : Fin k0_t1_loop.trips) : Fin 2 → Nat :=
  let c4_i32 : BitVec 32 := 4#32
  let c0_i32_14 : BitVec 32 := 0#32
  let c1_i32_15 : BitVec 32 := 1#32
  let arg15 : BitVec 32 := Scf.iv c0_i32_14 c1_i32_15 k0_t1
  let v16 : BitVec 32 := Scalar.muli c4_i32 arg15
  let c3_i32_52 : BitVec 32 := 3#32
  let v44 : BitVec 32 := Scalar.addi v16 c3_i32_52
  let c4_i32_64 : BitVec 32 := 4#32
  let v53 : BitVec 32 := Scalar.addi v44 c4_i32_64
  let c0_i32_65 : BitVec 32 := 0#32
  ![v53.toNat, 0]
def k0_off103 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v15 : BitVec 32 := Scalar.muli v1 c320_i32
  let c0_i32_17_r1 : BitVec 32 := 0#32
  ![v15.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  pads_S10000x32_S10240x32_02400_000 : S10000x32.Pads (![0, 0] : Fin 2 → Nat) ![240, 0] ![0, 0] S10240x32
  h_S_ : 0 < S_.numel
  shapeCasts_S10240x32_S32x80x128 : S10240x32.ShapeCasts S32x80x128
  squeezes_S1x80x128_S80x128 : S1x80x128.Squeezes S80x128
  inb_S80x128_S1x128_0_0 : ∀ a, (![0, 0] : Fin 2 → Nat) a + S1x128.size a ≤ S80x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S80x128_S1x128_1_0 : ∀ a, (![1, 0] : Fin 2 → Nat) a + S1x128.size a ≤ S80x128.size a
  inb_S80x128_S1x128_2_0 : ∀ a, (![2, 0] : Fin 2 → Nat) a + S1x128.size a ≤ S80x128.size a
  inb_S80x128_S1x128_3_0 : ∀ a, (![3, 0] : Fin 2 → Nat) a + S1x128.size a ≤ S80x128.size a
  h_S1x16 : 0 < S1x16.numel
  shapeCasts_S1x16_S16 : S1x16.ShapeCasts S16
  shapeCasts_S16_S1x16 : S16.ShapeCasts S1x16
  slices_S10240x128_S10000x128_0_0 : S10240x128.Slices ![0, 0] S10000x128
  hcc0_scratch6 : 0 + S_.numel ≤ 6
  hcc0_scratch7 : 1 + S_.numel ≤ 6
  hcc0_scratch8 : 2 + S_.numel ≤ 6
  hcc0_scratch9 : 3 + S_.numel ≤ 6
  hcc0_scoped0 : 4 + S_.numel ≤ 6
  hcc0_scoped1 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x80x128.size a ≤ S32x80x128.size a
  k0_t1_ok : k0_t1_loop.OK
  k0_off2_inb : ∀ k0_t1 : Fin k0_t1_loop.trips, ∀ (r : Fin 4), ∀ a, (k0_off2 k0_t1 (BitVec.ofNat 32 r.val)) a + S1x128.size a ≤ S80x128.size a
  k0_t2_ok : k0_t2_loop.OK
  k0_off3_inb : ∀ k0_t2 : Fin k0_t2_loop.trips, ∀ a, (k0_off3 k0_t2) a + S1x16.size a ≤ S128x128.size a
  k0_off4_inb : ∀ k0_t2 : Fin k0_t2_loop.trips, ∀ (r : Fin 31), ∀ a, (k0_off4 k0_t2 (BitVec.ofNat 32 (1 + r.val))) a + S1x16.size a ≤ S128x128.size a
  k0_off5_inb : ∀ (k0_t1 : Fin k0_t1_loop.trips) (k0_t2 : Fin k0_t2_loop.trips), ∀ a, (k0_off5 k0_t1 k0_t2) a + S1x16.size a ≤ S320x128.size a
  k0_off6_inb : ∀ k0_t2 : Fin k0_t2_loop.trips, ∀ a, (k0_off6 k0_t2) a + S1x16.size a ≤ S128x128.size a
  k0_off7_inb : ∀ k0_t2 : Fin k0_t2_loop.trips, ∀ (r : Fin 31), ∀ a, (k0_off7 k0_t2 (BitVec.ofNat 32 (1 + r.val))) a + S1x16.size a ≤ S128x128.size a
  k0_off8_inb : ∀ (k0_t1 : Fin k0_t1_loop.trips) (k0_t2 : Fin k0_t2_loop.trips), ∀ a, (k0_off8 k0_t1 k0_t2) a + S1x16.size a ≤ S320x128.size a
  k0_off9_inb : ∀ k0_t2 : Fin k0_t2_loop.trips, ∀ a, (k0_off9 k0_t2) a + S1x16.size a ≤ S128x128.size a
  k0_off10_inb : ∀ k0_t2 : Fin k0_t2_loop.trips, ∀ (r : Fin 31), ∀ a, (k0_off10 k0_t2 (BitVec.ofNat 32 (1 + r.val))) a + S1x16.size a ≤ S128x128.size a
  k0_off11_inb : ∀ (k0_t1 : Fin k0_t1_loop.trips) (k0_t2 : Fin k0_t2_loop.trips), ∀ a, (k0_off11 k0_t1 k0_t2) a + S1x16.size a ≤ S320x128.size a
  k0_off12_inb : ∀ k0_t2 : Fin k0_t2_loop.trips, ∀ a, (k0_off12 k0_t2) a + S1x16.size a ≤ S128x128.size a
  k0_off13_inb : ∀ k0_t2 : Fin k0_t2_loop.trips, ∀ (r : Fin 31), ∀ a, (k0_off13 k0_t2 (BitVec.ofNat 32 (1 + r.val))) a + S1x16.size a ≤ S128x128.size a
  k0_off14_inb : ∀ (k0_t1 : Fin k0_t1_loop.trips) (k0_t2 : Fin k0_t2_loop.trips), ∀ a, (k0_off14 k0_t1 k0_t2) a + S1x16.size a ≤ S320x128.size a
  k0_off15_inb : ∀ k0_t2 : Fin k0_t2_loop.trips, ∀ a, (k0_off15 k0_t2) a + S1x16.size a ≤ S128x128.size a
  k0_off16_inb : ∀ k0_t2 : Fin k0_t2_loop.trips, ∀ (r : Fin 31), ∀ a, (k0_off16 k0_t2 (BitVec.ofNat 32 (1 + r.val))) a + S1x16.size a ≤ S128x128.size a
  k0_off17_inb : ∀ (k0_t1 : Fin k0_t1_loop.trips) (k0_t2 : Fin k0_t2_loop.trips), ∀ a, (k0_off17 k0_t1 k0_t2) a + S1x16.size a ≤ S320x128.size a
  k0_off18_inb : ∀ k0_t2 : Fin k0_t2_loop.trips, ∀ a, (k0_off18 k0_t2) a + S1x16.size a ≤ S128x128.size a
  k0_off19_inb : ∀ k0_t2 : Fin k0_t2_loop.trips, ∀ (r : Fin 31), ∀ a, (k0_off19 k0_t2 (BitVec.ofNat 32 (1 + r.val))) a + S1x16.size a ≤ S128x128.size a
  k0_off20_inb : ∀ (k0_t1 : Fin k0_t1_loop.trips) (k0_t2 : Fin k0_t2_loop.trips), ∀ a, (k0_off20 k0_t1 k0_t2) a + S1x16.size a ≤ S320x128.size a
  k0_off21_inb : ∀ k0_t2 : Fin k0_t2_loop.trips, ∀ a, (k0_off21 k0_t2) a + S1x16.size a ≤ S128x128.size a
  k0_off22_inb : ∀ k0_t2 : Fin k0_t2_loop.trips, ∀ (r : Fin 31), ∀ a, (k0_off22 k0_t2 (BitVec.ofNat 32 (1 + r.val))) a + S1x16.size a ≤ S128x128.size a
  k0_off23_inb : ∀ (k0_t1 : Fin k0_t1_loop.trips) (k0_t2 : Fin k0_t2_loop.trips), ∀ a, (k0_off23 k0_t1 k0_t2) a + S1x16.size a ≤ S320x128.size a
  k0_off24_inb : ∀ k0_t2 : Fin k0_t2_loop.trips, ∀ a, (k0_off24 k0_t2) a + S1x16.size a ≤ S128x128.size a
  k0_off25_inb : ∀ k0_t2 : Fin k0_t2_loop.trips, ∀ (r : Fin 31), ∀ a, (k0_off25 k0_t2 (BitVec.ofNat 32 (1 + r.val))) a + S1x16.size a ≤ S128x128.size a
  k0_off26_inb : ∀ (k0_t1 : Fin k0_t1_loop.trips) (k0_t2 : Fin k0_t2_loop.trips), ∀ a, (k0_off26 k0_t1 k0_t2) a + S1x16.size a ≤ S320x128.size a
  k0_off27_inb : ∀ k0_t1 : Fin k0_t1_loop.trips, ∀ (k0_h1 : k0_cond1 k0_t1 = 1#1), ∀ a, (k0_off27 k0_t1) a + S1x128.size a ≤ S80x128.size a
  k0_t3_ok : k0_t3_loop.OK
  k0_off28_inb : ∀ k0_t3 : Fin k0_t3_loop.trips, ∀ a, (k0_off28 k0_t3) a + S1x16.size a ≤ S128x128.size a
  k0_off29_inb : ∀ k0_t3 : Fin k0_t3_loop.trips, ∀ (r : Fin 31), ∀ a, (k0_off29 k0_t3 (BitVec.ofNat 32 (1 + r.val))) a + S1x16.size a ≤ S128x128.size a
  k0_off30_inb : ∀ (k0_t1 : Fin k0_t1_loop.trips) (k0_t3 : Fin k0_t3_loop.trips), ∀ a, (k0_off30 k0_t1 k0_t3) a + S1x16.size a ≤ S320x128.size a
  k0_off31_inb : ∀ k0_t3 : Fin k0_t3_loop.trips, ∀ a, (k0_off31 k0_t3) a + S1x16.size a ≤ S128x128.size a
  k0_off32_inb : ∀ k0_t3 : Fin k0_t3_loop.trips, ∀ (r : Fin 31), ∀ a, (k0_off32 k0_t3 (BitVec.ofNat 32 (1 + r.val))) a + S1x16.size a ≤ S128x128.size a
  k0_off33_inb : ∀ (k0_t1 : Fin k0_t1_loop.trips) (k0_t3 : Fin k0_t3_loop.trips), ∀ a, (k0_off33 k0_t1 k0_t3) a + S1x16.size a ≤ S320x128.size a
  k0_off34_inb : ∀ k0_t3 : Fin k0_t3_loop.trips, ∀ a, (k0_off34 k0_t3) a + S1x16.size a ≤ S128x128.size a
  k0_off35_inb : ∀ k0_t3 : Fin k0_t3_loop.trips, ∀ (r : Fin 31), ∀ a, (k0_off35 k0_t3 (BitVec.ofNat 32 (1 + r.val))) a + S1x16.size a ≤ S128x128.size a
  k0_off36_inb : ∀ (k0_t1 : Fin k0_t1_loop.trips) (k0_t3 : Fin k0_t3_loop.trips), ∀ a, (k0_off36 k0_t1 k0_t3) a + S1x16.size a ≤ S320x128.size a
  k0_off37_inb : ∀ k0_t3 : Fin k0_t3_loop.trips, ∀ a, (k0_off37 k0_t3) a + S1x16.size a ≤ S128x128.size a
  k0_off38_inb : ∀ k0_t3 : Fin k0_t3_loop.trips, ∀ (r : Fin 31), ∀ a, (k0_off38 k0_t3 (BitVec.ofNat 32 (1 + r.val))) a + S1x16.size a ≤ S128x128.size a
  k0_off39_inb : ∀ (k0_t1 : Fin k0_t1_loop.trips) (k0_t3 : Fin k0_t3_loop.trips), ∀ a, (k0_off39 k0_t1 k0_t3) a + S1x16.size a ≤ S320x128.size a
  k0_off40_inb : ∀ k0_t3 : Fin k0_t3_loop.trips, ∀ a, (k0_off40 k0_t3) a + S1x16.size a ≤ S128x128.size a
  k0_off41_inb : ∀ k0_t3 : Fin k0_t3_loop.trips, ∀ (r : Fin 31), ∀ a, (k0_off41 k0_t3 (BitVec.ofNat 32 (1 + r.val))) a + S1x16.size a ≤ S128x128.size a
  k0_off42_inb : ∀ (k0_t1 : Fin k0_t1_loop.trips) (k0_t3 : Fin k0_t3_loop.trips), ∀ a, (k0_off42 k0_t1 k0_t3) a + S1x16.size a ≤ S320x128.size a
  k0_off43_inb : ∀ k0_t3 : Fin k0_t3_loop.trips, ∀ a, (k0_off43 k0_t3) a + S1x16.size a ≤ S128x128.size a
  k0_off44_inb : ∀ k0_t3 : Fin k0_t3_loop.trips, ∀ (r : Fin 31), ∀ a, (k0_off44 k0_t3 (BitVec.ofNat 32 (1 + r.val))) a + S1x16.size a ≤ S128x128.size a
  k0_off45_inb : ∀ (k0_t1 : Fin k0_t1_loop.trips) (k0_t3 : Fin k0_t3_loop.trips), ∀ a, (k0_off45 k0_t1 k0_t3) a + S1x16.size a ≤ S320x128.size a
  k0_off46_inb : ∀ k0_t3 : Fin k0_t3_loop.trips, ∀ a, (k0_off46 k0_t3) a + S1x16.size a ≤ S128x128.size a
  k0_off47_inb : ∀ k0_t3 : Fin k0_t3_loop.trips, ∀ (r : Fin 31), ∀ a, (k0_off47 k0_t3 (BitVec.ofNat 32 (1 + r.val))) a + S1x16.size a ≤ S128x128.size a
  k0_off48_inb : ∀ (k0_t1 : Fin k0_t1_loop.trips) (k0_t3 : Fin k0_t3_loop.trips), ∀ a, (k0_off48 k0_t1 k0_t3) a + S1x16.size a ≤ S320x128.size a
  k0_off49_inb : ∀ k0_t3 : Fin k0_t3_loop.trips, ∀ a, (k0_off49 k0_t3) a + S1x16.size a ≤ S128x128.size a
  k0_off50_inb : ∀ k0_t3 : Fin k0_t3_loop.trips, ∀ (r : Fin 31), ∀ a, (k0_off50 k0_t3 (BitVec.ofNat 32 (1 + r.val))) a + S1x16.size a ≤ S128x128.size a
  k0_off51_inb : ∀ (k0_t1 : Fin k0_t1_loop.trips) (k0_t3 : Fin k0_t3_loop.trips), ∀ a, (k0_off51 k0_t1 k0_t3) a + S1x16.size a ≤ S320x128.size a
  k0_off52_inb : ∀ k0_t1 : Fin k0_t1_loop.trips, ∀ (k0_h2 : k0_cond2 k0_t1 = 1#1), ∀ a, (k0_off52 k0_t1) a + S1x128.size a ≤ S80x128.size a
  k0_t4_ok : k0_t4_loop.OK
  k0_off53_inb : ∀ k0_t4 : Fin k0_t4_loop.trips, ∀ a, (k0_off53 k0_t4) a + S1x16.size a ≤ S128x128.size a
  k0_off54_inb : ∀ k0_t4 : Fin k0_t4_loop.trips, ∀ (r : Fin 31), ∀ a, (k0_off54 k0_t4 (BitVec.ofNat 32 (1 + r.val))) a + S1x16.size a ≤ S128x128.size a
  k0_off55_inb : ∀ (k0_t1 : Fin k0_t1_loop.trips) (k0_t4 : Fin k0_t4_loop.trips), ∀ a, (k0_off55 k0_t1 k0_t4) a + S1x16.size a ≤ S320x128.size a
  k0_off56_inb : ∀ k0_t4 : Fin k0_t4_loop.trips, ∀ a, (k0_off56 k0_t4) a + S1x16.size a ≤ S128x128.size a
  k0_off57_inb : ∀ k0_t4 : Fin k0_t4_loop.trips, ∀ (r : Fin 31), ∀ a, (k0_off57 k0_t4 (BitVec.ofNat 32 (1 + r.val))) a + S1x16.size a ≤ S128x128.size a
  k0_off58_inb : ∀ (k0_t1 : Fin k0_t1_loop.trips) (k0_t4 : Fin k0_t4_loop.trips), ∀ a, (k0_off58 k0_t1 k0_t4) a + S1x16.size a ≤ S320x128.size a
  k0_off59_inb : ∀ k0_t4 : Fin k0_t4_loop.trips, ∀ a, (k0_off59 k0_t4) a + S1x16.size a ≤ S128x128.size a
  k0_off60_inb : ∀ k0_t4 : Fin k0_t4_loop.trips, ∀ (r : Fin 31), ∀ a, (k0_off60 k0_t4 (BitVec.ofNat 32 (1 + r.val))) a + S1x16.size a ≤ S128x128.size a
  k0_off61_inb : ∀ (k0_t1 : Fin k0_t1_loop.trips) (k0_t4 : Fin k0_t4_loop.trips), ∀ a, (k0_off61 k0_t1 k0_t4) a + S1x16.size a ≤ S320x128.size a
  k0_off62_inb : ∀ k0_t4 : Fin k0_t4_loop.trips, ∀ a, (k0_off62 k0_t4) a + S1x16.size a ≤ S128x128.size a
  k0_off63_inb : ∀ k0_t4 : Fin k0_t4_loop.trips, ∀ (r : Fin 31), ∀ a, (k0_off63 k0_t4 (BitVec.ofNat 32 (1 + r.val))) a + S1x16.size a ≤ S128x128.size a
  k0_off64_inb : ∀ (k0_t1 : Fin k0_t1_loop.trips) (k0_t4 : Fin k0_t4_loop.trips), ∀ a, (k0_off64 k0_t1 k0_t4) a + S1x16.size a ≤ S320x128.size a
  k0_off65_inb : ∀ k0_t4 : Fin k0_t4_loop.trips, ∀ a, (k0_off65 k0_t4) a + S1x16.size a ≤ S128x128.size a
  k0_off66_inb : ∀ k0_t4 : Fin k0_t4_loop.trips, ∀ (r : Fin 31), ∀ a, (k0_off66 k0_t4 (BitVec.ofNat 32 (1 + r.val))) a + S1x16.size a ≤ S128x128.size a
  k0_off67_inb : ∀ (k0_t1 : Fin k0_t1_loop.trips) (k0_t4 : Fin k0_t4_loop.trips), ∀ a, (k0_off67 k0_t1 k0_t4) a + S1x16.size a ≤ S320x128.size a
  k0_off68_inb : ∀ k0_t4 : Fin k0_t4_loop.trips, ∀ a, (k0_off68 k0_t4) a + S1x16.size a ≤ S128x128.size a
  k0_off69_inb : ∀ k0_t4 : Fin k0_t4_loop.trips, ∀ (r : Fin 31), ∀ a, (k0_off69 k0_t4 (BitVec.ofNat 32 (1 + r.val))) a + S1x16.size a ≤ S128x128.size a
  k0_off70_inb : ∀ (k0_t1 : Fin k0_t1_loop.trips) (k0_t4 : Fin k0_t4_loop.trips), ∀ a, (k0_off70 k0_t1 k0_t4) a + S1x16.size a ≤ S320x128.size a
  k0_off71_inb : ∀ k0_t4 : Fin k0_t4_loop.trips, ∀ a, (k0_off71 k0_t4) a + S1x16.size a ≤ S128x128.size a
  k0_off72_inb : ∀ k0_t4 : Fin k0_t4_loop.trips, ∀ (r : Fin 31), ∀ a, (k0_off72 k0_t4 (BitVec.ofNat 32 (1 + r.val))) a + S1x16.size a ≤ S128x128.size a
  k0_off73_inb : ∀ (k0_t1 : Fin k0_t1_loop.trips) (k0_t4 : Fin k0_t4_loop.trips), ∀ a, (k0_off73 k0_t1 k0_t4) a + S1x16.size a ≤ S320x128.size a
  k0_off74_inb : ∀ k0_t4 : Fin k0_t4_loop.trips, ∀ a, (k0_off74 k0_t4) a + S1x16.size a ≤ S128x128.size a
  k0_off75_inb : ∀ k0_t4 : Fin k0_t4_loop.trips, ∀ (r : Fin 31), ∀ a, (k0_off75 k0_t4 (BitVec.ofNat 32 (1 + r.val))) a + S1x16.size a ≤ S128x128.size a
  k0_off76_inb : ∀ (k0_t1 : Fin k0_t1_loop.trips) (k0_t4 : Fin k0_t4_loop.trips), ∀ a, (k0_off76 k0_t1 k0_t4) a + S1x16.size a ≤ S320x128.size a
  k0_off77_inb : ∀ k0_t1 : Fin k0_t1_loop.trips, ∀ (k0_h3 : k0_cond3 k0_t1 = 1#1), ∀ a, (k0_off77 k0_t1) a + S1x128.size a ≤ S80x128.size a
  k0_t5_ok : k0_t5_loop.OK
  k0_off78_inb : ∀ k0_t5 : Fin k0_t5_loop.trips, ∀ a, (k0_off78 k0_t5) a + S1x16.size a ≤ S128x128.size a
  k0_off79_inb : ∀ k0_t5 : Fin k0_t5_loop.trips, ∀ (r : Fin 31), ∀ a, (k0_off79 k0_t5 (BitVec.ofNat 32 (1 + r.val))) a + S1x16.size a ≤ S128x128.size a
  k0_off80_inb : ∀ (k0_t1 : Fin k0_t1_loop.trips) (k0_t5 : Fin k0_t5_loop.trips), ∀ a, (k0_off80 k0_t1 k0_t5) a + S1x16.size a ≤ S320x128.size a
  k0_off81_inb : ∀ k0_t5 : Fin k0_t5_loop.trips, ∀ a, (k0_off81 k0_t5) a + S1x16.size a ≤ S128x128.size a
  k0_off82_inb : ∀ k0_t5 : Fin k0_t5_loop.trips, ∀ (r : Fin 31), ∀ a, (k0_off82 k0_t5 (BitVec.ofNat 32 (1 + r.val))) a + S1x16.size a ≤ S128x128.size a
  k0_off83_inb : ∀ (k0_t1 : Fin k0_t1_loop.trips) (k0_t5 : Fin k0_t5_loop.trips), ∀ a, (k0_off83 k0_t1 k0_t5) a + S1x16.size a ≤ S320x128.size a
  k0_off84_inb : ∀ k0_t5 : Fin k0_t5_loop.trips, ∀ a, (k0_off84 k0_t5) a + S1x16.size a ≤ S128x128.size a
  k0_off85_inb : ∀ k0_t5 : Fin k0_t5_loop.trips, ∀ (r : Fin 31), ∀ a, (k0_off85 k0_t5 (BitVec.ofNat 32 (1 + r.val))) a + S1x16.size a ≤ S128x128.size a
  k0_off86_inb : ∀ (k0_t1 : Fin k0_t1_loop.trips) (k0_t5 : Fin k0_t5_loop.trips), ∀ a, (k0_off86 k0_t1 k0_t5) a + S1x16.size a ≤ S320x128.size a
  k0_off87_inb : ∀ k0_t5 : Fin k0_t5_loop.trips, ∀ a, (k0_off87 k0_t5) a + S1x16.size a ≤ S128x128.size a
  k0_off88_inb : ∀ k0_t5 : Fin k0_t5_loop.trips, ∀ (r : Fin 31), ∀ a, (k0_off88 k0_t5 (BitVec.ofNat 32 (1 + r.val))) a + S1x16.size a ≤ S128x128.size a
  k0_off89_inb : ∀ (k0_t1 : Fin k0_t1_loop.trips) (k0_t5 : Fin k0_t5_loop.trips), ∀ a, (k0_off89 k0_t1 k0_t5) a + S1x16.size a ≤ S320x128.size a
  k0_off90_inb : ∀ k0_t5 : Fin k0_t5_loop.trips, ∀ a, (k0_off90 k0_t5) a + S1x16.size a ≤ S128x128.size a
  k0_off91_inb : ∀ k0_t5 : Fin k0_t5_loop.trips, ∀ (r : Fin 31), ∀ a, (k0_off91 k0_t5 (BitVec.ofNat 32 (1 + r.val))) a + S1x16.size a ≤ S128x128.size a
  k0_off92_inb : ∀ (k0_t1 : Fin k0_t1_loop.trips) (k0_t5 : Fin k0_t5_loop.trips), ∀ a, (k0_off92 k0_t1 k0_t5) a + S1x16.size a ≤ S320x128.size a
  k0_off93_inb : ∀ k0_t5 : Fin k0_t5_loop.trips, ∀ a, (k0_off93 k0_t5) a + S1x16.size a ≤ S128x128.size a
  k0_off94_inb : ∀ k0_t5 : Fin k0_t5_loop.trips, ∀ (r : Fin 31), ∀ a, (k0_off94 k0_t5 (BitVec.ofNat 32 (1 + r.val))) a + S1x16.size a ≤ S128x128.size a
  k0_off95_inb : ∀ (k0_t1 : Fin k0_t1_loop.trips) (k0_t5 : Fin k0_t5_loop.trips), ∀ a, (k0_off95 k0_t1 k0_t5) a + S1x16.size a ≤ S320x128.size a
  k0_off96_inb : ∀ k0_t5 : Fin k0_t5_loop.trips, ∀ a, (k0_off96 k0_t5) a + S1x16.size a ≤ S128x128.size a
  k0_off97_inb : ∀ k0_t5 : Fin k0_t5_loop.trips, ∀ (r : Fin 31), ∀ a, (k0_off97 k0_t5 (BitVec.ofNat 32 (1 + r.val))) a + S1x16.size a ≤ S128x128.size a
  k0_off98_inb : ∀ (k0_t1 : Fin k0_t1_loop.trips) (k0_t5 : Fin k0_t5_loop.trips), ∀ a, (k0_off98 k0_t1 k0_t5) a + S1x16.size a ≤ S320x128.size a
  k0_off99_inb : ∀ k0_t5 : Fin k0_t5_loop.trips, ∀ a, (k0_off99 k0_t5) a + S1x16.size a ≤ S128x128.size a
  k0_off100_inb : ∀ k0_t5 : Fin k0_t5_loop.trips, ∀ (r : Fin 31), ∀ a, (k0_off100 k0_t5 (BitVec.ofNat 32 (1 + r.val))) a + S1x16.size a ≤ S128x128.size a
  k0_off101_inb : ∀ (k0_t1 : Fin k0_t1_loop.trips) (k0_t5 : Fin k0_t5_loop.trips), ∀ a, (k0_off101 k0_t1 k0_t5) a + S1x16.size a ≤ S320x128.size a
  k0_off102_inb : ∀ k0_t1 : Fin k0_t1_loop.trips, ∀ (k0_h4 : k0_cond4 k0_t1 = 1#1), ∀ a, (k0_off102 k0_t1) a + S1x128.size a ≤ S80x128.size a
  k0_off103_inb : ∀ i : grid0.Coords, ∀ a, (k0_off103 i) a + S320x128.size a ≤ S10240x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0
abbrev cc0_scoped1 : DmaSems sig S_ := SemArray.consecutive 5 S_ hcc0_scoped1

class Facts : Prop extends Facts₀ where

variable [Facts]
-- ==== ReferenceIdeal.lean ====
abbrev S100000x128 : Shape := ⟨2, ![100000, 128]⟩
abbrev S10000 : Shape := ⟨1, ![10000]⟩
abbrev S10000x32 : Shape := ⟨2, ![10000, 32]⟩
abbrev S_ : Shape := ⟨0, ![]⟩
abbrev S10000x32x1 : Shape := ⟨3, ![10000, 32, 1]⟩
abbrev S1 : Shape := ⟨1, ![1]⟩
abbrev S1x1x1 : Shape := ⟨3, ![1, 1, 1]⟩
abbrev S10000x32x128 : Shape := ⟨3, ![10000, 32, 128]⟩
abbrev S10000x128 : Shape := ⟨2, ![10000, 128]⟩

abbrev nBuf : Space → Nat
  | .hbm => 28
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S10000, .i32⟩
  | .hbm, ⟨2, _⟩ => ⟨S10000x32, .i32⟩
  | .hbm, ⟨3, _⟩ => ⟨S_, .i32⟩
  | .hbm, ⟨4, _⟩ => ⟨S10000x32, .i32⟩
  | .hbm, ⟨5, _⟩ => ⟨S10000x32, .i1⟩
  | .hbm, ⟨6, _⟩ => ⟨S_, .i32⟩
  | .hbm, ⟨7, _⟩ => ⟨S10000x32, .i32⟩
  | .hbm, ⟨8, _⟩ => ⟨S10000x32, .i32⟩
  | .hbm, ⟨9, _⟩ => ⟨S10000x32, .i32⟩
  | .hbm, ⟨10, _⟩ => ⟨S10000x32x1, .i32⟩
  | .hbm, ⟨11, _⟩ => ⟨S1, .i32⟩
  | .hbm, ⟨12, _⟩ => ⟨S_, .i32⟩
  | .hbm, ⟨13, _⟩ => ⟨S10000x32x1, .i32⟩
  | .hbm, ⟨14, _⟩ => ⟨S10000x32x1, .i1⟩
  | .hbm, ⟨15, _⟩ => ⟨S1x1x1, .i32⟩
  | .hbm, ⟨16, _⟩ => ⟨S10000x32x1, .i32⟩
  | .hbm, ⟨17, _⟩ => ⟨S10000x32x1, .i1⟩
  | .hbm, ⟨18, _⟩ => ⟨S10000x32x1, .i1⟩
  | .hbm, ⟨19, _⟩ => ⟨S_, .i1⟩
  | .hbm, ⟨20, _⟩ => ⟨S10000x32, .i1⟩
  | .hbm, ⟨21, _⟩ => ⟨S10000x32x128, .f32⟩
  | .hbm, ⟨22, _⟩ => ⟨S10000x32x128, .i1⟩
  | .hbm, ⟨23, _⟩ => ⟨S_, .f32⟩
  | .hbm, ⟨24, _⟩ => ⟨S10000x32x128, .f32⟩
  | .hbm, ⟨25, _⟩ => ⟨S10000x32x128, .f32⟩
  | .hbm, ⟨26, _⟩ => ⟨S_, .f32⟩
  | .hbm, ⟨27, _⟩ => ⟨S10000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S10000x32_S10000x32x1_0_1 : S10000x32.BroadcastsInDim S10000x32x1 (![0, 1] : Fin 2 → Fin S10000x32x1.rank)
  bcast_S_S10000x32x1 : S_.BroadcastsInDim S10000x32x1 (![] : Fin 0 → Fin S10000x32x1.rank)
  bcast_S1_S1x1x1_2 : S1.BroadcastsInDim S1x1x1 (![2] : Fin 1 → Fin S1x1x1.rank)
  bcast_S1x1x1_S10000x32x1_0_1_2 : S1x1x1.BroadcastsInDim S10000x32x1 (![0, 1, 2] : Fin 3 → Fin S10000x32x1.rank)
  reducesTo_S10000x32x1_S10000x32_d2 : S10000x32x1.ReducesTo [2] S10000x32
  h_S_ : 0 < S_.numel
  bcast_S10000x32_S10000x32x128_0_1 : S10000x32.BroadcastsInDim S10000x32x128 (![0, 1] : Fin 2 → Fin S10000x32x128.rank)
  bcast_S_S10000x32x128 : S_.BroadcastsInDim S10000x32x128 (![] : Fin 0 → Fin S10000x32x128.rank)
  reducesTo_S10000x32x128_S10000x128_d1 : S10000x32x128.ReducesTo [1] S10000x128
  gather_S100000x128_S10000x32x1_S10000x32x128_2_0_n_n_0_2_1128_wf : GatherDims.WF S100000x128 S10000x32x1 S10000x32x128 [2] [0] [] [0] [] 2 ![1, 128]

variable [Facts₀]

def gather_S100000x128_S10000x32x1_S10000x32x128_2_0_n_n_0_2_1128 : GatherDims S100000x128 S10000x32x1 S10000x32x128 where
  offsetDims := [2]
  collapsedSliceDims := [0]
  operandBatchingDims := []
  startIndicesBatchingDims := []
  startIndexMap := [0]
  indexVectorDim := 2
  sliceSizes := ![1, 128]
  wf := gather_S100000x128_S10000x32x1_S10000x32x128_2_0_n_n_0_2_1128_wf

class Facts : Prop extends Facts₀ where

variable [Facts]
-- ==== Proof.Spec.lean ====
/-
  The mathematics both programs compute, stated once over plain index types.

  A table `x` of 100000 rows of 128 extended reals and a list `t` of 10000 rows of 32 words: result row `r`
  is the sum, over the 32 words of row `r` of `t`, of the table rows those words name. A word names the row
  whose number is its unsigned value (clamped to the last row, so that the function is total; on words below
  100000, the only ones either program is run on, nothing is clamped).
-/
import Idealize.ShloMosaic.PureOps.Ideal
import Idealize.ShloMosaic.Lib.ValueIdx

noncomputable section

open scoped BigOperators

namespace Cert.Spec

open Idealize.ShloMosaic Idealize.ShloMosaic.ValueIdx

/-- The table row a word names: its unsigned value, clamped to the last row. -/
def rowOf (w : BitVec 32) : Fin 100000 := ⟨min w.toNat 99999, by omega⟩

/-- On a word below 100000 nothing is clamped. -/
theorem rowOf_val {w : BitVec 32} (h : w.toNat < 100000) : (rowOf w).val = w.toNat := by
  show min w.toNat 99999 = w.toNat
  omega

/-- Entry `(r, d)` of the result: the sum over the 32 neighbours `j` of row `r` of entry `d` of the table row that
    word `t[r, j]` names. -/
def aggAt (x : (⟨2, ![100000, 128]⟩ : Shape).Idx → EReal) (t : (⟨2, ![10000, 32]⟩ : Shape).Idx → BitVec 32)
    (r : Fin 10000) (d : Fin 128) : EReal :=
  ∑ j : Fin 32, x (ix2 (rowOf (t (ix2 r j))) d)

end Cert.Spec

end
-- ==== Proof.KA_Setup.lean ====
/-
  The kernel's side, set-up: the program as the SparseCore launch theorem sees it, the ghost state, the arrays'
  locations, how the index table, the feature table and the result split among the 32 vector subcores, what the
  handshakes carry, and the kernel's value.

  Vector subcore `s` of SparseCore `c` is worker `w = 2 s + c`. It reads slab `w` of the re-laid index table
  (80 lists of 128 words), all of the feature table (through a read share), and writes rows `[320 w, 320 w + 320)`
  of the result: row `320 w + 4 k + n` is the sum, left to right, of the 32 feature rows that words
  `32 n … 32 n + 31` of list `k` name.
-/
import proofs.«202836_g53523882443255_cont_9to1_m_1194_32_alg».proof.Kernel
import proofs.«202836_g53523882443255_cont_9to1_m_1194_32_alg».proof.Proof.Gen.Kernel
import proofs.«202836_g53523882443255_cont_9to1_m_1194_32_alg».proof.Proof.Gen.Kernel.Skeleton
import proofs.«202836_g53523882443255_cont_9to1_m_1194_32_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The feature table, the neighbour lists, the node list (unread), -/
abbrev fLoc (d : Dev nD) : Loc nD τ sig := (SparseCore.T d).loc main_arg0
abbrev nLoc (d : Dev nD) : Loc nD τ sig := (SparseCore.T d).loc main_arg1
abbrev tLoc (d : Dev nD) : Loc nD τ sig := (SparseCore.T d).loc main_arg2
/-- the host's intermediate values, the re-laid index table, the kernel's result and the program's. -/
abbrev cLoc (d : Dev nD) : Loc nD τ sig := (SparseCore.T d).loc main_c
abbrev c0Loc (d : Dev nD) : Loc nD τ sig := (SparseCore.T d).loc main_call0_v0
abbrev pLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-! ## The 32 workers -/

/-- Worker `2 s + c`. -/
def wid (c : Fin 2) (s : Fin 16) : Fin 32 := ⟨2 * s.val + c.val, by omega⟩

theorem idiv : 32 ∣ S32x80x128.size 0 := ⟨1, rfl⟩
theorem odiv : 32 ∣ S10240x128.size 0 := ⟨320, rfl⟩
/-- Slab `w` of the index table; rows `[320 w, 320 w + 320)` of the result. -/
abbrev irow (w : Fin 32) : Rect S32x80x128 := Rect.part (s := S32x80x128) (a₀ := 0) idiv w
abbrev orow (w : Fin 32) : Rect S10240x128 := Rect.part (s := S10240x128) (a₀ := 0) odiv w
abbrev iRowSet (w : Fin 32) : Finset S32x80x128.Idx := ((Memref.whole main_v1_scv : Memref sig .scVector .hbm S32x80x128 .i32).view.slice (irow w)).set
abbrev oRowSet (w : Fin 32) : Finset S10240x128.Idx := ((Memref.whole main_v2_scv : Memref sig .scVector .hbm S10240x128 .f32).view.slice (orow w)).set

/-- Worker `w`'s read share of the feature table: token `w` of 32. -/
abbrev fq (w : Fin 32) : PosShare TreeShare := Transfers.shareTok fullShare 32 w

/-! ## The kernel's value -/

section Value
variable [FloatOps F]

/-- `g 0 + g 1 + … + g n`, summed left to right as the kernel's body does. -/
def foldRows {φ : FTy} (g : ℕ → F φ) : ℕ → F φ
  | 0 => g 0
  | n + 1 => FloatOps.addf (foldRows g n) (g (n + 1))

/-- The feature-table row a word names (`Cert.Spec.rowOf`), as an index of the table at column `d`. -/
abbrev featIdx (wd : BitVec 32) (d : Fin 128) : S100000x128.Idx := ix2 (Cert.Spec.rowOf wd) d

/-- Word `j` of the 32 that result row `r` sums: the index table is the padded neighbour lists re-laid row-major, so
    flat position `32 r + j` of it, at slab `r / 320`, list `(r % 320) / 4`, word `32 (r % 4) + j`. -/
abbrev tabIdx (r : Fin 10240) (j : ℕ) (hj : j < 32) : S32x80x128.Idx :=
  ix3 (⟨r.val / 320, by omega⟩ : Fin 32) (⟨(r.val % 320) / 4, by omega⟩ : Fin 80) (⟨32 * (r.val % 4) + j, by omega⟩ : Fin 128)

/-- The kernel's result as ONE function of the feature table `x` and the index table `ia`: entry `(r, d)` is the
    left-to-right sum over `j < 32` of entry `d` of the feature row that word `j` of result row `r` names. -/
def aggFold (x : S100000x128.Idx → F .f32) (ia : S32x80x128.Idx → BitVec 32) : S10240x128.Idx → F .f32 :=
  fun i => foldRows (fun j => if hj : j < 32 then x (featIdx (ia (tabIdx ⟨(i 0).val, (i 0).isLt⟩ j hj)) ⟨(i 1).val, (i 1).isLt⟩) else x (featIdx 0#32 ⟨(i 1).val, (i 1).isLt⟩)) 31

end Value

/-! ## What the handshakes carry -/

section Pay
variable [FloatOps F]
-- The index table as the host leaves it before the call (a function of the neighbour lists; the launch says which).
variable (ia : (d : Dev nD) → Buf (Elt F) (iLoc d))

/-- The kernel's result on device `d`: `aggFold` of the feature table and the index table. -/
abbrev outFn (d : Dev nD) : Buf (Elt F) (oLoc d) := aggFold (F := F) (m (fLoc d)) (ia d)

abbrev iPts (d : Dev nD) : sProp 𝕄 := iLoc d ↦{fullShare} ia d
abbrev oPts (d : Dev nD) (f : Buf (Elt F) (oLoc d)) : sProp 𝕄 := oLoc d ↦{fullShare} f
abbrev iRowPts (d : Dev nD) (w : Fin 32) : sProp 𝕄 := iLoc d ↦[iRowSet w]{fullShare} ia d
abbrev fShPts (d : Dev nD) (w : Fin 32) : sProp 𝕄 := fLoc d ↦{fq w} m (fLoc d)
abbrev oRowPts (d : Dev nD) (w : Fin 32) (f : Buf (Elt F) (oLoc d)) : sProp 𝕄 := oLoc d ↦[oRowSet w]{fullShare} f

/-- A worker's task takes its slab of the index table, its share of the feature table and its block of the result, -/
abbrev goRes (d : Dev nD) (w : Fin 32) : sProp 𝕄 := iprop(iRowPts ia d w ∗ fShPts m d w ∗ oRowPts d w (m (oLoc d)))
/-- and brings them back, the block at the kernel's result. -/
abbrev tdRes (d : Dev nD) (w : Fin 32) : sProp 𝕄 := iprop(iRowPts ia d w ∗ fShPts m d w ∗ oRowPts d w (outFn m ia d))

/-- The one call hands SparseCore `c` its sixteen workers' pieces and takes them back. -/
def P : (K (F := F)).Pay (nD := nD) (Val := Elt F) (Name := ℕ) (U := UU) where
  st := fun q d c => match q with | 0 => bigSep Finset.univ fun i : Fin 16 => goRes m ia d (wid (Fin.cast nCore_zero c) i)
  dn := fun q d c => match q with | 0 => bigSep Finset.univ fun i : Fin 16 => tdRes m ia d (wid (Fin.cast nCore_zero c) i)
  go := fun q d c i => match q with | 0 => goRes m ia d (wid (Fin.cast nCore_zero c) (Fin.cast nSub_zero i))
  td := fun q d c i => match q with | 0 => tdRes m ia d (wid (Fin.cast nCore_zero c) (Fin.cast nSub_zero i))
  x := fun _ _ => iprop(emp)

instance P_storable : (P (F := F) m ia).IsStorable where
  st q d c := match q with
    | 0 => (inferInstance : BI.Storable (upEmb : UEmb _ 𝕄) (bigSep Finset.univ fun i : Fin 16 => goRes m ia d (wid (Fin.cast nCore_zero c) i)))
  dn q d c := match q with
    | 0 => (inferInstance : BI.Storable (upEmb : UEmb _ 𝕄) (bigSep Finset.univ fun i : Fin 16 => tdRes m ia d (wid (Fin.cast nCore_zero c) i)))
  go q d c i := match q with
    | 0 => (inferInstance : BI.Storable (upEmb : UEmb _ 𝕄) (goRes m ia d (wid (Fin.cast nCore_zero c) (Fin.cast nSub_zero i))))
  td q d c i := match q with
    | 0 => (inferInstance : BI.Storable (upEmb : UEmb _ 𝕄) (tdRes m ia d (wid (Fin.cast nCore_zero c) (Fin.cast nSub_zero i))))

/-- What the tasks ask of the index table: every word names a row of the feature table. -/
def IdxOK : Prop := ∀ (d : Dev nD) (j : S32x80x128.Idx), (ia d j).toNat < 100000

end Pay

end Cert.Proof.KA

end
-- ==== Proof.HostFacts.lean ====
/-
  Facts about the integer words and the layout on the host side of the kernel, before and after the gather.

  Before the call the 10000 rows of 32 index words are extended by 240 rows of the zero word and the 10240 x 32
  words are re-laid, in row-major order, as 32 x 80 x 128: flat position ((w * 80 + c) * 128 + 32 * n + j) is
  (320 * w + 4 * c + n) * 32 + j, so entry (w, c, 32 * n + j) of the re-laid array is word j of row
  320 * w + 4 * c + n of the index list where that row exists, and the zero word from row 10000 on.
  The precondition bounds every index word, read signed, between 0 and 99999; such a word read unsigned is below
  100000, and so is the zero word: every entry of the re-laid array names a row of the table.
  After the call the first 10000 of the 10240 result rows are kept.
-/
import proofs.«202836_g53523882443255_cont_9to1_m_1194_32_alg».proof.Kernel
import proofs.«202836_g53523882443255_cont_9to1_m_1194_32_alg».proof.Pre_input_domain
import proofs.«202836_g53523882443255_cont_9to1_m_1194_32_alg».proof.Proof.Spec
import Idealize.ShloMosaic.Lib.ValueIdx
import Idealize.ShloMosaic.Lib.Pipeline.Value
import Idealize.ShloMosaic.Lib.KernelVsHost
import Idealize.ShloMosaic.Lib.ReduceAll

noncomputable section

namespace Cert.Kernel.HostFacts

open Idealize.ShloMosaic Idealize.ShloMosaic.ValueIdx
open Cert.Kernel
open Facts₀ Facts

variable [Cert.Kernel.Facts] [Cert.Pre_input_domain.Facts]

/-! ## The index words the kernel receives -/

/-- The index words as the kernel receives them: the list extended by 240 rows of the zero word, re-laid in
    row-major order as 32 x 80 x 128. -/
def idxAll (t : IVec S10000x32 32) : IVec S32x80x128 32 :=
  shapeCast S32x80x128
    (pad S10240x32 ![0, 0] ![240, 0] ![0, 0] t (constantI S_ 32 0#32) pads_S10000x32_S10240x32_02400_000 h_S_)
    shapeCasts_S10240x32_S32x80x128

/-- The extended list at row `r`: the list's row below 10000, the zero word from there on. -/
theorem padded_apply (t : IVec S10000x32 32) (r : Fin 10240) (j : Fin 32) :
    pad S10240x32 ![0, 0] ![240, 0] ![0, 0] t (constantI S_ 32 0#32) pads_S10000x32_S10240x32_02400_000 h_S_ (ix2 r j)
      = if h : r.val < 10000 then t (ix2 (⟨r.val, h⟩ : Fin 10000) j) else 0#32 := by
  by_cases h : r.val < 10000
  · rw [dif_pos h]
    refine pad_apply_of_inside _ _ _ _ _ _ _ _ (ix2 (⟨r.val, h⟩ : Fin 10000) j) fun a => ?_
    match a with
    | ⟨0, _⟩ => show r.val = 0 + r.val * (0 + 1); omega
    | ⟨1, _⟩ => show j.val = 0 + j.val * (0 + 1); omega
  · rw [dif_neg h]
    refine (pad_apply_of_not_inside _ _ _ _ _ _ _ (ix2 r j) (⟨0, by decide⟩ : Fin 2) ?_).trans rfl
    show ¬(0 ≤ r.val ∧ (r.val - 0) % (0 + 1) = 0 ∧ (r.val - 0) / (0 + 1) < 10000)
    omega

/-- Entry (w, c, 32 n + j) of the re-laid array is word `j` of row 320 w + 4 c + n of the list, the zero word past
    the list's last row: the two flat positions ((w * 80 + c) * 128 + 32 n + j) and (320 w + 4 c + n) * 32 + j agree. -/
theorem idxAll_apply (t : IVec S10000x32 32) (w : Fin 32) (c : Fin 80) (n : Fin 4) (j : Fin 32) :
    idxAll t (ix3 w c (⟨32 * n.val + j.val, by omega⟩ : Fin 128))
      = if h : 320 * w.val + 4 * c.val + n.val < 10000 then t (ix2 (⟨320 * w.val + 4 * c.val + n.val, h⟩ : Fin 10000) j)
        else 0#32 := by
  unfold idxAll
  refine (shapeCast_apply _ _ _ (ix2 (⟨320 * w.val + 4 * c.val + n.val, by omega⟩ : Fin 10240) j) ?_).trans ?_
  · rw [Shape.rowMajor_val_two, Shape.rowMajor_val_three]
    show (320 * w.val + 4 * c.val + n.val) * 32 + j.val = (w.val * 80 + c.val) * 128 + (32 * n.val + j.val)
    omega
  · exact padded_apply t _ j

/-! ## The precondition's bound on the index words -/

/-- The shape with no axis has one index. -/
instance : Subsingleton (⟨0, ![]⟩ : Shape).Idx := ⟨fun _ _ => funext fun d => d.elim0⟩

/-- A word that reads, signed, between 0 and 99999 is below 100000 read unsigned. -/
theorem toNat_lt_of_signed_range (w : BitVec 32) (h0 : (0#32 : BitVec 32).toInt ≤ w.toInt)
    (h1 : w.toInt ≤ (99999#32 : BitVec 32).toInt) : w.toNat < 100000 := by
  have e0 : (0#32 : BitVec 32).toInt = 0 := by decide
  have e1 : (99999#32 : BitVec 32).toInt = 99999 := by decide
  rw [e0] at h0
  rw [e1] at h1
  have h32 := w.isLt
  rw [BitVec.toInt_eq_toNat_cond] at h0 h1
  split at h0 <;> omega

/-- The precondition read back: its last conjunct is the conjunction, over every index word, of the two signed
    comparisons 0 ≤ word and word ≤ 99999, so every index word is below 100000. -/
theorem words_lt {F : FTy → Type} [FloatOps F] (x : FVec F S100000x128 .f32) (nn : IVec S10000 32) (t : IVec S10000x32 32)
    (h : Cert.Pre_input_domain.fn (F := F) x nn t = (fun _ => 1#1)) : ∀ i, (t i).toNat < 100000 := by
  intro i
  have e := congrFun h ix0
  dsimp only [Cert.Pre_input_domain.fn, Cert.Pre_input_domain.fn_part1] at e
  obtain ⟨-, e2⟩ := IntOp.andi_eq_one.1 e
  have e3 := Host.reduce_andi_all _ _ _ _ _ e2 i
  obtain ⟨h0, h1⟩ := IntOp.andi_eq_one.1 e3
  exact toNat_lt_of_signed_range _ (IntOp.cmpi_sge.1 h0) (IntOp.cmpi_sle.1 h1)

/-- Every entry of the re-laid array, at explicit coordinates, is below 100000: the last coordinate `d` is
    32 (d / 32) + d % 32, the entry is then an index word or the zero word. -/
theorem idxAll_lt_coords (t : IVec S10000x32 32) (ht : ∀ i, (t i).toNat < 100000) (w : Fin 32) (c : Fin 80) (d : Fin 128) :
    (idxAll t (ix3 w c d)).toNat < 100000 := by
  have hd : d = (⟨32 * (⟨d.val / 32, by omega⟩ : Fin 4).val + (⟨d.val % 32, by omega⟩ : Fin 32).val, by omega⟩ : Fin 128) :=
    Fin.ext (by show d.val = 32 * (d.val / 32) + d.val % 32; omega)
  rw [hd, idxAll_apply]
  split
  · exact ht _
  · show (0#32 : BitVec 32).toNat < 100000
    decide

/-- Every entry of the re-laid array is below 100000. -/
theorem idxAll_lt (t : IVec S10000x32 32) (ht : ∀ i, (t i).toNat < 100000) : ∀ k, (idxAll t k).toNat < 100000 := by
  intro k
  rw [eq_ix3 k]
  exact idxAll_lt_coords t ht (k 0) (k 1) (k 2)

/-! ## The rows kept after the call -/

/-- The result keeps the first 10000 rows: row `r` of what is kept is row `r` of the 10240. -/
theorem slice_apply {F : FTy → Type} [FloatOps F] (f : FVec F S10240x128 .f32) (r : Fin 10000) (d : Fin 128) :
    extractStridedSlice S10000x128 ![0, 0] f slices_S10240x128_S10000x128_0_0 (ix2 r d)
      = f (ix2 (⟨r.val, by omega⟩ : Fin 10240) d) := by
  refine extractStridedSlice_apply _ _ _ _ _ fun a => ?_
  match a with
  | ⟨0, _⟩ => show r.val = 0 + r.val; omega
  | ⟨1, _⟩ => show d.val = 0 + d.val; omega

end Cert.Kernel.HostFacts

end
-- ==== Proof.KA_Launch.lean ====
/-
  The kernel's side, the launch: how the call's operands split among the two SparseCores' sixteen vector subcores
  and join again, what the host does before and after the call, and the run of the whole program.

  Worker `w = 2 s + c` is subcore `s` of SparseCore `c`: the pairs (c, s) are the 32 workers, each once. The index
  table and the result split into the workers' 32 blocks of rows; the feature table, read by all, is held as 32 read
  tokens and a remainder. Before the call the host extends the neighbour lists by rows of the zero word and re-lays
  them; after it, it keeps the first 10000 rows of the kernel's result.
-/
import proofs.«202836_g53523882443255_cont_9to1_m_1194_32_alg».proof.Proof.KA_Setup
import proofs.«202836_g53523882443255_cont_9to1_m_1194_32_alg».proof.Proof.HostFacts

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## The 32 workers are the pairs (SparseCore, subcore) -/

/-- `(c, s) ↦ 2 s + c` is a bijection of the pairs onto the workers. -/
def widEquiv : Fin 2 × Fin 16 ≃ Fin 32 where
  toFun p := wid p.1 p.2
  invFun w := (⟨w.val % 2, by omega⟩, ⟨w.val / 2, by omega⟩)
  left_inv p := by
    rcases p with ⟨c, s⟩
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

/-- A product over the workers is the product over the SparseCores of the products over their subcores. -/
theorem bigSep_workers (Φ : Fin 32 → sProp 𝕄) :
    (bigSep Finset.univ fun c : Fin ((K (F := F)).nCore 0) => bigSep Finset.univ fun i : Fin 16 => Φ (wid (Fin.cast nCore_zero c) i))
      = bigSep Finset.univ Φ := by
  show (bigSep (Finset.univ : Finset (Fin 2)) fun c => bigSep Finset.univ fun i : Fin 16 => Φ (wid c i)) = _
  rw [bigSep_univ_equiv widEquiv Φ, bigSep_univ_prod]
  rfl

/-- A product over a call's sixteen tasks, indexed as the configuration indexes them. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The blocks of rows split and join; the read tokens of the feature table -/

theorem iRowSet_eq (w : Fin 32) : iRowSet w = (irow w).set := by
  show ((View.whole (main_v1_scv : Ref sig .scVector)).slice (irow w)).set = _
  rw [View.set_slice]; exact Finset.map_refl
theorem oRowSet_eq (w : Fin 32) : oRowSet w = (orow w).set := by
  show ((View.whole (main_v2_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

/-- The index table whole is its 32 slabs. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
/-- The result whole, at ONE function, is its 32 blocks of rows at that function. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

variable [FloatOps F]
variable (m : (ℓ : Loc nD τ sig) → Buf (Elt F) ℓ) (ρ : Dev nD → PrngReg)

/-! ## The call's split: a SparseCore's share is its sixteen tasks' shares -/

section Split
variable (ia : (d : Dev nD) → Buf (Elt F) (iLoc d))

/-- What the call hands SparseCore `c` is, piece by piece, what its sixteen tasks take; what they bring back is
    what it hands back. -/
theorem vecSplit : (K (F := F)).VecSplit' (P m ia) 0 := by
  intro d c
  show (bigSep Finset.univ fun i : Fin 16 => goRes m ia d (wid (Fin.cast nCore_zero c) i))
      ⊢ |={Set.univ}=> iprop(
        (bigSep Finset.univ fun i : Fin ((K (F := F)).nSub 0) => goRes m ia d (wid (Fin.cast nCore_zero c) (Fin.cast nSub_zero i)))
        ∗ ((bigSep Finset.univ fun i : Fin ((K (F := F)).nSub 0) => tdRes m ia d (wid (Fin.cast nCore_zero c) (Fin.cast nSub_zero i)))
            -∗ bigSep Finset.univ fun i : Fin 16 => tdRes m ia d (wid (Fin.cast nCore_zero c) i)))
  rw [bigSep_tasks (F := F) (fun i => goRes m ia d (wid (Fin.cast nCore_zero c) i)),
    bigSep_tasks (F := F) (fun i => tdRes m ia d (wid (Fin.cast nCore_zero c) i))]
  iintro H; imodintro
  isplitl [H]; · iexact H
  iintro H2; iexact H2

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m ia).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m ia).x q thr) = bigSep Finset.univ fun _ => iprop(emp) from
    bigSep_congr fun _ _ => bigSep_univ_of_subsingleton (0 : Fin 1), bigSep_emp']
  iempintro

/-! ## What the call takes for the two SparseCores, and what it hands back -/

theorem st0_eq (d : Dev nD) : (bigSep Finset.univ fun c : Fin ((K (F := F)).nCore 0) => (P m ia).st 0 d c)
    = iprop(iPts ia d ∗ (bigSep Finset.univ fun w : Fin 32 => fShPts m d w) ∗ oPts d (m (oLoc d))) := by
  show (bigSep Finset.univ fun c : Fin ((K (F := F)).nCore 0) => bigSep Finset.univ fun i : Fin 16 => goRes m ia d (wid (Fin.cast nCore_zero c) i)) = _
  rw [bigSep_workers (F := F) (fun w => goRes m ia d w)]
  show (bigSep Finset.univ fun w : Fin 32 => iprop((iLoc d ↦[iRowSet w]{fullShare} ia d) ∗ (fLoc d ↦{fq w} m (fLoc d)) ∗ (oLoc d ↦[oRowSet w]{fullShare} m (oLoc d))))
    = iprop((iLoc d ↦{fullShare} ia d) ∗ (bigSep Finset.univ fun w : Fin 32 => fLoc d ↦{fq w} m (fLoc d)) ∗ (oLoc d ↦{fullShare} m (oLoc d)))
  rw [bigSep_sep', bigSep_sep', iPts_rows, oPts_rows]

theorem dn0_eq (d : Dev nD) : (bigSep Finset.univ fun c : Fin ((K (F := F)).nCore 0) => (P m ia).dn 0 d c)
    = iprop(iPts ia d ∗ (bigSep Finset.univ fun w : Fin 32 => fShPts m d w) ∗ oPts d (outFn m ia d)) := by
  show (bigSep Finset.univ fun c : Fin ((K (F := F)).nCore 0) => bigSep Finset.univ fun i : Fin 16 => tdRes m ia d (wid (Fin.cast nCore_zero c) i)) = _
  rw [bigSep_workers (F := F) (fun w => tdRes m ia d w)]
  show (bigSep Finset.univ fun w : Fin 32 => iprop((iLoc d ↦[iRowSet w]{fullShare} ia d) ∗ (fLoc d ↦{fq w} m (fLoc d)) ∗ (oLoc d ↦[oRowSet w]{fullShare} outFn m ia d)))
    = iprop((iLoc d ↦{fullShare} ia d) ∗ (bigSep Finset.univ fun w : Fin 32 => fLoc d ↦{fq w} m (fLoc d)) ∗ (oLoc d ↦{fullShare} outFn m ia d))
  rw [bigSep_sep', bigSep_sep', iPts_rows, oPts_rows]

end Split

/-! ## @main on the TensorCore -/

/-- The index table the host leaves for the kernel: the neighbour lists extended and re-laid. -/
def iaOf (d : Dev nD) : Buf (Elt F) (iLoc d) := Cert.Kernel.HostFacts.idxAll (m (tLoc d))

/-- The program's result: the first 10000 rows of the kernel's. -/
def resFn (d : Dev nD) : Buf (Elt F) (rLoc d) :=
  extractStridedSlice S10000x128 ![0, 0] (aggFold (F := F) (m (fLoc d)) (iaOf m d)) Facts₀.slices_S10240x128_S10000x128_0_0

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev c' : DevRef τ sig := Proc.devRef .tc (main_c : Ref sig .tc)
abbrev c0' : DevRef τ sig := Proc.devRef .tc (main_call0_v0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The TensorCore's nine arrays, all unscoped. -/
abbrev S9 : Finset (DevRef τ sig) := {a0', a1', a2', c', c0', v0', v1', v2', v3'}
/-- The kernel's result and the program's. -/
abbrev S2 : Finset (DevRef τ sig) := {v2', v3'}

/-- The host's operations: the zero word, its conversion, the padding, the re-laying; after the call, the slice. -/
abbrev op1 : HloOp τ sig (Elt F) := StableHlo.nullary main_c (constantI S_ 32 0#32)
abbrev op2 : HloOp τ sig (Elt F) :=
  StableHlo.TRef.unary (.of main_c : StableHlo.TRef sig ⟨S_, .i32⟩) (.of main_call0_v0 : StableHlo.TRef sig ⟨S_, .i32⟩) id
abbrev op3 : HloOp τ sig (Elt F) :=
  StableHlo.TRef.binary (.of main_arg2 : StableHlo.TRef sig ⟨S10000x32, .i32⟩) (.of main_call0_v0 : StableHlo.TRef sig ⟨S_, .i32⟩)
    (.of main_v0 : StableHlo.TRef sig ⟨S10240x32, .i32⟩)
    (fun x v => pad S10240x32 ![0, 0] ![240, 0] ![0, 0] x v Facts₀.pads_S10000x32_S10240x32_02400_000 Facts₀.h_S_)
abbrev op4 : HloOp τ sig (Elt F) := StableHlo.reshape main_v0 main_v1 rfl Facts₀.shapeCasts_S10240x32_S32x80x128
abbrev op5 : HloOp τ sig (Elt F) :=
  StableHlo.unary main_v2 main_v3 ((extractStridedSlice S10000x128 ![0, 0] · Facts₀.slices_S10240x128_S10000x128_0_0) :
    (⟨S10240x128, .f32⟩ : BufTy).Contents (Elt F) → (⟨S10000x128, .f32⟩ : BufTy).Contents (Elt F))

omit [FloatOps F] in
theorem h1 : (op1 (F := F)).bufs ⊆ S9 := show ({c'} : Finset (DevRef τ sig)) ⊆ S9 by decide
omit [FloatOps F] in
theorem h2 : (op2 (F := F)).bufs ⊆ S9 := show ({c', c0'} : Finset (DevRef τ sig)) ⊆ S9 by decide
omit [FloatOps F] in
theorem h3 : (op3 (F := F)).bufs ⊆ S9 := show ({a2', c0', v0'} : Finset (DevRef τ sig)) ⊆ S9 by decide
omit [FloatOps F] in
theorem h4 : (op4 (F := F)).bufs ⊆ S9 := show ({v0', v1'} : Finset (DevRef τ sig)) ⊆ S9 by decide
omit [FloatOps F] in
theorem h5 : (op5 (F := F)).bufs ⊆ S2 := show ({v2', v3'} : Finset (DevRef τ sig)) ⊆ S2 by decide

omit [FloatOps F] in
theorem held_S9 (d : Dev nD) (W : Valuation τ sig (Elt F)) :
    (held (T d) S9 W : sProp 𝕄) = iprop((fLoc d ↦{fullShare} W a0') ∗ (nLoc d ↦{fullShare} W a1') ∗ (tLoc d ↦{fullShare} W a2')
      ∗ (cLoc d ↦{fullShare} W c') ∗ (c0Loc d ↦{fullShare} W c0') ∗ (pLoc d ↦{fullShare} W v0') ∗ (iLoc d ↦{fullShare} W v1')
      ∗ (oLoc d ↦{fullShare} W v2') ∗ rLoc d ↦{fullShare} W v3') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S2 (d : Dev nD) (W : Valuation τ sig (Elt F)) :
    (held (T d) S2 W : sProp 𝕄) = iprop((oLoc d ↦{fullShare} W v2') ∗ rLoc d ↦{fullShare} W v3') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((fLoc d ↦{fullShare} W main_arg0) ∗ (nLoc d ↦{fullShare} W main_arg1) ∗ (tLoc d ↦{fullShare} W main_arg2)
      ∗ (cLoc d ↦{fullShare} W main_c) ∗ (c0Loc d ↦{fullShare} W main_call0_v0) ∗ (pLoc d ↦{fullShare} W main_v0) ∗ (iLoc d ↦{fullShare} W main_v1)
      ∗ (oLoc d ↦{fullShare} W main_v2) ∗ rLoc d ↦{fullShare} W main_v3) := by
  unfold unscopedBufs
  rw [show (Finset.univ.filter fun b : Ref sig .tc => ¬ b.isScoped)
      = {main_arg0, main_arg1, main_arg2, main_c, main_call0_v0, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch contents; the contents after the host's four operations before the call. -/
def V0 (d : Dev nD) : Valuation τ sig (Elt F) := fun b => m (d, b)
def V4 (d : Dev nD) : Valuation τ sig (Elt F) :=
  StableHlo.after [op1 (F := F), op2 (F := F), op3 (F := F), op4 (F := F)] (V0 m d)

omit [FloatOps F] in
theorem unscoped_held (d : Dev nD) : (unscopedBufs d (fun b => m ((SparseCore.T d).loc b)) : sProp 𝕄) = held (T d) S9 (V0 m d) := by
  rw [unscopedBufs_eq, held_S9]; rfl

theorem V4_a0 (d : Dev nD) : V4 m d a0' = m (fLoc d) := by
  unfold V4
  after_results
  rfl
theorem V4_v1 (d : Dev nD) : V4 m d v1' = iaOf m d := by
  unfold V4
  after_results
  rfl

theorem V4_a1 (d : Dev nD) : V4 m d a1' = m (nLoc d) := by
  unfold V4
  after_results
  rfl
theorem V4_a2 (d : Dev nD) : V4 m d a2' = m (tLoc d) := by
  unfold V4
  after_results
  rfl
theorem V4_v2 (d : Dev nD) : V4 m d v2' = m (oLoc d) := by
  unfold V4
  after_results
  rfl

/-- After the call: the kernel's result in its array, the rest as the host left it. -/
def V5 (d : Dev nD) : Valuation τ sig (Elt F) := Function.update (V4 m d) v2' (outFn m (iaOf m) d)

theorem V5_v2 (d : Dev nD) : V5 m d v2' = outFn m (iaOf m) d := Function.update_self _ _ _
theorem V5_v3 (d : Dev nD) : V5 m d v3' = V4 m d v3' := Function.update_of_ne (show v3' ≠ v2' by decide) _ _

/-- The slice of the kernel's result is the program's result. -/
theorem res5 (d : Dev nD) : (op5 (F := F)).result (V5 m d) v3' = resFn m d := by
  rw [StableHlo.unary_result, V5_v2]
  rfl

/-- What @main leaves the claim: the three arguments at their launch contents, the result at the program's. -/
abbrev FIN (d : Dev nD) : sProp 𝕄 :=
  iprop((fLoc d ↦{fullShare} m (fLoc d)) ∗ (nLoc d ↦{fullShare} m (nLoc d)) ∗ (tLoc d ↦{fullShare} m (tLoc d)) ∗ rLoc d ↦{fullShare} resFn m d)

/-- @main on device `d`'s TensorCore: the zero word, the padding and the re-laying; the call, from the index table in
    its 32 slabs, the feature table's 32 read tokens and the result's 32 blocks, back at the kernel's result; the
    slice. The arguments are kept. -/
theorem hmain (κ : GSem nD τ sig → ℕ) (d : Dev nD) :
    iprop((K (F := F)).ctx EH (P m (iaOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  -- the host's four operations before the call
  iapply (wp_hlo_within 𝒱 (SparseCore.T d) none Set.univ (op := op1) (S := S9) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) h2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) h3
    (V := (op2 (F := F)).result ((op1 (F := F)).result (V0 m d)))) $$ [Hb Hheld]
  · isplitl [Hb]; · iexact Hb
    iexact Hheld
  iintro ⟨Hb, Hheld⟩
  rw [wp_ret]; imodintro; imodintro
  iapply (wp_hlo_within 𝒱 (SparseCore.T d) none Set.univ (op := op4) (S := S9) h4
    (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  have e4 : (op4 (F := F)).result ((op3 (F := F)).result ((op2 (F := F)).result ((op1 (F := F)).result (V0 m d)))) = V4 m d := rfl
  rw [e4]
  ihave Hh := (Entails.of_eq (held_S9 (F := F) d (V4 m d))) $$ Hheld
  icases Hh with ⟨Hf, Hn, Ht, Hc, Hc0, Hp, Hi, Ho, Hr⟩
  rw [V4_a0, V4_a1, V4_a2, V4_v1, V4_v2]
  -- the feature table as 32 read tokens and the remainder
  ihave Hf' := (Transfers.pointsTo_toks_split (ℓ := fLoc d) (S := Finset.univ) (f := m (fLoc d)) fullShare 32) $$ Hf
  icases Hf' with ⟨Hfd, Hft⟩
  -- the call
  iapply ((K (F := F)).wp_run (D (F := F)) 𝒱 (EH := EH) (P := P m (iaOf m)) κ d 0) $$ [Hst Hi Hft Ho Hb Hfd Hn Ht Hr]
  isplitr; · iexact Hctx
  isplitl [Hst]; · iexact Hst
  isplitl [Hi Hft Ho]
  · rw [st0_eq]
    isplitl [Hi]; · iexact Hi
    isplitl [Hft]; · iexact Hft
    iexact Ho
  iintro ⟨Hst, Hdn⟩
  ihave Hdn' := (Entails.of_eq (dn0_eq m (iaOf m) d)) $$ Hdn
  icases Hdn' with ⟨Hi, Hft, Ho⟩
  ihave Hf := (Transfers.pointsTo_toks_join (ℓ := fLoc d) (S := Finset.univ) (f := m (fLoc d)) fullShare 32) $$ [Hfd Hft]
  · isplitl [Hfd]; · iexact Hfd
    iexact Hft
  -- the slice
  iapply (wp_hlo_within 𝒱 (SparseCore.T d) none Set.univ (op := op5) (S := S2) h5 (V := V5 m d)) $$ [Hb Ho Hr]
  · isplitl [Hb]; · iexact Hb
    rw [held_S2, V5_v2, V5_v3]
    isplitl [Ho]; · iexact Ho
    iexact Hr
  iintro ⟨Hb, Hheld⟩
  ihave Hh := (Entails.of_eq (held_S2 (F := F) d ((op5 (F := F)).result (V5 m d)))) $$ Hheld
  icases Hh with ⟨-, Hr⟩
  rw [res5]
  rw [wp_ret]; imodintro; imodintro
  isplitl [Hst]; · iexact Hst
  isplitl [Hf]; · iexact Hf
  isplitl [Hn]; · iexact Hn
  isplitl [Ht]; · iexact Ht
  iexact Hr

/-! ## The final assertions read the claim -/

def finQ (d : Dev nD) (s' : Phys nD τ sig (Elt F)) : Prop :=
  s'.mem.mem (rLoc d) = resFn m d ∧ s'.mem.mem (fLoc d) = m (fLoc d) ∧ s'.mem.mem (nLoc d) = m (nLoc d) ∧ s'.mem.mem (tLoc d) = m (tLoc d)

set_option maxRecDepth 16384 in
theorem hfin (d : Dev nD) (s' : Phys nD τ sig (Elt F)) : iprop(FIN m d ∗ SI s') ⊢ (⌜finQ m d s'⌝ : sProp 𝕄) := by
  iintro ⟨⟨Hf, Hn, Ht, Hr⟩, HSI⟩
  ihave H := (persistent_entails_right (SI_pointsTo_agree (st := s') (ℓ := fLoc d) (I := Finset.univ) (q := fullShare) (f := m (fLoc d)))) $$ [HSI Hf]
  · isplitl [HSI] <;> iassumption
  icases H with ⟨%h1, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (SI_pointsTo_agree (st := s') (ℓ := rLoc d) (I := Finset.univ) (q := fullShare) (f := resFn m d)) $$ [HSI Hr]
  · isplitl [HSI] <;> iassumption
  icases H with %h4
  ipureintro
  exact ⟨funext fun i => h4 i (Finset.mem_univ i), funext fun i => h1 i (Finset.mem_univ i),
    funext fun i => h2 i (Finset.mem_univ i), funext fun i => h3 i (Finset.mem_univ i)⟩

/-! ## The program's run -/

/-- The whole program, given the tasks' obligation: every weakly fair execution terminates, nothing faulting; the
    result is the slice of the kernel's value at the host's index table, the arguments are unchanged. -/
theorem run_main [∀ e, Nonempty (Elt F e)] (htile : (K (F := F)).TileObl (D (F := F)) 𝒱 (P m (iaOf m)) v₀ 0) :
    θ_run (Cert.Kernel.defs (F := F)) (Cert.Kernel.threads (F := F)) ⟨m, fun _ => 0, ρ⟩
      (fun r => ∀ c : Dev nD, r.2.mem (rLoc c) = resFn m c ∧ r.2.mem (fLoc c) = m (fLoc c) ∧ r.2.mem (nLoc c) = m (nLoc c)
        ∧ r.2.mem (tLoc c) = m (tLoc c)) :=
  SparseCore.Cfg.θ_run_sc (K := K (F := F)) (D := D (F := F)) (𝒱 := 𝒱) (EH := EH) (P := P m (iaOf m)) facts v₀
    (fun q hq => match q with | 0 => nomatch hq)
    (fun q _ => match q with | 0 => htile)
    (fun q _ => match q with | 0 => SparseCore.Cfg.VecSplit.of_plain (vecSplit m (iaOf m)))
    m ρ main (fun _ => iprop(emp)) (FIN m) (u₀ (F := F)) (sep_elim_left.trans (hu₀ m (iaOf m))) (hmain m ρ) (finQ m) (hfin m) _
    (fun _ h c => h c)

end Cert.Proof.KA

end
-- ==== Proof.KA_Tile.lean ====
/-
  One vector subcore's task, the pieces: the thread and its worker number, the views the task addresses (its slab of
  the index table, its block of the result, one list of its index scratch), and the subcore's own semaphores and
  buffers singled out of what the region entry hands it.
-/
import proofs.«202836_g53523882443255_cont_9to1_m_1194_32_alg».proof.Proof.KA_Setup

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section Tile

variable (d : Dev nD) (L : grid0.Coords)

abbrev cV (L : grid0.Coords) : Fin τ.nSC := (L 0).castLE hcore0
abbrev jV (L : grid0.Coords) : Fin τ.nSub := (L 1).castLE hsub0
omit m ρ in
theorem bound_zero : grid0.bound 0 = 2 := rfl
omit m ρ in
theorem bound_one : grid0.bound 1 = 16 := rfl
/-- The worker number of the subcore at grid point `L`: `2 L₁ + L₀`. -/
abbrev wL (L : grid0.Coords) : Fin 32 := wid ⟨(L 0).val, (L 0).isLt⟩ ⟨(L 1).val, (L 1).isLt⟩

abbrev irowK (L : grid0.Coords) : Rect S32x80x128 := Rect.unit (s := S32x80x128) (k0_off1 L) S1x80x128.size (k0_off1_inb L)
abbrev orowK (L : grid0.Coords) : Rect S10240x128 := Rect.unit (s := S10240x128) (k0_off103 L) S320x128.size (k0_off103_inb L)
/-- The worker's slab of the index table (squeezed to 80 lists of 128 words) and its block of the result, as the task addresses them. -/
abbrev iRowK (L : grid0.Coords) : Memref sig .scVector .hbm S80x128 .i32 := ((iV).slice (irowK L) (fun _ => rfl)).squeeze S80x128 squeezes_S1x80x128_S80x128
abbrev oRowK (L : grid0.Coords) : Memref sig .scVector .hbm S320x128 .f32 := (oV).slice (orowK L) (fun _ => rfl)
abbrev fAllK : Memref sig .scVector .hbm S100000x128 .f32 := (fV).slice (Rect.unit (s := S100000x128) ![0, 0] S100000x128.size inb_S100000x128_S100000x128_0_0) (fun _ => rfl)

omit m ρ in
theorem irowK_eq : irowK L = irow (wL L) := by
  unfold irowK irow Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]
omit m ρ in
theorem orowK_eq : orowK L = orow (wL L) := by
  unfold orowK orow Rect.part Rect.block
  congr 1 <;> funext a
  · rw [k0_off103_eq]
    match a with
    | 0 => simp [Shape.partIx, Shape.partSize, wid]; omega
    | 1 => simp [Shape.partIx, Shape.partSize]
  · match a with
    | 0 => simp [Shape.partSize]
    | 1 => simp [Shape.partSize]

omit m ρ in
theorem set_iRowK : (iRowK L).view.set = iRowSet (wL L) := by
  show (((iV).view.slice (irowK L)).reshape S80x128 squeezes_S1x80x128_S80x128.numel_eq).set = ((iV).view.slice (irow (wL L))).set
  rw [View.set_reshape]
  exact irowK_eq L ▸ rfl
omit m ρ in
theorem set_oRowK : (oRowK L).view.set = oRowSet (wL L) := by
  show ((oV).view.slice (orowK L)).set = ((oV).view.slice (orow (wL L))).set
  exact orowK_eq L ▸ rfl

abbrev cell0 (d : Dev nD) (c : Fin τ.nSC) (i : Fin τ.nSub) : GSem nD τ sig := (V d c i, .dma cc0_scratch6.sem)
abbrev cell1 (d : Dev nD) (c : Fin τ.nSC) (i : Fin τ.nSub) : GSem nD τ sig := (V d c i, .dma cc0_scratch7.sem)
abbrev cell2 (d : Dev nD) (c : Fin τ.nSC) (i : Fin τ.nSub) : GSem nD τ sig := (V d c i, .dma cc0_scratch8.sem)
abbrev cell3 (d : Dev nD) (c : Fin τ.nSC) (i : Fin τ.nSub) : GSem nD τ sig := (V d c i, .dma cc0_scratch9.sem)
abbrev cell4 (d : Dev nD) (c : Fin τ.nSC) (i : Fin τ.nSub) : GSem nD τ sig := (V d c i, .dma cc0_scoped0.sem)
abbrev cell5 (d : Dev nD) (c : Fin τ.nSC) (i : Fin τ.nSub) : GSem nD τ sig := (V d c i, .dma cc0_scoped1.sem)

omit m ρ in
/-- The subcore's six transfer semaphores (one per row buffer, one per bracketed copy) are among its own cells: they
    are them, at zero, and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0
          ∗ bigSep (((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))) fun g => semVal g 0) := by
  unfold SparseCore.Cfg.ownSems0
  rw [
    SparseCore.bigSep_erase' ((mem_ownCells (g := (cell0 d (cV L) (jV L)))).mpr ⟨rfl, by show (SemLoc.dma cc0_scratch6.sem : SemLoc sig).isScoped .scVector = true; decide⟩),
    SparseCore.bigSep_erase' (Finset.mem_erase.mpr ⟨by simp [cell0, cell1]; decide, (mem_ownCells (g := (cell1 d (cV L) (jV L)))).mpr ⟨rfl, by show (SemLoc.dma cc0_scratch7.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := (cell2 d (cV L) (jV L)))).mpr ⟨rfl, by show (SemLoc.dma cc0_scratch8.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := (cell3 d (cV L) (jV L)))).mpr ⟨rfl, by show (SemLoc.dma cc0_scratch9.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := (cell4 d (cV L) (jV L)))).mpr ⟨rfl, by show (SemLoc.dma cc0_scoped0.sem : SemLoc sig).isScoped .scVector = true; decide⟩⟩⟩⟩⟩),
    SparseCore.bigSep_erase' (Finset.mem_erase.mpr ⟨by simp [cell4, cell5]; decide, Finset.mem_erase.mpr ⟨by simp [cell3, cell5]; decide, Finset.mem_erase.mpr ⟨by simp [cell2, cell5]; decide, Finset.mem_erase.mpr ⟨by simp [cell1, cell5]; decide, Finset.mem_erase.mpr ⟨by simp [cell0, cell5]; decide, (mem_ownCells (g := (cell5 d (cV L) (jV L)))).mpr ⟨rfl, by show (SemLoc.dma cc0_scoped1.sem : SemLoc sig).isScoped .scVector = true; decide⟩⟩⟩⟩⟩⟩)]

omit m ρ in
/-- The six scratch buffers (the index lists, the accumulator, the four row buffers) are among the subcore's own: they
    are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  rw [
    SparseCore.bigSep_erase' (SparseCore.Cfg.mem_ownRefs_of_owner (p := (Proc.scVector (cV L) (jV L))) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := (Proc.scVector (cV L) (jV L)).devRef cc0_scratch5) rfl⟩⟩⟩⟩⟩)]

end Tile

end Cert.Proof.KA

end
-- ==== Proof.KA_Pure.lean ====
/-
  The arithmetic of one result row, free of the program: the chain of sixteen-lane sums a vector subcore forms from the 32
  row pieces it loads, read lane by lane as the left-to-right sum `foldRows`; the accumulator filled one row at a time; and one
  store of a row piece into it, read back at an index.
-/
import proofs.«202836_g53523882443255_cont_9to1_m_1194_32_alg».proof.Proof.KA_Setup
import Idealize.ShloMosaic.Lib.ValueLayout
import Idealize.ShloMosaic.Lib.Writes

noncomputable section

namespace Cert.Proof.KA

open Cert.Kernel
open Idealize.ShloMosaic Idealize.ShloMosaic.ValueIdx

variable {F : FTy → Type} [FloatOps F]

/-! ## The chain of sums over one row's 32 pieces -/

section Chain

variable [Cert.Kernel.Facts]
open Facts₀ Facts

/-- The running sum after piece `n`: piece 0 as a sixteen-lane vector, then each further piece added on the right. -/
def chainV (l : ℕ → Vec F S1x16 .f32) : ℕ → FVec F S16 .f32
  | 0 => shapeCast S16 (l 0) shapeCasts_S1x16_S16
  | n + 1 => addf (chainV l n) (shapeCast S16 (l (n + 1)) shapeCasts_S1x16_S16)

theorem chainV_zero (l : ℕ → Vec F S1x16 .f32) : chainV l 0 = shapeCast S16 (l 0) shapeCasts_S1x16_S16 := rfl

theorem chainV_succ (l : ℕ → Vec F S1x16 .f32) (n : ℕ) :
    chainV l (n + 1) = addf (chainV l n) (shapeCast S16 (l (n + 1)) shapeCasts_S1x16_S16) := rfl

/-- Lane `y` of the running sum is the left-to-right sum of lane `y` of the pieces: the casts between one row of sixteen
    and sixteen lanes keep the lane, and the vector sum is lane by lane. -/
theorem chainV_apply (l : ℕ → Vec F S1x16 .f32) (n : ℕ) (y : Fin 16) :
    chainV l n (ix1 y) = foldRows (fun j => l j (ix2 (0 : Fin 1) y)) n := by
  induction n with
  | zero => exact shapeCast_1a_a_apply (l 0) _ y
  | succ n ih =>
    show FloatOps.addf (chainV l n (ix1 y)) (shapeCast S16 (l (n + 1)) shapeCasts_S1x16_S16 (ix1 y))
      = FloatOps.addf (foldRows (fun j => l j (ix2 (0 : Fin 1) y)) n) (l (n + 1) (ix2 (0 : Fin 1) y))
    rw [ih, shapeCast_1a_a_apply]

/-- The stored piece: sixteen lanes cast back to one row of sixteen keep the lane. -/
theorem storeV_apply (a : FVec F S16 .f32) (y : Fin 16) :
    shapeCast S1x16 a shapeCasts_S16_S1x16 (ix2 (0 : Fin 1) y) = a (ix1 y) :=
  shapeCast_a_1a_apply a _ 0 y

/-- Both together: lane `y` of the piece stored after the 32 pieces is their left-to-right sum at that lane. -/
theorem storeV_chainV_apply (l : ℕ → Vec F S1x16 .f32) (n : ℕ) (y : Fin 16) :
    shapeCast S1x16 (chainV l n) shapeCasts_S16_S1x16 (ix2 (0 : Fin 1) y) = foldRows (fun j => l j (ix2 (0 : Fin 1) y)) n := by
  rw [storeV_apply, chainV_apply]

end Chain

/-- The left-to-right sum depends only on the terms up to its last one. -/
theorem foldRows_congr {φ : FTy} (g g' : ℕ → F φ) (n : ℕ) (h : ∀ j, j ≤ n → g j = g' j) : foldRows g n = foldRows g' n := by
  induction n with
  | zero => exact h 0 (Nat.le_refl 0)
  | succ n ih =>
    show FloatOps.addf (foldRows g n) (g (n + 1)) = FloatOps.addf (foldRows g' n) (g' (n + 1))
    rw [ih fun j hj => h j (Nat.le_succ_of_le hj), h (n + 1) (Nat.le_refl _)]

/-! ## The accumulator, one row at a time -/

/-- The first `R` rows of the accumulator hold `val`. -/
def AccOK (val : Fin 320 → Fin 128 → F .f32) (R : ℕ) (fa : S320x128.Idx → F .f32) : Prop :=
  ∀ (r : Fin 320) (c : Fin 128), r.val < R → fa (ix2 r c) = val r c

/-- No row is asked of it at the start. -/
theorem AccOK_zero (val : Fin 320 → Fin 128 → F .f32) (fa : S320x128.Idx → F .f32) : AccOK val 0 fa :=
  fun r _ h => absurd h (Nat.not_lt_zero r.val)

/-- Fewer rows are asked of it. -/
theorem AccOK_of_le (val : Fin 320 → Fin 128 → F .f32) {R R' : ℕ} (hle : R' ≤ R) (fa : S320x128.Idx → F .f32)
    (h : AccOK val R fa) : AccOK val R' fa :=
  fun r c hr => h r c (Nat.lt_of_lt_of_le hr hle)

/-- Contents that agree on the first `R` rows. -/
theorem AccOK_congr (val : Fin 320 → Fin 128 → F .f32) (R : ℕ) (fa fa' : S320x128.Idx → F .f32) (h : AccOK val R fa)
    (hsame : ∀ (r : Fin 320) (c : Fin 128), r.val < R → fa' (ix2 r c) = fa (ix2 r c)) : AccOK val R fa' :=
  fun r c hr => (hsame r c hr).trans (h r c hr)

/-- ONE ROW MORE: new contents that keep every other row and hold `val` on row `R`. -/
theorem AccOK_step (val : Fin 320 → Fin 128 → F .f32) (R : ℕ) (hR : R < 320) (fa fa' : S320x128.Idx → F .f32)
    (h : AccOK val R fa) (hkeep : ∀ (r : Fin 320) (c : Fin 128), r.val ≠ R → fa' (ix2 r c) = fa (ix2 r c))
    (hnew : ∀ c : Fin 128, fa' (ix2 ⟨R, hR⟩ c) = val ⟨R, hR⟩ c) : AccOK val (R + 1) fa' := by
  intro r c hr
  by_cases e : r.val = R
  · obtain rfl : r = ⟨R, hR⟩ := Fin.ext e
    exact hnew c
  · rw [hkeep r c e]
    exact h r c (by omega)

/-- All 320 rows: the accumulator is `val` at every index. -/
theorem AccOK_all (val : Fin 320 → Fin 128 → F .f32) (fa : S320x128.Idx → F .f32) (h : AccOK val 320 fa)
    (i : S320x128.Idx) : fa i = val ⟨(i 0).val, idx2_lt0 i⟩ ⟨(i 1).val, idx2_lt1 i⟩ := by
  have e := h ⟨(i 0).val, idx2_lt0 i⟩ ⟨(i 1).val, idx2_lt1 i⟩ (idx2_lt0 i)
  rw [← e]
  exact congrArg fa (eq_ix2 i)

/-! ## One store of a row piece into the accumulator

A store of one row of sixteen lanes through the accumulator's view, at row `R` and columns `[C, C + 16)`: afterwards the
buffer read at `(R, C + y)` is lane `y` of the payload, and read anywhere outside that piece it is what it was. Stated
for one raw write through the piece's rectangle and for the same write at the head of a list of writes. -/

section Store

variable {sig : RefSig} {κ : Kind} {sp : Space} {e : EltTy} {Val : EltTy → Type}

/-- The piece's row is a row of the accumulator, -/
theorem rowPiece_row_lt {R C : ℕ} (h : ∀ a, (![R, C] : Fin 2 → ℕ) a + S1x16.size a ≤ S320x128.size a) : R < 320 := by
  have h0 : R + 1 ≤ 320 := h 0
  omega

/-- and each of its sixteen columns a column of it. -/
theorem rowPiece_col_lt {R C : ℕ} (h : ∀ a, (![R, C] : Fin 2 → ℕ) a + S1x16.size a ≤ S320x128.size a) (y : Fin 16) :
    C + y.val < 128 := by
  have h1 : C + 16 ≤ 128 := h 1
  omega

/-- Lane `y` of the piece lies at `(R, C + y)`. -/
theorem rowPiece_emb {R C : ℕ} (h : ∀ a, (![R, C] : Fin 2 → ℕ) a + S1x16.size a ≤ S320x128.size a) (y : Fin 16) :
    (Rect.unit (s := S320x128) ![R, C] S1x16.size h).emb (ix2 (0 : Fin 1) y)
      = ix2 (⟨R, rowPiece_row_lt h⟩ : Fin 320) (⟨C + y.val, rowPiece_col_lt h y⟩ : Fin 128) := by
  funext a
  refine Fin.ext ?_
  match a with
  | ⟨0, _⟩ =>
    show R + 1 * 0 = R
    omega
  | ⟨1, _⟩ =>
    show C + 1 * y.val = C + y.val
    omega

/-- The piece's elements: row `R`, columns `[C, C + 16)`. -/
theorem rowPiece_mem_set {R C : ℕ} (h : ∀ a, (![R, C] : Fin 2 → ℕ) a + S1x16.size a ≤ S320x128.size a) (r : Fin 320)
    (c : Fin 128) :
    ix2 r c ∈ (Rect.unit (s := S320x128) ![R, C] S1x16.size h).set ↔ r.val = R ∧ C ≤ c.val ∧ c.val < C + 16 := by
  rw [Rect.mem_set_unit]
  constructor
  · intro hm
    have m0 : R ≤ r.val ∧ r.val < R + 1 := hm 0
    have m1 : C ≤ c.val ∧ c.val < C + 16 := hm 1
    omega
  · rintro ⟨hr, hc⟩ a
    match a with
    | ⟨0, _⟩ =>
      show R ≤ r.val ∧ r.val < R + 1
      omega
    | ⟨1, _⟩ =>
      show C ≤ c.val ∧ c.val < C + 16
      omega

variable (v : View sig κ sp S320x128 e)

/-- After the one write, the buffer at `(R, C + y)` is lane `y` of the payload; -/
theorem read_write_rowPiece {R C : ℕ} (h : ∀ a, (![R, C] : Fin 2 → ℕ) a + S1x16.size a ≤ S320x128.size a)
    (f : v.ty.Contents Val) (pay : S1x16.Idx → Val e) (y : Fin 16) :
    v.read Val ((v.slice (Rect.unit (s := S320x128) ![R, C] S1x16.size h)).write Val f pay Finset.univ)
        (ix2 (⟨R, rowPiece_row_lt h⟩ : Fin 320) (⟨C + y.val, rowPiece_col_lt h y⟩ : Fin 128))
      = pay (ix2 (0 : Fin 1) y) := by
  rw [← rowPiece_emb h y]
  exact View.read_slice_write_emb (Rect.unit (s := S320x128) ![R, C] S1x16.size h) f pay (Finset.mem_univ _)

/-- outside the piece it is what it was. -/
theorem read_write_rowPiece_of_not_mem {R C : ℕ} (h : ∀ a, (![R, C] : Fin 2 → ℕ) a + S1x16.size a ≤ S320x128.size a)
    (f : v.ty.Contents Val) (pay : S1x16.Idx → Val e) (r : Fin 320) (c : Fin 128)
    (hout : ¬(r.val = R ∧ C ≤ c.val ∧ c.val < C + 16)) :
    v.read Val ((v.slice (Rect.unit (s := S320x128) ![R, C] S1x16.size h)).write Val f pay Finset.univ) (ix2 r c)
      = v.read Val f (ix2 r c) := by
  have hn : ix2 r c ∉ (Rect.unit (s := S320x128) ![R, C] S1x16.size h).set :=
    fun hm => hout ((rowPiece_mem_set h r c).mp hm)
  rw [← Rect.map_emb_univ] at hn
  exact View.read_slice_write_of_not_mem (Rect.unit (s := S320x128) ![R, C] S1x16.size h) f pay Finset.univ hn

/-- The same write at the head of a list of writes: at `(R, C + y)` lane `y` of the payload; -/
theorem read_writes_cons_rowPiece {R C : ℕ} (h : ∀ a, (![R, C] : Fin 2 → ℕ) a + S1x16.size a ≤ S320x128.size a)
    (f : v.ty.Contents Val) (pay : S1x16.Idx → Val e) (L : List (View.Piece Val S320x128 e)) (y : Fin 16) :
    v.read Val (v.writes Val f (⟨Rect.unit (s := S320x128) ![R, C] S1x16.size h, pay⟩ :: L))
        (ix2 (⟨R, rowPiece_row_lt h⟩ : Fin 320) (⟨C + y.val, rowPiece_col_lt h y⟩ : Fin 128))
      = pay (ix2 (0 : Fin 1) y) :=
  read_write_rowPiece v h (v.writes Val f L) pay y

/-- outside the piece what the earlier writes left. -/
theorem read_writes_cons_rowPiece_of_not_mem {R C : ℕ}
    (h : ∀ a, (![R, C] : Fin 2 → ℕ) a + S1x16.size a ≤ S320x128.size a)
    (f : v.ty.Contents Val) (pay : S1x16.Idx → Val e) (L : List (View.Piece Val S320x128 e)) (r : Fin 320) (c : Fin 128)
    (hout : ¬(r.val = R ∧ C ≤ c.val ∧ c.val < C + 16)) :
    v.read Val (v.writes Val f (⟨Rect.unit (s := S320x128) ![R, C] S1x16.size h, pay⟩ :: L)) (ix2 r c)
      = v.read Val (v.writes Val f L) (ix2 r c) :=
  read_write_rowPiece_of_not_mem v h (v.writes Val f L) pay r c hout

end Store

/-! ## One result row as a function of the row buffer -/

/-- Column `c` of the left-to-right sum of the 32 rows `p0, …, p0 + 31` of a row buffer (row numbers taken modulo its 128
    rows, so that the function is total). -/
def rowSum (g : S128x128.Idx → F .f32) (p0 : ℕ) (c : Fin 128) : F .f32 :=
  foldRows (fun j => g (ix2 (⟨(p0 + j) % 128, Nat.mod_lt _ (by decide)⟩ : Fin 128) c)) 31

/-- One row of the accumulator rewritten: every other row kept, row `R` the sum of rows `p0, …, p0 + 31` of the row
    buffer `g`. -/
def RowStep (R p0 : ℕ) (g : S128x128.Idx → F .f32) (fa fa' : S320x128.Idx → F .f32) : Prop :=
  (∀ (r : Fin 320) (c : Fin 128), r.val ≠ R → fa' (ix2 r c) = fa (ix2 r c))
    ∧ (∀ (r : Fin 320) (c : Fin 128), r.val = R → fa' (ix2 r c) = rowSum g p0 c)

end Cert.Proof.KA

end
-- ==== Proof.KA_BodyPre.lean ====
/-
  One vector subcore's task, what the run needs before it starts: one list of the index scratch as the task slices
  it; the task's views against the launch's pieces; a share cut into read tokens; every word of every list names a row
  of the feature table; the four guards of a trip all say "this is not the last trip"; a gather in flight respelt over
  an equal list; and the values the invariants speak of — what a row buffer holds once list `c` has been gathered
  into it, and what the accumulator's rows hold once they are summed.
-/
import proofs.«202836_g53523882443255_cont_9to1_m_1194_32_alg».proof.Proof.KA_Tile
import proofs.«202836_g53523882443255_cont_9to1_m_1194_32_alg».proof.Proof.KA_Pure

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section Pre
variable [FloatOps F] (ia : (d : Dev nD) → Buf (Elt F) (iLoc d)) (d : Dev nD) (L : grid0.Coords)

/-- One list of the index scratch, as the task slices it: row `off 0`, squeezed to 128 words. -/
abbrev lstAt (off : Fin 2 → ℕ) (hoff : ∀ a, off a + S1x128.size a ≤ S80x128.size a) : Memref sig .scVector .vmem S128 .i32 :=
  ((sI).slice (Rect.unit (s := S80x128) off S1x128.size hoff) (fun _ => rfl)).squeeze S128 squeezes_S1x128_S128

omit [FloatOps F] m ρ in
theorem hrow (c : ℕ) (hc : c < 80) : ∀ a, (![c, 0] : Fin 2 → ℕ) a + S1x128.size a ≤ S80x128.size a := by
  intro a; match a with
  | 0 => simp; omega
  | 1 => simp

omit [FloatOps F] m ρ in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] m ρ in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] m ρ in
theorem pts_fV (q : PosShare TreeShare) (f : Buf (Elt F) (fLoc d)) :
    ((fV).view.loc (V d (cV L) (jV L)) ↦{q} f : sProp 𝕄) = fLoc d ↦{q} f := rfl
omit [FloatOps F] m ρ in
theorem pts_sc (b : Ref sig .scVector) (f : Buf (Elt F) ((V d (cV L) (jV L)).loc b)) :
    ((Memref.whole b).view.loc (V d (cV L) (jV L)) ↦{fullShare} f : sProp 𝕄) = (V d (cV L) (jV L)).loc b ↦{fullShare} f := rfl

omit [FloatOps F] m ρ in
/-- A share less `k` tokens is token `k` and the share less one more. -/
theorem tok_split {ℓ : Loc nD τ sig} (S : Finset (Idx ℓ)) (q : PosShare TreeShare) (f : Buf (Elt F) ℓ) (k k' : ℕ) (hk : k' = k + 1) :
    (ℓ ↦[S]{Transfers.shareDrop q k} f : sProp 𝕄) ⊣⊢ iprop((ℓ ↦[S]{Transfers.shareTokN q k} f) ∗ ℓ ↦[S]{Transfers.shareDrop q k'} f) := by
  subst hk
  exact ⟨(pointsTo_share (PosShare.mem_left_op_right _)).1.trans sep_comm.1, sep_comm.1.trans (pointsTo_share (PosShare.mem_left_op_right _)).2⟩
omit [FloatOps F] m ρ in
/-- The first token off a whole share. -/
theorem tok_split0 {ℓ : Loc nD τ sig} (S : Finset (Idx ℓ)) (q : PosShare TreeShare) (f : Buf (Elt F) ℓ) :
    (ℓ ↦[S]{q} f : sProp 𝕄) ⊣⊢ iprop((ℓ ↦[S]{Transfers.shareTokN q 0} f) ∗ ℓ ↦[S]{Transfers.shareDrop q 1} f) :=
  tok_split S q f 0 1 rfl

omit [FloatOps F] m ρ in
/-- Every word of every list of the scratch, once the worker's slab has landed in it, names a row of the feature table. -/
theorem list_lt (hia : IdxOK ia) (fs : Buf (Elt F) ((V d (cV L) (jV L)).loc cc0_scratch0)) (pay : S80x128.Idx → Elt F .i32)
    (hpay : pay = (iRowK L).view.read (Elt F) (ia d)) (off : Fin 2 → ℕ) (hoff : ∀ a, off a + S1x128.size a ≤ S80x128.size a) :
    ∀ x, ((lstAt off hoff).view.read (Elt F) (View.write (Elt F) (sI).view fs pay Finset.univ) x).toNat < S100000x128.size gathers_S100000x128_S128x128.axis := by
  subst hpay; intro x
  simp only [Memref.view_whole, View.write_whole_univ]
  exact hia d _

omit [FloatOps F] m ρ in
/-- Before the last trip every guard holds (the next list exists); -/
theorem cond_pos : ∀ k : Fin k0_t1_loop.trips, k.val < 19 → k0_cond1 k = 1#1 ∧ k0_cond2 k = 1#1 ∧ k0_cond3 k = 1#1 ∧ k0_cond4 k = 1#1 := by
  decide +kernel
omit [FloatOps F] m ρ in
/-- at the last trip none does. -/
theorem cond_neg : ∀ k : Fin k0_t1_loop.trips, ¬ k.val < 19 → ¬ k0_cond1 k = 1#1 ∧ ¬ k0_cond2 k = 1#1 ∧ ¬ k0_cond3 k = 1#1 ∧ ¬ k0_cond4 k = 1#1 := by
  decide +kernel

omit [FloatOps F] m ρ in
theorem trips_eq : k0_t1_loop.trips = 20 := by decide

omit [FloatOps F] m ρ in
/-- The list a trip's guard slices is list `4 (k + 1) + b`. -/
theorem nextOff (k : Fin k0_t1_loop.trips) :
    k0_off27 k = ![4 * (k.val + 1) + 0, 0] ∧ k0_off52 k = ![4 * (k.val + 1) + 1, 0] ∧ k0_off77 k = ![4 * (k.val + 1) + 2, 0] ∧ k0_off102 k = ![4 * (k.val + 1) + 3, 0] := by
  refine ⟨(k0_off27_eq k).trans ?_, (k0_off52_eq k).trans ?_, (k0_off77_eq k).trans ?_, (k0_off102_eq k).trans ?_⟩
  · rw [show 4 * (k.val + 1) + 0 = 4 * k.val + 4 by omega]
  · rw [show 4 * (k.val + 1) + 1 = 4 * k.val + 5 by omega]
  · rw [show 4 * (k.val + 1) + 2 = 4 * k.val + 6 by omega]
  · rw [show 4 * (k.val + 1) + 3 = 4 * k.val + 7 by omega]

/-- What a gather of list `lst` into row buffer `bufM` on its semaphore, in flight, will deliver, and what stays behind:
    the buffer at its new contents, the list's words at their share, the table's slice at its token; the rest of the
    scratch of lists at that share, of the table at that token, of the buffer. -/
abbrev gatherGrp (bufM : Memref sig .scVector .vmem S128x128 .f32) (sem : DmaSem sig) (g : Buf (Elt F) (bufM.view.loc (V d (cV L) (jV L))))
    (off : Fin 2 → ℕ) (hoff : ∀ a, off a + S1x128.size a ≤ S80x128.size a) (σ : PosShare TreeShare)
    (idxv : Buf (Elt F) ((sI).view.loc (V d (cV L) (jV L)))) (tk : ℕ) : sProp 𝕄 :=
  iprop((Transfers.Flight countersEmb (V d (cV L) (jV L)) (SemLoc.dma sem) (default : HIx 1) 524288
        iprop(((bufM.view.loc (V d (cV L) (jV L)) ↦[bufM.view.set]{fullShare} g) ∗ ((lstAt off hoff).view.loc (V d (cV L) (jV L)) ↦[(lstAt off hoff).view.set]{σ} idxv))
          ∗ ((fV).view.loc (V d (cV L) (jV L)) ↦[(fAllK).view.set]{Transfers.shareTokN (fq (wL L)) tk} m (fLoc d))) : sProp 𝕄)
    ∗ ((sI).view.loc (V d (cV L) (jV L)) ↦[Finset.univ \ (lstAt off hoff).view.set]{σ} idxv)
    ∗ ((fV).view.loc (V d (cV L) (jV L)) ↦[Finset.univ \ (fAllK).view.set]{Transfers.shareTokN (fq (wL L)) tk} m (fLoc d))
    ∗ (bufM.view.loc (V d (cV L) (jV L)) ↦[Finset.univ \ bufM.view.set]{fullShare} g))

omit [FloatOps F] ρ in
/-- The same gather over an equal list. -/
theorem gatherGrp_congr (bufM : Memref sig .scVector .vmem S128x128 .f32) (sem : DmaSem sig) (g : Buf (Elt F) (bufM.view.loc (V d (cV L) (jV L))))
    (off off' : Fin 2 → ℕ) (hoff : ∀ a, off a + S1x128.size a ≤ S80x128.size a) (hoff' : ∀ a, off' a + S1x128.size a ≤ S80x128.size a)
    (e : off = off') (σ : PosShare TreeShare) (idxv : Buf (Elt F) ((sI).view.loc (V d (cV L) (jV L)))) (tk : ℕ) :
    gatherGrp m d L bufM sem g off hoff σ idxv tk ⊢ gatherGrp m d L bufM sem g off' hoff' σ idxv tk := by
  subst e; exact BI.Entails.refl _

/-! ## The values -/

/-- What a row buffer holds once list `c` has been gathered into it: row `p` is the feature row word `p` of the list names. -/
def bufVal (idxv : S80x128.Idx → BitVec 32) (fx : S100000x128.Idx → F .f32) (c : ℕ) : S128x128.Idx → F .f32 :=
  fun i => fx (featIdx (idxv (ix2 (⟨c % 80, Nat.mod_lt _ (by decide)⟩ : Fin 80) (⟨(i 0).val, (i 0).isLt⟩ : Fin 128))) ⟨(i 1).val, (i 1).isLt⟩)

/-- What accumulator row `r` holds once summed: rows `32 (r % 4) … + 31` of list `r / 4`'s gathered rows, summed left to right. -/
def accVal (idxv : S80x128.Idx → BitVec 32) (fx : S100000x128.Idx → F .f32) : Fin 320 → Fin 128 → F .f32 :=
  fun r c => rowSum (bufVal idxv fx (r.val / 4)) (32 * (r.val % 4)) c

end Pre

end Cert.Proof.KA

end
-- ==== Proof.KA_TileValue.lean ====
/-
  One vector subcore's task, the values: the accumulator gains one row per step; the kernel's value on the worker's
  block of rows is the accumulator's; the worker's slab of the index table, landed in the scratch of lists, is read
  list by list; a gather of list c leaves in a row buffer, row by row, the feature rows the list's words name (a word
  below 100000 names the row of its own value); and the accumulator copied out to the worker's block of the result
  is the kernel's value there.

  Accumulator row R = 16 k + 4 b + n belongs to list R / 4 = 4 k + b and sums rows 32 (R % 4) = 32 n onwards of that
  list's gathered rows. Result row 320 w + r of worker w sums the words at slab w, list r / 4, positions
  32 (r % 4) + j, j < 32, of the index table; they are words 32 (r % 4) + j of list r / 4 of the worker's scratch.
-/
import proofs.«202836_g53523882443255_cont_9to1_m_1194_32_alg».proof.Proof.KA_BodyPre

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "oV" => (Memref.whole Cert.Kernel.main_v2_scv : Memref Cert.Kernel.sig Kind.scVector Space.hbm Cert.Kernel.S10240x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

local notation "iV" => (Memref.whole Cert.Kernel.main_v1_scv : Memref Cert.Kernel.sig Kind.scVector Space.hbm Cert.Kernel.S32x80x128 EltTy.i32)
local notation "sI" => (Memref.whole Cert.Kernel.cc0_scratch0 : Memref Cert.Kernel.sig Kind.scVector Space.vmem Cert.Kernel.S80x128 EltTy.i32)

/-! ## The accumulator gains a row -/

section Acc
variable [FloatOps F]

/-- Row `R = 16 k + 4 b + n` rewritten as the sum of rows `32 n …` of list `4 k + b`'s gathered rows is the row the
    accumulator is to hold: `R / 4 = 4 k + b` and `R % 4 = n`. -/
theorem acc_step (idxv : S80x128.Idx → BitVec 32) (fx : S100000x128.Idx → F .f32) (k b n : ℕ) (hk : k < 20) (hb : b < 4) (hn : n < 4)
    (g : S128x128.Idx → F .f32) (hg : g = bufVal idxv fx (4 * k + b)) (fa fa' : S320x128.Idx → F .f32)
    (h : AccOK (accVal idxv fx) (16 * k + 4 * b + n) fa) (hs : RowStep (16 * k + 4 * b + n) (32 * n) g fa fa') :
    AccOK (accVal idxv fx) (16 * k + 4 * b + n + 1) fa' := by
  have hR : 16 * k + 4 * b + n < 320 := by omega
  refine AccOK_step (accVal idxv fx) _ hR fa fa' h hs.1 fun c => ?_
  rw [hs.2 ⟨_, hR⟩ c rfl, hg]
  show _ = rowSum (bufVal idxv fx ((16 * k + 4 * b + n) / 4)) (32 * ((16 * k + 4 * b + n) % 4)) c
  rw [show (16 * k + 4 * b + n) / 4 = 4 * k + b by omega, show (16 * k + 4 * b + n) % 4 = n by omega]

/-! ## The kernel's value on a worker's block of rows -/

/-- Word `j` of the 32 that result row `320 w + r` sums sits at slab `w`, list `r / 4`, position `32 (r % 4) + j`. -/
theorem tabIdx_block (w : Fin 32) (r : Fin 320) (j : ℕ) (hj : j < 32) :
    tabIdx (⟨320 * w.val + r.val, by omega⟩ : Fin 10240) j hj
      = ix3 w (⟨(r.val / 4) % 80, Nat.mod_lt _ (by decide)⟩ : Fin 80) (⟨(32 * (r.val % 4) + j) % 128, Nat.mod_lt _ (by decide)⟩ : Fin 128) := by
  funext a
  refine Fin.ext ?_
  match a with
  | ⟨0, _⟩ =>
    show (320 * w.val + r.val) / 320 = w.val
    omega
  | ⟨1, _⟩ =>
    show ((320 * w.val + r.val) % 320) / 4 = (r.val / 4) % 80
    omega
  | ⟨2, _⟩ =>
    show 32 * ((320 * w.val + r.val) % 4) + j = (32 * (r.val % 4) + j) % 128
    omega

/-- On worker `w`'s block of rows the kernel's value is the accumulator's, over the worker's slab of the index table. -/
theorem aggFold_block (fx : S100000x128.Idx → F .f32) (iad : S32x80x128.Idx → BitVec 32) (w : Fin 32) (idxv : S80x128.Idx → BitVec 32)
    (hidx : ∀ (c : Fin 80) (p : Fin 128), idxv (ix2 c p) = iad (ix3 w c p)) (r : Fin 320) (c : Fin 128) :
    aggFold (F := F) fx iad (ix2 (⟨320 * w.val + r.val, by omega⟩ : Fin 10240) c) = accVal idxv fx r c := by
  unfold aggFold accVal rowSum
  refine foldRows_congr _ _ 31 fun j hj => ?_
  have hj' : j < 32 := by omega
  dsimp only
  rw [dif_pos hj']
  unfold bufVal
  dsimp only
  rw [hidx]
  exact congrArg (fun i : S32x80x128.Idx => fx (featIdx (iad i) c)) (tabIdx_block w r j hj')

end Acc

/-! ## The worker's slab, landed in the scratch of lists -/

section Slab
variable (d : Dev nD) (L : grid0.Coords)

/-- The squeeze keeps the row-major position: list `c`, word `p` of the 80 lists is entry (0, c, p) of the one slab. -/
theorem squeeze_idx (c : Fin 80) (p : Fin 128) :
    Shape.reshapeEquiv (s := S1x80x128) (s' := S80x128) squeezes_S1x80x128_S80x128.numel_eq (ix2 c p) = ix3 (0 : Fin 1) c p := by
  refine Shape.reshapeEquiv_eq_of_rowMajor _ ?_
  rw [Shape.rowMajor_val_three, Shape.rowMajor_val_two]
  show (0 * 80 + c.val) * 128 + p.val = c.val * 128 + p.val
  omega

/-- List `c`, word `p` of the worker's slab is entry (w, c, p) of the index table, `w` the worker's number. -/
theorem iRowK_emb (c : Fin 80) (p : Fin 128) : (iRowK L).view.emb (ix2 c p) = ix3 (wL L) c p := by
  show (irowK L).emb (Shape.reshapeEquiv (s := S1x80x128) (s' := S80x128) squeezes_S1x80x128_S80x128.numel_eq (ix2 c p)) = _
  rw [squeeze_idx]
  funext a
  refine Fin.ext ?_
  rw [Rect.emb_apply]
  have ho := k0_off1_eq L
  match a with
  | ⟨0, _⟩ =>
    show k0_off1 L 0 + 1 * 0 = 2 * (L 1).val + (L 0).val
    rw [ho]
    show 2 * (L 1).val + (L 0).val + 1 * 0 = 2 * (L 1).val + (L 0).val
    omega
  | ⟨1, _⟩ =>
    show k0_off1 L 1 + 1 * c.val = c.val
    rw [ho]
    show 0 + 1 * c.val = c.val
    omega
  | ⟨2, _⟩ =>
    show k0_off1 L 2 + 1 * p.val = p.val
    rw [ho]
    show 0 + 1 * p.val = p.val
    omega

/-- The worker's slab landed in the scratch of lists, read at list `c`, word `p`: entry (w, c, p) of the index table. -/
theorem slab_apply [FloatOps F] (fs : Buf (Elt F) ((V d (cV L) (jV L)).loc cc0_scratch0)) (iad : Buf (Elt F) (iLoc d)) (c : Fin 80) (p : Fin 128) :
    View.write (Elt F) (sI).view fs ((iRowK L).view.read (Elt F) iad) Finset.univ (ix2 c p) = iad (ix3 (wL L) c p) := by
  simp only [Memref.view_whole, View.write_whole_univ]
  rw [View.read_apply]
  show iad ((iRowK L).view.emb (ix2 c p)) = _
  rw [iRowK_emb]

/-- The same with the payload spelt as a transfer carries it. -/
theorem slab_apply' [FloatOps F] (fs : Buf (Elt F) ((V d (cV L) (jV L)).loc cc0_scratch0)) (iad : Buf (Elt F) (iLoc d)) (c : Fin 80) (p : Fin 128) :
    View.write (Elt F) (sI).view fs (ReadAs.same.apply ((iRowK L).view.read (Elt F) iad)) Finset.univ (ix2 c p) = iad (ix3 (wL L) c p) :=
  slab_apply d L fs iad c p

end Slab

/-! ## A gathered row buffer -/

section Whole
variable {sig' : RefSig} {κ : Kind} {Val : EltTy → Type}

/-- One write of a whole buffer through its whole rectangle leaves the payload. -/
theorem writes_whole_whole (b : Ref sig' κ) (g : b.ty.Contents Val) (w : (Rect.whole b.ty.shape).shape.Idx → Val b.ty.elt) :
    (View.whole b).writes Val g [⟨Rect.whole b.ty.shape, w⟩] = w := by
  funext i
  rw [View.writes_singleton]
  have h := View.write_emb_of_mem (v := (View.whole b).slice (Rect.whole b.ty.shape)) g w (M := Finset.univ) (x := i) (Finset.mem_univ i)
  have he : ((View.whole b).slice (Rect.whole b.ty.shape)).emb i = i := Rect.emb_whole_apply _ i
  rw [he] at h
  exact h.trans (cast_eq _ _)

end Whole

section Gathered
variable [FloatOps F] (d : Dev nD) (L : grid0.Coords)

/-- The squeeze of one list keeps the position: word `p` is entry (0, p) of the one-row slice. -/
theorem squeeze1_idx (p : Fin 128) :
    Shape.reshapeEquiv (s := S1x128) (s' := S128) squeezes_S1x128_S128.numel_eq (ix1 p) = ix2 (0 : Fin 1) p := by
  refine Shape.reshapeEquiv_eq_of_rowMajor _ ?_
  rw [Shape.rowMajor_val_two, Shape.rowMajor_val_one]
  show 0 * 128 + p.val = p.val
  omega

/-- Word `p` of list `c` of the scratch of lists, as the task slices it. -/
theorem lstAt_emb (c : ℕ) (hc : c < 80) (hoff : ∀ a, (![c, 0] : Fin 2 → ℕ) a + S1x128.size a ≤ S80x128.size a) (p : Fin 128) :
    (lstAt ![c, 0] hoff).view.emb (ix1 p) = ix2 (⟨c, hc⟩ : Fin 80) p := by
  show (Rect.unit (s := S80x128) ![c, 0] S1x128.size hoff).emb
    (Shape.reshapeEquiv (s := S1x128) (s' := S128) squeezes_S1x128_S128.numel_eq (ix1 p)) = _
  rw [squeeze1_idx]
  funext a
  refine Fin.ext ?_
  rw [Rect.emb_apply]
  match a with
  | ⟨0, _⟩ =>
    show c + 1 * 0 = c
    omega
  | ⟨1, _⟩ =>
    show 0 + 1 * p.val = p.val
    omega

/-- The task addresses the whole feature table. -/
theorem fAllK_emb (x : S100000x128.Idx) : (fAllK).view.emb x = x := by
  show (Rect.unit (s := S100000x128) ![0, 0] S100000x128.size inb_S100000x128_S100000x128_0_0).emb x = x
  funext a
  refine Fin.ext ?_
  rw [Rect.emb_apply]
  match a with
  | ⟨0, _⟩ =>
    show 0 + 1 * (x 0).val = (x 0).val
    omega
  | ⟨1, _⟩ =>
    show 0 + 1 * (x 1).val = (x 1).val
    omega

/-- What a gather of list `c` delivers, entry by entry: row `p` is the feature row that word `p` of the list names. -/
theorem gatherPayload_bufVal (idxv : Buf (Elt F) ((sI).view.loc (V d (cV L) (jV L)))) (fx : Buf (Elt F) (fLoc d)) (c : ℕ) (hc : c < 80)
    (hoff : ∀ a, (![c, 0] : Fin 2 → ℕ) a + S1x128.size a ≤ S80x128.size a) (hg : S100000x128.Gathers 0 S128x128)
    (hn : S128.numel = S128x128.size hg.axis')
    (hin' : ∀ x, ((lstAt ![c, 0] hoff).view.read (Elt F) idxv x).toNat < S100000x128.size hg.axis) (i : S128x128.Idx) :
    SparseCore.gatherPayload hg ((fAllK).view.read (Elt F) fx) (SparseCore.rows ((lstAt ![c, 0] hoff).view.read (Elt F) idxv) hn hin') i
      = bufVal idxv fx c i := by
  unfold SparseCore.gatherPayload bufVal
  rw [View.read_apply]
  show fx ((fAllK).view.emb (hg.idx _ i)) = _
  rw [fAllK_emb]
  refine congrArg fx ?_
  funext a
  refine Fin.ext ?_
  match a with
  | ⟨0, _⟩ =>
    have hx : S128.rowMajor.symm ((i hg.axis').cast hn.symm) = ix1 (⟨(i 0).val, (i 0).isLt⟩ : Fin 128) := by
      apply S128.rowMajor.injective
      rw [Equiv.apply_symm_apply]
      refine Fin.ext ?_
      rw [Shape.rowMajor_val_one]
      rfl
    have hw : (lstAt ![c, 0] hoff).view.read (Elt F) idxv (ix1 (⟨(i 0).val, (i 0).isLt⟩ : Fin 128))
        = idxv (ix2 (⟨c % 80, Nat.mod_lt _ (by decide)⟩ : Fin 80) (⟨(i 0).val, (i 0).isLt⟩ : Fin 128)) := by
      rw [View.read_apply]
      show idxv ((lstAt ![c, 0] hoff).view.emb (ix1 (⟨(i 0).val, (i 0).isLt⟩ : Fin 128))) = _
      rw [lstAt_emb c hc hoff]
      exact congrArg (fun k : Fin 80 => idxv (ix2 k (⟨(i 0).val, (i 0).isLt⟩ : Fin 128))) (Fin.ext (Nat.mod_eq_of_lt hc).symm)
    have hlt := hin' (ix1 (⟨(i 0).val, (i 0).isLt⟩ : Fin 128))
    rw [hw] at hlt
    refine (congrArg Fin.val (Shape.Gathers.idx_axis hg _ i)).trans ?_
    show ((lstAt ![c, 0] hoff).view.read (Elt F) idxv (S128.rowMajor.symm ((i hg.axis').cast hn.symm))).toNat
      = (Cert.Spec.rowOf (idxv (ix2 (⟨c % 80, Nat.mod_lt _ (by decide)⟩ : Fin 80) (⟨(i 0).val, (i 0).isLt⟩ : Fin 128)))).val
    rw [hx, hw, Cert.Spec.rowOf_val hlt]
  | ⟨1, h1⟩ =>
    refine (Shape.Gathers.idx_of_ne hg _ i ⟨1, h1⟩ (Nat.succ_ne_zero 0)).trans ?_
    rfl

/-- After a gather of list `c` a row buffer holds, row by row, the feature rows the list's words name. -/
theorem gathered_eq0 (g_old : Buf (Elt F) ((b0).view.loc (V d (cV L) (jV L)))) (idxv : Buf (Elt F) ((sI).view.loc (V d (cV L) (jV L))))
    (fx : Buf (Elt F) (fLoc d)) (off : Fin 2 → ℕ) (hoff : ∀ a, off a + S1x128.size a ≤ S80x128.size a) (hg : S100000x128.Gathers 0 S128x128)
    (hn : S128.numel = S128x128.size hg.axis') (hin' : ∀ x, ((lstAt off hoff).view.read (Elt F) idxv x).toNat < S100000x128.size hg.axis)
    (c : ℕ) (hc : c < 80) (hoffc : off = ![c, 0]) :
    (b0).view.writes (Elt F) g_old [⟨Rect.whole cc0_scratch2.ty.shape,
        SparseCore.gatherPayload hg ((fAllK).view.read (Elt F) fx) (SparseCore.rows ((lstAt off hoff).view.read (Elt F) idxv) hn hin')⟩]
      = bufVal idxv fx c := by
  subst hoffc
  refine (writes_whole_whole cc0_scratch2 g_old _).trans ?_
  funext i
  exact gatherPayload_bufVal d L idxv fx c hc hoff hg hn hin' i

/-- The same for the next row buffer. -/
theorem gathered_eq1 (g_old : Buf (Elt F) ((b1).view.loc (V d (cV L) (jV L)))) (idxv : Buf (Elt F) ((sI).view.loc (V d (cV L) (jV L))))
    (fx : Buf (Elt F) (fLoc d)) (off : Fin 2 → ℕ) (hoff : ∀ a, off a + S1x128.size a ≤ S80x128.size a) (hg : S100000x128.Gathers 0 S128x128)
    (hn : S128.numel = S128x128.size hg.axis') (hin' : ∀ x, ((lstAt off hoff).view.read (Elt F) idxv x).toNat < S100000x128.size hg.axis)
    (c : ℕ) (hc : c < 80) (hoffc : off = ![c, 0]) :
    (b1).view.writes (Elt F) g_old [⟨Rect.whole cc0_scratch3.ty.shape,
        SparseCore.gatherPayload hg ((fAllK).view.read (Elt F) fx) (SparseCore.rows ((lstAt off hoff).view.read (Elt F) idxv) hn hin')⟩]
      = bufVal idxv fx c := by
  subst hoffc
  refine (writes_whole_whole cc0_scratch3 g_old _).trans ?_
  funext i
  exact gatherPayload_bufVal d L idxv fx c hc hoff hg hn hin' i

/-- The same for the next row buffer. -/
theorem gathered_eq2 (g_old : Buf (Elt F) ((b2).view.loc (V d (cV L) (jV L)))) (idxv : Buf (Elt F) ((sI).view.loc (V d (cV L) (jV L))))
    (fx : Buf (Elt F) (fLoc d)) (off : Fin 2 → ℕ) (hoff : ∀ a, off a + S1x128.size a ≤ S80x128.size a) (hg : S100000x128.Gathers 0 S128x128)
    (hn : S128.numel = S128x128.size hg.axis') (hin' : ∀ x, ((lstAt off hoff).view.read (Elt F) idxv x).toNat < S100000x128.size hg.axis)
    (c : ℕ) (hc : c < 80) (hoffc : off = ![c, 0]) :
    (b2).view.writes (Elt F) g_old [⟨Rect.whole cc0_scratch4.ty.shape,
        SparseCore.gatherPayload hg ((fAllK).view.read (Elt F) fx) (SparseCore.rows ((lstAt off hoff).view.read (Elt F) idxv) hn hin')⟩]
      = bufVal idxv fx c := by
  subst hoffc
  refine (writes_whole_whole cc0_scratch4 g_old _).trans ?_
  funext i
  exact gatherPayload_bufVal d L idxv fx c hc hoff hg hn hin' i

/-- The same for the next row buffer. -/
theorem gathered_eq3 (g_old : Buf (Elt F) ((b3).view.loc (V d (cV L) (jV L)))) (idxv : Buf (Elt F) ((sI).view.loc (V d (cV L) (jV L))))
    (fx : Buf (Elt F) (fLoc d)) (off : Fin 2 → ℕ) (hoff : ∀ a, off a + S1x128.size a ≤ S80x128.size a) (hg : S100000x128.Gathers 0 S128x128)
    (hn : S128.numel = S128x128.size hg.axis') (hin' : ∀ x, ((lstAt off hoff).view.read (Elt F) idxv x).toNat < S100000x128.size hg.axis)
    (c : ℕ) (hc : c < 80) (hoffc : off = ![c, 0]) :
    (b3).view.writes (Elt F) g_old [⟨Rect.whole cc0_scratch5.ty.shape,
        SparseCore.gatherPayload hg ((fAllK).view.read (Elt F) fx) (SparseCore.rows ((lstAt off hoff).view.read (Elt F) idxv) hn hin')⟩]
      = bufVal idxv fx c := by
  subst hoffc
  refine (writes_whole_whole cc0_scratch5 g_old _).trans ?_
  funext i
  exact gatherPayload_bufVal d L idxv fx c hc hoff hg hn hin' i

end Gathered

/-! ## The worker's block of the result -/

section Out
variable [FloatOps F] (m : (ℓ : Loc nD τ sig) → Buf (Elt F) ℓ) (ia : (d : Dev nD) → Buf (Elt F) (iLoc d)) (d : Dev nD) (L : grid0.Coords)

omit [FloatOps F] in
/-- Entry (r, c) of the worker's block is entry (320 w + r, c) of the result, `w` the worker's number. -/
theorem oRowK_emb (y : S320x128.Idx) :
    (oRowK L).view.emb y = ix2 (⟨320 * (wL L).val + (y 0).val, by have := (wL L).isLt; have := idx2_lt0 y; omega⟩ : Fin 10240)
      (⟨(y 1).val, idx2_lt1 y⟩ : Fin 128) := by
  show (orowK L).emb y = _
  funext a
  refine Fin.ext ?_
  rw [Rect.emb_apply]
  have ho := k0_off103_eq L
  match a with
  | ⟨0, _⟩ =>
    show k0_off103 L 0 + 1 * (y 0).val = 320 * (2 * (L 1).val + (L 0).val) + (y 0).val
    rw [ho]
    show 640 * (L 1).val + 320 * (L 0).val + 1 * (y 0).val = 320 * (2 * (L 1).val + (L 0).val) + (y 0).val
    omega
  | ⟨1, _⟩ =>
    show k0_off103 L 1 + 1 * (y 1).val = (y 1).val
    rw [ho]
    show 0 + 1 * (y 1).val = (y 1).val
    omega

/-- The accumulator, all 320 rows summed, copied out to the worker's block of the result: the block holds the kernel's
    value. -/
theorem out_block (idxv : S80x128.Idx → BitVec 32) (fa : S320x128.Idx → F .f32)
    (hacc : AccOK (accVal idxv (m (fLoc d))) 320 fa) (hidx : ∀ (c : Fin 80) (p : Fin 128), idxv (ix2 c p) = ia d (ix3 (wL L) c p)) :
    ((oRowK L).view.loc (V d (cV L) (jV L)) ↦[(oRowK L).view.set]{fullShare} View.write (Elt F) (oRowK L).view (m (oLoc d)) fa Finset.univ : sProp 𝕄)
      ⊢ oLoc d ↦[oRowSet (wL L)]{fullShare} aggFold (F := F) (m (fLoc d)) (ia d) := by
  rw [pts_oRowK]
  refine Entails.of_eq (pointsTo_congr fun i hi => ?_)
  rw [← set_oRowK L] at hi
  obtain ⟨y, -, rfl⟩ := Finset.mem_map.mp hi
  rw [View.write_emb_of_mem _ _ (Finset.mem_univ y), oRowK_emb L y]
  refine (cast_eq _ _).trans ?_
  rw [AccOK_all _ fa hacc y]
  exact (aggFold_block (m (fLoc d)) (ia d) (wL L) idxv hidx ⟨(y 0).val, idx2_lt0 y⟩ ⟨(y 1).val, idx2_lt1 y⟩).symm

/-- The same with the copy spelt as one write through the whole rectangle of the block. -/
theorem out_block' (idxv : S80x128.Idx → BitVec 32) (fa : S320x128.Idx → F .f32)
    (hacc : AccOK (accVal idxv (m (fLoc d))) 320 fa) (hidx : ∀ (c : Fin 80) (p : Fin 128), idxv (ix2 c p) = ia d (ix3 (wL L) c p)) :
    ((oRowK L).view.loc (V d (cV L) (jV L)) ↦[(oRowK L).view.set]{fullShare}
        (oRowK L).view.writes (Elt F) (m (oLoc d)) [⟨Rect.whole S320x128, fa⟩] : sProp 𝕄)
      ⊢ oLoc d ↦[oRowSet (wL L)]{fullShare} aggFold (F := F) (m (fLoc d)) (ia d) := by
  rw [pts_oRowK]
  refine Entails.of_eq (pointsTo_congr fun i hi => ?_)
  rw [← set_oRowK L] at hi
  obtain ⟨y, -, rfl⟩ := Finset.mem_map.mp hi
  have he : ((oRowK L).view.slice (Rect.whole S320x128)).emb y = (oRowK L).view.emb y :=
    congrArg (oRowK L).view.emb (Rect.emb_whole_apply S320x128 y)
  have h := View.write_emb_of_mem (v := (oRowK L).view.slice (Rect.whole S320x128)) (m (oLoc d)) fa (M := Finset.univ) (x := y)
    (Finset.mem_univ y)
  rw [he] at h
  refine (h.trans (cast_eq _ _)).trans ?_
  rw [oRowK_emb L y, AccOK_all _ fa hacc y]
  exact (aggFold_block (m (fLoc d)) (ia d) (wL L) idxv hidx ⟨(y 0).val, idx2_lt0 y⟩ ⟨(y 1).val, idx2_lt1 y⟩).symm

end Out

end Cert.Proof.KA

end
-- ==== Proof.KA_Inv.lean ====
/-
  One vector subcore's task, the invariants. Before outer trip `k` the accumulator's rows below `16 k` hold their sums
  and, for each of the four row buffers, the gather of list `4 k + b` is in flight into it (after the last trip: the
  buffer, its semaphore at zero and its shares are back). Before inner trip `n` over a row buffer, rows below
  `16 k + 4 b + n` hold their sums; one inner trip sums one more row.
-/
import proofs.«202836_g53523882443255_cont_9to1_m_1194_32_alg».proof.Proof.KA_BodyPre
import proofs.«202836_g53523882443255_cont_9to1_m_1194_32_alg».proof.Proof.KA_TileValue

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section Inv0
variable [FloatOps F] (d : Dev nD) (L : grid0.Coords)

omit m ρ in
theorem accOK_cast {val : Fin 320 → Fin 128 → F .f32} {R R' : ℕ} {fa : S320x128.Idx → F .f32} (h : R = R') (hacc : AccOK val R fa) : AccOK val R' fa := h ▸ hacc

section Inv
variable (O : CellTallies nD τ sig (HIx 1)) (W : Waits sig (HIx 1)) (idxv : Buf (Elt F) ((sI).view.loc (V d (cV L) (jV L))))

def grp0 (k : ℕ) : sProp 𝕄 :=
  if hk : k < 20 then
    iprop(∃ g, gatherGrp m d L b0 cc0_scratch6.sem g ![4 * k + 0, 0] (hrow _ (by omega)) (Transfers.shareTokN fullShare 0) idxv 0 ∗ ⌜g = bufVal idxv (m (fLoc d)) (4 * k + 0)⌝)
  else
    iprop((∃ g, (b0).view.loc (V d (cV L) (jV L)) ↦{fullShare} g) ∗ semVal ((V d (cV L) (jV L)), SemLoc.dma cc0_scratch6.sem) 0
      ∗ ((sI).view.loc (V d (cV L) (jV L)) ↦{Transfers.shareTokN fullShare 0} idxv) ∗ ((fV).view.loc (V d (cV L) (jV L)) ↦{Transfers.shareTokN (fq (wL L)) 0} (m (fLoc d))))

def grp1 (k : ℕ) : sProp 𝕄 :=
  if hk : k < 20 then
    iprop(∃ g, gatherGrp m d L b1 cc0_scratch7.sem g ![4 * k + 1, 0] (hrow _ (by omega)) (Transfers.shareTokN fullShare 1) idxv 1 ∗ ⌜g = bufVal idxv (m (fLoc d)) (4 * k + 1)⌝)
  else
    iprop((∃ g, (b1).view.loc (V d (cV L) (jV L)) ↦{fullShare} g) ∗ semVal ((V d (cV L) (jV L)), SemLoc.dma cc0_scratch7.sem) 0
      ∗ ((sI).view.loc (V d (cV L) (jV L)) ↦{Transfers.shareTokN fullShare 1} idxv) ∗ ((fV).view.loc (V d (cV L) (jV L)) ↦{Transfers.shareTokN (fq (wL L)) 1} (m (fLoc d))))

def grp2 (k : ℕ) : sProp 𝕄 :=
  if hk : k < 20 then
    iprop(∃ g, gatherGrp m d L b2 cc0_scratch8.sem g ![4 * k + 2, 0] (hrow _ (by omega)) (Transfers.shareTokN fullShare 2) idxv 2 ∗ ⌜g = bufVal idxv (m (fLoc d)) (4 * k + 2)⌝)
  else
    iprop((∃ g, (b2).view.loc (V d (cV L) (jV L)) ↦{fullShare} g) ∗ semVal ((V d (cV L) (jV L)), SemLoc.dma cc0_scratch8.sem) 0
      ∗ ((sI).view.loc (V d (cV L) (jV L)) ↦{Transfers.shareTokN fullShare 2} idxv) ∗ ((fV).view.loc (V d (cV L) (jV L)) ↦{Transfers.shareTokN (fq (wL L)) 2} (m (fLoc d))))

def grp3 (k : ℕ) : sProp 𝕄 :=
  if hk : k < 20 then
    iprop(∃ g, gatherGrp m d L b3 cc0_scratch9.sem g ![4 * k + 3, 0] (hrow _ (by omega)) (Transfers.shareDrop fullShare 3) idxv 3 ∗ ⌜g = bufVal idxv (m (fLoc d)) (4 * k + 3)⌝)
  else
    iprop((∃ g, (b3).view.loc (V d (cV L) (jV L)) ↦{fullShare} g) ∗ semVal ((V d (cV L) (jV L)), SemLoc.dma cc0_scratch9.sem) 0
      ∗ ((sI).view.loc (V d (cV L) (jV L)) ↦{Transfers.shareDrop fullShare 3} idxv) ∗ ((fV).view.loc (V d (cV L) (jV L)) ↦{Transfers.shareTokN (fq (wL L)) 3} (m (fLoc d))))

/-- Before outer trip `k`: accumulator rows below `16 k` summed; for each row buffer, the gather of list `4 k + b` in
    flight into it — or, after the last trip, the buffer, its semaphore at zero and its shares back. -/
def invO (k : ℕ) (_ : Unit) : sProp 𝕄 :=
  iprop(Transfers.MayWaits (V d (cV L) (jV L)) (default : HIx 1) O
    ∗ (∃ fa, ((sA).view.loc (V d (cV L) (jV L)) ↦{fullShare} fa) ∗ ⌜AccOK (accVal idxv (m (fLoc d))) (16 * k) fa⌝)
    ∗ ((fV).view.loc (V d (cV L) (jV L)) ↦{Transfers.shareDrop (fq (wL L)) 4} (m (fLoc d)))
    ∗ (∃ W', ⌜∀ p ∈ W', p ∈ W ∨ p.2 = none⌝ ∗ owes (V d (cV L) (jV L)) O W')
    ∗ grp0 m d L idxv k ∗ grp1 m d L idxv k ∗ grp2 m d L idxv k ∗ grp3 m d L idxv k)

end Inv

/-- Before inner trip `n` over row buffer 0: the buffer as gathered, accumulator rows below `R0 + n` summed. -/
def invI0 (idxv : Buf (Elt F) ((sI).view.loc (V d (cV L) (jV L)))) (fx : Buf (Elt F) (fLoc d))
    (g : Buf (Elt F) ((b0).view.loc (V d (cV L) (jV L)))) (R0 : ℕ) (n : ℕ) (_ : Unit) : sProp 𝕄 :=
  iprop(((b0).view.loc (V d (cV L) (jV L)) ↦{fullShare} g) ∗ ∃ fa, ((sA).view.loc (V d (cV L) (jV L)) ↦{fullShare} fa) ∗ ⌜AccOK (accVal idxv fx) (R0 + n) fa⌝)

omit m ρ in
theorem invI_step0 (idxv : Buf (Elt F) ((sI).view.loc (V d (cV L) (jV L)))) (fx : Buf (Elt F) (fLoc d))
    (g : Buf (Elt F) ((b0).view.loc (V d (cV L) (jV L)))) (k n : ℕ) (hk : k < 20) (hn : n < 4) (hg : g = bufVal idxv fx (4 * k + 0))
    (fa : Buf (Elt F) ((sA).view.loc (V d (cV L) (jV L)))) (hacc : AccOK (accVal idxv fx) (16 * k + 4 * 0 + n) fa) :
    (iprop(((b0).view.loc (V d (cV L) (jV L)) ↦{fullShare} g) ∗ ∃ fa', ((sA).view.loc (V d (cV L) (jV L)) ↦{fullShare} fa') ∗ ⌜RowStep (16 * k + 4 * 0 + n) (32 * n) g fa fa'⌝) : sProp 𝕄)
      ⊢ invI0 (F := F) d L idxv fx g (16 * k + 4 * 0) (n + 1) () := by
  unfold invI0
  iintro ⟨Hb, %fa', HsA, %hs⟩
  isplitl [Hb]; · iexact Hb
  iexists fa'; isplitl [HsA]; · iexact HsA
  ipureintro; exact accOK_cast (by omega) (acc_step idxv fx k 0 n hk (by omega) hn g hg fa fa' hacc hs)

/-- Before inner trip `n` over row buffer 1: the buffer as gathered, accumulator rows below `R0 + n` summed. -/
def invI1 (idxv : Buf (Elt F) ((sI).view.loc (V d (cV L) (jV L)))) (fx : Buf (Elt F) (fLoc d))
    (g : Buf (Elt F) ((b1).view.loc (V d (cV L) (jV L)))) (R0 : ℕ) (n : ℕ) (_ : Unit) : sProp 𝕄 :=
  iprop(((b1).view.loc (V d (cV L) (jV L)) ↦{fullShare} g) ∗ ∃ fa, ((sA).view.loc (V d (cV L) (jV L)) ↦{fullShare} fa) ∗ ⌜AccOK (accVal idxv fx) (R0 + n) fa⌝)

omit m ρ in
theorem invI_step1 (idxv : Buf (Elt F) ((sI).view.loc (V d (cV L) (jV L)))) (fx : Buf (Elt F) (fLoc d))
    (g : Buf (Elt F) ((b1).view.loc (V d (cV L) (jV L)))) (k n : ℕ) (hk : k < 20) (hn : n < 4) (hg : g = bufVal idxv fx (4 * k + 1))
    (fa : Buf (Elt F) ((sA).view.loc (V d (cV L) (jV L)))) (hacc : AccOK (accVal idxv fx) (16 * k + 4 * 1 + n) fa) :
    (iprop(((b1).view.loc (V d (cV L) (jV L)) ↦{fullShare} g) ∗ ∃ fa', ((sA).view.loc (V d (cV L) (jV L)) ↦{fullShare} fa') ∗ ⌜RowStep (16 * k + 4 * 1 + n) (32 * n) g fa fa'⌝) : sProp 𝕄)
      ⊢ invI1 (F := F) d L idxv fx g (16 * k + 4 * 1) (n + 1) () := by
  unfold invI1
  iintro ⟨Hb, %fa', HsA, %hs⟩
  isplitl [Hb]; · iexact Hb
  iexists fa'; isplitl [HsA]; · iexact HsA
  ipureintro; exact accOK_cast (by omega) (acc_step idxv fx k 1 n hk (by omega) hn g hg fa fa' hacc hs)

/-- Before inner trip `n` over row buffer 2: the buffer as gathered, accumulator rows below `R0 + n` summed. -/
def invI2 (idxv : Buf (Elt F) ((sI).view.loc (V d (cV L) (jV L)))) (fx : Buf (Elt F) (fLoc d))
    (g : Buf (Elt F) ((b2).view.loc (V d (cV L) (jV L)))) (R0 : ℕ) (n : ℕ) (_ : Unit) : sProp 𝕄 :=
  iprop(((b2).view.loc (V d (cV L) (jV L)) ↦{fullShare} g) ∗ ∃ fa, ((sA).view.loc (V d (cV L) (jV L)) ↦{fullShare} fa) ∗ ⌜AccOK (accVal idxv fx) (R0 + n) fa⌝)

omit m ρ in
theorem invI_step2 (idxv : Buf (Elt F) ((sI).view.loc (V d (cV L) (jV L)))) (fx : Buf (Elt F) (fLoc d))
    (g : Buf (Elt F) ((b2).view.loc (V d (cV L) (jV L)))) (k n : ℕ) (hk : k < 20) (hn : n < 4) (hg : g = bufVal idxv fx (4 * k + 2))
    (fa : Buf (Elt F) ((sA).view.loc (V d (cV L) (jV L)))) (hacc : AccOK (accVal idxv fx) (16 * k + 4 * 2 + n) fa) :
    (iprop(((b2).view.loc (V d (cV L) (jV L)) ↦{fullShare} g) ∗ ∃ fa', ((sA).view.loc (V d (cV L) (jV L)) ↦{fullShare} fa') ∗ ⌜RowStep (16 * k + 4 * 2 + n) (32 * n) g fa fa'⌝) : sProp 𝕄)
      ⊢ invI2 (F := F) d L idxv fx g (16 * k + 4 * 2) (n + 1) () := by
  unfold invI2
  iintro ⟨Hb, %fa', HsA, %hs⟩
  isplitl [Hb]; · iexact Hb
  iexists fa'; isplitl [HsA]; · iexact HsA
  ipureintro; exact accOK_cast (by omega) (acc_step idxv fx k 2 n hk (by omega) hn g hg fa fa' hacc hs)

/-- Before inner trip `n` over row buffer 3: the buffer as gathered, accumulator rows below `R0 + n` summed. -/
def invI3 (idxv : Buf (Elt F) ((sI).view.loc (V d (cV L) (jV L)))) (fx : Buf (Elt F) (fLoc d))
    (g : Buf (Elt F) ((b3).view.loc (V d (cV L) (jV L)))) (R0 : ℕ) (n : ℕ) (_ : Unit) : sProp 𝕄 :=
  iprop(((b3).view.loc (V d (cV L) (jV L)) ↦{fullShare} g) ∗ ∃ fa, ((sA).view.loc (V d (cV L) (jV L)) ↦{fullShare} fa) ∗ ⌜AccOK (accVal idxv fx) (R0 + n) fa⌝)

omit m ρ in
theorem invI_step3 (idxv : Buf (Elt F) ((sI).view.loc (V d (cV L) (jV L)))) (fx : Buf (Elt F) (fLoc d))
    (g : Buf (Elt F) ((b3).view.loc (V d (cV L) (jV L)))) (k n : ℕ) (hk : k < 20) (hn : n < 4) (hg : g = bufVal idxv fx (4 * k + 3))
    (fa : Buf (Elt F) ((sA).view.loc (V d (cV L) (jV L)))) (hacc : AccOK (accVal idxv fx) (16 * k + 4 * 3 + n) fa) :
    (iprop(((b3).view.loc (V d (cV L) (jV L)) ↦{fullShare} g) ∗ ∃ fa', ((sA).view.loc (V d (cV L) (jV L)) ↦{fullShare} fa') ∗ ⌜RowStep (16 * k + 4 * 3 + n) (32 * n) g fa fa'⌝) : sProp 𝕄)
      ⊢ invI3 (F := F) d L idxv fx g (16 * k + 4 * 3) (n + 1) () := by
  unfold invI3
  iintro ⟨Hb, %fa', HsA, %hs⟩
  isplitl [Hb]; · iexact Hb
  iexists fa'; isplitl [HsA]; · iexact HsA
  ipureintro; exact accOK_cast (by omega) (acc_step idxv fx k 3 n hk (by omega) hn g hg fa fa' hacc hs)

end Inv0

end Cert.Proof.KA

end
-- ==== Proof.KA_Row.lean ====
/-
  One result row, written by eight stores of sixteen lanes each: what the accumulator reads afterwards, given each store's
  payload as the row buffer's 32 rows summed left to right; and the pieces of that — a load of one row piece of the row
  buffer read at a lane, and the stored chain of sums read at a lane as the row sum.
-/
import proofs.«202836_g53523882443255_cont_9to1_m_1194_32_alg».proof.Proof.KA_Pure

noncomputable section

namespace Cert.Proof.KA

open Cert.Kernel
open Idealize.ShloMosaic Idealize.ShloMosaic.ValueIdx

variable {F : FTy → Type} [FloatOps F]

section Row

variable {sig : RefSig} {κ : Kind} {sp : Space}

/-- A load of one row piece — sixteen lanes of row `P` from column `C` — of a 128 × 128 buffer, read at lane `y`: the
    buffer at `(P, C + y)`. -/
theorem readAt_rowPiece (v : View sig κ sp S128x128 .f32) {off : Fin 2 → ℕ}
    (inb : ∀ a, off a + S1x16.size a ≤ S128x128.size a) {P C : ℕ} (e : off = ![P, C]) (g : v.ty.Contents (Elt F))
    (y : Fin 16) (hP : P < 128) (hC : C + y.val < 128) :
    v.readAt (Elt F) (Rect.unit (s := S128x128) off S1x16.size inb).toLoadRect g (ix2 (0 : Fin 1) y)
      = v.read (Elt F) g (ix2 (⟨P, hP⟩ : Fin 128) (⟨C + y.val, hC⟩ : Fin 128)) := by
  subst e
  rw [View.readAt_apply]
  refine congrArg (v.read (Elt F) g) (funext fun a => Fin.ext ?_)
  match a with
  | ⟨0, _⟩ =>
    show P + 1 * 0 = P
    omega
  | ⟨1, _⟩ =>
    show C + 1 * y.val = C + y.val
    omega

/-- The stored chain of sums over 32 loaded pieces, read at the lane of column `c`: when piece `j` is row `p0 + j` of the
    row buffer from column `C`, it is the row sum at `c`. -/
theorem storeV_chainV_rowSum [Cert.Kernel.Facts] (g : S128x128.Idx → F .f32) (p0 C : ℕ) (hp : p0 + 31 < 128) (hC : C + 16 ≤ 128)
    (l : ℕ → Vec F S1x16 .f32)
    (hl : ∀ (j : ℕ) (hj : j ≤ 31) (y : Fin 16),
      l j (ix2 (0 : Fin 1) y) = g (ix2 (⟨p0 + j, by omega⟩ : Fin 128) (⟨C + y.val, by omega⟩ : Fin 128)))
    (c : Fin 128) (h1 : C ≤ c.val) (h2 : c.val < C + 16) :
    shapeCast S1x16 (chainV l 31) Facts₀.shapeCasts_S16_S1x16 (ix2 (0 : Fin 1) (⟨c.val - C, by omega⟩ : Fin 16)) = rowSum g p0 c := by
  rw [storeV_chainV_apply]
  unfold rowSum
  refine foldRows_congr _ _ 31 fun j hj => ?_
  beta_reduce
  rw [hl j hj]
  refine congrArg g (funext fun a => Fin.ext ?_)
  match a with
  | ⟨0, _⟩ =>
    show p0 + j = (p0 + j) % 128
    rw [Nat.mod_eq_of_lt (by omega)]
  | ⟨1, _⟩ =>
    show C + (c.val - C) = c.val
    omega

/-! ## The 32 row pieces one chain loads -/

/-- The pieces a chain loads from a 128 × 128 buffer, by number: piece 0 through the offsets `offA n`, piece `j + 1`
    (`j < 31`) through `offB n` at the word `1 + j` (past the 32 pieces, piece 0 again, so that the function is total). -/
def ldPieces (v : View sig κ sp S128x128 .f32) (g : v.ty.Contents (Elt F)) {N : ℕ} (n : Fin N)
    (offA : Fin N → Fin 2 → ℕ) (offB : Fin N → BitVec 32 → Fin 2 → ℕ)
    (inbA : ∀ n : Fin N, ∀ a, offA n a + S1x16.size a ≤ S128x128.size a)
    (inbB : ∀ n : Fin N, ∀ (r : Fin 31), ∀ a, offB n (BitVec.ofNat 32 (1 + r.val)) a + S1x16.size a ≤ S128x128.size a) :
    ℕ → Vec F S1x16 .f32
  | 0 => v.readAt (Elt F) (Rect.unit (s := S128x128) (offA n) S1x16.size (inbA n)).toLoadRect g
  | j + 1 =>
    if h : j < 31 then
      v.readAt (Elt F) (Rect.unit (s := S128x128) (offB n (BitVec.ofNat 32 (1 + j))) S1x16.size (inbB n ⟨j, h⟩)).toLoadRect g
    else v.readAt (Elt F) (Rect.unit (s := S128x128) (offA n) S1x16.size (inbA n)).toLoadRect g

/-- When the offsets are row `32 n + j` and column `C`, piece `j` read at lane `y` is the buffer at `(32 n + j, C + y)`. -/
theorem ldPieces_apply (v : View sig κ sp S128x128 .f32) (g : v.ty.Contents (Elt F)) {N : ℕ} (n : Fin N) (hN : N ≤ 4)
    (offA : Fin N → Fin 2 → ℕ) (offB : Fin N → BitVec 32 → Fin 2 → ℕ)
    (inbA : ∀ n : Fin N, ∀ a, offA n a + S1x16.size a ≤ S128x128.size a)
    (inbB : ∀ n : Fin N, ∀ (r : Fin 31), ∀ a, offB n (BitVec.ofNat 32 (1 + r.val)) a + S1x16.size a ≤ S128x128.size a)
    (C : ℕ) (hC : C + 16 ≤ 128) (eA : ∀ n : Fin N, offA n = ![32 * n.val, C])
    (eB : ∀ n : Fin N, ∀ (r : Fin 31), offB n (BitVec.ofNat 32 (1 + r.val)) = ![32 * n.val + r.val + 1, C])
    (j : ℕ) (hj : j ≤ 31) (y : Fin 16) :
    ldPieces v g n offA offB inbA inbB j (ix2 (0 : Fin 1) y)
      = v.read (Elt F) g (ix2 (⟨32 * n.val + j, by have := n.isLt; omega⟩ : Fin 128) (⟨C + y.val, by omega⟩ : Fin 128)) := by
  cases j with
  | zero => exact readAt_rowPiece v (inbA n) (eA n) g y _ _
  | succ j =>
    have hj' : j < 31 := by omega
    show (if h : j < 31 then
        v.readAt (Elt F) (Rect.unit (s := S128x128) (offB n (BitVec.ofNat 32 (1 + j))) S1x16.size (inbB n ⟨j, h⟩)).toLoadRect g
      else v.readAt (Elt F) (Rect.unit (s := S128x128) (offA n) S1x16.size (inbA n)).toLoadRect g) (ix2 (0 : Fin 1) y) = _
    rw [dif_pos hj']
    exact readAt_rowPiece v (inbB n ⟨j, hj'⟩) (eB n ⟨j, hj'⟩) g y _ _

variable (v : View sig κ sp S320x128 .f32)

/-- The head write of a list read inside its piece, the index given by its coordinates. -/
theorem read_writes_cons_rowPiece_at {R C : ℕ} (h : ∀ a, (![R, C] : Fin 2 → ℕ) a + S1x16.size a ≤ S320x128.size a)
    (f : v.ty.Contents (Elt F)) (pay : S1x16.Idx → F .f32) (L : List (View.Piece (Elt F) S320x128 .f32)) (r : Fin 320)
    (c : Fin 128) (hr : r.val = R) (h1 : C ≤ c.val) (h2 : c.val < C + 16) :
    v.read (Elt F) (v.writes (Elt F) f (⟨Rect.unit (s := S320x128) ![R, C] S1x16.size h, pay⟩ :: L)) (ix2 r c)
      = pay (ix2 (0 : Fin 1) (⟨c.val - C, by omega⟩ : Fin 16)) := by
  have e : (ix2 r c : S320x128.Idx)
      = ix2 (⟨R, rowPiece_row_lt h⟩ : Fin 320)
          (⟨C + (⟨c.val - C, by omega⟩ : Fin 16).val, rowPiece_col_lt h (⟨c.val - C, by omega⟩ : Fin 16)⟩ : Fin 128) := by
    funext a
    refine Fin.ext ?_
    match a with
    | ⟨0, _⟩ => exact hr
    | ⟨1, _⟩ =>
      show c.val = C + (c.val - C)
      omega
  rw [e]
  exact read_writes_cons_rowPiece v h f pay L _

/-- EIGHT STORES OF ONE ROW. Over contents `f`, the eight pieces of row `R` at columns 0, 16, …, 112 written in that order,
    each payload the row sum on its sixteen columns: every other row reads as before, row `R` reads the row sum. -/
theorem rowStep_writes8 {R p0 : ℕ} (g : S128x128.Idx → F .f32) (f : v.ty.Contents (Elt F))
    {o0 o1 o2 o3 o4 o5 o6 o7 : Fin 2 → ℕ}
    (h0 : ∀ a, o0 a + S1x16.size a ≤ S320x128.size a)
    (h1 : ∀ a, o1 a + S1x16.size a ≤ S320x128.size a)
    (h2 : ∀ a, o2 a + S1x16.size a ≤ S320x128.size a)
    (h3 : ∀ a, o3 a + S1x16.size a ≤ S320x128.size a)
    (h4 : ∀ a, o4 a + S1x16.size a ≤ S320x128.size a)
    (h5 : ∀ a, o5 a + S1x16.size a ≤ S320x128.size a)
    (h6 : ∀ a, o6 a + S1x16.size a ≤ S320x128.size a)
    (h7 : ∀ a, o7 a + S1x16.size a ≤ S320x128.size a)
    (e0 : o0 = ![R, 0])     (e1 : o1 = ![R, 16])     (e2 : o2 = ![R, 32])     (e3 : o3 = ![R, 48])     (e4 : o4 = ![R, 64])     (e5 : o5 = ![R, 80])     (e6 : o6 = ![R, 96])     (e7 : o7 = ![R, 112])
    (w0 w1 w2 w3 w4 w5 w6 w7 : S1x16.Idx → F .f32)
    (hw0 : ∀ (c : Fin 128) (h1 : 0 ≤ c.val) (h2 : c.val < 0 + 16), w0 (ix2 (0 : Fin 1) (⟨c.val - 0, by omega⟩ : Fin 16)) = rowSum g p0 c)
    (hw1 : ∀ (c : Fin 128) (h1 : 16 ≤ c.val) (h2 : c.val < 16 + 16), w1 (ix2 (0 : Fin 1) (⟨c.val - 16, by omega⟩ : Fin 16)) = rowSum g p0 c)
    (hw2 : ∀ (c : Fin 128) (h1 : 32 ≤ c.val) (h2 : c.val < 32 + 16), w2 (ix2 (0 : Fin 1) (⟨c.val - 32, by omega⟩ : Fin 16)) = rowSum g p0 c)
    (hw3 : ∀ (c : Fin 128) (h1 : 48 ≤ c.val) (h2 : c.val < 48 + 16), w3 (ix2 (0 : Fin 1) (⟨c.val - 48, by omega⟩ : Fin 16)) = rowSum g p0 c)
    (hw4 : ∀ (c : Fin 128) (h1 : 64 ≤ c.val) (h2 : c.val < 64 + 16), w4 (ix2 (0 : Fin 1) (⟨c.val - 64, by omega⟩ : Fin 16)) = rowSum g p0 c)
    (hw5 : ∀ (c : Fin 128) (h1 : 80 ≤ c.val) (h2 : c.val < 80 + 16), w5 (ix2 (0 : Fin 1) (⟨c.val - 80, by omega⟩ : Fin 16)) = rowSum g p0 c)
    (hw6 : ∀ (c : Fin 128) (h1 : 96 ≤ c.val) (h2 : c.val < 96 + 16), w6 (ix2 (0 : Fin 1) (⟨c.val - 96, by omega⟩ : Fin 16)) = rowSum g p0 c)
    (hw7 : ∀ (c : Fin 128) (h1 : 112 ≤ c.val) (h2 : c.val < 112 + 16), w7 (ix2 (0 : Fin 1) (⟨c.val - 112, by omega⟩ : Fin 16)) = rowSum g p0 c) :
    (∀ (r : Fin 320) (c : Fin 128), r.val ≠ R →
        v.read (Elt F) (v.writes (Elt F) f
          [⟨Rect.unit (s := S320x128) o7 S1x16.size h7, w7⟩,
        ⟨Rect.unit (s := S320x128) o6 S1x16.size h6, w6⟩,
        ⟨Rect.unit (s := S320x128) o5 S1x16.size h5, w5⟩,
        ⟨Rect.unit (s := S320x128) o4 S1x16.size h4, w4⟩,
        ⟨Rect.unit (s := S320x128) o3 S1x16.size h3, w3⟩,
        ⟨Rect.unit (s := S320x128) o2 S1x16.size h2, w2⟩,
        ⟨Rect.unit (s := S320x128) o1 S1x16.size h1, w1⟩,
        ⟨Rect.unit (s := S320x128) o0 S1x16.size h0, w0⟩]) (ix2 r c) = v.read (Elt F) f (ix2 r c))
    ∧ (∀ (r : Fin 320) (c : Fin 128), r.val = R →
        v.read (Elt F) (v.writes (Elt F) f
          [⟨Rect.unit (s := S320x128) o7 S1x16.size h7, w7⟩,
        ⟨Rect.unit (s := S320x128) o6 S1x16.size h6, w6⟩,
        ⟨Rect.unit (s := S320x128) o5 S1x16.size h5, w5⟩,
        ⟨Rect.unit (s := S320x128) o4 S1x16.size h4, w4⟩,
        ⟨Rect.unit (s := S320x128) o3 S1x16.size h3, w3⟩,
        ⟨Rect.unit (s := S320x128) o2 S1x16.size h2, w2⟩,
        ⟨Rect.unit (s := S320x128) o1 S1x16.size h1, w1⟩,
        ⟨Rect.unit (s := S320x128) o0 S1x16.size h0, w0⟩]) (ix2 r c) = rowSum g p0 c) := by
  subst e0 e1 e2 e3 e4 e5 e6 e7
  constructor
  · intro r c hr
    rw [read_writes_cons_rowPiece_of_not_mem v h7 f w7 _ r c (fun hh => hr hh.1),
      read_writes_cons_rowPiece_of_not_mem v h6 f w6 _ r c (fun hh => hr hh.1),
      read_writes_cons_rowPiece_of_not_mem v h5 f w5 _ r c (fun hh => hr hh.1),
      read_writes_cons_rowPiece_of_not_mem v h4 f w4 _ r c (fun hh => hr hh.1),
      read_writes_cons_rowPiece_of_not_mem v h3 f w3 _ r c (fun hh => hr hh.1),
      read_writes_cons_rowPiece_of_not_mem v h2 f w2 _ r c (fun hh => hr hh.1),
      read_writes_cons_rowPiece_of_not_mem v h1 f w1 _ r c (fun hh => hr hh.1),
      read_writes_cons_rowPiece_of_not_mem v h0 f w0 _ r c (fun hh => hr hh.1)]
    rfl
  · intro r c hr
    by_cases c7 : 112 ≤ c.val
    · rw [read_writes_cons_rowPiece_at v h7 f w7 _ r c hr c7 (by have := c.isLt; omega)]
      exact hw7 c c7 (by have := c.isLt; omega)
    rw [read_writes_cons_rowPiece_of_not_mem v h7 f w7 _ r c (fun hh => c7 hh.2.1)]
    by_cases c6 : 96 ≤ c.val
    · rw [read_writes_cons_rowPiece_at v h6 f w6 _ r c hr c6 (by omega)]
      exact hw6 c c6 (by omega)
    rw [read_writes_cons_rowPiece_of_not_mem v h6 f w6 _ r c (fun hh => c6 hh.2.1)]
    by_cases c5 : 80 ≤ c.val
    · rw [read_writes_cons_rowPiece_at v h5 f w5 _ r c hr c5 (by omega)]
      exact hw5 c c5 (by omega)
    rw [read_writes_cons_rowPiece_of_not_mem v h5 f w5 _ r c (fun hh => c5 hh.2.1)]
    by_cases c4 : 64 ≤ c.val
    · rw [read_writes_cons_rowPiece_at v h4 f w4 _ r c hr c4 (by omega)]
      exact hw4 c c4 (by omega)
    rw [read_writes_cons_rowPiece_of_not_mem v h4 f w4 _ r c (fun hh => c4 hh.2.1)]
    by_cases c3 : 48 ≤ c.val
    · rw [read_writes_cons_rowPiece_at v h3 f w3 _ r c hr c3 (by omega)]
      exact hw3 c c3 (by omega)
    rw [read_writes_cons_rowPiece_of_not_mem v h3 f w3 _ r c (fun hh => c3 hh.2.1)]
    by_cases c2 : 32 ≤ c.val
    · rw [read_writes_cons_rowPiece_at v h2 f w2 _ r c hr c2 (by omega)]
      exact hw2 c c2 (by omega)
    rw [read_writes_cons_rowPiece_of_not_mem v h2 f w2 _ r c (fun hh => c2 hh.2.1)]
    by_cases c1 : 16 ≤ c.val
    · rw [read_writes_cons_rowPiece_at v h1 f w1 _ r c hr c1 (by omega)]
      exact hw1 c c1 (by omega)
    rw [read_writes_cons_rowPiece_of_not_mem v h1 f w1 _ r c (fun hh => c1 hh.2.1)]
    rw [read_writes_cons_rowPiece_at v h0 f w0 _ r c hr (Nat.zero_le _) (by omega)]
    exact hw0 c (Nat.zero_le _) (by omega)

end Row

end Cert.Proof.KA

end
-- ==== Proof.KA_Inner0.lean ====
/-
  One trip of the inner loop over row buffer 0, with its value: the symbolic run of the trip's body and, for what the eight
  stores leave in the accumulator, the row sum of the buffer's 32 rows.
-/
import proofs.«202836_g53523882443255_cont_9to1_m_1194_32_alg».proof.Proof.KA_Tile
import proofs.«202836_g53523882443255_cont_9to1_m_1194_32_alg».proof.Proof.KA_Pure
import proofs.«202836_g53523882443255_cont_9to1_m_1194_32_alg».proof.Proof.KA_Row

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section Body
variable [FloatOps F] (d : Dev nD) (L : grid0.Coords)

omit m ρ in
/-- The inner loop over a row buffer makes four trips. -/
theorem trips2 : k0_t2_loop.trips = 4 := by decide

omit m ρ in
/-- What the accumulator reads after a trip, from what it reads through its whole view. -/
theorem rowStep_of_read {R p0 : ℕ} {g0 : Buf (Elt F) ((b0).view.loc (V d (cV L) (jV L)))}
    {fa fa' : Buf (Elt F) ((sA).view.loc (V d (cV L) (jV L)))}
    (h : (∀ (r : Fin 320) (c : Fin 128), r.val ≠ R →
            (sA).view.read (Elt F) fa' (ix2 r c) = (sA).view.read (Elt F) fa (ix2 r c))
        ∧ (∀ (r : Fin 320) (c : Fin 128), r.val = R → (sA).view.read (Elt F) fa' (ix2 r c) = rowSum g0 p0 c)) :
    RowStep R p0 g0 fa fa' := h

omit m ρ in
set_option maxHeartbeats 4000000 in
/-- ONE TRIP OF THE INNER LOOP OVER ROW BUFFER 0. Trip `n` of the list-group `k` keeps the row buffer and rewrites row
    `16 k + n` of the accumulator with the left-to-right sum of the buffer's rows `32 n, …, 32 n + 31`: eight chains of 32
    loads of sixteen lanes, each stored into its sixteen columns of that row. -/
theorem inner0 (k : Fin k0_t1_loop.trips) (w : BitVec 32) (n : Fin k0_t2_loop.trips)
    (g0 : Buf (Elt F) ((b0).view.loc (V d (cV L) (jV L)))) (fa : Buf (Elt F) ((sA).view.loc (V d (cV L) (jV L)))) :
    (iprop(((b0).view.loc (V d (cV L) (jV L)) ↦{fullShare} g0) ∗ ((sA).view.loc (V d (cV L) (jV L)) ↦{fullShare} fa)) : sProp 𝕄)
      ⊢ wp frame (wpE (defs₀ (F := F)) 𝒱₀ (V d (cV L) (jV L)) none) Set.univ
          (k0_t2_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k w n ())
          fun _ => iprop(((b0).view.loc (V d (cV L) (jV L)) ↦{fullShare} g0)
            ∗ ∃ fa', ((sA).view.loc (V d (cV L) (jV L)) ↦{fullShare} fa') ∗ ⌜RowStep (16 * k.val + n.val) (32 * n.val) g0 fa fa'⌝) := by
  unfold k0_t2_body
  iintro ⟨Hb, HsA⟩
  sl_exec_parts
  sl_step
  isplitl [Hb]
  · iexact Hb
  iexists _
  isplitl [HsA]
  · iexact HsA
  ipureintro
  sl_unfold_run_names
  have hn : n.val < 4 := trips2 ▸ n.isLt
  refine rowStep_of_read d L (rowStep_writes8 (sA).view g0 fa
    (k0_off5_inb k n) (k0_off8_inb k n) (k0_off11_inb k n) (k0_off14_inb k n) (k0_off17_inb k n) (k0_off20_inb k n) (k0_off23_inb k n) (k0_off26_inb k n)
    (k0_off5_eq k n) (k0_off8_eq k n) (k0_off11_eq k n) (k0_off14_eq k n) (k0_off17_eq k n) (k0_off20_eq k n) (k0_off23_eq k n) (k0_off26_eq k n)
    _ _ _ _ _ _ _ _ ?_ ?_ ?_ ?_ ?_ ?_ ?_ ?_)
  · intro c h1 h2
    exact storeV_chainV_rowSum g0 (32 * n.val) 0 (by omega) (by omega)
      (ldPieces (b0).view g0 n k0_off3 k0_off4 k0_off3_inb k0_off4_inb)
      (fun j hj y => ldPieces_apply (b0).view g0 n (Nat.le_of_eq trips2) k0_off3 k0_off4 k0_off3_inb k0_off4_inb 0 (by omega)
        k0_off3_eq k0_off4_eq j hj y) c h1 h2
  · intro c h1 h2
    exact storeV_chainV_rowSum g0 (32 * n.val) 16 (by omega) (by omega)
      (ldPieces (b0).view g0 n k0_off6 k0_off7 k0_off6_inb k0_off7_inb)
      (fun j hj y => ldPieces_apply (b0).view g0 n (Nat.le_of_eq trips2) k0_off6 k0_off7 k0_off6_inb k0_off7_inb 16 (by omega)
        k0_off6_eq k0_off7_eq j hj y) c h1 h2
  · intro c h1 h2
    exact storeV_chainV_rowSum g0 (32 * n.val) 32 (by omega) (by omega)
      (ldPieces (b0).view g0 n k0_off9 k0_off10 k0_off9_inb k0_off10_inb)
      (fun j hj y => ldPieces_apply (b0).view g0 n (Nat.le_of_eq trips2) k0_off9 k0_off10 k0_off9_inb k0_off10_inb 32 (by omega)
        k0_off9_eq k0_off10_eq j hj y) c h1 h2
  · intro c h1 h2
    exact storeV_chainV_rowSum g0 (32 * n.val) 48 (by omega) (by omega)
      (ldPieces (b0).view g0 n k0_off12 k0_off13 k0_off12_inb k0_off13_inb)
      (fun j hj y => ldPieces_apply (b0).view g0 n (Nat.le_of_eq trips2) k0_off12 k0_off13 k0_off12_inb k0_off13_inb 48 (by omega)
        k0_off12_eq k0_off13_eq j hj y) c h1 h2
  · intro c h1 h2
    exact storeV_chainV_rowSum g0 (32 * n.val) 64 (by omega) (by omega)
      (ldPieces (b0).view g0 n k0_off15 k0_off16 k0_off15_inb k0_off16_inb)
      (fun j hj y => ldPieces_apply (b0).view g0 n (Nat.le_of_eq trips2) k0_off15 k0_off16 k0_off15_inb k0_off16_inb 64 (by omega)
        k0_off15_eq k0_off16_eq j hj y) c h1 h2
  · intro c h1 h2
    exact storeV_chainV_rowSum g0 (32 * n.val) 80 (by omega) (by omega)
      (ldPieces (b0).view g0 n k0_off18 k0_off19 k0_off18_inb k0_off19_inb)
      (fun j hj y => ldPieces_apply (b0).view g0 n (Nat.le_of_eq trips2) k0_off18 k0_off19 k0_off18_inb k0_off19_inb 80 (by omega)
        k0_off18_eq k0_off19_eq j hj y) c h1 h2
  · intro c h1 h2
    exact storeV_chainV_rowSum g0 (32 * n.val) 96 (by omega) (by omega)
      (ldPieces (b0).view g0 n k0_off21 k0_off22 k0_off21_inb k0_off22_inb)
      (fun j hj y => ldPieces_apply (b0).view g0 n (Nat.le_of_eq trips2) k0_off21 k0_off22 k0_off21_inb k0_off22_inb 96 (by omega)
        k0_off21_eq k0_off22_eq j hj y) c h1 h2
  · intro c h1 h2
    exact storeV_chainV_rowSum g0 (32 * n.val) 112 (by omega) (by omega)
      (ldPieces (b0).view g0 n k0_off24 k0_off25 k0_off24_inb k0_off25_inb)
      (fun j hj y => ldPieces_apply (b0).view g0 n (Nat.le_of_eq trips2) k0_off24 k0_off25 k0_off24_inb k0_off25_inb 112 (by omega)
        k0_off24_eq k0_off25_eq j hj y) c h1 h2

end Body

end Cert.Proof.KA

end
-- ==== Proof.KA_Inner1.lean ====
/-
  One trip of the inner loop over row buffer 1, with its value: the symbolic run of the trip's body and, for what the eight
  stores leave in the accumulator, the row sum of the buffer's 32 rows.
-/
import proofs.«202836_g53523882443255_cont_9to1_m_1194_32_alg».proof.Proof.KA_Tile
import proofs.«202836_g53523882443255_cont_9to1_m_1194_32_alg».proof.Proof.KA_Pure
import proofs.«202836_g53523882443255_cont_9to1_m_1194_32_alg».proof.Proof.KA_Row

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section Body
variable [FloatOps F] (d : Dev nD) (L : grid0.Coords)

omit m ρ in
/-- The inner loop over a row buffer makes four trips. -/
theorem trips3 : k0_t3_loop.trips = 4 := by decide

omit m ρ in
/-- What the accumulator reads after a trip, from what it reads through its whole view. -/
theorem rowStep_of_read1 {R p0 : ℕ} {g0 : Buf (Elt F) ((b1).view.loc (V d (cV L) (jV L)))}
    {fa fa' : Buf (Elt F) ((sA).view.loc (V d (cV L) (jV L)))}
    (h : (∀ (r : Fin 320) (c : Fin 128), r.val ≠ R →
            (sA).view.read (Elt F) fa' (ix2 r c) = (sA).view.read (Elt F) fa (ix2 r c))
        ∧ (∀ (r : Fin 320) (c : Fin 128), r.val = R → (sA).view.read (Elt F) fa' (ix2 r c) = rowSum g0 p0 c)) :
    RowStep R p0 g0 fa fa' := h

omit m ρ in
set_option maxHeartbeats 4000000 in
/-- ONE TRIP OF THE INNER LOOP OVER ROW BUFFER 1. Trip `n` of the list-group `k` keeps the row buffer and rewrites row
    `16 * k + 4 * 1 + n` of the accumulator with the left-to-right sum of the buffer's rows `32 n, …, 32 n + 31`: eight chains
    of 32 loads of sixteen lanes, each stored into its sixteen columns of that row. -/
theorem inner1 (k : Fin k0_t1_loop.trips) (w : BitVec 32) (n : Fin k0_t3_loop.trips)
    (g0 : Buf (Elt F) ((b1).view.loc (V d (cV L) (jV L)))) (fa : Buf (Elt F) ((sA).view.loc (V d (cV L) (jV L)))) :
    (iprop(((b1).view.loc (V d (cV L) (jV L)) ↦{fullShare} g0) ∗ ((sA).view.loc (V d (cV L) (jV L)) ↦{fullShare} fa)) : sProp 𝕄)
      ⊢ wp frame (wpE (defs₀ (F := F)) 𝒱₀ (V d (cV L) (jV L)) none) Set.univ
          (k0_t3_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k w n ())
          fun _ => iprop(((b1).view.loc (V d (cV L) (jV L)) ↦{fullShare} g0)
            ∗ ∃ fa', ((sA).view.loc (V d (cV L) (jV L)) ↦{fullShare} fa') ∗ ⌜RowStep (16 * k.val + 4 * 1 + n.val) (32 * n.val) g0 fa fa'⌝) := by
  unfold k0_t3_body
  iintro ⟨Hb, HsA⟩
  sl_exec_parts
  sl_step
  isplitl [Hb]
  · iexact Hb
  iexists _
  isplitl [HsA]
  · iexact HsA
  ipureintro
  sl_unfold_run_names
  have hn : n.val < 4 := trips3 ▸ n.isLt
  have hR : 16 * k.val + n.val + 4 = 16 * k.val + 4 * 1 + n.val := by omega
  have e0 : k0_off30 k n = ![16 * k.val + 4 * 1 + n.val, 0] := by rw [k0_off30_eq k n, hR]
  have e1 : k0_off33 k n = ![16 * k.val + 4 * 1 + n.val, 16] := by rw [k0_off33_eq k n, hR]
  have e2 : k0_off36 k n = ![16 * k.val + 4 * 1 + n.val, 32] := by rw [k0_off36_eq k n, hR]
  have e3 : k0_off39 k n = ![16 * k.val + 4 * 1 + n.val, 48] := by rw [k0_off39_eq k n, hR]
  have e4 : k0_off42 k n = ![16 * k.val + 4 * 1 + n.val, 64] := by rw [k0_off42_eq k n, hR]
  have e5 : k0_off45 k n = ![16 * k.val + 4 * 1 + n.val, 80] := by rw [k0_off45_eq k n, hR]
  have e6 : k0_off48 k n = ![16 * k.val + 4 * 1 + n.val, 96] := by rw [k0_off48_eq k n, hR]
  have e7 : k0_off51 k n = ![16 * k.val + 4 * 1 + n.val, 112] := by rw [k0_off51_eq k n, hR]
  refine rowStep_of_read1 d L (rowStep_writes8 (R := 16 * k.val + 4 * 1 + n.val) (p0 := 32 * n.val) (sA).view g0 fa
    (k0_off30_inb k n) (k0_off33_inb k n) (k0_off36_inb k n) (k0_off39_inb k n) (k0_off42_inb k n) (k0_off45_inb k n) (k0_off48_inb k n) (k0_off51_inb k n)
    e0 e1 e2 e3 e4 e5 e6 e7
    _ _ _ _ _ _ _ _ ?_ ?_ ?_ ?_ ?_ ?_ ?_ ?_)
  · intro c h1 h2
    exact storeV_chainV_rowSum g0 (32 * n.val) 0 (by omega) (by omega)
      (ldPieces (b1).view g0 n k0_off28 k0_off29 k0_off28_inb k0_off29_inb)
      (fun j hj y => ldPieces_apply (b1).view g0 n (Nat.le_of_eq trips3) k0_off28 k0_off29 k0_off28_inb k0_off29_inb 0 (by omega)
        k0_off28_eq k0_off29_eq j hj y) c h1 h2
  · intro c h1 h2
    exact storeV_chainV_rowSum g0 (32 * n.val) 16 (by omega) (by omega)
      (ldPieces (b1).view g0 n k0_off31 k0_off32 k0_off31_inb k0_off32_inb)
      (fun j hj y => ldPieces_apply (b1).view g0 n (Nat.le_of_eq trips3) k0_off31 k0_off32 k0_off31_inb k0_off32_inb 16 (by omega)
        k0_off31_eq k0_off32_eq j hj y) c h1 h2
  · intro c h1 h2
    exact storeV_chainV_rowSum g0 (32 * n.val) 32 (by omega) (by omega)
      (ldPieces (b1).view g0 n k0_off34 k0_off35 k0_off34_inb k0_off35_inb)
      (fun j hj y => ldPieces_apply (b1).view g0 n (Nat.le_of_eq trips3) k0_off34 k0_off35 k0_off34_inb k0_off35_inb 32 (by omega)
        k0_off34_eq k0_off35_eq j hj y) c h1 h2
  · intro c h1 h2
    exact storeV_chainV_rowSum g0 (32 * n.val) 48 (by omega) (by omega)
      (ldPieces (b1).view g0 n k0_off37 k0_off38 k0_off37_inb k0_off38_inb)
      (fun j hj y => ldPieces_apply (b1).view g0 n (Nat.le_of_eq trips3) k0_off37 k0_off38 k0_off37_inb k0_off38_inb 48 (by omega)
        k0_off37_eq k0_off38_eq j hj y) c h1 h2
  · intro c h1 h2
    exact storeV_chainV_rowSum g0 (32 * n.val) 64 (by omega) (by omega)
      (ldPieces (b1).view g0 n k0_off40 k0_off41 k0_off40_inb k0_off41_inb)
      (fun j hj y => ldPieces_apply (b1).view g0 n (Nat.le_of_eq trips3) k0_off40 k0_off41 k0_off40_inb k0_off41_inb 64 (by omega)
        k0_off40_eq k0_off41_eq j hj y) c h1 h2
  · intro c h1 h2
    exact storeV_chainV_rowSum g0 (32 * n.val) 80 (by omega) (by omega)
      (ldPieces (b1).view g0 n k0_off43 k0_off44 k0_off43_inb k0_off44_inb)
      (fun j hj y => ldPieces_apply (b1).view g0 n (Nat.le_of_eq trips3) k0_off43 k0_off44 k0_off43_inb k0_off44_inb 80 (by omega)
        k0_off43_eq k0_off44_eq j hj y) c h1 h2
  · intro c h1 h2
    exact storeV_chainV_rowSum g0 (32 * n.val) 96 (by omega) (by omega)
      (ldPieces (b1).view g0 n k0_off46 k0_off47 k0_off46_inb k0_off47_inb)
      (fun j hj y => ldPieces_apply (b1).view g0 n (Nat.le_of_eq trips3) k0_off46 k0_off47 k0_off46_inb k0_off47_inb 96 (by omega)
        k0_off46_eq k0_off47_eq j hj y) c h1 h2
  · intro c h1 h2
    exact storeV_chainV_rowSum g0 (32 * n.val) 112 (by omega) (by omega)
      (ldPieces (b1).view g0 n k0_off49 k0_off50 k0_off49_inb k0_off50_inb)
      (fun j hj y => ldPieces_apply (b1).view g0 n (Nat.le_of_eq trips3) k0_off49 k0_off50 k0_off49_inb k0_off50_inb 112 (by omega)
        k0_off49_eq k0_off50_eq j hj y) c h1 h2

end Body

end Cert.Proof.KA

end
-- ==== Proof.KA_Inner2.lean ====
/-
  One trip of the inner loop over row buffer 2, with its value: the symbolic run of the trip's body and, for what the eight
  stores leave in the accumulator, the row sum of the buffer's 32 rows.
-/
import proofs.«202836_g53523882443255_cont_9to1_m_1194_32_alg».proof.Proof.KA_Tile
import proofs.«202836_g53523882443255_cont_9to1_m_1194_32_alg».proof.Proof.KA_Pure
import proofs.«202836_g53523882443255_cont_9to1_m_1194_32_alg».proof.Proof.KA_Row

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section Body
variable [FloatOps F] (d : Dev nD) (L : grid0.Coords)

omit m ρ in
/-- The inner loop over a row buffer makes four trips. -/
theorem trips4 : k0_t4_loop.trips = 4 := by decide

omit m ρ in
/-- What the accumulator reads after a trip, from what it reads through its whole view. -/
theorem rowStep_of_read2 {R p0 : ℕ} {g0 : Buf (Elt F) ((b2).view.loc (V d (cV L) (jV L)))}
    {fa fa' : Buf (Elt F) ((sA).view.loc (V d (cV L) (jV L)))}
    (h : (∀ (r : Fin 320) (c : Fin 128), r.val ≠ R →
            (sA).view.read (Elt F) fa' (ix2 r c) = (sA).view.read (Elt F) fa (ix2 r c))
        ∧ (∀ (r : Fin 320) (c : Fin 128), r.val = R → (sA).view.read (Elt F) fa' (ix2 r c) = rowSum g0 p0 c)) :
    RowStep R p0 g0 fa fa' := h

omit m ρ in
set_option maxHeartbeats 4000000 in
/-- ONE TRIP OF THE INNER LOOP OVER ROW BUFFER 2. Trip `n` of the list-group `k` keeps the row buffer and rewrites row
    `16 * k + 4 * 2 + n` of the accumulator with the left-to-right sum of the buffer's rows `32 n, …, 32 n + 31`: eight chains
    of 32 loads of sixteen lanes, each stored into its sixteen columns of that row. -/
theorem inner2 (k : Fin k0_t1_loop.trips) (w : BitVec 32) (n : Fin k0_t4_loop.trips)
    (g0 : Buf (Elt F) ((b2).view.loc (V d (cV L) (jV L)))) (fa : Buf (Elt F) ((sA).view.loc (V d (cV L) (jV L)))) :
    (iprop(((b2).view.loc (V d (cV L) (jV L)) ↦{fullShare} g0) ∗ ((sA).view.loc (V d (cV L) (jV L)) ↦{fullShare} fa)) : sProp 𝕄)
      ⊢ wp frame (wpE (defs₀ (F := F)) 𝒱₀ (V d (cV L) (jV L)) none) Set.univ
          (k0_t4_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 k w n ())
          fun _ => iprop(((b2).view.loc (V d (cV L) (jV L)) ↦{fullShare} g0)
            ∗ ∃ fa', ((sA).view.loc (V d (cV L) (jV L)) ↦{fullShare} fa') ∗ ⌜RowStep (16 * k.val + 4 * 2 + n.val) (32 * n.val) g0 fa fa'⌝) := by
  unfold k0_t4_body
  iintro ⟨Hb, HsA⟩
  sl_exec_parts
  sl_step
  isplitl [Hb]
  · iexact Hb
  iexists _
  isplitl [HsA]
  · iexact HsA
  ipureintro
  sl_unfold_run_names
  have hn : n.val < 4 := trips4 ▸ n.isLt
  have hR : 16 * k.val + n.val + 8 = 16 * k.val + 4 * 2 + n.val := by omega
  have e0 : k0_off55 k n = ![16 * k.val + 4 * 2 + n.val, 0] := by rw [k0_off55_eq k n, hR]
  have e1 : k0_off58 k n = ![16 * k.val + 4 * 2 + n.val, 16] := by rw [k0_off58_eq k n, hR]
  have e2 : k0_off61 k n = ![16 * k.val + 4 * 2 + n.val, 32] := by rw [k0_off61_eq k n, hR]
  have e3 : k0_off64 k n = ![16 * k.val + 4 * 2 + n.val, 48] := by rw [k0_off64_eq k n, hR]
  have e4 : k0_off67 k n = ![16 * k.val + 4 * 2 + n.val, 64] := by rw [k0_off67_eq k n, hR]
  have e5 : k0_off70 k n = ![16 * k.val + 4 * 2 + n.val, 80] := by rw [k0_off70_eq k n, hR]
  have e6 : k0_off73 k n = ![16 * k.val + 4 * 2 + n.val, 96] := by rw [k0_off73_eq k n, hR]
  have e7 : k0_off76 k n = ![16 * k.val + 4 * 2 + n.val, 112] := by rw [k0_off76_eq k n, hR]
  refine rowStep_of_read2 d L (rowStep_writes8 (R := 16 * k.val + 4 * 2 + n.val) (p0 := 32 * n.val) (sA).view g0 fa
    (k0_off55_inb k n) (k0_off58_inb k n) (k0_off61_inb k n) (k0_off64_inb k n) (k0_off67_inb k n) (k0_off70_inb k n) (k0_off73_inb k n) (k0_off76_inb k n)
    e0 e1 e2 e3 e4 e5 e6 e7
    _ _ _ _ _ _ _ _ ?_ ?_ ?_ ?_ ?_ ?_ ?_ ?_)
  · intro c h1 h2
    exact storeV_chainV_rowSum g0 (32 * n.val) 0 (by omega) (by omega)
      (ldPieces (b2).view g0 n k0_off53 k0_off54 k0_off53_inb k0_off54_inb)
      (fun j hj y => ldPieces_apply (b2).view g0 n (Nat.le_of_eq trips4) k0_off53 k0_off54 k0_off53_inb k0_off54_inb 0 (by omega)
        k0_off53_eq k0_off54_eq j hj y) c h1 h2
  · intro c h1 h2
    exact storeV_chainV_rowSum g0 (32 * n.val) 16 (by omega) (by omega)
      (ldPieces (b2).view g0 n k0_off56 k0_off57 k0_off56_inb k0_off57_inb)
      (fun j hj y => ldPieces_apply (b2).view g0 n (Nat.le_of_eq trips4) k0_off56 k0_off57 k0_off56_inb k0_off57_inb 16 (by omega)
        k0_off56_eq k0_off57_eq j hj y) c h1 h2
  · intro c h1 h2
    exact storeV_chainV_rowSum g0 (32 * n.val) 32 (by omega) (by omega)
      (ldPieces (b2).view g0 n k0_off59 k0_off60 k0_off59_inb k0_off60_inb)
      (fun j hj y => ldPieces_apply (b2).view g0 n (Nat.le_of_eq trips4) k0_off59 k0_off60 k0_off59_inb k0_off60_inb 32 (by omega)
        k0_off59_eq k0_off60_eq j hj y) c h1 h2
  · intro c h1 h2
    exact storeV_chainV_rowSum g0 (32 * n.val) 48 (by omega) (by omega)
      (ldPieces (b2).view g0 n k0_off62 k0_off63 k0_off62_inb k0_off63_inb)
      (fun j hj y => ldPieces_apply (b2).view g0 n (Nat.le_of_eq trips4) k0_off62 k0_off63 k0_off62_inb k0_off63_inb 48 (by omega)
        k0_off62_eq k0_off63_eq j hj y) c h1 h2
  · intro c h1 h2
    exact storeV_chainV_rowSum g0 (32 * n.val) 64 (by omega) (by omega)
      (ldPieces (b2).view g0 n k0_off65 k0_off66 k0_off65_inb k0_off66_inb)
      (fun j hj y => ldPieces_apply (b2).view g0 n (Nat.le_of_eq trips4) k0_off65 k0_off66 k0_off65_inb k0_off66_inb 64 (by omega)
        k0_off65_eq k0_off66_eq j hj y) c h1 h2
  · intro c h1 h2
    exact storeV_chainV_rowSum g0 (32 * n.val) 80 (by omega) (by omega)
      (ldPieces (b2).view g0 n k0_off68 k0_off69 k0_off68_inb k0_off69_inb)
      (fun j hj y => ldPieces_apply (b2).view g0 n (Nat.le_of_eq trips4) k0_off68 k0_off69 k0_off68_inb k0_off69_inb 80 (by omega)
        k0_off68_eq k0_off69_eq j hj y) c h1 h2
  · intro c h1 h2
    exact storeV_chainV_rowSum g0 (32 * n.val) 96 (by omega) (by omega)
      (ldPieces (b2).view g0 n k0_off71 k0_off72 k0_off71_inb k0_off72_inb)
      (fun j hj y => ldPieces_apply (b2).view g0 n (Nat.le_of_eq trips4) k0_off71 k0_off72 k0_off71_inb k0_off72_inb 96 (by omega)
        k0_off71_eq k0_off72_eq j hj y) c h1 h2
  · intro c h1 h2
    exact storeV_chainV_rowSum g0 (32 * n.val) 112 (by omega) (by omega)
      (ldPieces (b2).view g0 n k0_off74 k0_off75 k0_off74_inb k0_off75_inb)
      (fun j hj y => ldPieces_apply (b2).view g0 n (Nat.le_of_eq trips4) k0_off74 k0_off75 k0_off74_inb k0_off75_inb 112 (by omega)
        k0_off74_eq k0_off75_eq j hj y) c h1 h2

end Body

end Cert.Proof.KA

end
-- ==== Proof.KA_Inner3.lean ====
/-
  One trip of the inner loop over row buffer 3, with its value: the symbolic run of the trip's body and, for what the eight
  stores leave in the accumulator, the row sum of the buffer's 32 rows.
-/
import proofs.«202836_g53523882443255_cont_9to1_m_1194_32_alg».proof.Proof.KA_Tile
import proofs.«202836_g53523882443255_cont_9to1_m_1194_32_alg».proof.Proof.KA_Pure
import proofs.«202836_g53523882443255_cont_9to1_m_1194_32_alg».proof.Proof.KA_Row

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section Body
variable [FloatOps F] (d : Dev nD) (L : grid0.Coords)

omit m ρ in
/-- The inner loop over a row buffer makes four trips. -/
theorem trips5 : k0_t5_loop.trips = 4 := by decide

omit m ρ in
/-- What the accumulator reads after a trip, from what it reads through its whole view. -/
theorem rowStep_of_read3 {R p0 : ℕ} {g0 : Buf (Elt F) ((b3).view.loc (V d (cV L) (jV L)))}
    {fa fa' : Buf (Elt F) ((sA).view.loc (V d (cV L) (jV L)))}
    (h : (∀ (r : Fin 320) (c : Fin 128), r.val ≠ R →
            (sA).view.read (Elt F) fa' (ix2 r c) = (sA).view.read (Elt F) fa (ix2 r c))
        ∧ (∀ (r : Fin 320) (c : Fin 128), r.val = R → (sA).view.read (Elt F) fa' (ix2 r c) = rowSum g0 p0 c)) :
    RowStep R p0 g0 fa fa' := h

omit m ρ in
set_option maxHeartbeats 4000000 in
/-- ONE TRIP OF THE INNER LOOP OVER ROW BUFFER 3. Trip `n` of the list-group `k` keeps the row buffer and rewrites row
    `16 * k + 4 * 3 + n` of the accumulator with the left-to-right sum of the buffer's rows `32 n, …, 32 n + 31`: eight chains
    of 32 loads of sixteen lanes, each stored into its sixteen columns of that row. -/
theorem inner3 (k : Fin k0_t1_loop.trips) (w : BitVec 32) (n : Fin k0_t5_loop.trips)
    (g0 : Buf (Elt F) ((b3).view.loc (V d (cV L) (jV L)))) (fa : Buf (Elt F) ((sA).view.loc (V d (cV L) (jV L)))) :
    (iprop(((b3).view.loc (V d (cV L) (jV L)) ↦{fullShare} g0) ∗ ((sA).view.loc (V d (cV L) (jV L)) ↦{fullShare} fa)) : sProp 𝕄)
      ⊢ wp frame (wpE (defs₀ (F := F)) 𝒱₀ (V d (cV L) (jV L)) none) Set.univ
          (k0_t5_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 k w n ())
          fun _ => iprop(((b3).view.loc (V d (cV L) (jV L)) ↦{fullShare} g0)
            ∗ ∃ fa', ((sA).view.loc (V d (cV L) (jV L)) ↦{fullShare} fa') ∗ ⌜RowStep (16 * k.val + 4 * 3 + n.val) (32 * n.val) g0 fa fa'⌝) := by
  unfold k0_t5_body
  iintro ⟨Hb, HsA⟩
  sl_exec_parts
  sl_step
  isplitl [Hb]
  · iexact Hb
  iexists _
  isplitl [HsA]
  · iexact HsA
  ipureintro
  sl_unfold_run_names
  have hn : n.val < 4 := trips5 ▸ n.isLt
  have hR : 16 * k.val + n.val + 12 = 16 * k.val + 4 * 3 + n.val := by omega
  have e0 : k0_off80 k n = ![16 * k.val + 4 * 3 + n.val, 0] := by rw [k0_off80_eq k n, hR]
  have e1 : k0_off83 k n = ![16 * k.val + 4 * 3 + n.val, 16] := by rw [k0_off83_eq k n, hR]
  have e2 : k0_off86 k n = ![16 * k.val + 4 * 3 + n.val, 32] := by rw [k0_off86_eq k n, hR]
  have e3 : k0_off89 k n = ![16 * k.val + 4 * 3 + n.val, 48] := by rw [k0_off89_eq k n, hR]
  have e4 : k0_off92 k n = ![16 * k.val + 4 * 3 + n.val, 64] := by rw [k0_off92_eq k n, hR]
  have e5 : k0_off95 k n = ![16 * k.val + 4 * 3 + n.val, 80] := by rw [k0_off95_eq k n, hR]
  have e6 : k0_off98 k n = ![16 * k.val + 4 * 3 + n.val, 96] := by rw [k0_off98_eq k n, hR]
  have e7 : k0_off101 k n = ![16 * k.val + 4 * 3 + n.val, 112] := by rw [k0_off101_eq k n, hR]
  refine rowStep_of_read3 d L (rowStep_writes8 (R := 16 * k.val + 4 * 3 + n.val) (p0 := 32 * n.val) (sA).view g0 fa
    (k0_off80_inb k n) (k0_off83_inb k n) (k0_off86_inb k n) (k0_off89_inb k n) (k0_off92_inb k n) (k0_off95_inb k n) (k0_off98_inb k n) (k0_off101_inb k n)
    e0 e1 e2 e3 e4 e5 e6 e7
    _ _ _ _ _ _ _ _ ?_ ?_ ?_ ?_ ?_ ?_ ?_ ?_)
  · intro c h1 h2
    exact storeV_chainV_rowSum g0 (32 * n.val) 0 (by omega) (by omega)
      (ldPieces (b3).view g0 n k0_off78 k0_off79 k0_off78_inb k0_off79_inb)
      (fun j hj y => ldPieces_apply (b3).view g0 n (Nat.le_of_eq trips5) k0_off78 k0_off79 k0_off78_inb k0_off79_inb 0 (by omega)
        k0_off78_eq k0_off79_eq j hj y) c h1 h2
  · intro c h1 h2
    exact storeV_chainV_rowSum g0 (32 * n.val) 16 (by omega) (by omega)
      (ldPieces (b3).view g0 n k0_off81 k0_off82 k0_off81_inb k0_off82_inb)
      (fun j hj y => ldPieces_apply (b3).view g0 n (Nat.le_of_eq trips5) k0_off81 k0_off82 k0_off81_inb k0_off82_inb 16 (by omega)
        k0_off81_eq k0_off82_eq j hj y) c h1 h2
  · intro c h1 h2
    exact storeV_chainV_rowSum g0 (32 * n.val) 32 (by omega) (by omega)
      (ldPieces (b3).view g0 n k0_off84 k0_off85 k0_off84_inb k0_off85_inb)
      (fun j hj y => ldPieces_apply (b3).view g0 n (Nat.le_of_eq trips5) k0_off84 k0_off85 k0_off84_inb k0_off85_inb 32 (by omega)
        k0_off84_eq k0_off85_eq j hj y) c h1 h2
  · intro c h1 h2
    exact storeV_chainV_rowSum g0 (32 * n.val) 48 (by omega) (by omega)
      (ldPieces (b3).view g0 n k0_off87 k0_off88 k0_off87_inb k0_off88_inb)
      (fun j hj y => ldPieces_apply (b3).view g0 n (Nat.le_of_eq trips5) k0_off87 k0_off88 k0_off87_inb k0_off88_inb 48 (by omega)
        k0_off87_eq k0_off88_eq j hj y) c h1 h2
  · intro c h1 h2
    exact storeV_chainV_rowSum g0 (32 * n.val) 64 (by omega) (by omega)
      (ldPieces (b3).view g0 n k0_off90 k0_off91 k0_off90_inb k0_off91_inb)
      (fun j hj y => ldPieces_apply (b3).view g0 n (Nat.le_of_eq trips5) k0_off90 k0_off91 k0_off90_inb k0_off91_inb 64 (by omega)
        k0_off90_eq k0_off91_eq j hj y) c h1 h2
  · intro c h1 h2
    exact storeV_chainV_rowSum g0 (32 * n.val) 80 (by omega) (by omega)
      (ldPieces (b3).view g0 n k0_off93 k0_off94 k0_off93_inb k0_off94_inb)
      (fun j hj y => ldPieces_apply (b3).view g0 n (Nat.le_of_eq trips5) k0_off93 k0_off94 k0_off93_inb k0_off94_inb 80 (by omega)
        k0_off93_eq k0_off94_eq j hj y) c h1 h2
  · intro c h1 h2
    exact storeV_chainV_rowSum g0 (32 * n.val) 96 (by omega) (by omega)
      (ldPieces (b3).view g0 n k0_off96 k0_off97 k0_off96_inb k0_off97_inb)
      (fun j hj y => ldPieces_apply (b3).view g0 n (Nat.le_of_eq trips5) k0_off96 k0_off97 k0_off96_inb k0_off97_inb 96 (by omega)
        k0_off96_eq k0_off97_eq j hj y) c h1 h2
  · intro c h1 h2
    exact storeV_chainV_rowSum g0 (32 * n.val) 112 (by omega) (by omega)
      (ldPieces (b3).view g0 n k0_off99 k0_off100 k0_off99_inb k0_off100_inb)
      (fun j hj y => ldPieces_apply (b3).view g0 n (Nat.le_of_eq trips5) k0_off99 k0_off100 k0_off99_inb k0_off100_inb 112 (by omega)
        k0_off99_eq k0_off100_eq j hj y) c h1 h2

end Body

end Cert.Proof.KA

end
-- ==== Proof.KA_InnerRegion.lean ====
/-
  The four inner loops' trips against their invariants: one inner trip over a row buffer sums one more accumulator row.
-/
import proofs.«202836_g53523882443255_cont_9to1_m_1194_32_alg».proof.Proof.KA_Inv
import proofs.«202836_g53523882443255_cont_9to1_m_1194_32_alg».proof.Proof.KA_Inner0
import proofs.«202836_g53523882443255_cont_9to1_m_1194_32_alg».proof.Proof.KA_Inner1
import proofs.«202836_g53523882443255_cont_9to1_m_1194_32_alg».proof.Proof.KA_Inner2
import proofs.«202836_g53523882443255_cont_9to1_m_1194_32_alg».proof.Proof.KA_Inner3

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section InnerRegion
variable [FloatOps F] (d : Dev nD) (L : grid0.Coords)

omit [FloatOps F] m ρ in
/-- A share of the scratch of lists held whole, spelt through one of its lists' views, is that share of the scratch. -/
theorem lst_whole (off : Fin 2 → ℕ) (hoff : ∀ a, off a + S1x128.size a ≤ S80x128.size a) (σ : PosShare TreeShare)
    (idxv : Buf (Elt F) ((sI).view.loc (V d (cV L) (jV L)))) :
    (View.loc (V d (cV L) (jV L)) (lstAt off hoff).view ↦{σ} idxv : sProp 𝕄) = ((sI).view.loc (V d (cV L) (jV L)) ↦{σ} idxv) := rfl

omit m ρ in
/-- One inner trip over row buffer 0 keeps the inner invariant: one more accumulator row summed. -/
theorem innerRegion0 (idxv : Buf (Elt F) ((sI).view.loc (V d (cV L) (jV L)))) (fx : Buf (Elt F) (fLoc d))
    (g : Buf (Elt F) ((b0).view.loc (V d (cV L) (jV L)))) (k : Fin k0_t1_loop.trips) (hg : g = bufVal idxv fx (4 * k.val + 0))
    (w : BitVec 32) (n : Fin k0_t2_loop.trips) (acc : Unit) :
    invI0 (F := F) d L idxv fx g (16 * k.val + 4 * 0) n.val acc
      ⊢ wp frame (wpE (defs₀ (F := F)) 𝒱₀ (V d (cV L) (jV L)) none) Set.univ
          (k0_t2_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k w n acc)
          (fun acc' => invI0 (F := F) d L idxv fx g (16 * k.val + 4 * 0) (n.val + 1) acc') := by
  have hk : k.val < 20 := Nat.lt_of_lt_of_eq k.isLt trips_eq
  unfold invI0
  iintro ⟨Hb, %fa', HsA, %hacc'⟩
  iapply ((inner0 (F := F) d L k w n g fa').trans (wp_mono frame _ _ fun _ => invI_step0 (F := F) d L idxv fx g k.val n.val hk (Nat.lt_of_lt_of_eq n.isLt (by decide)) hg fa' hacc')) $$ [Hb HsA]
  isplitl [Hb]; · iexact Hb
  iexact HsA

omit m ρ in
/-- One inner trip over row buffer 1 keeps the inner invariant: one more accumulator row summed. -/
theorem innerRegion1 (idxv : Buf (Elt F) ((sI).view.loc (V d (cV L) (jV L)))) (fx : Buf (Elt F) (fLoc d))
    (g : Buf (Elt F) ((b1).view.loc (V d (cV L) (jV L)))) (k : Fin k0_t1_loop.trips) (hg : g = bufVal idxv fx (4 * k.val + 1))
    (w : BitVec 32) (n : Fin k0_t3_loop.trips) (acc : Unit) :
    invI1 (F := F) d L idxv fx g (16 * k.val + 4 * 1) n.val acc
      ⊢ wp frame (wpE (defs₀ (F := F)) 𝒱₀ (V d (cV L) (jV L)) none) Set.univ
          (k0_t3_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k w n acc)
          (fun acc' => invI1 (F := F) d L idxv fx g (16 * k.val + 4 * 1) (n.val + 1) acc') := by
  have hk : k.val < 20 := Nat.lt_of_lt_of_eq k.isLt trips_eq
  unfold invI1
  iintro ⟨Hb, %fa', HsA, %hacc'⟩
  iapply ((inner1 (F := F) d L k w n g fa').trans (wp_mono frame _ _ fun _ => invI_step1 (F := F) d L idxv fx g k.val n.val hk (Nat.lt_of_lt_of_eq n.isLt (by decide)) hg fa' hacc')) $$ [Hb HsA]
  isplitl [Hb]; · iexact Hb
  iexact HsA

omit m ρ in
/-- One inner trip over row buffer 2 keeps the inner invariant: one more accumulator row summed. -/
theorem innerRegion2 (idxv : Buf (Elt F) ((sI).view.loc (V d (cV L) (jV L)))) (fx : Buf (Elt F) (fLoc d))
    (g : Buf (Elt F) ((b2).view.loc (V d (cV L) (jV L)))) (k : Fin k0_t1_loop.trips) (hg : g = bufVal idxv fx (4 * k.val + 2))
    (w : BitVec 32) (n : Fin k0_t4_loop.trips) (acc : Unit) :
    invI2 (F := F) d L idxv fx g (16 * k.val + 4 * 2) n.val acc
      ⊢ wp frame (wpE (defs₀ (F := F)) 𝒱₀ (V d (cV L) (jV L)) none) Set.univ
          (k0_t4_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 k w n acc)
          (fun acc' => invI2 (F := F) d L idxv fx g (16 * k.val + 4 * 2) (n.val + 1) acc') := by
  have hk : k.val < 20 := Nat.lt_of_lt_of_eq k.isLt trips_eq
  unfold invI2
  iintro ⟨Hb, %fa', HsA, %hacc'⟩
  iapply ((inner2 (F := F) d L k w n g fa').trans (wp_mono frame _ _ fun _ => invI_step2 (F := F) d L idxv fx g k.val n.val hk (Nat.lt_of_lt_of_eq n.isLt (by decide)) hg fa' hacc')) $$ [Hb HsA]
  isplitl [Hb]; · iexact Hb
  iexact HsA

omit m ρ in
/-- One inner trip over row buffer 3 keeps the inner invariant: one more accumulator row summed. -/
theorem innerRegion3 (idxv : Buf (Elt F) ((sI).view.loc (V d (cV L) (jV L)))) (fx : Buf (Elt F) (fLoc d))
    (g : Buf (Elt F) ((b3).view.loc (V d (cV L) (jV L)))) (k : Fin k0_t1_loop.trips) (hg : g = bufVal idxv fx (4 * k.val + 3))
    (w : BitVec 32) (n : Fin k0_t5_loop.trips) (acc : Unit) :
    invI3 (F := F) d L idxv fx g (16 * k.val + 4 * 3) n.val acc
      ⊢ wp frame (wpE (defs₀ (F := F)) 𝒱₀ (V d (cV L) (jV L)) none) Set.univ
          (k0_t5_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 k w n acc)
          (fun acc' => invI3 (F := F) d L idxv fx g (16 * k.val + 4 * 3) (n.val + 1) acc') := by
  have hk : k.val < 20 := Nat.lt_of_lt_of_eq k.isLt trips_eq
  unfold invI3
  iintro ⟨Hb, %fa', HsA, %hacc'⟩
  iapply ((inner3 (F := F) d L k w n g fa').trans (wp_mono frame _ _ fun _ => invI_step3 (F := F) d L idxv fx g k.val n.val hk (Nat.lt_of_lt_of_eq n.isLt (by decide)) hg fa' hacc')) $$ [Hb HsA]
  isplitl [Hb]; · iexact Hb
  iexact HsA

end InnerRegion

end Cert.Proof.KA

end
-- ==== Proof.KA_TripPos.lean ====
/-
  One outer trip of a vector subcore's task, any but the last.
-/
import proofs.«202836_g53523882443255_cont_9to1_m_1194_32_alg».proof.Proof.KA_InnerRegion

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section Trip
variable [FloatOps F] (d : Dev nD) (L : grid0.Coords)

set_option maxHeartbeats 16000000 in
set_option maxRecDepth 16384 in
/-- One outer trip before the last: each row buffer's gather awaited, its four rows summed into the accumulator, and the gather of its next list issued. -/
theorem trip_pos (O : CellTallies nD τ sig (HIx 1)) (W : Waits sig (HIx 1)) (idxv : Buf (Elt F) ((sI).view.loc (V d (cV L) (jV L))))
    (hin : ∀ (off : Fin 2 → ℕ) (hoff : ∀ a, off a + S1x128.size a ≤ S80x128.size a) (x : S128.Idx),
      ((lstAt off hoff).view.read (Elt F) idxv x).toNat < S100000x128.size gathers_S100000x128_S128x128.axis)
    (k : Fin k0_t1_loop.trips) (hlt : k.val < 19) (acc : Unit) :
    invO (F := F) m d L O W idxv k.val acc
      ⊢ wp frame (wpE (defs₀ (F := F)) 𝒱₀ (V d (cV L) (jV L)) none) Set.univ
          (k0_t1_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k acc)
          (fun acc' => invO (F := F) m d L O W idxv (k.val + 1) acc') := by
  have hk : k.val < 20 := Nat.lt_of_lt_of_eq k.isLt trips_eq
  have ht2 : Scf.trips k0_t2_loop.lb k0_t2_loop.ub k0_t2_loop.st = 4 := trips2
  have ht3 : Scf.trips k0_t3_loop.lb k0_t3_loop.ub k0_t3_loop.st = 4 := trips3
  have ht4 : Scf.trips k0_t4_loop.lb k0_t4_loop.ub k0_t4_loop.st = 4 := trips4
  have ht5 : Scf.trips k0_t5_loop.lb k0_t5_loop.ub k0_t5_loop.st = 4 := trips5
  have hk1 : k.val + 1 < 20 := by omega
  obtain ⟨hc1, hc2, hc3, hc4⟩ := cond_pos k hlt
  simp only [invO, grp0, grp1, grp2, grp3, dif_pos hk, dif_pos hk1]
  unfold k0_t1_body
  iintro ⟨#Hmw, ⟨%fa0, HsA, %hacc0⟩, HFr, ⟨%W', %hW', HO⟩, ⟨%g0, ⟨Hfl0, HIr0, HFr0, Hbr0⟩, %hg0⟩, ⟨%g1, ⟨Hfl1, HIr1, HFr1, Hbr1⟩, %hg1⟩, ⟨%g2, ⟨Hfl2, HIr2, HFr2, Hbr2⟩, %hg2⟩, ⟨%g3, ⟨Hfl3, HIr3, HFr3, Hbr3⟩, %hg3⟩⟩
  -- row buffer 0: its gather's wait, its four rows summed, the next list's gather issued
  sl_exec
  ihave HI0 := (Entails.of_eq (lst_whole (F := F) d L _ _ _ _)) $$ HIr0
  sl_for (invI0 (F := F) d L idxv (m (fLoc d)) g0 (16 * k.val + 4 * 0)) $$ [Hbr0 HsA]
  case region =>
    intro n acc'
    exact innerRegion0 (F := F) d L idxv (m (fLoc d)) g0 k hg0 _ n acc'
  · unfold invI0
    isplitl [Hbr0]; · iexact Hbr0
    iexists _; isplitl [HsA]; · iexact HsA
    ipureintro; exact accOK_cast (by omega) hacc0
  iintro %_ HI
  unfold invI0
  icases HI with ⟨Hbr0, %fa1, HsA, %hacc1⟩
  -- row buffer 1: its gather's wait, its four rows summed, the next list's gather issued
  sl_exec
  ihave HI1 := (Entails.of_eq (lst_whole (F := F) d L _ _ _ _)) $$ HIr1
  sl_for (invI1 (F := F) d L idxv (m (fLoc d)) g1 (16 * k.val + 4 * 1)) $$ [Hbr1 HsA]
  case region =>
    intro n acc'
    exact innerRegion1 (F := F) d L idxv (m (fLoc d)) g1 k hg1 _ n acc'
  · unfold invI1
    isplitl [Hbr1]; · iexact Hbr1
    iexists _; isplitl [HsA]; · iexact HsA
    ipureintro; exact accOK_cast (by omega) hacc1
  iintro %_ HI
  unfold invI1
  icases HI with ⟨Hbr1, %fa2, HsA, %hacc2⟩
  -- row buffer 2: its gather's wait, its four rows summed, the next list's gather issued
  sl_exec
  ihave HI2 := (Entails.of_eq (lst_whole (F := F) d L _ _ _ _)) $$ HIr2
  sl_for (invI2 (F := F) d L idxv (m (fLoc d)) g2 (16 * k.val + 4 * 2)) $$ [Hbr2 HsA]
  case region =>
    intro n acc'
    exact innerRegion2 (F := F) d L idxv (m (fLoc d)) g2 k hg2 _ n acc'
  · unfold invI2
    isplitl [Hbr2]; · iexact Hbr2
    iexists _; isplitl [HsA]; · iexact HsA
    ipureintro; exact accOK_cast (by omega) hacc2
  iintro %_ HI
  unfold invI2
  icases HI with ⟨Hbr2, %fa3, HsA, %hacc3⟩
  -- row buffer 3: its gather's wait, its four rows summed, the next list's gather issued
  sl_exec
  ihave HI3 := (Entails.of_eq (lst_whole (F := F) d L _ _ _ _)) $$ HIr3
  sl_for (invI3 (F := F) d L idxv (m (fLoc d)) g3 (16 * k.val + 4 * 3)) $$ [Hbr3 HsA]
  case region =>
    intro n acc'
    exact innerRegion3 (F := F) d L idxv (m (fLoc d)) g3 k hg3 _ n acc'
  · unfold invI3
    isplitl [Hbr3]; · iexact Hbr3
    iexists _; isplitl [HsA]; · iexact HsA
    ipureintro; exact accOK_cast (by omega) hacc3
  iintro %_ HI
  unfold invI3
  icases HI with ⟨Hbr3, %fa4, HsA, %hacc4⟩
  sl_exec
  sl_step
  isplitr; · iexact Hmw
  isplitl [HsA]
  · iexists _; isplitl [HsA]; · iexact HsA
    ipureintro; exact accOK_cast (by omega) hacc4
  isplitl [HFr]; · iexact HFr
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [Hfl0 HI0 HFr0 Hbr0]
  · iexists _
    isplitl [Hfl0 HI0 HFr0 Hbr0]
    · iapply (gatherGrp_congr (F := F) m d L b0 cc0_scratch6.sem _ (k0_off27 k) _ (k0_off27_inb k hc1) (hrow _ (by omega)) (nextOff k).1 (Transfers.shareTokN fullShare 0) idxv 0) $$ [Hfl0 HI0 HFr0 Hbr0]
      isplitl [Hfl0]; · iexact Hfl0
      isplitl [HI0]; · iexact HI0
      isplitl [HFr0]; · iexact HFr0
      iexact Hbr0
    · ipureintro; exact gathered_eq0 (F := F) d L _ idxv (m (fLoc d)) _ _ _ _ _ (4 * (k.val + 1) + 0) (by omega) (nextOff k).1
  isplitl [Hfl1 HI1 HFr1 Hbr1]
  · iexists _
    isplitl [Hfl1 HI1 HFr1 Hbr1]
    · iapply (gatherGrp_congr (F := F) m d L b1 cc0_scratch7.sem _ (k0_off52 k) _ (k0_off52_inb k hc2) (hrow _ (by omega)) (nextOff k).2.1 (Transfers.shareTokN fullShare 1) idxv 1) $$ [Hfl1 HI1 HFr1 Hbr1]
      isplitl [Hfl1]; · iexact Hfl1
      isplitl [HI1]; · iexact HI1
      isplitl [HFr1]; · iexact HFr1
      iexact Hbr1
    · ipureintro; exact gathered_eq1 (F := F) d L _ idxv (m (fLoc d)) _ _ _ _ _ (4 * (k.val + 1) + 1) (by omega) (nextOff k).2.1
  isplitl [Hfl2 HI2 HFr2 Hbr2]
  · iexists _
    isplitl [Hfl2 HI2 HFr2 Hbr2]
    · iapply (gatherGrp_congr (F := F) m d L b2 cc0_scratch8.sem _ (k0_off77 k) _ (k0_off77_inb k hc3) (hrow _ (by omega)) (nextOff k).2.2.1 (Transfers.shareTokN fullShare 2) idxv 2) $$ [Hfl2 HI2 HFr2 Hbr2]
      isplitl [Hfl2]; · iexact Hfl2
      isplitl [HI2]; · iexact HI2
      isplitl [HFr2]; · iexact HFr2
      iexact Hbr2
    · ipureintro; exact gathered_eq2 (F := F) d L _ idxv (m (fLoc d)) _ _ _ _ _ (4 * (k.val + 1) + 2) (by omega) (nextOff k).2.2.1
  · iexists _
    isplitl [Hfl3 HI3 HFr3 Hbr3]
    · iapply (gatherGrp_congr (F := F) m d L b3 cc0_scratch9.sem _ (k0_off102 k) _ (k0_off102_inb k hc4) (hrow _ (by omega)) (nextOff k).2.2.2 (Transfers.shareDrop fullShare 3) idxv 3) $$ [Hfl3 HI3 HFr3 Hbr3]
      isplitl [Hfl3]; · iexact Hfl3
      isplitl [HI3]; · iexact HI3
      isplitl [HFr3]; · iexact HFr3
      iexact Hbr3
    · ipureintro; exact gathered_eq3 (F := F) d L _ idxv (m (fLoc d)) _ _ _ _ _ (4 * (k.val + 1) + 3) (by omega) (nextOff k).2.2.2

end Trip

end Cert.Proof.KA

end
-- ==== Proof.KA_TripNeg.lean ====
/-
  One outer trip of a vector subcore's task, the last one.
-/
import proofs.«202836_g53523882443255_cont_9to1_m_1194_32_alg».proof.Proof.KA_InnerRegion

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section Trip
variable [FloatOps F] (d : Dev nD) (L : grid0.Coords)

set_option maxHeartbeats 16000000 in
set_option maxRecDepth 16384 in
/-- One outer trip, the last: each row buffer's gather awaited, its four rows summed into the accumulator; nothing more is issued. -/
theorem trip_neg (O : CellTallies nD τ sig (HIx 1)) (W : Waits sig (HIx 1)) (idxv : Buf (Elt F) ((sI).view.loc (V d (cV L) (jV L))))
    (hin : ∀ (off : Fin 2 → ℕ) (hoff : ∀ a, off a + S1x128.size a ≤ S80x128.size a) (x : S128.Idx),
      ((lstAt off hoff).view.read (Elt F) idxv x).toNat < S100000x128.size gathers_S100000x128_S128x128.axis)
    (k : Fin k0_t1_loop.trips) (hlt : ¬ k.val < 19) (acc : Unit) :
    invO (F := F) m d L O W idxv k.val acc
      ⊢ wp frame (wpE (defs₀ (F := F)) 𝒱₀ (V d (cV L) (jV L)) none) Set.univ
          (k0_t1_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k acc)
          (fun acc' => invO (F := F) m d L O W idxv (k.val + 1) acc') := by
  have hk : k.val < 20 := Nat.lt_of_lt_of_eq k.isLt trips_eq
  have ht2 : Scf.trips k0_t2_loop.lb k0_t2_loop.ub k0_t2_loop.st = 4 := trips2
  have ht3 : Scf.trips k0_t3_loop.lb k0_t3_loop.ub k0_t3_loop.st = 4 := trips3
  have ht4 : Scf.trips k0_t4_loop.lb k0_t4_loop.ub k0_t4_loop.st = 4 := trips4
  have ht5 : Scf.trips k0_t5_loop.lb k0_t5_loop.ub k0_t5_loop.st = 4 := trips5
  have hk1 : ¬ k.val + 1 < 20 := by omega
  obtain ⟨hc1, hc2, hc3, hc4⟩ := cond_neg k hlt
  simp only [invO, grp0, grp1, grp2, grp3, dif_pos hk, dif_neg hk1]
  unfold k0_t1_body
  iintro ⟨#Hmw, ⟨%fa0, HsA, %hacc0⟩, HFr, ⟨%W', %hW', HO⟩, ⟨%g0, ⟨Hfl0, HIr0, HFr0, Hbr0⟩, %hg0⟩, ⟨%g1, ⟨Hfl1, HIr1, HFr1, Hbr1⟩, %hg1⟩, ⟨%g2, ⟨Hfl2, HIr2, HFr2, Hbr2⟩, %hg2⟩, ⟨%g3, ⟨Hfl3, HIr3, HFr3, Hbr3⟩, %hg3⟩⟩
  -- row buffer 0: its gather's wait, its four rows summed
  sl_exec
  ihave HI0 := (Entails.of_eq (lst_whole (F := F) d L _ _ _ _)) $$ HIr0
  sl_for (invI0 (F := F) d L idxv (m (fLoc d)) g0 (16 * k.val + 4 * 0)) $$ [Hbr0 HsA]
  case region =>
    intro n acc'
    exact innerRegion0 (F := F) d L idxv (m (fLoc d)) g0 k hg0 _ n acc'
  · unfold invI0
    isplitl [Hbr0]; · iexact Hbr0
    iexists _; isplitl [HsA]; · iexact HsA
    ipureintro; exact accOK_cast (by omega) hacc0
  iintro %_ HI
  unfold invI0
  icases HI with ⟨Hbr0, %fa1, HsA, %hacc1⟩
  -- row buffer 1: its gather's wait, its four rows summed
  sl_exec
  ihave HI1 := (Entails.of_eq (lst_whole (F := F) d L _ _ _ _)) $$ HIr1
  sl_for (invI1 (F := F) d L idxv (m (fLoc d)) g1 (16 * k.val + 4 * 1)) $$ [Hbr1 HsA]
  case region =>
    intro n acc'
    exact innerRegion1 (F := F) d L idxv (m (fLoc d)) g1 k hg1 _ n acc'
  · unfold invI1
    isplitl [Hbr1]; · iexact Hbr1
    iexists _; isplitl [HsA]; · iexact HsA
    ipureintro; exact accOK_cast (by omega) hacc1
  iintro %_ HI
  unfold invI1
  icases HI with ⟨Hbr1, %fa2, HsA, %hacc2⟩
  -- row buffer 2: its gather's wait, its four rows summed
  sl_exec
  ihave HI2 := (Entails.of_eq (lst_whole (F := F) d L _ _ _ _)) $$ HIr2
  sl_for (invI2 (F := F) d L idxv (m (fLoc d)) g2 (16 * k.val + 4 * 2)) $$ [Hbr2 HsA]
  case region =>
    intro n acc'
    exact innerRegion2 (F := F) d L idxv (m (fLoc d)) g2 k hg2 _ n acc'
  · unfold invI2
    isplitl [Hbr2]; · iexact Hbr2
    iexists _; isplitl [HsA]; · iexact HsA
    ipureintro; exact accOK_cast (by omega) hacc2
  iintro %_ HI
  unfold invI2
  icases HI with ⟨Hbr2, %fa3, HsA, %hacc3⟩
  -- row buffer 3: its gather's wait, its four rows summed
  sl_exec
  ihave HI3 := (Entails.of_eq (lst_whole (F := F) d L _ _ _ _)) $$ HIr3
  sl_for (invI3 (F := F) d L idxv (m (fLoc d)) g3 (16 * k.val + 4 * 3)) $$ [Hbr3 HsA]
  case region =>
    intro n acc'
    exact innerRegion3 (F := F) d L idxv (m (fLoc d)) g3 k hg3 _ n acc'
  · unfold invI3
    isplitl [Hbr3]; · iexact Hbr3
    iexists _; isplitl [HsA]; · iexact HsA
    ipureintro; exact accOK_cast (by omega) hacc3
  iintro %_ HI
  unfold invI3
  icases HI with ⟨Hbr3, %fa4, HsA, %hacc4⟩
  sl_exec
  sl_step
  isplitr; · iexact Hmw
  isplitl [HsA]
  · iexists _; isplitl [HsA]; · iexact HsA
    ipureintro; exact accOK_cast (by omega) hacc4
  isplitl [HFr]; · iexact HFr
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [Hfl0 HI0 HFr0 Hbr0]
  · isplitl [Hbr0]; · iexists _; iexact Hbr0
    isplitl [Hfl0]; · iexact Hfl0
    isplitl [HI0]; · iexact HI0
    iexact HFr0
  isplitl [Hfl1 HI1 HFr1 Hbr1]
  · isplitl [Hbr1]; · iexists _; iexact Hbr1
    isplitl [Hfl1]; · iexact Hfl1
    isplitl [HI1]; · iexact HI1
    iexact HFr1
  isplitl [Hfl2 HI2 HFr2 Hbr2]
  · isplitl [Hbr2]; · iexists _; iexact Hbr2
    isplitl [Hfl2]; · iexact Hfl2
    isplitl [HI2]; · iexact HI2
    iexact HFr2
  · isplitl [Hbr3]; · iexists _; iexact Hbr3
    isplitl [Hfl3]; · iexact Hfl3
    isplitl [HI3]; · iexact HI3
    iexact HFr3

end Trip

end Cert.Proof.KA

end
-- ==== Proof.KA_Body.lean ====
/-
  One vector subcore's task, whole: the worker's slab of the index table lands in the scratch of lists; the first four
  lists' gathers are issued, one per row buffer, each on its own semaphore; twenty outer trips each await the four
  gathers in turn, sum every gathered row group into the accumulator and (but for the last trip) issue the next four;
  the accumulator then goes out to the worker's block of the result, which so holds, row by row, the left-to-right sum
  of the 32 feature rows its words name.
-/
import proofs.«202836_g53523882443255_cont_9to1_m_1194_32_alg».proof.Proof.KA_TripPos
import proofs.«202836_g53523882443255_cont_9to1_m_1194_32_alg».proof.Proof.KA_TripNeg

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

section Body
variable [FloatOps F] (ia : (d : Dev nD) → Buf (Elt F) (iLoc d)) (d : Dev nD) (L : grid0.Coords)

set_option maxHeartbeats 16000000 in
set_option maxRecDepth 16384 in
theorem tile_body (hF : (K (F := F)).Facts) (hia : IdxOK ia) (O : CellTallies nD τ sig (HIx 1)) (W : Waits sig (HIx 1)) (hO : ∀ g, O g none = 0) :
    iprop(levAts (K (F := F)).L (K (F := F)).lev ∗ emp
        ∗ goRes m ia d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__agg_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1)
          fun _ => iprop(tdRes m ia d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__agg_body_eq_skeleton]; unfold cc0__agg_body_skel
  rw [(K (F := F)).scopedBufs_V hF d (cV L) (jV L), SparseCore.Cfg.scopedSems0_V (Val := Elt F) d (cV L) (jV L), ownSems0_V, ownBufs_V]
  iintro ⟨#Hlv, -, ⟨Hi, Hf, Ho⟩, ⟨⟨%fI, HsI⟩, ⟨%fA, HsA⟩, ⟨%f0, Hb0⟩, ⟨%f1, Hb1⟩, ⟨%f2, Hb2⟩, ⟨%f3, Hb3⟩, Hbufs⟩, ⟨Hs0, Hs1, Hs2, Hs3, Hs4, Hs5, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hi' := (Entails.of_eq (pts_iRowK (F := F) d L _).symm) $$ Hi
  ihave Ho' := (Entails.of_eq (pts_oRowK (F := F) d L _).symm) $$ Ho
  ihave Hf' := (Entails.of_eq (pts_fV (F := F) d L _ _).symm) $$ Hf
  ihave HsI' := (Entails.of_eq (pts_sc (F := F) d L cc0_scratch0 _).symm) $$ HsI
  ihave HsA' := (Entails.of_eq (pts_sc (F := F) d L cc0_scratch1 _).symm) $$ HsA
  ihave Hb0' := (Entails.of_eq (pts_sc (F := F) d L cc0_scratch2 _).symm) $$ Hb0
  ihave Hb1' := (Entails.of_eq (pts_sc (F := F) d L cc0_scratch3 _).symm) $$ Hb1
  ihave Hb2' := (Entails.of_eq (pts_sc (F := F) d L cc0_scratch4 _).symm) $$ Hb2
  ihave Hb3' := (Entails.of_eq (pts_sc (F := F) d L cc0_scratch5 _).symm) $$ Hb3
  -- the worker's slab of the index table into the scratch of lists
  sl_exec_parts
  have hin := list_lt (F := F) ia d L hia fI (tile_body.sl.dma0 ia d L) rfl
  -- the scratch of lists in four shares, one per row buffer; the feature share in four read tokens and a remainder
  ihave HX := (tok_split0 (F := F) Finset.univ fullShare _).1 $$ HsI'
  icases HX with ⟨HIt0, HId1⟩
  ihave HX := (tok_split (F := F) Finset.univ fullShare _ 1 2 rfl).1 $$ HId1
  icases HX with ⟨HIt1, HId2⟩
  ihave HX := (tok_split (F := F) Finset.univ fullShare _ 2 3 rfl).1 $$ HId2
  icases HX with ⟨HIt2, HIt3⟩
  ihave HX := (tok_split0 (F := F) Finset.univ (fq (wL L)) _).1 $$ Hf'
  icases HX with ⟨HFt0, HFd1⟩
  ihave HX := (tok_split (F := F) Finset.univ (fq (wL L)) _ 1 2 rfl).1 $$ HFd1
  icases HX with ⟨HFt1, HFd2⟩
  ihave HX := (tok_split (F := F) Finset.univ (fq (wL L)) _ 2 3 rfl).1 $$ HFd2
  icases HX with ⟨HFt2, HFd3⟩
  ihave HX := (tok_split (F := F) Finset.univ (fq (wL L)) _ 3 4 rfl).1 $$ HFd3
  icases HX with ⟨HFt3, HFr⟩
  -- the first four lists' gathers
  sl_exec
  sl_for (invO (F := F) m d L O (insert (SemLoc.dma cc0_scoped0.sem, (default : HIx 1)) W) (View.write (Elt F) (sI).view fI (tile_body.sl.dma0 ia d L) Finset.univ)) $$ [Hmw HsA' HFr HO Hs0 HIt0 HFt0 Hb0' Hs1 HIt1 HFt1 Hb1' Hs2 HIt2 HFt2 Hb2' Hs3 HIt3 HFt3 Hb3']
  case region =>
    intro k acc
    by_cases hlt : k.val < 19
    · exact trip_pos (F := F) m d L O (insert (SemLoc.dma cc0_scoped0.sem, (default : HIx 1)) W) (View.write (Elt F) (sI).view fI (tile_body.sl.dma0 ia d L) Finset.univ) hin k hlt acc
    · exact trip_neg (F := F) m d L O (insert (SemLoc.dma cc0_scoped0.sem, (default : HIx 1)) W) (View.write (Elt F) (sI).view fI (tile_body.sl.dma0 ia d L) Finset.univ) hin k hlt acc
  · unfold invO grp0 grp1 grp2 grp3
    rw [dif_pos (show 0 < 20 by decide), dif_pos (show 0 < 20 by decide), dif_pos (show 0 < 20 by decide), dif_pos (show 0 < 20 by decide)]
    isplitr; · iexact Hmw
    isplitl [HsA']
    · iexists _; isplitl [HsA']; · iexact HsA'
      ipureintro; exact fun r c h => absurd h (by omega)
    isplitl [HFr]; · iexact HFr
    isplitl [HO]
    · iexists _; isplitr
      swap; · iexact HO
      ipureintro; exact fun p hp => .inl hp
    isplitl [Hs0 HIt0 HFt0 Hb0']
    · iexists _
      isplitl [Hs0 HIt0 HFt0 Hb0']
      · iapply (gatherGrp_congr (F := F) m d L b0 cc0_scratch6.sem _ ![0, 0] _ inb_S80x128_S1x128_0_0 (hrow _ (by omega)) (by simp) (Transfers.shareTokN fullShare 0) (View.write (Elt F) (sI).view fI (tile_body.sl.dma0 ia d L) Finset.univ) 0) $$ [Hs0 HIt0 HFt0 Hb0']
        isplitl [Hs0]; · iexact Hs0
        isplitl [HIt0]; · iexact HIt0
        isplitl [HFt0]; · iexact HFt0
        iexact Hb0'
      · ipureintro; exact gathered_eq0 (F := F) d L _ (View.write (Elt F) (sI).view fI (tile_body.sl.dma0 ia d L) Finset.univ) (m (fLoc d)) _ _ _ _ _ (4 * 0 + 0) (by omega) (by simp)
    isplitl [Hs1 HIt1 HFt1 Hb1']
    · iexists _
      isplitl [Hs1 HIt1 HFt1 Hb1']
      · iapply (gatherGrp_congr (F := F) m d L b1 cc0_scratch7.sem _ ![1, 0] _ inb_S80x128_S1x128_1_0 (hrow _ (by omega)) (by simp) (Transfers.shareTokN fullShare 1) (View.write (Elt F) (sI).view fI (tile_body.sl.dma0 ia d L) Finset.univ) 1) $$ [Hs1 HIt1 HFt1 Hb1']
        isplitl [Hs1]; · iexact Hs1
        isplitl [HIt1]; · iexact HIt1
        isplitl [HFt1]; · iexact HFt1
        iexact Hb1'
      · ipureintro; exact gathered_eq1 (F := F) d L _ (View.write (Elt F) (sI).view fI (tile_body.sl.dma0 ia d L) Finset.univ) (m (fLoc d)) _ _ _ _ _ (4 * 0 + 1) (by omega) (by simp)
    isplitl [Hs2 HIt2 HFt2 Hb2']
    · iexists _
      isplitl [Hs2 HIt2 HFt2 Hb2']
      · iapply (gatherGrp_congr (F := F) m d L b2 cc0_scratch8.sem _ ![2, 0] _ inb_S80x128_S1x128_2_0 (hrow _ (by omega)) (by simp) (Transfers.shareTokN fullShare 2) (View.write (Elt F) (sI).view fI (tile_body.sl.dma0 ia d L) Finset.univ) 2) $$ [Hs2 HIt2 HFt2 Hb2']
        isplitl [Hs2]; · iexact Hs2
        isplitl [HIt2]; · iexact HIt2
        isplitl [HFt2]; · iexact HFt2
        iexact Hb2'
      · ipureintro; exact gathered_eq2 (F := F) d L _ (View.write (Elt F) (sI).view fI (tile_body.sl.dma0 ia d L) Finset.univ) (m (fLoc d)) _ _ _ _ _ (4 * 0 + 2) (by omega) (by simp)
    · iexists _
      isplitl [Hs3 HIt3 HFt3 Hb3']
      · iapply (gatherGrp_congr (F := F) m d L b3 cc0_scratch9.sem _ ![3, 0] _ inb_S80x128_S1x128_3_0 (hrow _ (by omega)) (by simp) (Transfers.shareDrop fullShare 3) (View.write (Elt F) (sI).view fI (tile_body.sl.dma0 ia d L) Finset.univ) 3) $$ [Hs3 HIt3 HFt3 Hb3']
        isplitl [Hs3]; · iexact Hs3
        isplitl [HIt3]; · iexact HIt3
        isplitl [HFt3]; · iexact HFt3
        iexact Hb3'
      · ipureintro; exact gathered_eq3 (F := F) d L _ (View.write (Elt F) (sI).view fI (tile_body.sl.dma0 ia d L) Finset.univ) (m (fLoc d)) _ _ _ _ _ (4 * 0 + 3) (by omega) (by simp)
  iintro %_ HI
  have hfin : ¬ k0_t1_loop.trips < 20 := by decide
  unfold invO grp0 grp1 grp2 grp3
  rw [dif_neg hfin, dif_neg hfin, dif_neg hfin, dif_neg hfin]
  icases HI with ⟨-, ⟨%faE, HsA, %haccE⟩, HFr, ⟨%WE, %hWE, HO⟩, ⟨⟨%gE0, Hbr0⟩, Hfl0, HI0, HFr0⟩, ⟨⟨%gE1, Hbr1⟩, Hfl1, HI1, HFr1⟩, ⟨⟨%gE2, Hbr2⟩, Hfl2, HI2, HFr2⟩, ⟨⟨%gE3, Hbr3⟩, Hfl3, HI3, HFr3⟩⟩
  -- the shares of the scratch of lists and of the feature table back together
  ihave HX2 := (tok_split (F := F) Finset.univ fullShare _ 2 3 rfl).2 $$ [HI2 HI3]
  · isplitl [HI2]; · iexact HI2
    iexact HI3
  ihave HX1 := (tok_split (F := F) Finset.univ fullShare _ 1 2 rfl).2 $$ [HI1 HX2]
  · isplitl [HI1]; · iexact HI1
    iexact HX2
  ihave HsI' := (tok_split0 (F := F) Finset.univ fullShare _).2 $$ [HI0 HX1]
  · isplitl [HI0]; · iexact HI0
    iexact HX1
  ihave HY3 := (tok_split (F := F) Finset.univ (fq (wL L)) _ 3 4 rfl).2 $$ [HFr3 HFr]
  · isplitl [HFr3]; · iexact HFr3
    iexact HFr
  ihave HY2 := (tok_split (F := F) Finset.univ (fq (wL L)) _ 2 3 rfl).2 $$ [HFr2 HY3]
  · isplitl [HFr2]; · iexact HFr2
    iexact HY3
  ihave HY1 := (tok_split (F := F) Finset.univ (fq (wL L)) _ 1 2 rfl).2 $$ [HFr1 HY2]
  · isplitl [HFr1]; · iexact HFr1
    iexact HY2
  ihave Hf' := (tok_split0 (F := F) Finset.univ (fq (wL L)) _).2 $$ [HFr0 HY1]
  · isplitl [HFr0]; · iexact HFr0
    iexact HY1
  -- the accumulator out to the worker's block of the result
  sl_exec
  sl_step
  isplitl [Hi' Hf' Ho']
  · isplitl [Hi']; · iapply (Entails.of_eq (pts_iRowK (F := F) d L _)); iexact Hi'
    isplitl [Hf']; · iexact Hf'
    iapply (out_block' (F := F) m ia d L (View.write (Elt F) (sI).view fI (tile_body.sl.dma0 ia d L) Finset.univ) (tile_body.sl.dma0_1 d L faE)
        (show AccOK (accVal (View.write (Elt F) (sI).view fI (tile_body.sl.dma0 ia d L) Finset.univ) (m (fLoc d))) 320 (tile_body.sl.dma0_1 d L faE) from accOK_cast (by decide) haccE)
        (fun c p => slab_apply' (F := F) d L fI (ia d) c p)) $$ Ho'
  isplitl [HsI' HsA Hbr0 Hbr1 Hbr2 Hbr3 Hbufs]
  · isplitl [HsI']; · iexists _; iexact HsI'
    isplitl [HsA]; · iexists _; iexact HsA
    isplitl [Hbr0]; · iexists _; iexact Hbr0
    isplitl [Hbr1]; · iexists _; iexact Hbr1
    isplitl [Hbr2]; · iexists _; iexact Hbr2
    isplitl [Hbr3]; · iexists _; iexact Hbr3
    iexact Hbufs
  isplitl [Hfl0 Hfl1 Hfl2 Hfl3 Hs4 Hs5 Hsems]
  · isplitl [Hfl0]; · iexact Hfl0
    isplitl [Hfl1]; · iexact Hfl1
    isplitl [Hfl2]; · iexact Hfl2
    isplitl [Hfl3]; · iexact Hfl3
    isplitl [Hs4]; · iexact Hs4
    isplitl [Hs5]; · iexact Hs5
    iexact Hsems
  iexists _; isplitr
  swap; · iexact HO
  ipureintro; intro p hp
  rcases Finset.mem_insert.mp hp with hp | hp; · exact .inr (hp ▸ rfl)
  rcases hWE p hp with hp | hp
  · rcases Finset.mem_insert.mp hp with hp | hp
    · exact .inr (hp ▸ rfl)
    · exact .inl hp
  · exact .inr hp

end Body

end Cert.Proof.KA

end
-- ==== Proof.KA_Obl.lean ====
/-
  The launch theorem's obligation for the vector-subcore call: the body table's entry for a vector subcore is the kernel
  function at its grid point, the grid point's worker number is the one the handshakes' payloads are stated at, and each
  task of the grid is one vector subcore's task (`tile_body`) at its grid point.
-/
import proofs.«202836_g53523882443255_cont_9to1_m_1194_32_alg».proof.Proof.KA_Body

noncomputable section

namespace Cert.Proof.KA

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S100000x128 EltTy.f32)
local notation "iV" => (Memref.whole Cert.Kernel.main_v1_scv : Memref Cert.Kernel.sig Kind.scVector Space.hbm Cert.Kernel.S32x80x128 EltTy.i32)
local notation "oV" => (Memref.whole Cert.Kernel.main_v2_scv : Memref Cert.Kernel.sig Kind.scVector Space.hbm Cert.Kernel.S10240x128 EltTy.f32)
local notation "sI" => (Memref.whole Cert.Kernel.cc0_scratch0 : Memref Cert.Kernel.sig Kind.scVector Space.vmem Cert.Kernel.S80x128 EltTy.i32)
local notation "sA" => (Memref.whole Cert.Kernel.cc0_scratch1 : Memref Cert.Kernel.sig Kind.scVector Space.vmem Cert.Kernel.S320x128 EltTy.f32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

/-! ## The obligation -/

section Obl
variable [FloatOps F] (ia : (d : Dev nD) → Buf (Elt F) (iLoc d))

/-- The grid point of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

omit m ρ in
/-- The body table's entry for a vector subcore is the kernel function at the subcore's grid point. -/
theorem defs₀_vector (c : Fin τ.nSC) (s : Fin τ.nSub) :
    defs₀ (F := F) (.scVector c s) 0 ()
      = SparseCore.onTile hcore0 hsub0 (fun c s => cc0__agg_body (coordsV c s)
          fV (Memref.isWhole_whole _) iV (Memref.isWhole_whole _) oV (Memref.isWhole_whole _)
          sI (Memref.isWhole_whole _) sA (Memref.isWhole_whole _) b0 (Memref.isWhole_whole _) b1 (Memref.isWhole_whole _)
          b2 (Memref.isWhole_whole _) b3 (Memref.isWhole_whole _) cc0_scratch6 cc0_scratch7 cc0_scratch8 cc0_scratch9 cc0_scoped0 cc0_scoped1) ⟨⟩ c s := rfl

omit [FloatOps F] m ρ in
/-- A task that recorded no wait of its own call's index has, all the more, recorded none but that or none. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit m ρ in
/-- The worker number of the subcore at the grid point of task `(c, i)` is the one the handshakes' payloads are stated at. -/
theorem wL_coordsV (c : Fin ((K (F := F)).nCore 0)) (i : Fin ((K (F := F)).nSub 0))
    (hc : ((K (F := F)).core 0 c).val < grid0.bound 0) (hi : ((K (F := F)).sub 0 i).val < grid0.bound 1) :
    wL (coordsV ⟨((K (F := F)).core 0 c).val, hc⟩ ⟨((K (F := F)).sub 0 i).val, hi⟩) = wid (Fin.cast nCore_zero c) (Fin.cast nSub_zero i) := rfl

omit ρ in
set_option maxRecDepth 16384 in
/-- The launch theorem's obligation for the one vector-subcore call: each task of its grid is `tile_body` at its grid point. -/
theorem tileObl (hF : (K (F := F)).Facts) (hia : IdxOK ia) : (K (F := F)).TileObl (D (F := F)) 𝒱 (P m ia) v₀ 0 := by
  intro d c i O W hO _ _
  simp only [show (P m ia).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m ia d (coordsV ⟨_, hci.1⟩ ⟨_, hci.2⟩) hF hia O W hO).trans (wp_mono frame _ _ fun _ => obl_post)

end Obl

end Cert.Proof.KA

end
-- ==== Proof.KI_Setup.lean ====
/-
  The kernel's side, set-up: the program as the SparseCore launch theorem sees it, the ghost state, the arrays'
  locations, how the index table, the feature table and the result split among the 32 vector subcores, what the
  handshakes carry, and the kernel's value.

  Vector subcore `s` of SparseCore `c` is worker `w = 2 s + c`. It reads slab `w` of the re-laid index table
  (80 lists of 128 words), all of the feature table (through a read share), and writes rows `[320 w, 320 w + 320)`
  of the result: row `320 w + 4 k + n` is the sum, left to right, of the 32 feature rows that words
  `32 n … 32 n + 31` of list `k` name.
-/
import proofs.«202836_g53523882443255_cont_9to1_m_1194_32_alg».proof.KernelIdeal
import proofs.«202836_g53523882443255_cont_9to1_m_1194_32_alg».proof.Proof.Gen.KernelIdeal
import proofs.«202836_g53523882443255_cont_9to1_m_1194_32_alg».proof.Proof.Gen.KernelIdeal.Skeleton
import proofs.«202836_g53523882443255_cont_9to1_m_1194_32_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The feature table, the neighbour lists, the node list (unread), -/
abbrev fLoc (d : Dev nD) : Loc nD τ sig := (SparseCore.T d).loc main_arg0
abbrev nLoc (d : Dev nD) : Loc nD τ sig := (SparseCore.T d).loc main_arg1
abbrev tLoc (d : Dev nD) : Loc nD τ sig := (SparseCore.T d).loc main_arg2
/-- the host's intermediate values, the re-laid index table, the kernel's result and the program's. -/
abbrev cLoc (d : Dev nD) : Loc nD τ sig := (SparseCore.T d).loc main_c
abbrev c0Loc (d : Dev nD) : Loc nD τ sig := (SparseCore.T d).loc main_call0_v0
abbrev pLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-! ## The 32 workers -/

/-- Worker `2 s + c`. -/
def wid (c : Fin 2) (s : Fin 16) : Fin 32 := ⟨2 * s.val + c.val, by omega⟩

theorem idiv : 32 ∣ S32x80x128.size 0 := ⟨1, rfl⟩
theorem odiv : 32 ∣ S10240x128.size 0 := ⟨320, rfl⟩
/-- Slab `w` of the index table; rows `[320 w, 320 w + 320)` of the result. -/
abbrev irow (w : Fin 32) : Rect S32x80x128 := Rect.part (s := S32x80x128) (a₀ := 0) idiv w
abbrev orow (w : Fin 32) : Rect S10240x128 := Rect.part (s := S10240x128) (a₀ := 0) odiv w
abbrev iRowSet (w : Fin 32) : Finset S32x80x128.Idx := ((Memref.whole main_v1_scv : Memref sig .scVector .hbm S32x80x128 .i32).view.slice (irow w)).set
abbrev oRowSet (w : Fin 32) : Finset S10240x128.Idx := ((Memref.whole main_v2_scv : Memref sig .scVector .hbm S10240x128 .f32).view.slice (orow w)).set

/-- Worker `w`'s read share of the feature table: token `w` of 32. -/
abbrev fq (w : Fin 32) : PosShare TreeShare := Transfers.shareTok fullShare 32 w

/-! ## The kernel's value -/

section Value
variable [FloatOps F]

/-- `g 0 + g 1 + … + g n`, summed left to right as the kernel's body does. -/
def foldRows {φ : FTy} (g : ℕ → F φ) : ℕ → F φ
  | 0 => g 0
  | n + 1 => FloatOps.addf (foldRows g n) (g (n + 1))

/-- The feature-table row a word names (`Cert.Spec.rowOf`), as an index of the table at column `d`. -/
abbrev featIdx (wd : BitVec 32) (d : Fin 128) : S100000x128.Idx := ix2 (Cert.Spec.rowOf wd) d

/-- Word `j` of the 32 that result row `r` sums: the index table is the padded neighbour lists re-laid row-major, so
    flat position `32 r + j` of it, at slab `r / 320`, list `(r % 320) / 4`, word `32 (r % 4) + j`. -/
abbrev tabIdx (r : Fin 10240) (j : ℕ) (hj : j < 32) : S32x80x128.Idx :=
  ix3 (⟨r.val / 320, by omega⟩ : Fin 32) (⟨(r.val % 320) / 4, by omega⟩ : Fin 80) (⟨32 * (r.val % 4) + j, by omega⟩ : Fin 128)

/-- The kernel's result as ONE function of the feature table `x` and the index table `ia`: entry `(r, d)` is the
    left-to-right sum over `j < 32` of entry `d` of the feature row that word `j` of result row `r` names. -/
def aggFold (x : S100000x128.Idx → F .f32) (ia : S32x80x128.Idx → BitVec 32) : S10240x128.Idx → F .f32 :=
  fun i => foldRows (fun j => if hj : j < 32 then x (featIdx (ia (tabIdx ⟨(i 0).val, (i 0).isLt⟩ j hj)) ⟨(i 1).val, (i 1).isLt⟩) else x (featIdx 0#32 ⟨(i 1).val, (i 1).isLt⟩)) 31

end Value

/-! ## What the handshakes carry -/

section Pay
variable [FloatOps F]
-- The index table as the host leaves it before the call (a function of the neighbour lists; the launch says which).
variable (ia : (d : Dev nD) → Buf (Elt F) (iLoc d))

/-- The kernel's result on device `d`: `aggFold` of the feature table and the index table. -/
abbrev outFn (d : Dev nD) : Buf (Elt F) (oLoc d) := aggFold (F := F) (m (fLoc d)) (ia d)

abbrev iPts (d : Dev nD) : sProp 𝕄 := iLoc d ↦{fullShare} ia d
abbrev oPts (d : Dev nD) (f : Buf (Elt F) (oLoc d)) : sProp 𝕄 := oLoc d ↦{fullShare} f
abbrev iRowPts (d : Dev nD) (w : Fin 32) : sProp 𝕄 := iLoc d ↦[iRowSet w]{fullShare} ia d
abbrev fShPts (d : Dev nD) (w : Fin 32) : sProp 𝕄 := fLoc d ↦{fq w} m (fLoc d)
abbrev oRowPts (d : Dev nD) (w : Fin 32) (f : Buf (Elt F) (oLoc d)) : sProp 𝕄 := oLoc d ↦[oRowSet w]{fullShare} f

/-- A worker's task takes its slab of the index table, its share of the feature table and its block of the result, -/
abbrev goRes (d : Dev nD) (w : Fin 32) : sProp 𝕄 := iprop(iRowPts ia d w ∗ fShPts m d w ∗ oRowPts d w (m (oLoc d)))
/-- and brings them back, the block at the kernel's result. -/
abbrev tdRes (d : Dev nD) (w : Fin 32) : sProp 𝕄 := iprop(iRowPts ia d w ∗ fShPts m d w ∗ oRowPts d w (outFn m ia d))

/-- The one call hands SparseCore `c` its sixteen workers' pieces and takes them back. -/
def P : (K (F := F)).Pay (nD := nD) (Val := Elt F) (Name := ℕ) (U := UU) where
  st := fun q d c => match q with | 0 => bigSep Finset.univ fun i : Fin 16 => goRes m ia d (wid (Fin.cast nCore_zero c) i)
  dn := fun q d c => match q with | 0 => bigSep Finset.univ fun i : Fin 16 => tdRes m ia d (wid (Fin.cast nCore_zero c) i)
  go := fun q d c i => match q with | 0 => goRes m ia d (wid (Fin.cast nCore_zero c) (Fin.cast nSub_zero i))
  td := fun q d c i => match q with | 0 => tdRes m ia d (wid (Fin.cast nCore_zero c) (Fin.cast nSub_zero i))
  x := fun _ _ => iprop(emp)

instance P_storable : (P (F := F) m ia).IsStorable where
  st q d c := match q with
    | 0 => (inferInstance : BI.Storable (upEmb : UEmb _ 𝕄) (bigSep Finset.univ fun i : Fin 16 => goRes m ia d (wid (Fin.cast nCore_zero c) i)))
  dn q d c := match q with
    | 0 => (inferInstance : BI.Storable (upEmb : UEmb _ 𝕄) (bigSep Finset.univ fun i : Fin 16 => tdRes m ia d (wid (Fin.cast nCore_zero c) i)))
  go q d c i := match q with
    | 0 => (inferInstance : BI.Storable (upEmb : UEmb _ 𝕄) (goRes m ia d (wid (Fin.cast nCore_zero c) (Fin.cast nSub_zero i))))
  td q d c i := match q with
    | 0 => (inferInstance : BI.Storable (upEmb : UEmb _ 𝕄) (tdRes m ia d (wid (Fin.cast nCore_zero c) (Fin.cast nSub_zero i))))

/-- What the tasks ask of the index table: every word names a row of the feature table. -/
def IdxOK : Prop := ∀ (d : Dev nD) (j : S32x80x128.Idx), (ia d j).toNat < 100000

end Pay

end Cert.Proof.KI

end
-- ==== Proof.HostFactsI.lean ====
/-
  Facts about the integer words and the layout on the host side of the kernel, before and after the gather.

  Before the call the 10000 rows of 32 index words are extended by 240 rows of the zero word and the 10240 x 32
  words are re-laid, in row-major order, as 32 x 80 x 128: flat position ((w * 80 + c) * 128 + 32 * n + j) is
  (320 * w + 4 * c + n) * 32 + j, so entry (w, c, 32 * n + j) of the re-laid array is word j of row
  320 * w + 4 * c + n of the index list where that row exists, and the zero word from row 10000 on.
  The precondition bounds every index word, read signed, between 0 and 99999; such a word read unsigned is below
  100000, and so is the zero word: every entry of the re-laid array names a row of the table.
  After the call the first 10000 of the 10240 result rows are kept.
-/
import proofs.«202836_g53523882443255_cont_9to1_m_1194_32_alg».proof.KernelIdeal
import proofs.«202836_g53523882443255_cont_9to1_m_1194_32_alg».proof.Pre_input_domain
import proofs.«202836_g53523882443255_cont_9to1_m_1194_32_alg».proof.Proof.Spec
import Idealize.ShloMosaic.Lib.ValueIdx
import Idealize.ShloMosaic.Lib.Pipeline.Value
import Idealize.ShloMosaic.Lib.KernelVsHost
import Idealize.ShloMosaic.Lib.ReduceAll

noncomputable section

namespace Cert.KernelIdeal.HostFacts

open Idealize.ShloMosaic Idealize.ShloMosaic.ValueIdx
open Cert.KernelIdeal
open Facts₀ Facts

variable [Cert.KernelIdeal.Facts] [Cert.Pre_input_domain.Facts]

/-! ## The index words the kernel receives -/

/-- The index words as the kernel receives them: the list extended by 240 rows of the zero word, re-laid in
    row-major order as 32 x 80 x 128. -/
def idxAll (t : IVec S10000x32 32) : IVec S32x80x128 32 :=
  shapeCast S32x80x128
    (pad S10240x32 ![0, 0] ![240, 0] ![0, 0] t (constantI S_ 32 0#32) pads_S10000x32_S10240x32_02400_000 h_S_)
    shapeCasts_S10240x32_S32x80x128

/-- The extended list at row `r`: the list's row below 10000, the zero word from there on. -/
theorem padded_apply (t : IVec S10000x32 32) (r : Fin 10240) (j : Fin 32) :
    pad S10240x32 ![0, 0] ![240, 0] ![0, 0] t (constantI S_ 32 0#32) pads_S10000x32_S10240x32_02400_000 h_S_ (ix2 r j)
      = if h : r.val < 10000 then t (ix2 (⟨r.val, h⟩ : Fin 10000) j) else 0#32 := by
  by_cases h : r.val < 10000
  · rw [dif_pos h]
    refine pad_apply_of_inside _ _ _ _ _ _ _ _ (ix2 (⟨r.val, h⟩ : Fin 10000) j) fun a => ?_
    match a with
    | ⟨0, _⟩ => show r.val = 0 + r.val * (0 + 1); omega
    | ⟨1, _⟩ => show j.val = 0 + j.val * (0 + 1); omega
  · rw [dif_neg h]
    refine (pad_apply_of_not_inside _ _ _ _ _ _ _ (ix2 r j) (⟨0, by decide⟩ : Fin 2) ?_).trans rfl
    show ¬(0 ≤ r.val ∧ (r.val - 0) % (0 + 1) = 0 ∧ (r.val - 0) / (0 + 1) < 10000)
    omega

/-- Entry (w, c, 32 n + j) of the re-laid array is word `j` of row 320 w + 4 c + n of the list, the zero word past
    the list's last row: the two flat positions ((w * 80 + c) * 128 + 32 n + j) and (320 w + 4 c + n) * 32 + j agree. -/
theorem idxAll_apply (t : IVec S10000x32 32) (w : Fin 32) (c : Fin 80) (n : Fin 4) (j : Fin 32) :
    idxAll t (ix3 w c (⟨32 * n.val + j.val, by omega⟩ : Fin 128))
      = if h : 320 * w.val + 4 * c.val + n.val < 10000 then t (ix2 (⟨320 * w.val + 4 * c.val + n.val, h⟩ : Fin 10000) j)
        else 0#32 := by
  unfold idxAll
  refine (shapeCast_apply _ _ _ (ix2 (⟨320 * w.val + 4 * c.val + n.val, by omega⟩ : Fin 10240) j) ?_).trans ?_
  · rw [Shape.rowMajor_val_two, Shape.rowMajor_val_three]
    show (320 * w.val + 4 * c.val + n.val) * 32 + j.val = (w.val * 80 + c.val) * 128 + (32 * n.val + j.val)
    omega
  · exact padded_apply t _ j

/-! ## The precondition's bound on the index words -/

/-- The shape with no axis has one index. -/
instance : Subsingleton (⟨0, ![]⟩ : Shape).Idx := ⟨fun _ _ => funext fun d => d.elim0⟩

/-- A word that reads, signed, between 0 and 99999 is below 100000 read unsigned. -/
theorem toNat_lt_of_signed_range (w : BitVec 32) (h0 : (0#32 : BitVec 32).toInt ≤ w.toInt)
    (h1 : w.toInt ≤ (99999#32 : BitVec 32).toInt) : w.toNat < 100000 := by
  have e0 : (0#32 : BitVec 32).toInt = 0 := by decide
  have e1 : (99999#32 : BitVec 32).toInt = 99999 := by decide
  rw [e0] at h0
  rw [e1] at h1
  have h32 := w.isLt
  rw [BitVec.toInt_eq_toNat_cond] at h0 h1
  split at h0 <;> omega

/-- The precondition read back: its last conjunct is the conjunction, over every index word, of the two signed
    comparisons 0 ≤ word and word ≤ 99999, so every index word is below 100000. -/
theorem words_lt {F : FTy → Type} [FloatOps F] (x : FVec F S100000x128 .f32) (nn : IVec S10000 32) (t : IVec S10000x32 32)
    (h : Cert.Pre_input_domain.fn (F := F) x nn t = (fun _ => 1#1)) : ∀ i, (t i).toNat < 100000 := by
  intro i
  have e := congrFun h ix0
  dsimp only [Cert.Pre_input_domain.fn, Cert.Pre_input_domain.fn_part1] at e
  obtain ⟨-, e2⟩ := IntOp.andi_eq_one.1 e
  have e3 := Host.reduce_andi_all _ _ _ _ _ e2 i
  obtain ⟨h0, h1⟩ := IntOp.andi_eq_one.1 e3
  exact toNat_lt_of_signed_range _ (IntOp.cmpi_sge.1 h0) (IntOp.cmpi_sle.1 h1)

/-- Every entry of the re-laid array, at explicit coordinates, is below 100000: the last coordinate `d` is
    32 (d / 32) + d % 32, the entry is then an index word or the zero word. -/
theorem idxAll_lt_coords (t : IVec S10000x32 32) (ht : ∀ i, (t i).toNat < 100000) (w : Fin 32) (c : Fin 80) (d : Fin 128) :
    (idxAll t (ix3 w c d)).toNat < 100000 := by
  have hd : d = (⟨32 * (⟨d.val / 32, by omega⟩ : Fin 4).val + (⟨d.val % 32, by omega⟩ : Fin 32).val, by omega⟩ : Fin 128) :=
    Fin.ext (by show d.val = 32 * (d.val / 32) + d.val % 32; omega)
  rw [hd, idxAll_apply]
  split
  · exact ht _
  · show (0#32 : BitVec 32).toNat < 100000
    decide

/-- Every entry of the re-laid array is below 100000. -/
theorem idxAll_lt (t : IVec S10000x32 32) (ht : ∀ i, (t i).toNat < 100000) : ∀ k, (idxAll t k).toNat < 100000 := by
  intro k
  rw [eq_ix3 k]
  exact idxAll_lt_coords t ht (k 0) (k 1) (k 2)

/-! ## The rows kept after the call -/

/-- The result keeps the first 10000 rows: row `r` of what is kept is row `r` of the 10240. -/
theorem slice_apply {F : FTy → Type} [FloatOps F] (f : FVec F S10240x128 .f32) (r : Fin 10000) (d : Fin 128) :
    extractStridedSlice S10000x128 ![0, 0] f slices_S10240x128_S10000x128_0_0 (ix2 r d)
      = f (ix2 (⟨r.val, by omega⟩ : Fin 10240) d) := by
  refine extractStridedSlice_apply _ _ _ _ _ fun a => ?_
  match a with
  | ⟨0, _⟩ => show r.val = 0 + r.val; omega
  | ⟨1, _⟩ => show d.val = 0 + d.val; omega

end Cert.KernelIdeal.HostFacts

end
-- ==== Proof.KI_Launch.lean ====
/-
  The kernel's side, the launch: how the call's operands split among the two SparseCores' sixteen vector subcores
  and join again, what the host does before and after the call, and the run of the whole program.

  Worker `w = 2 s + c` is subcore `s` of SparseCore `c`: the pairs (c, s) are the 32 workers, each once. The index
  table and the result split into the workers' 32 blocks of rows; the feature table, read by all, is held as 32 read
  tokens and a remainder. Before the call the host extends the neighbour lists by rows of the zero word and re-lays
  them; after it, it keeps the first 10000 rows of the kernel's result.
-/
import proofs.«202836_g53523882443255_cont_9to1_m_1194_32_alg».proof.Proof.KI_Setup
import proofs.«202836_g53523882443255_cont_9to1_m_1194_32_alg».proof.Proof.HostFactsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## The 32 workers are the pairs (SparseCore, subcore) -/

/-- `(c, s) ↦ 2 s + c` is a bijection of the pairs onto the workers. -/
def widEquiv : Fin 2 × Fin 16 ≃ Fin 32 where
  toFun p := wid p.1 p.2
  invFun w := (⟨w.val % 2, by omega⟩, ⟨w.val / 2, by omega⟩)
  left_inv p := by
    rcases p with ⟨c, s⟩
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

/-- A product over the workers is the product over the SparseCores of the products over their subcores. -/
theorem bigSep_workers (Φ : Fin 32 → sProp 𝕄) :
    (bigSep Finset.univ fun c : Fin ((K (F := F)).nCore 0) => bigSep Finset.univ fun i : Fin 16 => Φ (wid (Fin.cast nCore_zero c) i))
      = bigSep Finset.univ Φ := by
  show (bigSep (Finset.univ : Finset (Fin 2)) fun c => bigSep Finset.univ fun i : Fin 16 => Φ (wid c i)) = _
  rw [bigSep_univ_equiv widEquiv Φ, bigSep_univ_prod]
  rfl

/-- A product over a call's sixteen tasks, indexed as the configuration indexes them. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The blocks of rows split and join; the read tokens of the feature table -/

theorem iRowSet_eq (w : Fin 32) : iRowSet w = (irow w).set := by
  show ((View.whole (main_v1_scv : Ref sig .scVector)).slice (irow w)).set = _
  rw [View.set_slice]; exact Finset.map_refl
theorem oRowSet_eq (w : Fin 32) : oRowSet w = (orow w).set := by
  show ((View.whole (main_v2_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

/-- The index table whole is its 32 slabs. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
/-- The result whole, at ONE function, is its 32 blocks of rows at that function. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

variable [FloatOps F]
variable (m : (ℓ : Loc nD τ sig) → Buf (Elt F) ℓ) (ρ : Dev nD → PrngReg)

/-! ## The call's split: a SparseCore's share is its sixteen tasks' shares -/

section Split
variable (ia : (d : Dev nD) → Buf (Elt F) (iLoc d))

/-- What the call hands SparseCore `c` is, piece by piece, what its sixteen tasks take; what they bring back is
    what it hands back. -/
theorem vecSplit : (K (F := F)).VecSplit' (P m ia) 0 := by
  intro d c
  show (bigSep Finset.univ fun i : Fin 16 => goRes m ia d (wid (Fin.cast nCore_zero c) i))
      ⊢ |={Set.univ}=> iprop(
        (bigSep Finset.univ fun i : Fin ((K (F := F)).nSub 0) => goRes m ia d (wid (Fin.cast nCore_zero c) (Fin.cast nSub_zero i)))
        ∗ ((bigSep Finset.univ fun i : Fin ((K (F := F)).nSub 0) => tdRes m ia d (wid (Fin.cast nCore_zero c) (Fin.cast nSub_zero i)))
            -∗ bigSep Finset.univ fun i : Fin 16 => tdRes m ia d (wid (Fin.cast nCore_zero c) i)))
  rw [bigSep_tasks (F := F) (fun i => goRes m ia d (wid (Fin.cast nCore_zero c) i)),
    bigSep_tasks (F := F) (fun i => tdRes m ia d (wid (Fin.cast nCore_zero c) i))]
  iintro H; imodintro
  isplitl [H]; · iexact H
  iintro H2; iexact H2

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m ia).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m ia).x q thr) = bigSep Finset.univ fun _ => iprop(emp) from
    bigSep_congr fun _ _ => bigSep_univ_of_subsingleton (0 : Fin 1), bigSep_emp']
  iempintro

/-! ## What the call takes for the two SparseCores, and what it hands back -/

theorem st0_eq (d : Dev nD) : (bigSep Finset.univ fun c : Fin ((K (F := F)).nCore 0) => (P m ia).st 0 d c)
    = iprop(iPts ia d ∗ (bigSep Finset.univ fun w : Fin 32 => fShPts m d w) ∗ oPts d (m (oLoc d))) := by
  show (bigSep Finset.univ fun c : Fin ((K (F := F)).nCore 0) => bigSep Finset.univ fun i : Fin 16 => goRes m ia d (wid (Fin.cast nCore_zero c) i)) = _
  rw [bigSep_workers (F := F) (fun w => goRes m ia d w)]
  show (bigSep Finset.univ fun w : Fin 32 => iprop((iLoc d ↦[iRowSet w]{fullShare} ia d) ∗ (fLoc d ↦{fq w} m (fLoc d)) ∗ (oLoc d ↦[oRowSet w]{fullShare} m (oLoc d))))
    = iprop((iLoc d ↦{fullShare} ia d) ∗ (bigSep Finset.univ fun w : Fin 32 => fLoc d ↦{fq w} m (fLoc d)) ∗ (oLoc d ↦{fullShare} m (oLoc d)))
  rw [bigSep_sep', bigSep_sep', iPts_rows, oPts_rows]

theorem dn0_eq (d : Dev nD) : (bigSep Finset.univ fun c : Fin ((K (F := F)).nCore 0) => (P m ia).dn 0 d c)
    = iprop(iPts ia d ∗ (bigSep Finset.univ fun w : Fin 32 => fShPts m d w) ∗ oPts d (outFn m ia d)) := by
  show (bigSep Finset.univ fun c : Fin ((K (F := F)).nCore 0) => bigSep Finset.univ fun i : Fin 16 => tdRes m ia d (wid (Fin.cast nCore_zero c) i)) = _
  rw [bigSep_workers (F := F) (fun w => tdRes m ia d w)]
  show (bigSep Finset.univ fun w : Fin 32 => iprop((iLoc d ↦[iRowSet w]{fullShare} ia d) ∗ (fLoc d ↦{fq w} m (fLoc d)) ∗ (oLoc d ↦[oRowSet w]{fullShare} outFn m ia d)))
    = iprop((iLoc d ↦{fullShare} ia d) ∗ (bigSep Finset.univ fun w : Fin 32 => fLoc d ↦{fq w} m (fLoc d)) ∗ (oLoc d ↦{fullShare} outFn m ia d))
  rw [bigSep_sep', bigSep_sep', iPts_rows, oPts_rows]

end Split

/-! ## @main on the TensorCore -/

/-- The index table the host leaves for the kernel: the neighbour lists extended and re-laid. -/
def iaOf (d : Dev nD) : Buf (Elt F) (iLoc d) := Cert.KernelIdeal.HostFacts.idxAll (m (tLoc d))

/-- The program's result: the first 10000 rows of the kernel's. -/
def resFn (d : Dev nD) : Buf (Elt F) (rLoc d) :=
  extractStridedSlice S10000x128 ![0, 0] (aggFold (F := F) (m (fLoc d)) (iaOf m d)) Facts₀.slices_S10240x128_S10000x128_0_0

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev c' : DevRef τ sig := Proc.devRef .tc (main_c : Ref sig .tc)
abbrev c0' : DevRef τ sig := Proc.devRef .tc (main_call0_v0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The TensorCore's nine arrays, all unscoped. -/
abbrev S9 : Finset (DevRef τ sig) := {a0', a1', a2', c', c0', v0', v1', v2', v3'}
/-- The kernel's result and the program's. -/
abbrev S2 : Finset (DevRef τ sig) := {v2', v3'}

/-- The host's operations: the zero word, its conversion, the padding, the re-laying; after the call, the slice. -/
abbrev op1 : HloOp τ sig (Elt F) := StableHlo.nullary main_c (constantI S_ 32 0#32)
abbrev op2 : HloOp τ sig (Elt F) :=
  StableHlo.TRef.unary (.of main_c : StableHlo.TRef sig ⟨S_, .i32⟩) (.of main_call0_v0 : StableHlo.TRef sig ⟨S_, .i32⟩) id
abbrev op3 : HloOp τ sig (Elt F) :=
  StableHlo.TRef.binary (.of main_arg2 : StableHlo.TRef sig ⟨S10000x32, .i32⟩) (.of main_call0_v0 : StableHlo.TRef sig ⟨S_, .i32⟩)
    (.of main_v0 : StableHlo.TRef sig ⟨S10240x32, .i32⟩)
    (fun x v => pad S10240x32 ![0, 0] ![240, 0] ![0, 0] x v Facts₀.pads_S10000x32_S10240x32_02400_000 Facts₀.h_S_)
abbrev op4 : HloOp τ sig (Elt F) := StableHlo.reshape main_v0 main_v1 rfl Facts₀.shapeCasts_S10240x32_S32x80x128
abbrev op5 : HloOp τ sig (Elt F) :=
  StableHlo.unary main_v2 main_v3 ((extractStridedSlice S10000x128 ![0, 0] · Facts₀.slices_S10240x128_S10000x128_0_0) :
    (⟨S10240x128, .f32⟩ : BufTy).Contents (Elt F) → (⟨S10000x128, .f32⟩ : BufTy).Contents (Elt F))

omit [FloatOps F] in
theorem h1 : (op1 (F := F)).bufs ⊆ S9 := show ({c'} : Finset (DevRef τ sig)) ⊆ S9 by decide
omit [FloatOps F] in
theorem h2 : (op2 (F := F)).bufs ⊆ S9 := show ({c', c0'} : Finset (DevRef τ sig)) ⊆ S9 by decide
omit [FloatOps F] in
theorem h3 : (op3 (F := F)).bufs ⊆ S9 := show ({a2', c0', v0'} : Finset (DevRef τ sig)) ⊆ S9 by decide
omit [FloatOps F] in
theorem h4 : (op4 (F := F)).bufs ⊆ S9 := show ({v0', v1'} : Finset (DevRef τ sig)) ⊆ S9 by decide
omit [FloatOps F] in
theorem h5 : (op5 (F := F)).bufs ⊆ S2 := show ({v2', v3'} : Finset (DevRef τ sig)) ⊆ S2 by decide

omit [FloatOps F] in
theorem held_S9 (d : Dev nD) (W : Valuation τ sig (Elt F)) :
    (held (T d) S9 W : sProp 𝕄) = iprop((fLoc d ↦{fullShare} W a0') ∗ (nLoc d ↦{fullShare} W a1') ∗ (tLoc d ↦{fullShare} W a2')
      ∗ (cLoc d ↦{fullShare} W c') ∗ (c0Loc d ↦{fullShare} W c0') ∗ (pLoc d ↦{fullShare} W v0') ∗ (iLoc d ↦{fullShare} W v1')
      ∗ (oLoc d ↦{fullShare} W v2') ∗ rLoc d ↦{fullShare} W v3') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S2 (d : Dev nD) (W : Valuation τ sig (Elt F)) :
    (held (T d) S2 W : sProp 𝕄) = iprop((oLoc d ↦{fullShare} W v2') ∗ rLoc d ↦{fullShare} W v3') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((fLoc d ↦{fullShare} W main_arg0) ∗ (nLoc d ↦{fullShare} W main_arg1) ∗ (tLoc d ↦{fullShare} W main_arg2)
      ∗ (cLoc d ↦{fullShare} W main_c) ∗ (c0Loc d ↦{fullShare} W main_call0_v0) ∗ (pLoc d ↦{fullShare} W main_v0) ∗ (iLoc d ↦{fullShare} W main_v1)
      ∗ (oLoc d ↦{fullShare} W main_v2) ∗ rLoc d ↦{fullShare} W main_v3) := by
  unfold unscopedBufs
  rw [show (Finset.univ.filter fun b : Ref sig .tc => ¬ b.isScoped)
      = {main_arg0, main_arg1, main_arg2, main_c, main_call0_v0, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch contents; the contents after the host's four operations before the call. -/
def V0 (d : Dev nD) : Valuation τ sig (Elt F) := fun b => m (d, b)
def V4 (d : Dev nD) : Valuation τ sig (Elt F) :=
  StableHlo.after [op1 (F := F), op2 (F := F), op3 (F := F), op4 (F := F)] (V0 m d)

omit [FloatOps F] in
theorem unscoped_held (d : Dev nD) : (unscopedBufs d (fun b => m ((SparseCore.T d).loc b)) : sProp 𝕄) = held (T d) S9 (V0 m d) := by
  rw [unscopedBufs_eq, held_S9]; rfl

theorem V4_a0 (d : Dev nD) : V4 m d a0' = m (fLoc d) := by
  unfold V4
  after_results
  rfl
theorem V4_v1 (d : Dev nD) : V4 m d v1' = iaOf m d := by
  unfold V4
  after_results
  rfl

theorem V4_a1 (d : Dev nD) : V4 m d a1' = m (nLoc d) := by
  unfold V4
  after_results
  rfl
theorem V4_a2 (d : Dev nD) : V4 m d a2' = m (tLoc d) := by
  unfold V4
  after_results
  rfl
theorem V4_v2 (d : Dev nD) : V4 m d v2' = m (oLoc d) := by
  unfold V4
  after_results
  rfl

/-- After the call: the kernel's result in its array, the rest as the host left it. -/
def V5 (d : Dev nD) : Valuation τ sig (Elt F) := Function.update (V4 m d) v2' (outFn m (iaOf m) d)

theorem V5_v2 (d : Dev nD) : V5 m d v2' = outFn m (iaOf m) d := Function.update_self _ _ _
theorem V5_v3 (d : Dev nD) : V5 m d v3' = V4 m d v3' := Function.update_of_ne (show v3' ≠ v2' by decide) _ _

/-- The slice of the kernel's result is the program's result. -/
theorem res5 (d : Dev nD) : (op5 (F := F)).result (V5 m d) v3' = resFn m d := by
  rw [StableHlo.unary_result, V5_v2]
  rfl

/-- What @main leaves the claim: the three arguments at their launch contents, the result at the program's. -/
abbrev FIN (d : Dev nD) : sProp 𝕄 :=
  iprop((fLoc d ↦{fullShare} m (fLoc d)) ∗ (nLoc d ↦{fullShare} m (nLoc d)) ∗ (tLoc d ↦{fullShare} m (tLoc d)) ∗ rLoc d ↦{fullShare} resFn m d)

/-- @main on device `d`'s TensorCore: the zero word, the padding and the re-laying; the call, from the index table in
    its 32 slabs, the feature table's 32 read tokens and the result's 32 blocks, back at the kernel's result; the
    slice. The arguments are kept. -/
theorem hmain (κ : GSem nD τ sig → ℕ) (d : Dev nD) :
    iprop((K (F := F)).ctx EH (P m (iaOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  -- the host's four operations before the call
  iapply (wp_hlo_within 𝒱 (SparseCore.T d) none Set.univ (op := op1) (S := S9) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) h2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) h3
    (V := (op2 (F := F)).result ((op1 (F := F)).result (V0 m d)))) $$ [Hb Hheld]
  · isplitl [Hb]; · iexact Hb
    iexact Hheld
  iintro ⟨Hb, Hheld⟩
  rw [wp_ret]; imodintro; imodintro
  iapply (wp_hlo_within 𝒱 (SparseCore.T d) none Set.univ (op := op4) (S := S9) h4
    (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  have e4 : (op4 (F := F)).result ((op3 (F := F)).result ((op2 (F := F)).result ((op1 (F := F)).result (V0 m d)))) = V4 m d := rfl
  rw [e4]
  ihave Hh := (Entails.of_eq (held_S9 (F := F) d (V4 m d))) $$ Hheld
  icases Hh with ⟨Hf, Hn, Ht, Hc, Hc0, Hp, Hi, Ho, Hr⟩
  rw [V4_a0, V4_a1, V4_a2, V4_v1, V4_v2]
  -- the feature table as 32 read tokens and the remainder
  ihave Hf' := (Transfers.pointsTo_toks_split (ℓ := fLoc d) (S := Finset.univ) (f := m (fLoc d)) fullShare 32) $$ Hf
  icases Hf' with ⟨Hfd, Hft⟩
  -- the call
  iapply ((K (F := F)).wp_run (D (F := F)) 𝒱 (EH := EH) (P := P m (iaOf m)) κ d 0) $$ [Hst Hi Hft Ho Hb Hfd Hn Ht Hr]
  isplitr; · iexact Hctx
  isplitl [Hst]; · iexact Hst
  isplitl [Hi Hft Ho]
  · rw [st0_eq]
    isplitl [Hi]; · iexact Hi
    isplitl [Hft]; · iexact Hft
    iexact Ho
  iintro ⟨Hst, Hdn⟩
  ihave Hdn' := (Entails.of_eq (dn0_eq m (iaOf m) d)) $$ Hdn
  icases Hdn' with ⟨Hi, Hft, Ho⟩
  ihave Hf := (Transfers.pointsTo_toks_join (ℓ := fLoc d) (S := Finset.univ) (f := m (fLoc d)) fullShare 32) $$ [Hfd Hft]
  · isplitl [Hfd]; · iexact Hfd
    iexact Hft
  -- the slice
  iapply (wp_hlo_within 𝒱 (SparseCore.T d) none Set.univ (op := op5) (S := S2) h5 (V := V5 m d)) $$ [Hb Ho Hr]
  · isplitl [Hb]; · iexact Hb
    rw [held_S2, V5_v2, V5_v3]
    isplitl [Ho]; · iexact Ho
    iexact Hr
  iintro ⟨Hb, Hheld⟩
  ihave Hh := (Entails.of_eq (held_S2 (F := F) d ((op5 (F := F)).result (V5 m d)))) $$ Hheld
  icases Hh with ⟨-, Hr⟩
  rw [res5]
  rw [wp_ret]; imodintro; imodintro
  isplitl [Hst]; · iexact Hst
  isplitl [Hf]; · iexact Hf
  isplitl [Hn]; · iexact Hn
  isplitl [Ht]; · iexact Ht
  iexact Hr

/-! ## The final assertions read the claim -/

def finQ (d : Dev nD) (s' : Phys nD τ sig (Elt F)) : Prop :=
  s'.mem.mem (rLoc d) = resFn m d ∧ s'.mem.mem (fLoc d) = m (fLoc d) ∧ s'.mem.mem (nLoc d) = m (nLoc d) ∧ s'.mem.mem (tLoc d) = m (tLoc d)

set_option maxRecDepth 16384 in
theorem hfin (d : Dev nD) (s' : Phys nD τ sig (Elt F)) : iprop(FIN m d ∗ SI s') ⊢ (⌜finQ m d s'⌝ : sProp 𝕄) := by
  iintro ⟨⟨Hf, Hn, Ht, Hr⟩, HSI⟩
  ihave H := (persistent_entails_right (SI_pointsTo_agree (st := s') (ℓ := fLoc d) (I := Finset.univ) (q := fullShare) (f := m (fLoc d)))) $$ [HSI Hf]
  · isplitl [HSI] <;> iassumption
  icases H with ⟨%h1, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (SI_pointsTo_agree (st := s') (ℓ := rLoc d) (I := Finset.univ) (q := fullShare) (f := resFn m d)) $$ [HSI Hr]
  · isplitl [HSI] <;> iassumption
  icases H with %h4
  ipureintro
  exact ⟨funext fun i => h4 i (Finset.mem_univ i), funext fun i => h1 i (Finset.mem_univ i),
    funext fun i => h2 i (Finset.mem_univ i), funext fun i => h3 i (Finset.mem_univ i)⟩

/-! ## The program's run -/

/-- The whole program, given the tasks' obligation: every weakly fair execution terminates, nothing faulting; the
    result is the slice of the kernel's value at the host's index table, the arguments are unchanged. -/
theorem run_main [∀ e, Nonempty (Elt F e)] (htile : (K (F := F)).TileObl (D (F := F)) 𝒱 (P m (iaOf m)) v₀ 0) :
    θ_run (Cert.KernelIdeal.defs (F := F)) (Cert.KernelIdeal.threads (F := F)) ⟨m, fun _ => 0, ρ⟩
      (fun r => ∀ c : Dev nD, r.2.mem (rLoc c) = resFn m c ∧ r.2.mem (fLoc c) = m (fLoc c) ∧ r.2.mem (nLoc c) = m (nLoc c)
        ∧ r.2.mem (tLoc c) = m (tLoc c)) :=
  SparseCore.Cfg.θ_run_sc (K := K (F := F)) (D := D (F := F)) (𝒱 := 𝒱) (EH := EH) (P := P m (iaOf m)) facts v₀
    (fun q hq => match q with | 0 => nomatch hq)
    (fun q _ => match q with | 0 => htile)
    (fun q _ => match q with | 0 => SparseCore.Cfg.VecSplit.of_plain (vecSplit m (iaOf m)))
    m ρ main (fun _ => iprop(emp)) (FIN m) (u₀ (F := F)) (sep_elim_left.trans (hu₀ m (iaOf m))) (hmain m ρ) (finQ m) (hfin m) _
    (fun _ h c => h c)

end Cert.Proof.KI

end
-- ==== Proof.KI_Tile.lean ====
/-
  One vector subcore's task, the pieces: the thread and its worker number, the views the task addresses (its slab of
  the index table, its block of the result, one list of its index scratch), and the subcore's own semaphores and
  buffers singled out of what the region entry hands it.
-/
import proofs.«202836_g53523882443255_cont_9to1_m_1194_32_alg».proof.Proof.KI_Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section Tile

variable (d : Dev nD) (L : grid0.Coords)

abbrev cV (L : grid0.Coords) : Fin τ.nSC := (L 0).castLE hcore0
abbrev jV (L : grid0.Coords) : Fin τ.nSub := (L 1).castLE hsub0
omit m ρ in
theorem bound_zero : grid0.bound 0 = 2 := rfl
omit m ρ in
theorem bound_one : grid0.bound 1 = 16 := rfl
/-- The worker number of the subcore at grid point `L`: `2 L₁ + L₀`. -/
abbrev wL (L : grid0.Coords) : Fin 32 := wid ⟨(L 0).val, (L 0).isLt⟩ ⟨(L 1).val, (L 1).isLt⟩

abbrev irowK (L : grid0.Coords) : Rect S32x80x128 := Rect.unit (s := S32x80x128) (k0_off1 L) S1x80x128.size (k0_off1_inb L)
abbrev orowK (L : grid0.Coords) : Rect S10240x128 := Rect.unit (s := S10240x128) (k0_off103 L) S320x128.size (k0_off103_inb L)
/-- The worker's slab of the index table (squeezed to 80 lists of 128 words) and its block of the result, as the task addresses them. -/
abbrev iRowK (L : grid0.Coords) : Memref sig .scVector .hbm S80x128 .i32 := ((iV).slice (irowK L) (fun _ => rfl)).squeeze S80x128 squeezes_S1x80x128_S80x128
abbrev oRowK (L : grid0.Coords) : Memref sig .scVector .hbm S320x128 .f32 := (oV).slice (orowK L) (fun _ => rfl)
abbrev fAllK : Memref sig .scVector .hbm S100000x128 .f32 := (fV).slice (Rect.unit (s := S100000x128) ![0, 0] S100000x128.size inb_S100000x128_S100000x128_0_0) (fun _ => rfl)

omit m ρ in
theorem irowK_eq : irowK L = irow (wL L) := by
  unfold irowK irow Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]
omit m ρ in
theorem orowK_eq : orowK L = orow (wL L) := by
  unfold orowK orow Rect.part Rect.block
  congr 1 <;> funext a
  · rw [k0_off103_eq]
    match a with
    | 0 => simp [Shape.partIx, Shape.partSize, wid]; omega
    | 1 => simp [Shape.partIx, Shape.partSize]
  · match a with
    | 0 => simp [Shape.partSize]
    | 1 => simp [Shape.partSize]

omit m ρ in
theorem set_iRowK : (iRowK L).view.set = iRowSet (wL L) := by
  show (((iV).view.slice (irowK L)).reshape S80x128 squeezes_S1x80x128_S80x128.numel_eq).set = ((iV).view.slice (irow (wL L))).set
  rw [View.set_reshape]
  exact irowK_eq L ▸ rfl
omit m ρ in
theorem set_oRowK : (oRowK L).view.set = oRowSet (wL L) := by
  show ((oV).view.slice (orowK L)).set = ((oV).view.slice (orow (wL L))).set
  exact orowK_eq L ▸ rfl

abbrev cell0 (d : Dev nD) (c : Fin τ.nSC) (i : Fin τ.nSub) : GSem nD τ sig := (V d c i, .dma cc0_scratch6.sem)
abbrev cell1 (d : Dev nD) (c : Fin τ.nSC) (i : Fin τ.nSub) : GSem nD τ sig := (V d c i, .dma cc0_scratch7.sem)
abbrev cell2 (d : Dev nD) (c : Fin τ.nSC) (i : Fin τ.nSub) : GSem nD τ sig := (V d c i, .dma cc0_scratch8.sem)
abbrev cell3 (d : Dev nD) (c : Fin τ.nSC) (i : Fin τ.nSub) : GSem nD τ sig := (V d c i, .dma cc0_scratch9.sem)
abbrev cell4 (d : Dev nD) (c : Fin τ.nSC) (i : Fin τ.nSub) : GSem nD τ sig := (V d c i, .dma cc0_scoped0.sem)
abbrev cell5 (d : Dev nD) (c : Fin τ.nSC) (i : Fin τ.nSub) : GSem nD τ sig := (V d c i, .dma cc0_scoped1.sem)

omit m ρ in
/-- The subcore's six transfer semaphores (one per row buffer, one per bracketed copy) are among its own cells: they
    are them, at zero, and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0
          ∗ bigSep (((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))) fun g => semVal g 0) := by
  unfold SparseCore.Cfg.ownSems0
  rw [
    SparseCore.bigSep_erase' ((mem_ownCells (g := (cell0 d (cV L) (jV L)))).mpr ⟨rfl, by show (SemLoc.dma cc0_scratch6.sem : SemLoc sig).isScoped .scVector = true; decide⟩),
    SparseCore.bigSep_erase' (Finset.mem_erase.mpr ⟨by simp [cell0, cell1]; decide, (mem_ownCells (g := (cell1 d (cV L) (jV L)))).mpr ⟨rfl, by show (SemLoc.dma cc0_scratch7.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := (cell2 d (cV L) (jV L)))).mpr ⟨rfl, by show (SemLoc.dma cc0_scratch8.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := (cell3 d (cV L) (jV L)))).mpr ⟨rfl, by show (SemLoc.dma cc0_scratch9.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := (cell4 d (cV L) (jV L)))).mpr ⟨rfl, by show (SemLoc.dma cc0_scoped0.sem : SemLoc sig).isScoped .scVector = true; decide⟩⟩⟩⟩⟩),
    SparseCore.bigSep_erase' (Finset.mem_erase.mpr ⟨by simp [cell4, cell5]; decide, Finset.mem_erase.mpr ⟨by simp [cell3, cell5]; decide, Finset.mem_erase.mpr ⟨by simp [cell2, cell5]; decide, Finset.mem_erase.mpr ⟨by simp [cell1, cell5]; decide, Finset.mem_erase.mpr ⟨by simp [cell0, cell5]; decide, (mem_ownCells (g := (cell5 d (cV L) (jV L)))).mpr ⟨rfl, by show (SemLoc.dma cc0_scoped1.sem : SemLoc sig).isScoped .scVector = true; decide⟩⟩⟩⟩⟩⟩)]

omit m ρ in
/-- The six scratch buffers (the index lists, the accumulator, the four row buffers) are among the subcore's own: they
    are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  rw [
    SparseCore.bigSep_erase' (SparseCore.Cfg.mem_ownRefs_of_owner (p := (Proc.scVector (cV L) (jV L))) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := (Proc.scVector (cV L) (jV L)).devRef cc0_scratch5) rfl⟩⟩⟩⟩⟩)]

end Tile

end Cert.Proof.KI

end
-- ==== Proof.KI_Pure.lean ====
/-
  The arithmetic of one result row, free of the program: the chain of sixteen-lane sums a vector subcore forms from the 32
  row pieces it loads, read lane by lane as the left-to-right sum `foldRows`; the accumulator filled one row at a time; and one
  store of a row piece into it, read back at an index.
-/
import proofs.«202836_g53523882443255_cont_9to1_m_1194_32_alg».proof.Proof.KI_Setup
import Idealize.ShloMosaic.Lib.ValueLayout
import Idealize.ShloMosaic.Lib.Writes

noncomputable section

namespace Cert.Proof.KI

open Cert.KernelIdeal
open Idealize.ShloMosaic Idealize.ShloMosaic.ValueIdx

variable {F : FTy → Type} [FloatOps F]

/-! ## The chain of sums over one row's 32 pieces -/

section Chain

variable [Cert.KernelIdeal.Facts]
open Facts₀ Facts

/-- The running sum after piece `n`: piece 0 as a sixteen-lane vector, then each further piece added on the right. -/
def chainV (l : ℕ → Vec F S1x16 .f32) : ℕ → FVec F S16 .f32
  | 0 => shapeCast S16 (l 0) shapeCasts_S1x16_S16
  | n + 1 => addf (chainV l n) (shapeCast S16 (l (n + 1)) shapeCasts_S1x16_S16)

theorem chainV_zero (l : ℕ → Vec F S1x16 .f32) : chainV l 0 = shapeCast S16 (l 0) shapeCasts_S1x16_S16 := rfl

theorem chainV_succ (l : ℕ → Vec F S1x16 .f32) (n : ℕ) :
    chainV l (n + 1) = addf (chainV l n) (shapeCast S16 (l (n + 1)) shapeCasts_S1x16_S16) := rfl

/-- Lane `y` of the running sum is the left-to-right sum of lane `y` of the pieces: the casts between one row of sixteen
    and sixteen lanes keep the lane, and the vector sum is lane by lane. -/
theorem chainV_apply (l : ℕ → Vec F S1x16 .f32) (n : ℕ) (y : Fin 16) :
    chainV l n (ix1 y) = foldRows (fun j => l j (ix2 (0 : Fin 1) y)) n := by
  induction n with
  | zero => exact shapeCast_1a_a_apply (l 0) _ y
  | succ n ih =>
    show FloatOps.addf (chainV l n (ix1 y)) (shapeCast S16 (l (n + 1)) shapeCasts_S1x16_S16 (ix1 y))
      = FloatOps.addf (foldRows (fun j => l j (ix2 (0 : Fin 1) y)) n) (l (n + 1) (ix2 (0 : Fin 1) y))
    rw [ih, shapeCast_1a_a_apply]

/-- The stored piece: sixteen lanes cast back to one row of sixteen keep the lane. -/
theorem storeV_apply (a : FVec F S16 .f32) (y : Fin 16) :
    shapeCast S1x16 a shapeCasts_S16_S1x16 (ix2 (0 : Fin 1) y) = a (ix1 y) :=
  shapeCast_a_1a_apply a _ 0 y

/-- Both together: lane `y` of the piece stored after the 32 pieces is their left-to-right sum at that lane. -/
theorem storeV_chainV_apply (l : ℕ → Vec F S1x16 .f32) (n : ℕ) (y : Fin 16) :
    shapeCast S1x16 (chainV l n) shapeCasts_S16_S1x16 (ix2 (0 : Fin 1) y) = foldRows (fun j => l j (ix2 (0 : Fin 1) y)) n := by
  rw [storeV_apply, chainV_apply]

end Chain

/-- The left-to-right sum depends only on the terms up to its last one. -/
theorem foldRows_congr {φ : FTy} (g g' : ℕ → F φ) (n : ℕ) (h : ∀ j, j ≤ n → g j = g' j) : foldRows g n = foldRows g' n := by
  induction n with
  | zero => exact h 0 (Nat.le_refl 0)
  | succ n ih =>
    show FloatOps.addf (foldRows g n) (g (n + 1)) = FloatOps.addf (foldRows g' n) (g' (n + 1))
    rw [ih fun j hj => h j (Nat.le_succ_of_le hj), h (n + 1) (Nat.le_refl _)]

/-! ## The accumulator, one row at a time -/

/-- The first `R` rows of the accumulator hold `val`. -/
def AccOK (val : Fin 320 → Fin 128 → F .f32) (R : ℕ) (fa : S320x128.Idx → F .f32) : Prop :=
  ∀ (r : Fin 320) (c : Fin 128), r.val < R → fa (ix2 r c) = val r c

/-- No row is asked of it at the start. -/
theorem AccOK_zero (val : Fin 320 → Fin 128 → F .f32) (fa : S320x128.Idx → F .f32) : AccOK val 0 fa :=
  fun r _ h => absurd h (Nat.not_lt_zero r.val)

/-- Fewer rows are asked of it. -/
theorem AccOK_of_le (val : Fin 320 → Fin 128 → F .f32) {R R' : ℕ} (hle : R' ≤ R) (fa : S320x128.Idx → F .f32)
    (h : AccOK val R fa) : AccOK val R' fa :=
  fun r c hr => h r c (Nat.lt_of_lt_of_le hr hle)

/-- Contents that agree on the first `R` rows. -/
theorem AccOK_congr (val : Fin 320 → Fin 128 → F .f32) (R : ℕ) (fa fa' : S320x128.Idx → F .f32) (h : AccOK val R fa)
    (hsame : ∀ (r : Fin 320) (c : Fin 128), r.val < R → fa' (ix2 r c) = fa (ix2 r c)) : AccOK val R fa' :=
  fun r c hr => (hsame r c hr).trans (h r c hr)

/-- ONE ROW MORE: new contents that keep every other row and hold `val` on row `R`. -/
theorem AccOK_step (val : Fin 320 → Fin 128 → F .f32) (R : ℕ) (hR : R < 320) (fa fa' : S320x128.Idx → F .f32)
    (h : AccOK val R fa) (hkeep : ∀ (r : Fin 320) (c : Fin 128), r.val ≠ R → fa' (ix2 r c) = fa (ix2 r c))
    (hnew : ∀ c : Fin 128, fa' (ix2 ⟨R, hR⟩ c) = val ⟨R, hR⟩ c) : AccOK val (R + 1) fa' := by
  intro r c hr
  by_cases e : r.val = R
  · obtain rfl : r = ⟨R, hR⟩ := Fin.ext e
    exact hnew c
  · rw [hkeep r c e]
    exact h r c (by omega)

/-- All 320 rows: the accumulator is `val` at every index. -/
theorem AccOK_all (val : Fin 320 → Fin 128 → F .f32) (fa : S320x128.Idx → F .f32) (h : AccOK val 320 fa)
    (i : S320x128.Idx) : fa i = val ⟨(i 0).val, idx2_lt0 i⟩ ⟨(i 1).val, idx2_lt1 i⟩ := by
  have e := h ⟨(i 0).val, idx2_lt0 i⟩ ⟨(i 1).val, idx2_lt1 i⟩ (idx2_lt0 i)
  rw [← e]
  exact congrArg fa (eq_ix2 i)

/-! ## One store of a row piece into the accumulator

A store of one row of sixteen lanes through the accumulator's view, at row `R` and columns `[C, C + 16)`: afterwards the
buffer read at `(R, C + y)` is lane `y` of the payload, and read anywhere outside that piece it is what it was. Stated
for one raw write through the piece's rectangle and for the same write at the head of a list of writes. -/

section Store

variable {sig : RefSig} {κ : Kind} {sp : Space} {e : EltTy} {Val : EltTy → Type}

/-- The piece's row is a row of the accumulator, -/
theorem rowPiece_row_lt {R C : ℕ} (h : ∀ a, (![R, C] : Fin 2 → ℕ) a + S1x16.size a ≤ S320x128.size a) : R < 320 := by
  have h0 : R + 1 ≤ 320 := h 0
  omega

/-- and each of its sixteen columns a column of it. -/
theorem rowPiece_col_lt {R C : ℕ} (h : ∀ a, (![R, C] : Fin 2 → ℕ) a + S1x16.size a ≤ S320x128.size a) (y : Fin 16) :
    C + y.val < 128 := by
  have h1 : C + 16 ≤ 128 := h 1
  omega

/-- Lane `y` of the piece lies at `(R, C + y)`. -/
theorem rowPiece_emb {R C : ℕ} (h : ∀ a, (![R, C] : Fin 2 → ℕ) a + S1x16.size a ≤ S320x128.size a) (y : Fin 16) :
    (Rect.unit (s := S320x128) ![R, C] S1x16.size h).emb (ix2 (0 : Fin 1) y)
      = ix2 (⟨R, rowPiece_row_lt h⟩ : Fin 320) (⟨C + y.val, rowPiece_col_lt h y⟩ : Fin 128) := by
  funext a
  refine Fin.ext ?_
  match a with
  | ⟨0, _⟩ =>
    show R + 1 * 0 = R
    omega
  | ⟨1, _⟩ =>
    show C + 1 * y.val = C + y.val
    omega

/-- The piece's elements: row `R`, columns `[C, C + 16)`. -/
theorem rowPiece_mem_set {R C : ℕ} (h : ∀ a, (![R, C] : Fin 2 → ℕ) a + S1x16.size a ≤ S320x128.size a) (r : Fin 320)
    (c : Fin 128) :
    ix2 r c ∈ (Rect.unit (s := S320x128) ![R, C] S1x16.size h).set ↔ r.val = R ∧ C ≤ c.val ∧ c.val < C + 16 := by
  rw [Rect.mem_set_unit]
  constructor
  · intro hm
    have m0 : R ≤ r.val ∧ r.val < R + 1 := hm 0
    have m1 : C ≤ c.val ∧ c.val < C + 16 := hm 1
    omega
  · rintro ⟨hr, hc⟩ a
    match a with
    | ⟨0, _⟩ =>
      show R ≤ r.val ∧ r.val < R + 1
      omega
    | ⟨1, _⟩ =>
      show C ≤ c.val ∧ c.val < C + 16
      omega

variable (v : View sig κ sp S320x128 e)

/-- After the one write, the buffer at `(R, C + y)` is lane `y` of the payload; -/
theorem read_write_rowPiece {R C : ℕ} (h : ∀ a, (![R, C] : Fin 2 → ℕ) a + S1x16.size a ≤ S320x128.size a)
    (f : v.ty.Contents Val) (pay : S1x16.Idx → Val e) (y : Fin 16) :
    v.read Val ((v.slice (Rect.unit (s := S320x128) ![R, C] S1x16.size h)).write Val f pay Finset.univ)
        (ix2 (⟨R, rowPiece_row_lt h⟩ : Fin 320) (⟨C + y.val, rowPiece_col_lt h y⟩ : Fin 128))
      = pay (ix2 (0 : Fin 1) y) := by
  rw [← rowPiece_emb h y]
  exact View.read_slice_write_emb (Rect.unit (s := S320x128) ![R, C] S1x16.size h) f pay (Finset.mem_univ _)

/-- outside the piece it is what it was. -/
theorem read_write_rowPiece_of_not_mem {R C : ℕ} (h : ∀ a, (![R, C] : Fin 2 → ℕ) a + S1x16.size a ≤ S320x128.size a)
    (f : v.ty.Contents Val) (pay : S1x16.Idx → Val e) (r : Fin 320) (c : Fin 128)
    (hout : ¬(r.val = R ∧ C ≤ c.val ∧ c.val < C + 16)) :
    v.read Val ((v.slice (Rect.unit (s := S320x128) ![R, C] S1x16.size h)).write Val f pay Finset.univ) (ix2 r c)
      = v.read Val f (ix2 r c) := by
  have hn : ix2 r c ∉ (Rect.unit (s := S320x128) ![R, C] S1x16.size h).set :=
    fun hm => hout ((rowPiece_mem_set h r c).mp hm)
  rw [← Rect.map_emb_univ] at hn
  exact View.read_slice_write_of_not_mem (Rect.unit (s := S320x128) ![R, C] S1x16.size h) f pay Finset.univ hn

/-- The same write at the head of a list of writes: at `(R, C + y)` lane `y` of the payload; -/
theorem read_writes_cons_rowPiece {R C : ℕ} (h : ∀ a, (![R, C] : Fin 2 → ℕ) a + S1x16.size a ≤ S320x128.size a)
    (f : v.ty.Contents Val) (pay : S1x16.Idx → Val e) (L : List (View.Piece Val S320x128 e)) (y : Fin 16) :
    v.read Val (v.writes Val f (⟨Rect.unit (s := S320x128) ![R, C] S1x16.size h, pay⟩ :: L))
        (ix2 (⟨R, rowPiece_row_lt h⟩ : Fin 320) (⟨C + y.val, rowPiece_col_lt h y⟩ : Fin 128))
      = pay (ix2 (0 : Fin 1) y) :=
  read_write_rowPiece v h (v.writes Val f L) pay y

/-- outside the piece what the earlier writes left. -/
theorem read_writes_cons_rowPiece_of_not_mem {R C : ℕ}
    (h : ∀ a, (![R, C] : Fin 2 → ℕ) a + S1x16.size a ≤ S320x128.size a)
    (f : v.ty.Contents Val) (pay : S1x16.Idx → Val e) (L : List (View.Piece Val S320x128 e)) (r : Fin 320) (c : Fin 128)
    (hout : ¬(r.val = R ∧ C ≤ c.val ∧ c.val < C + 16)) :
    v.read Val (v.writes Val f (⟨Rect.unit (s := S320x128) ![R, C] S1x16.size h, pay⟩ :: L)) (ix2 r c)
      = v.read Val (v.writes Val f L) (ix2 r c) :=
  read_write_rowPiece_of_not_mem v h (v.writes Val f L) pay r c hout

end Store

/-! ## One result row as a function of the row buffer -/

/-- Column `c` of the left-to-right sum of the 32 rows `p0, …, p0 + 31` of a row buffer (row numbers taken modulo its 128
    rows, so that the function is total). -/
def rowSum (g : S128x128.Idx → F .f32) (p0 : ℕ) (c : Fin 128) : F .f32 :=
  foldRows (fun j => g (ix2 (⟨(p0 + j) % 128, Nat.mod_lt _ (by decide)⟩ : Fin 128) c)) 31

/-- One row of the accumulator rewritten: every other row kept, row `R` the sum of rows `p0, …, p0 + 31` of the row
    buffer `g`. -/
def RowStep (R p0 : ℕ) (g : S128x128.Idx → F .f32) (fa fa' : S320x128.Idx → F .f32) : Prop :=
  (∀ (r : Fin 320) (c : Fin 128), r.val ≠ R → fa' (ix2 r c) = fa (ix2 r c))
    ∧ (∀ (r : Fin 320) (c : Fin 128), r.val = R → fa' (ix2 r c) = rowSum g p0 c)

end Cert.Proof.KI

end
-- ==== Proof.KI_BodyPre.lean ====
/-
  One vector subcore's task, what the run needs before it starts: one list of the index scratch as the task slices
  it; the task's views against the launch's pieces; a share cut into read tokens; every word of every list names a row
  of the feature table; the four guards of a trip all say "this is not the last trip"; a gather in flight respelt over
  an equal list; and the values the invariants speak of — what a row buffer holds once list `c` has been gathered
  into it, and what the accumulator's rows hold once they are summed.
-/
import proofs.«202836_g53523882443255_cont_9to1_m_1194_32_alg».proof.Proof.KI_Tile
import proofs.«202836_g53523882443255_cont_9to1_m_1194_32_alg».proof.Proof.KI_Pure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section Pre
variable [FloatOps F] (ia : (d : Dev nD) → Buf (Elt F) (iLoc d)) (d : Dev nD) (L : grid0.Coords)

/-- One list of the index scratch, as the task slices it: row `off 0`, squeezed to 128 words. -/
abbrev lstAt (off : Fin 2 → ℕ) (hoff : ∀ a, off a + S1x128.size a ≤ S80x128.size a) : Memref sig .scVector .vmem S128 .i32 :=
  ((sI).slice (Rect.unit (s := S80x128) off S1x128.size hoff) (fun _ => rfl)).squeeze S128 squeezes_S1x128_S128

omit [FloatOps F] m ρ in
theorem hrow (c : ℕ) (hc : c < 80) : ∀ a, (![c, 0] : Fin 2 → ℕ) a + S1x128.size a ≤ S80x128.size a := by
  intro a; match a with
  | 0 => simp; omega
  | 1 => simp

omit [FloatOps F] m ρ in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] m ρ in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] m ρ in
theorem pts_fV (q : PosShare TreeShare) (f : Buf (Elt F) (fLoc d)) :
    ((fV).view.loc (V d (cV L) (jV L)) ↦{q} f : sProp 𝕄) = fLoc d ↦{q} f := rfl
omit [FloatOps F] m ρ in
theorem pts_sc (b : Ref sig .scVector) (f : Buf (Elt F) ((V d (cV L) (jV L)).loc b)) :
    ((Memref.whole b).view.loc (V d (cV L) (jV L)) ↦{fullShare} f : sProp 𝕄) = (V d (cV L) (jV L)).loc b ↦{fullShare} f := rfl

omit [FloatOps F] m ρ in
/-- A share less `k` tokens is token `k` and the share less one more. -/
theorem tok_split {ℓ : Loc nD τ sig} (S : Finset (Idx ℓ)) (q : PosShare TreeShare) (f : Buf (Elt F) ℓ) (k k' : ℕ) (hk : k' = k + 1) :
    (ℓ ↦[S]{Transfers.shareDrop q k} f : sProp 𝕄) ⊣⊢ iprop((ℓ ↦[S]{Transfers.shareTokN q k} f) ∗ ℓ ↦[S]{Transfers.shareDrop q k'} f) := by
  subst hk
  exact ⟨(pointsTo_share (PosShare.mem_left_op_right _)).1.trans sep_comm.1, sep_comm.1.trans (pointsTo_share (PosShare.mem_left_op_right _)).2⟩
omit [FloatOps F] m ρ in
/-- The first token off a whole share. -/
theorem tok_split0 {ℓ : Loc nD τ sig} (S : Finset (Idx ℓ)) (q : PosShare TreeShare) (f : Buf (Elt F) ℓ) :
    (ℓ ↦[S]{q} f : sProp 𝕄) ⊣⊢ iprop((ℓ ↦[S]{Transfers.shareTokN q 0} f) ∗ ℓ ↦[S]{Transfers.shareDrop q 1} f) :=
  tok_split S q f 0 1 rfl

omit [FloatOps F] m ρ in
/-- Every word of every list of the scratch, once the worker's slab has landed in it, names a row of the feature table. -/
theorem list_lt (hia : IdxOK ia) (fs : Buf (Elt F) ((V d (cV L) (jV L)).loc cc0_scratch0)) (pay : S80x128.Idx → Elt F .i32)
    (hpay : pay = (iRowK L).view.read (Elt F) (ia d)) (off : Fin 2 → ℕ) (hoff : ∀ a, off a + S1x128.size a ≤ S80x128.size a) :
    ∀ x, ((lstAt off hoff).view.read (Elt F) (View.write (Elt F) (sI).view fs pay Finset.univ) x).toNat < S100000x128.size gathers_S100000x128_S128x128.axis := by
  subst hpay; intro x
  simp only [Memref.view_whole, View.write_whole_univ]
  exact hia d _

omit [FloatOps F] m ρ in
/-- Before the last trip every guard holds (the next list exists); -/
theorem cond_pos : ∀ k : Fin k0_t1_loop.trips, k.val < 19 → k0_cond1 k = 1#1 ∧ k0_cond2 k = 1#1 ∧ k0_cond3 k = 1#1 ∧ k0_cond4 k = 1#1 := by
  decide +kernel
omit [FloatOps F] m ρ in
/-- at the last trip none does. -/
theorem cond_neg : ∀ k : Fin k0_t1_loop.trips, ¬ k.val < 19 → ¬ k0_cond1 k = 1#1 ∧ ¬ k0_cond2 k = 1#1 ∧ ¬ k0_cond3 k = 1#1 ∧ ¬ k0_cond4 k = 1#1 := by
  decide +kernel

omit [FloatOps F] m ρ in
theorem trips_eq : k0_t1_loop.trips = 20 := by decide

omit [FloatOps F] m ρ in
/-- The list a trip's guard slices is list `4 (k + 1) + b`. -/
theorem nextOff (k : Fin k0_t1_loop.trips) :
    k0_off27 k = ![4 * (k.val + 1) + 0, 0] ∧ k0_off52 k = ![4 * (k.val + 1) + 1, 0] ∧ k0_off77 k = ![4 * (k.val + 1) + 2, 0] ∧ k0_off102 k = ![4 * (k.val + 1) + 3, 0] := by
  refine ⟨(k0_off27_eq k).trans ?_, (k0_off52_eq k).trans ?_, (k0_off77_eq k).trans ?_, (k0_off102_eq k).trans ?_⟩
  · rw [show 4 * (k.val + 1) + 0 = 4 * k.val + 4 by omega]
  · rw [show 4 * (k.val + 1) + 1 = 4 * k.val + 5 by omega]
  · rw [show 4 * (k.val + 1) + 2 = 4 * k.val + 6 by omega]
  · rw [show 4 * (k.val + 1) + 3 = 4 * k.val + 7 by omega]

/-- What a gather of list `lst` into row buffer `bufM` on its semaphore, in flight, will deliver, and what stays behind:
    the buffer at its new contents, the list's words at their share, the table's slice at its token; the rest of the
    scratch of lists at that share, of the table at that token, of the buffer. -/
abbrev gatherGrp (bufM : Memref sig .scVector .vmem S128x128 .f32) (sem : DmaSem sig) (g : Buf (Elt F) (bufM.view.loc (V d (cV L) (jV L))))
    (off : Fin 2 → ℕ) (hoff : ∀ a, off a + S1x128.size a ≤ S80x128.size a) (σ : PosShare TreeShare)
    (idxv : Buf (Elt F) ((sI).view.loc (V d (cV L) (jV L)))) (tk : ℕ) : sProp 𝕄 :=
  iprop((Transfers.Flight countersEmb (V d (cV L) (jV L)) (SemLoc.dma sem) (default : HIx 1) 524288
        iprop(((bufM.view.loc (V d (cV L) (jV L)) ↦[bufM.view.set]{fullShare} g) ∗ ((lstAt off hoff).view.loc (V d (cV L) (jV L)) ↦[(lstAt off hoff).view.set]{σ} idxv))
          ∗ ((fV).view.loc (V d (cV L) (jV L)) ↦[(fAllK).view.set]{Transfers.shareTokN (fq (wL L)) tk} m (fLoc d))) : sProp 𝕄)
    ∗ ((sI).view.loc (V d (cV L) (jV L)) ↦[Finset.univ \ (lstAt off hoff).view.set]{σ} idxv)
    ∗ ((fV).view.loc (V d (cV L) (jV L)) ↦[Finset.univ \ (fAllK).view.set]{Transfers.shareTokN (fq (wL L)) tk} m (fLoc d))
    ∗ (bufM.view.loc (V d (cV L) (jV L)) ↦[Finset.univ \ bufM.view.set]{fullShare} g))

omit [FloatOps F] ρ in
/-- The same gather over an equal list. -/
theorem gatherGrp_congr (bufM : Memref sig .scVector .vmem S128x128 .f32) (sem : DmaSem sig) (g : Buf (Elt F) (bufM.view.loc (V d (cV L) (jV L))))
    (off off' : Fin 2 → ℕ) (hoff : ∀ a, off a + S1x128.size a ≤ S80x128.size a) (hoff' : ∀ a, off' a + S1x128.size a ≤ S80x128.size a)
    (e : off = off') (σ : PosShare TreeShare) (idxv : Buf (Elt F) ((sI).view.loc (V d (cV L) (jV L)))) (tk : ℕ) :
    gatherGrp m d L bufM sem g off hoff σ idxv tk ⊢ gatherGrp m d L bufM sem g off' hoff' σ idxv tk := by
  subst e; exact BI.Entails.refl _

/-! ## The values -/

/-- What a row buffer holds once list `c` has been gathered into it: row `p` is the feature row word `p` of the list names. -/
def bufVal (idxv : S80x128.Idx → BitVec 32) (fx : S100000x128.Idx → F .f32) (c : ℕ) : S128x128.Idx → F .f32 :=
  fun i => fx (featIdx (idxv (ix2 (⟨c % 80, Nat.mod_lt _ (by decide)⟩ : Fin 80) (⟨(i 0).val, (i 0).isLt⟩ : Fin 128))) ⟨(i 1).val, (i 1).isLt⟩)

/-- What accumulator row `r` holds once summed: rows `32 (r % 4) … + 31` of list `r / 4`'s gathered rows, summed left to right. -/
def accVal (idxv : S80x128.Idx → BitVec 32) (fx : S100000x128.Idx → F .f32) : Fin 320 → Fin 128 → F .f32 :=
  fun r c => rowSum (bufVal idxv fx (r.val / 4)) (32 * (r.val % 4)) c

end Pre

end Cert.Proof.KI

end
-- ==== Proof.KI_TileValue.lean ====
/-
  One vector subcore's task, the values: the accumulator gains one row per step; the kernel's value on the worker's
  block of rows is the accumulator's; the worker's slab of the index table, landed in the scratch of lists, is read
  list by list; a gather of list c leaves in a row buffer, row by row, the feature rows the list's words name (a word
  below 100000 names the row of its own value); and the accumulator copied out to the worker's block of the result
  is the kernel's value there.

  Accumulator row R = 16 k + 4 b + n belongs to list R / 4 = 4 k + b and sums rows 32 (R % 4) = 32 n onwards of that
  list's gathered rows. Result row 320 w + r of worker w sums the words at slab w, list r / 4, positions
  32 (r % 4) + j, j < 32, of the index table; they are words 32 (r % 4) + j of list r / 4 of the worker's scratch.
-/
import proofs.«202836_g53523882443255_cont_9to1_m_1194_32_alg».proof.Proof.KI_BodyPre

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S10240x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

local notation "iV" => (Memref.whole Cert.KernelIdeal.main_v1_scv : Memref Cert.KernelIdeal.sig Kind.scVector Space.hbm Cert.KernelIdeal.S32x80x128 EltTy.i32)
local notation "sI" => (Memref.whole Cert.KernelIdeal.cc0_scratch0 : Memref Cert.KernelIdeal.sig Kind.scVector Space.vmem Cert.KernelIdeal.S80x128 EltTy.i32)

/-! ## The accumulator gains a row -/

section Acc
variable [FloatOps F]

/-- Row `R = 16 k + 4 b + n` rewritten as the sum of rows `32 n …` of list `4 k + b`'s gathered rows is the row the
    accumulator is to hold: `R / 4 = 4 k + b` and `R % 4 = n`. -/
theorem acc_step (idxv : S80x128.Idx → BitVec 32) (fx : S100000x128.Idx → F .f32) (k b n : ℕ) (hk : k < 20) (hb : b < 4) (hn : n < 4)
    (g : S128x128.Idx → F .f32) (hg : g = bufVal idxv fx (4 * k + b)) (fa fa' : S320x128.Idx → F .f32)
    (h : AccOK (accVal idxv fx) (16 * k + 4 * b + n) fa) (hs : RowStep (16 * k + 4 * b + n) (32 * n) g fa fa') :
    AccOK (accVal idxv fx) (16 * k + 4 * b + n + 1) fa' := by
  have hR : 16 * k + 4 * b + n < 320 := by omega
  refine AccOK_step (accVal idxv fx) _ hR fa fa' h hs.1 fun c => ?_
  rw [hs.2 ⟨_, hR⟩ c rfl, hg]
  show _ = rowSum (bufVal idxv fx ((16 * k + 4 * b + n) / 4)) (32 * ((16 * k + 4 * b + n) % 4)) c
  rw [show (16 * k + 4 * b + n) / 4 = 4 * k + b by omega, show (16 * k + 4 * b + n) % 4 = n by omega]

/-! ## The kernel's value on a worker's block of rows -/

/-- Word `j` of the 32 that result row `320 w + r` sums sits at slab `w`, list `r / 4`, position `32 (r % 4) + j`. -/
theorem tabIdx_block (w : Fin 32) (r : Fin 320) (j : ℕ) (hj : j < 32) :
    tabIdx (⟨320 * w.val + r.val, by omega⟩ : Fin 10240) j hj
      = ix3 w (⟨(r.val / 4) % 80, Nat.mod_lt _ (by decide)⟩ : Fin 80) (⟨(32 * (r.val % 4) + j) % 128, Nat.mod_lt _ (by decide)⟩ : Fin 128) := by
  funext a
  refine Fin.ext ?_
  match a with
  | ⟨0, _⟩ =>
    show (320 * w.val + r.val) / 320 = w.val
    omega
  | ⟨1, _⟩ =>
    show ((320 * w.val + r.val) % 320) / 4 = (r.val / 4) % 80
    omega
  | ⟨2, _⟩ =>
    show 32 * ((320 * w.val + r.val) % 4) + j = (32 * (r.val % 4) + j) % 128
    omega

/-- On worker `w`'s block of rows the kernel's value is the accumulator's, over the worker's slab of the index table. -/
theorem aggFold_block (fx : S100000x128.Idx → F .f32) (iad : S32x80x128.Idx → BitVec 32) (w : Fin 32) (idxv : S80x128.Idx → BitVec 32)
    (hidx : ∀ (c : Fin 80) (p : Fin 128), idxv (ix2 c p) = iad (ix3 w c p)) (r : Fin 320) (c : Fin 128) :
    aggFold (F := F) fx iad (ix2 (⟨320 * w.val + r.val, by omega⟩ : Fin 10240) c) = accVal idxv fx r c := by
  unfold aggFold accVal rowSum
  refine foldRows_congr _ _ 31 fun j hj => ?_
  have hj' : j < 32 := by omega
  dsimp only
  rw [dif_pos hj']
  unfold bufVal
  dsimp only
  rw [hidx]
  exact congrArg (fun i : S32x80x128.Idx => fx (featIdx (iad i) c)) (tabIdx_block w r j hj')

end Acc

/-! ## The worker's slab, landed in the scratch of lists -/

section Slab
variable (d : Dev nD) (L : grid0.Coords)

/-- The squeeze keeps the row-major position: list `c`, word `p` of the 80 lists is entry (0, c, p) of the one slab. -/
theorem squeeze_idx (c : Fin 80) (p : Fin 128) :
    Shape.reshapeEquiv (s := S1x80x128) (s' := S80x128) squeezes_S1x80x128_S80x128.numel_eq (ix2 c p) = ix3 (0 : Fin 1) c p := by
  refine Shape.reshapeEquiv_eq_of_rowMajor _ ?_
  rw [Shape.rowMajor_val_three, Shape.rowMajor_val_two]
  show (0 * 80 + c.val) * 128 + p.val = c.val * 128 + p.val
  omega

/-- List `c`, word `p` of the worker's slab is entry (w, c, p) of the index table, `w` the worker's number. -/
theorem iRowK_emb (c : Fin 80) (p : Fin 128) : (iRowK L).view.emb (ix2 c p) = ix3 (wL L) c p := by
  show (irowK L).emb (Shape.reshapeEquiv (s := S1x80x128) (s' := S80x128) squeezes_S1x80x128_S80x128.numel_eq (ix2 c p)) = _
  rw [squeeze_idx]
  funext a
  refine Fin.ext ?_
  rw [Rect.emb_apply]
  have ho := k0_off1_eq L
  match a with
  | ⟨0, _⟩ =>
    show k0_off1 L 0 + 1 * 0 = 2 * (L 1).val + (L 0).val
    rw [ho]
    show 2 * (L 1).val + (L 0).val + 1 * 0 = 2 * (L 1).val + (L 0).val
    omega
  | ⟨1, _⟩ =>
    show k0_off1 L 1 + 1 * c.val = c.val
    rw [ho]
    show 0 + 1 * c.val = c.val
    omega
  | ⟨2, _⟩ =>
    show k0_off1 L 2 + 1 * p.val = p.val
    rw [ho]
    show 0 + 1 * p.val = p.val
    omega

/-- The worker's slab landed in the scratch of lists, read at list `c`, word `p`: entry (w, c, p) of the index table. -/
theorem slab_apply [FloatOps F] (fs : Buf (Elt F) ((V d (cV L) (jV L)).loc cc0_scratch0)) (iad : Buf (Elt F) (iLoc d)) (c : Fin 80) (p : Fin 128) :
    View.write (Elt F) (sI).view fs ((iRowK L).view.read (Elt F) iad) Finset.univ (ix2 c p) = iad (ix3 (wL L) c p) := by
  simp only [Memref.view_whole, View.write_whole_univ]
  rw [View.read_apply]
  show iad ((iRowK L).view.emb (ix2 c p)) = _
  rw [iRowK_emb]

/-- The same with the payload spelt as a transfer carries it. -/
theorem slab_apply' [FloatOps F] (fs : Buf (Elt F) ((V d (cV L) (jV L)).loc cc0_scratch0)) (iad : Buf (Elt F) (iLoc d)) (c : Fin 80) (p : Fin 128) :
    View.write (Elt F) (sI).view fs (ReadAs.same.apply ((iRowK L).view.read (Elt F) iad)) Finset.univ (ix2 c p) = iad (ix3 (wL L) c p) :=
  slab_apply d L fs iad c p

end Slab

/-! ## A gathered row buffer -/

section Whole
variable {sig' : RefSig} {κ : Kind} {Val : EltTy → Type}

/-- One write of a whole buffer through its whole rectangle leaves the payload. -/
theorem writes_whole_whole (b : Ref sig' κ) (g : b.ty.Contents Val) (w : (Rect.whole b.ty.shape).shape.Idx → Val b.ty.elt) :
    (View.whole b).writes Val g [⟨Rect.whole b.ty.shape, w⟩] = w := by
  funext i
  rw [View.writes_singleton]
  have h := View.write_emb_of_mem (v := (View.whole b).slice (Rect.whole b.ty.shape)) g w (M := Finset.univ) (x := i) (Finset.mem_univ i)
  have he : ((View.whole b).slice (Rect.whole b.ty.shape)).emb i = i := Rect.emb_whole_apply _ i
  rw [he] at h
  exact h.trans (cast_eq _ _)

end Whole

section Gathered
variable [FloatOps F] (d : Dev nD) (L : grid0.Coords)

/-- The squeeze of one list keeps the position: word `p` is entry (0, p) of the one-row slice. -/
theorem squeeze1_idx (p : Fin 128) :
    Shape.reshapeEquiv (s := S1x128) (s' := S128) squeezes_S1x128_S128.numel_eq (ix1 p) = ix2 (0 : Fin 1) p := by
  refine Shape.reshapeEquiv_eq_of_rowMajor _ ?_
  rw [Shape.rowMajor_val_two, Shape.rowMajor_val_one]
  show 0 * 128 + p.val = p.val
  omega

/-- Word `p` of list `c` of the scratch of lists, as the task slices it. -/
theorem lstAt_emb (c : ℕ) (hc : c < 80) (hoff : ∀ a, (![c, 0] : Fin 2 → ℕ) a + S1x128.size a ≤ S80x128.size a) (p : Fin 128) :
    (lstAt ![c, 0] hoff).view.emb (ix1 p) = ix2 (⟨c, hc⟩ : Fin 80) p := by
  show (Rect.unit (s := S80x128) ![c, 0] S1x128.size hoff).emb
    (Shape.reshapeEquiv (s := S1x128) (s' := S128) squeezes_S1x128_S128.numel_eq (ix1 p)) = _
  rw [squeeze1_idx]
  funext a
  refine Fin.ext ?_
  rw [Rect.emb_apply]
  match a with
  | ⟨0, _⟩ =>
    show c + 1 * 0 = c
    omega
  | ⟨1, _⟩ =>
    show 0 + 1 * p.val = p.val
    omega

/-- The task addresses the whole feature table. -/
theorem fAllK_emb (x : S100000x128.Idx) : (fAllK).view.emb x = x := by
  show (Rect.unit (s := S100000x128) ![0, 0] S100000x128.size inb_S100000x128_S100000x128_0_0).emb x = x
  funext a
  refine Fin.ext ?_
  rw [Rect.emb_apply]
  match a with
  | ⟨0, _⟩ =>
    show 0 + 1 * (x 0).val = (x 0).val
    omega
  | ⟨1, _⟩ =>
    show 0 + 1 * (x 1).val = (x 1).val
    omega

/-- What a gather of list `c` delivers, entry by entry: row `p` is the feature row that word `p` of the list names. -/
theorem gatherPayload_bufVal (idxv : Buf (Elt F) ((sI).view.loc (V d (cV L) (jV L)))) (fx : Buf (Elt F) (fLoc d)) (c : ℕ) (hc : c < 80)
    (hoff : ∀ a, (![c, 0] : Fin 2 → ℕ) a + S1x128.size a ≤ S80x128.size a) (hg : S100000x128.Gathers 0 S128x128)
    (hn : S128.numel = S128x128.size hg.axis')
    (hin' : ∀ x, ((lstAt ![c, 0] hoff).view.read (Elt F) idxv x).toNat < S100000x128.size hg.axis) (i : S128x128.Idx) :
    SparseCore.gatherPayload hg ((fAllK).view.read (Elt F) fx) (SparseCore.rows ((lstAt ![c, 0] hoff).view.read (Elt F) idxv) hn hin') i
      = bufVal idxv fx c i := by
  unfold SparseCore.gatherPayload bufVal
  rw [View.read_apply]
  show fx ((fAllK).view.emb (hg.idx _ i)) = _
  rw [fAllK_emb]
  refine congrArg fx ?_
  funext a
  refine Fin.ext ?_
  match a with
  | ⟨0, _⟩ =>
    have hx : S128.rowMajor.symm ((i hg.axis').cast hn.symm) = ix1 (⟨(i 0).val, (i 0).isLt⟩ : Fin 128) := by
      apply S128.rowMajor.injective
      rw [Equiv.apply_symm_apply]
      refine Fin.ext ?_
      rw [Shape.rowMajor_val_one]
      rfl
    have hw : (lstAt ![c, 0] hoff).view.read (Elt F) idxv (ix1 (⟨(i 0).val, (i 0).isLt⟩ : Fin 128))
        = idxv (ix2 (⟨c % 80, Nat.mod_lt _ (by decide)⟩ : Fin 80) (⟨(i 0).val, (i 0).isLt⟩ : Fin 128)) := by
      rw [View.read_apply]
      show idxv ((lstAt ![c, 0] hoff).view.emb (ix1 (⟨(i 0).val, (i 0).isLt⟩ : Fin 128))) = _
      rw [lstAt_emb c hc hoff]
      exact congrArg (fun k : Fin 80 => idxv (ix2 k (⟨(i 0).val, (i 0).isLt⟩ : Fin 128))) (Fin.ext (Nat.mod_eq_of_lt hc).symm)
    have hlt := hin' (ix1 (⟨(i 0).val, (i 0).isLt⟩ : Fin 128))
    rw [hw] at hlt
    refine (congrArg Fin.val (Shape.Gathers.idx_axis hg _ i)).trans ?_
    show ((lstAt ![c, 0] hoff).view.read (Elt F) idxv (S128.rowMajor.symm ((i hg.axis').cast hn.symm))).toNat
      = (Cert.Spec.rowOf (idxv (ix2 (⟨c % 80, Nat.mod_lt _ (by decide)⟩ : Fin 80) (⟨(i 0).val, (i 0).isLt⟩ : Fin 128)))).val
    rw [hx, hw, Cert.Spec.rowOf_val hlt]
  | ⟨1, h1⟩ =>
    refine (Shape.Gathers.idx_of_ne hg _ i ⟨1, h1⟩ (Nat.succ_ne_zero 0)).trans ?_
    rfl

/-- After a gather of list `c` a row buffer holds, row by row, the feature rows the list's words name. -/
theorem gathered_eq0 (g_old : Buf (Elt F) ((b0).view.loc (V d (cV L) (jV L)))) (idxv : Buf (Elt F) ((sI).view.loc (V d (cV L) (jV L))))
    (fx : Buf (Elt F) (fLoc d)) (off : Fin 2 → ℕ) (hoff : ∀ a, off a + S1x128.size a ≤ S80x128.size a) (hg : S100000x128.Gathers 0 S128x128)
    (hn : S128.numel = S128x128.size hg.axis') (hin' : ∀ x, ((lstAt off hoff).view.read (Elt F) idxv x).toNat < S100000x128.size hg.axis)
    (c : ℕ) (hc : c < 80) (hoffc : off = ![c, 0]) :
    (b0).view.writes (Elt F) g_old [⟨Rect.whole cc0_scratch2.ty.shape,
        SparseCore.gatherPayload hg ((fAllK).view.read (Elt F) fx) (SparseCore.rows ((lstAt off hoff).view.read (Elt F) idxv) hn hin')⟩]
      = bufVal idxv fx c := by
  subst hoffc
  refine (writes_whole_whole cc0_scratch2 g_old _).trans ?_
  funext i
  exact gatherPayload_bufVal d L idxv fx c hc hoff hg hn hin' i

/-- The same for the next row buffer. -/
theorem gathered_eq1 (g_old : Buf (Elt F) ((b1).view.loc (V d (cV L) (jV L)))) (idxv : Buf (Elt F) ((sI).view.loc (V d (cV L) (jV L))))
    (fx : Buf (Elt F) (fLoc d)) (off : Fin 2 → ℕ) (hoff : ∀ a, off a + S1x128.size a ≤ S80x128.size a) (hg : S100000x128.Gathers 0 S128x128)
    (hn : S128.numel = S128x128.size hg.axis') (hin' : ∀ x, ((lstAt off hoff).view.read (Elt F) idxv x).toNat < S100000x128.size hg.axis)
    (c : ℕ) (hc : c < 80) (hoffc : off = ![c, 0]) :
    (b1).view.writes (Elt F) g_old [⟨Rect.whole cc0_scratch3.ty.shape,
        SparseCore.gatherPayload hg ((fAllK).view.read (Elt F) fx) (SparseCore.rows ((lstAt off hoff).view.read (Elt F) idxv) hn hin')⟩]
      = bufVal idxv fx c := by
  subst hoffc
  refine (writes_whole_whole cc0_scratch3 g_old _).trans ?_
  funext i
  exact gatherPayload_bufVal d L idxv fx c hc hoff hg hn hin' i

/-- The same for the next row buffer. -/
theorem gathered_eq2 (g_old : Buf (Elt F) ((b2).view.loc (V d (cV L) (jV L)))) (idxv : Buf (Elt F) ((sI).view.loc (V d (cV L) (jV L))))
    (fx : Buf (Elt F) (fLoc d)) (off : Fin 2 → ℕ) (hoff : ∀ a, off a + S1x128.size a ≤ S80x128.size a) (hg : S100000x128.Gathers 0 S128x128)
    (hn : S128.numel = S128x128.size hg.axis') (hin' : ∀ x, ((lstAt off hoff).view.read (Elt F) idxv x).toNat < S100000x128.size hg.axis)
    (c : ℕ) (hc : c < 80) (hoffc : off = ![c, 0]) :
    (b2).view.writes (Elt F) g_old [⟨Rect.whole cc0_scratch4.ty.shape,
        SparseCore.gatherPayload hg ((fAllK).view.read (Elt F) fx) (SparseCore.rows ((lstAt off hoff).view.read (Elt F) idxv) hn hin')⟩]
      = bufVal idxv fx c := by
  subst hoffc
  refine (writes_whole_whole cc0_scratch4 g_old _).trans ?_
  funext i
  exact gatherPayload_bufVal d L idxv fx c hc hoff hg hn hin' i

/-- The same for the next row buffer. -/
theorem gathered_eq3 (g_old : Buf (Elt F) ((b3).view.loc (V d (cV L) (jV L)))) (idxv : Buf (Elt F) ((sI).view.loc (V d (cV L) (jV L))))
    (fx : Buf (Elt F) (fLoc d)) (off : Fin 2 → ℕ) (hoff : ∀ a, off a + S1x128.size a ≤ S80x128.size a) (hg : S100000x128.Gathers 0 S128x128)
    (hn : S128.numel = S128x128.size hg.axis') (hin' : ∀ x, ((lstAt off hoff).view.read (Elt F) idxv x).toNat < S100000x128.size hg.axis)
    (c : ℕ) (hc : c < 80) (hoffc : off = ![c, 0]) :
    (b3).view.writes (Elt F) g_old [⟨Rect.whole cc0_scratch5.ty.shape,
        SparseCore.gatherPayload hg ((fAllK).view.read (Elt F) fx) (SparseCore.rows ((lstAt off hoff).view.read (Elt F) idxv) hn hin')⟩]
      = bufVal idxv fx c := by
  subst hoffc
  refine (writes_whole_whole cc0_scratch5 g_old _).trans ?_
  funext i
  exact gatherPayload_bufVal d L idxv fx c hc hoff hg hn hin' i

end Gathered

/-! ## The worker's block of the result -/

section Out
variable [FloatOps F] (m : (ℓ : Loc nD τ sig) → Buf (Elt F) ℓ) (ia : (d : Dev nD) → Buf (Elt F) (iLoc d)) (d : Dev nD) (L : grid0.Coords)

omit [FloatOps F] in
/-- Entry (r, c) of the worker's block is entry (320 w + r, c) of the result, `w` the worker's number. -/
theorem oRowK_emb (y : S320x128.Idx) :
    (oRowK L).view.emb y = ix2 (⟨320 * (wL L).val + (y 0).val, by have := (wL L).isLt; have := idx2_lt0 y; omega⟩ : Fin 10240)
      (⟨(y 1).val, idx2_lt1 y⟩ : Fin 128) := by
  show (orowK L).emb y = _
  funext a
  refine Fin.ext ?_
  rw [Rect.emb_apply]
  have ho := k0_off103_eq L
  match a with
  | ⟨0, _⟩ =>
    show k0_off103 L 0 + 1 * (y 0).val = 320 * (2 * (L 1).val + (L 0).val) + (y 0).val
    rw [ho]
    show 640 * (L 1).val + 320 * (L 0).val + 1 * (y 0).val = 320 * (2 * (L 1).val + (L 0).val) + (y 0).val
    omega
  | ⟨1, _⟩ =>
    show k0_off103 L 1 + 1 * (y 1).val = (y 1).val
    rw [ho]
    show 0 + 1 * (y 1).val = (y 1).val
    omega

/-- The accumulator, all 320 rows summed, copied out to the worker's block of the result: the block holds the kernel's
    value. -/
theorem out_block (idxv : S80x128.Idx → BitVec 32) (fa : S320x128.Idx → F .f32)
    (hacc : AccOK (accVal idxv (m (fLoc d))) 320 fa) (hidx : ∀ (c : Fin 80) (p : Fin 128), idxv (ix2 c p) = ia d (ix3 (wL L) c p)) :
    ((oRowK L).view.loc (V d (cV L) (jV L)) ↦[(oRowK L).view.set]{fullShare} View.write (Elt F) (oRowK L).view (m (oLoc d)) fa Finset.univ : sProp 𝕄)
      ⊢ oLoc d ↦[oRowSet (wL L)]{fullShare} aggFold (F := F) (m (fLoc d)) (ia d) := by
  rw [pts_oRowK]
  refine Entails.of_eq (pointsTo_congr fun i hi => ?_)
  rw [← set_oRowK L] at hi
  obtain ⟨y, -, rfl⟩ := Finset.mem_map.mp hi
  rw [View.write_emb_of_mem _ _ (Finset.mem_univ y), oRowK_emb L y]
  refine (cast_eq _ _).trans ?_
  rw [AccOK_all _ fa hacc y]
  exact (aggFold_block (m (fLoc d)) (ia d) (wL L) idxv hidx ⟨(y 0).val, idx2_lt0 y⟩ ⟨(y 1).val, idx2_lt1 y⟩).symm

/-- The same with the copy spelt as one write through the whole rectangle of the block. -/
theorem out_block' (idxv : S80x128.Idx → BitVec 32) (fa : S320x128.Idx → F .f32)
    (hacc : AccOK (accVal idxv (m (fLoc d))) 320 fa) (hidx : ∀ (c : Fin 80) (p : Fin 128), idxv (ix2 c p) = ia d (ix3 (wL L) c p)) :
    ((oRowK L).view.loc (V d (cV L) (jV L)) ↦[(oRowK L).view.set]{fullShare}
        (oRowK L).view.writes (Elt F) (m (oLoc d)) [⟨Rect.whole S320x128, fa⟩] : sProp 𝕄)
      ⊢ oLoc d ↦[oRowSet (wL L)]{fullShare} aggFold (F := F) (m (fLoc d)) (ia d) := by
  rw [pts_oRowK]
  refine Entails.of_eq (pointsTo_congr fun i hi => ?_)
  rw [← set_oRowK L] at hi
  obtain ⟨y, -, rfl⟩ := Finset.mem_map.mp hi
  have he : ((oRowK L).view.slice (Rect.whole S320x128)).emb y = (oRowK L).view.emb y :=
    congrArg (oRowK L).view.emb (Rect.emb_whole_apply S320x128 y)
  have h := View.write_emb_of_mem (v := (oRowK L).view.slice (Rect.whole S320x128)) (m (oLoc d)) fa (M := Finset.univ) (x := y)
    (Finset.mem_univ y)
  rw [he] at h
  refine (h.trans (cast_eq _ _)).trans ?_
  rw [oRowK_emb L y, AccOK_all _ fa hacc y]
  exact (aggFold_block (m (fLoc d)) (ia d) (wL L) idxv hidx ⟨(y 0).val, idx2_lt0 y⟩ ⟨(y 1).val, idx2_lt1 y⟩).symm

end Out

end Cert.Proof.KI

end
-- ==== Proof.KI_Inv.lean ====
/-
  One vector subcore's task, the invariants. Before outer trip `k` the accumulator's rows below `16 k` hold their sums
  and, for each of the four row buffers, the gather of list `4 k + b` is in flight into it (after the last trip: the
  buffer, its semaphore at zero and its shares are back). Before inner trip `n` over a row buffer, rows below
  `16 k + 4 b + n` hold their sums; one inner trip sums one more row.
-/
import proofs.«202836_g53523882443255_cont_9to1_m_1194_32_alg».proof.Proof.KI_BodyPre
import proofs.«202836_g53523882443255_cont_9to1_m_1194_32_alg».proof.Proof.KI_TileValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section Inv0
variable [FloatOps F] (d : Dev nD) (L : grid0.Coords)

omit m ρ in
theorem accOK_cast {val : Fin 320 → Fin 128 → F .f32} {R R' : ℕ} {fa : S320x128.Idx → F .f32} (h : R = R') (hacc : AccOK val R fa) : AccOK val R' fa := h ▸ hacc

section Inv
variable (O : CellTallies nD τ sig (HIx 1)) (W : Waits sig (HIx 1)) (idxv : Buf (Elt F) ((sI).view.loc (V d (cV L) (jV L))))

def grp0 (k : ℕ) : sProp 𝕄 :=
  if hk : k < 20 then
    iprop(∃ g, gatherGrp m d L b0 cc0_scratch6.sem g ![4 * k + 0, 0] (hrow _ (by omega)) (Transfers.shareTokN fullShare 0) idxv 0 ∗ ⌜g = bufVal idxv (m (fLoc d)) (4 * k + 0)⌝)
  else
    iprop((∃ g, (b0).view.loc (V d (cV L) (jV L)) ↦{fullShare} g) ∗ semVal ((V d (cV L) (jV L)), SemLoc.dma cc0_scratch6.sem) 0
      ∗ ((sI).view.loc (V d (cV L) (jV L)) ↦{Transfers.shareTokN fullShare 0} idxv) ∗ ((fV).view.loc (V d (cV L) (jV L)) ↦{Transfers.shareTokN (fq (wL L)) 0} (m (fLoc d))))

def grp1 (k : ℕ) : sProp 𝕄 :=
  if hk : k < 20 then
    iprop(∃ g, gatherGrp m d L b1 cc0_scratch7.sem g ![4 * k + 1, 0] (hrow _ (by omega)) (Transfers.shareTokN fullShare 1) idxv 1 ∗ ⌜g = bufVal idxv (m (fLoc d)) (4 * k + 1)⌝)
  else
    iprop((∃ g, (b1).view.loc (V d (cV L) (jV L)) ↦{fullShare} g) ∗ semVal ((V d (cV L) (jV L)), SemLoc.dma cc0_scratch7.sem) 0
      ∗ ((sI).view.loc (V d (cV L) (jV L)) ↦{Transfers.shareTokN fullShare 1} idxv) ∗ ((fV).view.loc (V d (cV L) (jV L)) ↦{Transfers.shareTokN (fq (wL L)) 1} (m (fLoc d))))

def grp2 (k : ℕ) : sProp 𝕄 :=
  if hk : k < 20 then
    iprop(∃ g, gatherGrp m d L b2 cc0_scratch8.sem g ![4 * k + 2, 0] (hrow _ (by omega)) (Transfers.shareTokN fullShare 2) idxv 2 ∗ ⌜g = bufVal idxv (m (fLoc d)) (4 * k + 2)⌝)
  else
    iprop((∃ g, (b2).view.loc (V d (cV L) (jV L)) ↦{fullShare} g) ∗ semVal ((V d (cV L) (jV L)), SemLoc.dma cc0_scratch8.sem) 0
      ∗ ((sI).view.loc (V d (cV L) (jV L)) ↦{Transfers.shareTokN fullShare 2} idxv) ∗ ((fV).view.loc (V d (cV L) (jV L)) ↦{Transfers.shareTokN (fq (wL L)) 2} (m (fLoc d))))

def grp3 (k : ℕ) : sProp 𝕄 :=
  if hk : k < 20 then
    iprop(∃ g, gatherGrp m d L b3 cc0_scratch9.sem g ![4 * k + 3, 0] (hrow _ (by omega)) (Transfers.shareDrop fullShare 3) idxv 3 ∗ ⌜g = bufVal idxv (m (fLoc d)) (4 * k + 3)⌝)
  else
    iprop((∃ g, (b3).view.loc (V d (cV L) (jV L)) ↦{fullShare} g) ∗ semVal ((V d (cV L) (jV L)), SemLoc.dma cc0_scratch9.sem) 0
      ∗ ((sI).view.loc (V d (cV L) (jV L)) ↦{Transfers.shareDrop fullShare 3} idxv) ∗ ((fV).view.loc (V d (cV L) (jV L)) ↦{Transfers.shareTokN (fq (wL L)) 3} (m (fLoc d))))

/-- Before outer trip `k`: accumulator rows below `16 k` summed; for each row buffer, the gather of list `4 k + b` in
    flight into it — or, after the last trip, the buffer, its semaphore at zero and its shares back. -/
def invO (k : ℕ) (_ : Unit) : sProp 𝕄 :=
  iprop(Transfers.MayWaits (V d (cV L) (jV L)) (default : HIx 1) O
    ∗ (∃ fa, ((sA).view.loc (V d (cV L) (jV L)) ↦{fullShare} fa) ∗ ⌜AccOK (accVal idxv (m (fLoc d))) (16 * k) fa⌝)
    ∗ ((fV).view.loc (V d (cV L) (jV L)) ↦{Transfers.shareDrop (fq (wL L)) 4} (m (fLoc d)))
    ∗ (∃ W', ⌜∀ p ∈ W', p ∈ W ∨ p.2 = none⌝ ∗ owes (V d (cV L) (jV L)) O W')
    ∗ grp0 m d L idxv k ∗ grp1 m d L idxv k ∗ grp2 m d L idxv k ∗ grp3 m d L idxv k)

end Inv

/-- Before inner trip `n` over row buffer 0: the buffer as gathered, accumulator rows below `R0 + n` summed. -/
def invI0 (idxv : Buf (Elt F) ((sI).view.loc (V d (cV L) (jV L)))) (fx : Buf (Elt F) (fLoc d))
    (g : Buf (Elt F) ((b0).view.loc (V d (cV L) (jV L)))) (R0 : ℕ) (n : ℕ) (_ : Unit) : sProp 𝕄 :=
  iprop(((b0).view.loc (V d (cV L) (jV L)) ↦{fullShare} g) ∗ ∃ fa, ((sA).view.loc (V d (cV L) (jV L)) ↦{fullShare} fa) ∗ ⌜AccOK (accVal idxv fx) (R0 + n) fa⌝)

omit m ρ in
theorem invI_step0 (idxv : Buf (Elt F) ((sI).view.loc (V d (cV L) (jV L)))) (fx : Buf (Elt F) (fLoc d))
    (g : Buf (Elt F) ((b0).view.loc (V d (cV L) (jV L)))) (k n : ℕ) (hk : k < 20) (hn : n < 4) (hg : g = bufVal idxv fx (4 * k + 0))
    (fa : Buf (Elt F) ((sA).view.loc (V d (cV L) (jV L)))) (hacc : AccOK (accVal idxv fx) (16 * k + 4 * 0 + n) fa) :
    (iprop(((b0).view.loc (V d (cV L) (jV L)) ↦{fullShare} g) ∗ ∃ fa', ((sA).view.loc (V d (cV L) (jV L)) ↦{fullShare} fa') ∗ ⌜RowStep (16 * k + 4 * 0 + n) (32 * n) g fa fa'⌝) : sProp 𝕄)
      ⊢ invI0 (F := F) d L idxv fx g (16 * k + 4 * 0) (n + 1) () := by
  unfold invI0
  iintro ⟨Hb, %fa', HsA, %hs⟩
  isplitl [Hb]; · iexact Hb
  iexists fa'; isplitl [HsA]; · iexact HsA
  ipureintro; exact accOK_cast (by omega) (acc_step idxv fx k 0 n hk (by omega) hn g hg fa fa' hacc hs)

/-- Before inner trip `n` over row buffer 1: the buffer as gathered, accumulator rows below `R0 + n` summed. -/
def invI1 (idxv : Buf (Elt F) ((sI).view.loc (V d (cV L) (jV L)))) (fx : Buf (Elt F) (fLoc d))
    (g : Buf (Elt F) ((b1).view.loc (V d (cV L) (jV L)))) (R0 : ℕ) (n : ℕ) (_ : Unit) : sProp 𝕄 :=
  iprop(((b1).view.loc (V d (cV L) (jV L)) ↦{fullShare} g) ∗ ∃ fa, ((sA).view.loc (V d (cV L) (jV L)) ↦{fullShare} fa) ∗ ⌜AccOK (accVal idxv fx) (R0 + n) fa⌝)

omit m ρ in
theorem invI_step1 (idxv : Buf (Elt F) ((sI).view.loc (V d (cV L) (jV L)))) (fx : Buf (Elt F) (fLoc d))
    (g : Buf (Elt F) ((b1).view.loc (V d (cV L) (jV L)))) (k n : ℕ) (hk : k < 20) (hn : n < 4) (hg : g = bufVal idxv fx (4 * k + 1))
    (fa : Buf (Elt F) ((sA).view.loc (V d (cV L) (jV L)))) (hacc : AccOK (accVal idxv fx) (16 * k + 4 * 1 + n) fa) :
    (iprop(((b1).view.loc (V d (cV L) (jV L)) ↦{fullShare} g) ∗ ∃ fa', ((sA).view.loc (V d (cV L) (jV L)) ↦{fullShare} fa') ∗ ⌜RowStep (16 * k + 4 * 1 + n) (32 * n) g fa fa'⌝) : sProp 𝕄)
      ⊢ invI1 (F := F) d L idxv fx g (16 * k + 4 * 1) (n + 1) () := by
  unfold invI1
  iintro ⟨Hb, %fa', HsA, %hs⟩
  isplitl [Hb]; · iexact Hb
  iexists fa'; isplitl [HsA]; · iexact HsA
  ipureintro; exact accOK_cast (by omega) (acc_step idxv fx k 1 n hk (by omega) hn g hg fa fa' hacc hs)

/-- Before inner trip `n` over row buffer 2: the buffer as gathered, accumulator rows below `R0 + n` summed. -/
def invI2 (idxv : Buf (Elt F) ((sI).view.loc (V d (cV L) (jV L)))) (fx : Buf (Elt F) (fLoc d))
    (g : Buf (Elt F) ((b2).view.loc (V d (cV L) (jV L)))) (R0 : ℕ) (n : ℕ) (_ : Unit) : sProp 𝕄 :=
  iprop(((b2).view.loc (V d (cV L) (jV L)) ↦{fullShare} g) ∗ ∃ fa, ((sA).view.loc (V d (cV L) (jV L)) ↦{fullShare} fa) ∗ ⌜AccOK (accVal idxv fx) (R0 + n) fa⌝)

omit m ρ in
theorem invI_step2 (idxv : Buf (Elt F) ((sI).view.loc (V d (cV L) (jV L)))) (fx : Buf (Elt F) (fLoc d))
    (g : Buf (Elt F) ((b2).view.loc (V d (cV L) (jV L)))) (k n : ℕ) (hk : k < 20) (hn : n < 4) (hg : g = bufVal idxv fx (4 * k + 2))
    (fa : Buf (Elt F) ((sA).view.loc (V d (cV L) (jV L)))) (hacc : AccOK (accVal idxv fx) (16 * k + 4 * 2 + n) fa) :
    (iprop(((b2).view.loc (V d (cV L) (jV L)) ↦{fullShare} g) ∗ ∃ fa', ((sA).view.loc (V d (cV L) (jV L)) ↦{fullShare} fa') ∗ ⌜RowStep (16 * k + 4 * 2 + n) (32 * n) g fa fa'⌝) : sProp 𝕄)
      ⊢ invI2 (F := F) d L idxv fx g (16 * k + 4 * 2) (n + 1) () := by
  unfold invI2
  iintro ⟨Hb, %fa', HsA, %hs⟩
  isplitl [Hb]; · iexact Hb
  iexists fa'; isplitl [HsA]; · iexact HsA
  ipureintro; exact accOK_cast (by omega) (acc_step idxv fx k 2 n hk (by omega) hn g hg fa fa' hacc hs)

/-- Before inner trip `n` over row buffer 3: the buffer as gathered, accumulator rows below `R0 + n` summed. -/
def invI3 (idxv : Buf (Elt F) ((sI).view.loc (V d (cV L) (jV L)))) (fx : Buf (Elt F) (fLoc d))
    (g : Buf (Elt F) ((b3).view.loc (V d (cV L) (jV L)))) (R0 : ℕ) (n : ℕ) (_ : Unit) : sProp 𝕄 :=
  iprop(((b3).view.loc (V d (cV L) (jV L)) ↦{fullShare} g) ∗ ∃ fa, ((sA).view.loc (V d (cV L) (jV L)) ↦{fullShare} fa) ∗ ⌜AccOK (accVal idxv fx) (R0 + n) fa⌝)

omit m ρ in
theorem invI_step3 (idxv : Buf (Elt F) ((sI).view.loc (V d (cV L) (jV L)))) (fx : Buf (Elt F) (fLoc d))
    (g : Buf (Elt F) ((b3).view.loc (V d (cV L) (jV L)))) (k n : ℕ) (hk : k < 20) (hn : n < 4) (hg : g = bufVal idxv fx (4 * k + 3))
    (fa : Buf (Elt F) ((sA).view.loc (V d (cV L) (jV L)))) (hacc : AccOK (accVal idxv fx) (16 * k + 4 * 3 + n) fa) :
    (iprop(((b3).view.loc (V d (cV L) (jV L)) ↦{fullShare} g) ∗ ∃ fa', ((sA).view.loc (V d (cV L) (jV L)) ↦{fullShare} fa') ∗ ⌜RowStep (16 * k + 4 * 3 + n) (32 * n) g fa fa'⌝) : sProp 𝕄)
      ⊢ invI3 (F := F) d L idxv fx g (16 * k + 4 * 3) (n + 1) () := by
  unfold invI3
  iintro ⟨Hb, %fa', HsA, %hs⟩
  isplitl [Hb]; · iexact Hb
  iexists fa'; isplitl [HsA]; · iexact HsA
  ipureintro; exact accOK_cast (by omega) (acc_step idxv fx k 3 n hk (by omega) hn g hg fa fa' hacc hs)

end Inv0

end Cert.Proof.KI

end
-- ==== Proof.KI_Row.lean ====
/-
  One result row, written by eight stores of sixteen lanes each: what the accumulator reads afterwards, given each store's
  payload as the row buffer's 32 rows summed left to right; and the pieces of that — a load of one row piece of the row
  buffer read at a lane, and the stored chain of sums read at a lane as the row sum.
-/
import proofs.«202836_g53523882443255_cont_9to1_m_1194_32_alg».proof.Proof.KI_Pure

noncomputable section

namespace Cert.Proof.KI

open Cert.KernelIdeal
open Idealize.ShloMosaic Idealize.ShloMosaic.ValueIdx

variable {F : FTy → Type} [FloatOps F]

section Row

variable {sig : RefSig} {κ : Kind} {sp : Space}

/-- A load of one row piece — sixteen lanes of row `P` from column `C` — of a 128 × 128 buffer, read at lane `y`: the
    buffer at `(P, C + y)`. -/
theorem readAt_rowPiece (v : View sig κ sp S128x128 .f32) {off : Fin 2 → ℕ}
    (inb : ∀ a, off a + S1x16.size a ≤ S128x128.size a) {P C : ℕ} (e : off = ![P, C]) (g : v.ty.Contents (Elt F))
    (y : Fin 16) (hP : P < 128) (hC : C + y.val < 128) :
    v.readAt (Elt F) (Rect.unit (s := S128x128) off S1x16.size inb).toLoadRect g (ix2 (0 : Fin 1) y)
      = v.read (Elt F) g (ix2 (⟨P, hP⟩ : Fin 128) (⟨C + y.val, hC⟩ : Fin 128)) := by
  subst e
  rw [View.readAt_apply]
  refine congrArg (v.read (Elt F) g) (funext fun a => Fin.ext ?_)
  match a with
  | ⟨0, _⟩ =>
    show P + 1 * 0 = P
    omega
  | ⟨1, _⟩ =>
    show C + 1 * y.val = C + y.val
    omega

/-- The stored chain of sums over 32 loaded pieces, read at the lane of column `c`: when piece `j` is row `p0 + j` of the
    row buffer from column `C`, it is the row sum at `c`. -/
theorem storeV_chainV_rowSum [Cert.KernelIdeal.Facts] (g : S128x128.Idx → F .f32) (p0 C : ℕ) (hp : p0 + 31 < 128) (hC : C + 16 ≤ 128)
    (l : ℕ → Vec F S1x16 .f32)
    (hl : ∀ (j : ℕ) (hj : j ≤ 31) (y : Fin 16),
      l j (ix2 (0 : Fin 1) y) = g (ix2 (⟨p0 + j, by omega⟩ : Fin 128) (⟨C + y.val, by omega⟩ : Fin 128)))
    (c : Fin 128) (h1 : C ≤ c.val) (h2 : c.val < C + 16) :
    shapeCast S1x16 (chainV l 31) Facts₀.shapeCasts_S16_S1x16 (ix2 (0 : Fin 1) (⟨c.val - C, by omega⟩ : Fin 16)) = rowSum g p0 c := by
  rw [storeV_chainV_apply]
  unfold rowSum
  refine foldRows_congr _ _ 31 fun j hj => ?_
  beta_reduce
  rw [hl j hj]
  refine congrArg g (funext fun a => Fin.ext ?_)
  match a with
  | ⟨0, _⟩ =>
    show p0 + j = (p0 + j) % 128
    rw [Nat.mod_eq_of_lt (by omega)]
  | ⟨1, _⟩ =>
    show C + (c.val - C) = c.val
    omega

/-! ## The 32 row pieces one chain loads -/

/-- The pieces a chain loads from a 128 × 128 buffer, by number: piece 0 through the offsets `offA n`, piece `j + 1`
    (`j < 31`) through `offB n` at the word `1 + j` (past the 32 pieces, piece 0 again, so that the function is total). -/
def ldPieces (v : View sig κ sp S128x128 .f32) (g : v.ty.Contents (Elt F)) {N : ℕ} (n : Fin N)
    (offA : Fin N → Fin 2 → ℕ) (offB : Fin N → BitVec 32 → Fin 2 → ℕ)
    (inbA : ∀ n : Fin N, ∀ a, offA n a + S1x16.size a ≤ S128x128.size a)
    (inbB : ∀ n : Fin N, ∀ (r : Fin 31), ∀ a, offB n (BitVec.ofNat 32 (1 + r.val)) a + S1x16.size a ≤ S128x128.size a) :
    ℕ → Vec F S1x16 .f32
  | 0 => v.readAt (Elt F) (Rect.unit (s := S128x128) (offA n) S1x16.size (inbA n)).toLoadRect g
  | j + 1 =>
    if h : j < 31 then
      v.readAt (Elt F) (Rect.unit (s := S128x128) (offB n (BitVec.ofNat 32 (1 + j))) S1x16.size (inbB n ⟨j, h⟩)).toLoadRect g
    else v.readAt (Elt F) (Rect.unit (s := S128x128) (offA n) S1x16.size (inbA n)).toLoadRect g

/-- When the offsets are row `32 n + j` and column `C`, piece `j` read at lane `y` is the buffer at `(32 n + j, C + y)`. -/
theorem ldPieces_apply (v : View sig κ sp S128x128 .f32) (g : v.ty.Contents (Elt F)) {N : ℕ} (n : Fin N) (hN : N ≤ 4)
    (offA : Fin N → Fin 2 → ℕ) (offB : Fin N → BitVec 32 → Fin 2 → ℕ)
    (inbA : ∀ n : Fin N, ∀ a, offA n a + S1x16.size a ≤ S128x128.size a)
    (inbB : ∀ n : Fin N, ∀ (r : Fin 31), ∀ a, offB n (BitVec.ofNat 32 (1 + r.val)) a + S1x16.size a ≤ S128x128.size a)
    (C : ℕ) (hC : C + 16 ≤ 128) (eA : ∀ n : Fin N, offA n = ![32 * n.val, C])
    (eB : ∀ n : Fin N, ∀ (r : Fin 31), offB n (BitVec.ofNat 32 (1 + r.val)) = ![32 * n.val + r.val + 1, C])
    (j : ℕ) (hj : j ≤ 31) (y : Fin 16) :
    ldPieces v g n offA offB inbA inbB j (ix2 (0 : Fin 1) y)
      = v.read (Elt F) g (ix2 (⟨32 * n.val + j, by have := n.isLt; omega⟩ : Fin 128) (⟨C + y.val, by omega⟩ : Fin 128)) := by
  cases j with
  | zero => exact readAt_rowPiece v (inbA n) (eA n) g y _ _
  | succ j =>
    have hj' : j < 31 := by omega
    show (if h : j < 31 then
        v.readAt (Elt F) (Rect.unit (s := S128x128) (offB n (BitVec.ofNat 32 (1 + j))) S1x16.size (inbB n ⟨j, h⟩)).toLoadRect g
      else v.readAt (Elt F) (Rect.unit (s := S128x128) (offA n) S1x16.size (inbA n)).toLoadRect g) (ix2 (0 : Fin 1) y) = _
    rw [dif_pos hj']
    exact readAt_rowPiece v (inbB n ⟨j, hj'⟩) (eB n ⟨j, hj'⟩) g y _ _

variable (v : View sig κ sp S320x128 .f32)

/-- The head write of a list read inside its piece, the index given by its coordinates. -/
theorem read_writes_cons_rowPiece_at {R C : ℕ} (h : ∀ a, (![R, C] : Fin 2 → ℕ) a + S1x16.size a ≤ S320x128.size a)
    (f : v.ty.Contents (Elt F)) (pay : S1x16.Idx → F .f32) (L : List (View.Piece (Elt F) S320x128 .f32)) (r : Fin 320)
    (c : Fin 128) (hr : r.val = R) (h1 : C ≤ c.val) (h2 : c.val < C + 16) :
    v.read (Elt F) (v.writes (Elt F) f (⟨Rect.unit (s := S320x128) ![R, C] S1x16.size h, pay⟩ :: L)) (ix2 r c)
      = pay (ix2 (0 : Fin 1) (⟨c.val - C, by omega⟩ : Fin 16)) := by
  have e : (ix2 r c : S320x128.Idx)
      = ix2 (⟨R, rowPiece_row_lt h⟩ : Fin 320)
          (⟨C + (⟨c.val - C, by omega⟩ : Fin 16).val, rowPiece_col_lt h (⟨c.val - C, by omega⟩ : Fin 16)⟩ : Fin 128) := by
    funext a
    refine Fin.ext ?_
    match a with
    | ⟨0, _⟩ => exact hr
    | ⟨1, _⟩ =>
      show c.val = C + (c.val - C)
      omega
  rw [e]
  exact read_writes_cons_rowPiece v h f pay L _

/-- EIGHT STORES OF ONE ROW. Over contents `f`, the eight pieces of row `R` at columns 0, 16, …, 112 written in that order,
    each payload the row sum on its sixteen columns: every other row reads as before, row `R` reads the row sum. -/
theorem rowStep_writes8 {R p0 : ℕ} (g : S128x128.Idx → F .f32) (f : v.ty.Contents (Elt F))
    {o0 o1 o2 o3 o4 o5 o6 o7 : Fin 2 → ℕ}
    (h0 : ∀ a, o0 a + S1x16.size a ≤ S320x128.size a)
    (h1 : ∀ a, o1 a + S1x16.size a ≤ S320x128.size a)
    (h2 : ∀ a, o2 a + S1x16.size a ≤ S320x128.size a)
    (h3 : ∀ a, o3 a + S1x16.size a ≤ S320x128.size a)
    (h4 : ∀ a, o4 a + S1x16.size a ≤ S320x128.size a)
    (h5 : ∀ a, o5 a + S1x16.size a ≤ S320x128.size a)
    (h6 : ∀ a, o6 a + S1x16.size a ≤ S320x128.size a)
    (h7 : ∀ a, o7 a + S1x16.size a ≤ S320x128.size a)
    (e0 : o0 = ![R, 0])     (e1 : o1 = ![R, 16])     (e2 : o2 = ![R, 32])     (e3 : o3 = ![R, 48])     (e4 : o4 = ![R, 64])     (e5 : o5 = ![R, 80])     (e6 : o6 = ![R, 96])     (e7 : o7 = ![R, 112])
    (w0 w1 w2 w3 w4 w5 w6 w7 : S1x16.Idx → F .f32)
    (hw0 : ∀ (c : Fin 128) (h1 : 0 ≤ c.val) (h2 : c.val < 0 + 16), w0 (ix2 (0 : Fin 1) (⟨c.val - 0, by omega⟩ : Fin 16)) = rowSum g p0 c)
    (hw1 : ∀ (c : Fin 128) (h1 : 16 ≤ c.val) (h2 : c.val < 16 + 16), w1 (ix2 (0 : Fin 1) (⟨c.val - 16, by omega⟩ : Fin 16)) = rowSum g p0 c)
    (hw2 : ∀ (c : Fin 128) (h1 : 32 ≤ c.val) (h2 : c.val < 32 + 16), w2 (ix2 (0 : Fin 1) (⟨c.val - 32, by omega⟩ : Fin 16)) = rowSum g p0 c)
    (hw3 : ∀ (c : Fin 128) (h1 : 48 ≤ c.val) (h2 : c.val < 48 + 16), w3 (ix2 (0 : Fin 1) (⟨c.val - 48, by omega⟩ : Fin 16)) = rowSum g p0 c)
    (hw4 : ∀ (c : Fin 128) (h1 : 64 ≤ c.val) (h2 : c.val < 64 + 16), w4 (ix2 (0 : Fin 1) (⟨c.val - 64, by omega⟩ : Fin 16)) = rowSum g p0 c)
    (hw5 : ∀ (c : Fin 128) (h1 : 80 ≤ c.val) (h2 : c.val < 80 + 16), w5 (ix2 (0 : Fin 1) (⟨c.val - 80, by omega⟩ : Fin 16)) = rowSum g p0 c)
    (hw6 : ∀ (c : Fin 128) (h1 : 96 ≤ c.val) (h2 : c.val < 96 + 16), w6 (ix2 (0 : Fin 1) (⟨c.val - 96, by omega⟩ : Fin 16)) = rowSum g p0 c)
    (hw7 : ∀ (c : Fin 128) (h1 : 112 ≤ c.val) (h2 : c.val < 112 + 16), w7 (ix2 (0 : Fin 1) (⟨c.val - 112, by omega⟩ : Fin 16)) = rowSum g p0 c) :
    (∀ (r : Fin 320) (c : Fin 128), r.val ≠ R →
        v.read (Elt F) (v.writes (Elt F) f
          [⟨Rect.unit (s := S320x128) o7 S1x16.size h7, w7⟩,
        ⟨Rect.unit (s := S320x128) o6 S1x16.size h6, w6⟩,
        ⟨Rect.unit (s := S320x128) o5 S1x16.size h5, w5⟩,
        ⟨Rect.unit (s := S320x128) o4 S1x16.size h4, w4⟩,
        ⟨Rect.unit (s := S320x128) o3 S1x16.size h3, w3⟩,
        ⟨Rect.unit (s := S320x128) o2 S1x16.size h2, w2⟩,
        ⟨Rect.unit (s := S320x128) o1 S1x16.size h1, w1⟩,
        ⟨Rect.unit (s := S320x128) o0 S1x16.size h0, w0⟩]) (ix2 r c) = v.read (Elt F) f (ix2 r c))
    ∧ (∀ (r : Fin 320) (c : Fin 128), r.val = R →
        v.read (Elt F) (v.writes (Elt F) f
          [⟨Rect.unit (s := S320x128) o7 S1x16.size h7, w7⟩,
        ⟨Rect.unit (s := S320x128) o6 S1x16.size h6, w6⟩,
        ⟨Rect.unit (s := S320x128) o5 S1x16.size h5, w5⟩,
        ⟨Rect.unit (s := S320x128) o4 S1x16.size h4, w4⟩,
        ⟨Rect.unit (s := S320x128) o3 S1x16.size h3, w3⟩,
        ⟨Rect.unit (s := S320x128) o2 S1x16.size h2, w2⟩,
        ⟨Rect.unit (s := S320x128) o1 S1x16.size h1, w1⟩,
        ⟨Rect.unit (s := S320x128) o0 S1x16.size h0, w0⟩]) (ix2 r c) = rowSum g p0 c) := by
  subst e0 e1 e2 e3 e4 e5 e6 e7
  constructor
  · intro r c hr
    rw [read_writes_cons_rowPiece_of_not_mem v h7 f w7 _ r c (fun hh => hr hh.1),
      read_writes_cons_rowPiece_of_not_mem v h6 f w6 _ r c (fun hh => hr hh.1),
      read_writes_cons_rowPiece_of_not_mem v h5 f w5 _ r c (fun hh => hr hh.1),
      read_writes_cons_rowPiece_of_not_mem v h4 f w4 _ r c (fun hh => hr hh.1),
      read_writes_cons_rowPiece_of_not_mem v h3 f w3 _ r c (fun hh => hr hh.1),
      read_writes_cons_rowPiece_of_not_mem v h2 f w2 _ r c (fun hh => hr hh.1),
      read_writes_cons_rowPiece_of_not_mem v h1 f w1 _ r c (fun hh => hr hh.1),
      read_writes_cons_rowPiece_of_not_mem v h0 f w0 _ r c (fun hh => hr hh.1)]
    rfl
  · intro r c hr
    by_cases c7 : 112 ≤ c.val
    · rw [read_writes_cons_rowPiece_at v h7 f w7 _ r c hr c7 (by have := c.isLt; omega)]
      exact hw7 c c7 (by have := c.isLt; omega)
    rw [read_writes_cons_rowPiece_of_not_mem v h7 f w7 _ r c (fun hh => c7 hh.2.1)]
    by_cases c6 : 96 ≤ c.val
    · rw [read_writes_cons_rowPiece_at v h6 f w6 _ r c hr c6 (by omega)]
      exact hw6 c c6 (by omega)
    rw [read_writes_cons_rowPiece_of_not_mem v h6 f w6 _ r c (fun hh => c6 hh.2.1)]
    by_cases c5 : 80 ≤ c.val
    · rw [read_writes_cons_rowPiece_at v h5 f w5 _ r c hr c5 (by omega)]
      exact hw5 c c5 (by omega)
    rw [read_writes_cons_rowPiece_of_not_mem v h5 f w5 _ r c (fun hh => c5 hh.2.1)]
    by_cases c4 : 64 ≤ c.val
    · rw [read_writes_cons_rowPiece_at v h4 f w4 _ r c hr c4 (by omega)]
      exact hw4 c c4 (by omega)
    rw [read_writes_cons_rowPiece_of_not_mem v h4 f w4 _ r c (fun hh => c4 hh.2.1)]
    by_cases c3 : 48 ≤ c.val
    · rw [read_writes_cons_rowPiece_at v h3 f w3 _ r c hr c3 (by omega)]
      exact hw3 c c3 (by omega)
    rw [read_writes_cons_rowPiece_of_not_mem v h3 f w3 _ r c (fun hh => c3 hh.2.1)]
    by_cases c2 : 32 ≤ c.val
    · rw [read_writes_cons_rowPiece_at v h2 f w2 _ r c hr c2 (by omega)]
      exact hw2 c c2 (by omega)
    rw [read_writes_cons_rowPiece_of_not_mem v h2 f w2 _ r c (fun hh => c2 hh.2.1)]
    by_cases c1 : 16 ≤ c.val
    · rw [read_writes_cons_rowPiece_at v h1 f w1 _ r c hr c1 (by omega)]
      exact hw1 c c1 (by omega)
    rw [read_writes_cons_rowPiece_of_not_mem v h1 f w1 _ r c (fun hh => c1 hh.2.1)]
    rw [read_writes_cons_rowPiece_at v h0 f w0 _ r c hr (Nat.zero_le _) (by omega)]
    exact hw0 c (Nat.zero_le _) (by omega)

end Row

end Cert.Proof.KI

end
-- ==== Proof.KI_Inner0.lean ====
/-
  One trip of the inner loop over row buffer 0, with its value: the symbolic run of the trip's body and, for what the eight
  stores leave in the accumulator, the row sum of the buffer's 32 rows.
-/
import proofs.«202836_g53523882443255_cont_9to1_m_1194_32_alg».proof.Proof.KI_Tile
import proofs.«202836_g53523882443255_cont_9to1_m_1194_32_alg».proof.Proof.KI_Pure
import proofs.«202836_g53523882443255_cont_9to1_m_1194_32_alg».proof.Proof.KI_Row

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section Body
variable [FloatOps F] (d : Dev nD) (L : grid0.Coords)

omit m ρ in
/-- The inner loop over a row buffer makes four trips. -/
theorem trips2 : k0_t2_loop.trips = 4 := by decide

omit m ρ in
/-- What the accumulator reads after a trip, from what it reads through its whole view. -/
theorem rowStep_of_read {R p0 : ℕ} {g0 : Buf (Elt F) ((b0).view.loc (V d (cV L) (jV L)))}
    {fa fa' : Buf (Elt F) ((sA).view.loc (V d (cV L) (jV L)))}
    (h : (∀ (r : Fin 320) (c : Fin 128), r.val ≠ R →
            (sA).view.read (Elt F) fa' (ix2 r c) = (sA).view.read (Elt F) fa (ix2 r c))
        ∧ (∀ (r : Fin 320) (c : Fin 128), r.val = R → (sA).view.read (Elt F) fa' (ix2 r c) = rowSum g0 p0 c)) :
    RowStep R p0 g0 fa fa' := h

omit m ρ in
set_option maxHeartbeats 4000000 in
/-- ONE TRIP OF THE INNER LOOP OVER ROW BUFFER 0. Trip `n` of the list-group `k` keeps the row buffer and rewrites row
    `16 k + n` of the accumulator with the left-to-right sum of the buffer's rows `32 n, …, 32 n + 31`: eight chains of 32
    loads of sixteen lanes, each stored into its sixteen columns of that row. -/
theorem inner0 (k : Fin k0_t1_loop.trips) (w : BitVec 32) (n : Fin k0_t2_loop.trips)
    (g0 : Buf (Elt F) ((b0).view.loc (V d (cV L) (jV L)))) (fa : Buf (Elt F) ((sA).view.loc (V d (cV L) (jV L)))) :
    (iprop(((b0).view.loc (V d (cV L) (jV L)) ↦{fullShare} g0) ∗ ((sA).view.loc (V d (cV L) (jV L)) ↦{fullShare} fa)) : sProp 𝕄)
      ⊢ wp frame (wpE (defs₀ (F := F)) 𝒱₀ (V d (cV L) (jV L)) none) Set.univ
          (k0_t2_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k w n ())
          fun _ => iprop(((b0).view.loc (V d (cV L) (jV L)) ↦{fullShare} g0)
            ∗ ∃ fa', ((sA).view.loc (V d (cV L) (jV L)) ↦{fullShare} fa') ∗ ⌜RowStep (16 * k.val + n.val) (32 * n.val) g0 fa fa'⌝) := by
  unfold k0_t2_body
  iintro ⟨Hb, HsA⟩
  sl_exec_parts
  sl_step
  isplitl [Hb]
  · iexact Hb
  iexists _
  isplitl [HsA]
  · iexact HsA
  ipureintro
  sl_unfold_run_names
  have hn : n.val < 4 := trips2 ▸ n.isLt
  refine rowStep_of_read d L (rowStep_writes8 (sA).view g0 fa
    (k0_off5_inb k n) (k0_off8_inb k n) (k0_off11_inb k n) (k0_off14_inb k n) (k0_off17_inb k n) (k0_off20_inb k n) (k0_off23_inb k n) (k0_off26_inb k n)
    (k0_off5_eq k n) (k0_off8_eq k n) (k0_off11_eq k n) (k0_off14_eq k n) (k0_off17_eq k n) (k0_off20_eq k n) (k0_off23_eq k n) (k0_off26_eq k n)
    _ _ _ _ _ _ _ _ ?_ ?_ ?_ ?_ ?_ ?_ ?_ ?_)
  · intro c h1 h2
    exact storeV_chainV_rowSum g0 (32 * n.val) 0 (by omega) (by omega)
      (ldPieces (b0).view g0 n k0_off3 k0_off4 k0_off3_inb k0_off4_inb)
      (fun j hj y => ldPieces_apply (b0).view g0 n (Nat.le_of_eq trips2) k0_off3 k0_off4 k0_off3_inb k0_off4_inb 0 (by omega)
        k0_off3_eq k0_off4_eq j hj y) c h1 h2
  · intro c h1 h2
    exact storeV_chainV_rowSum g0 (32 * n.val) 16 (by omega) (by omega)
      (ldPieces (b0).view g0 n k0_off6 k0_off7 k0_off6_inb k0_off7_inb)
      (fun j hj y => ldPieces_apply (b0).view g0 n (Nat.le_of_eq trips2) k0_off6 k0_off7 k0_off6_inb k0_off7_inb 16 (by omega)
        k0_off6_eq k0_off7_eq j hj y) c h1 h2
  · intro c h1 h2
    exact storeV_chainV_rowSum g0 (32 * n.val) 32 (by omega) (by omega)
      (ldPieces (b0).view g0 n k0_off9 k0_off10 k0_off9_inb k0_off10_inb)
      (fun j hj y => ldPieces_apply (b0).view g0 n (Nat.le_of_eq trips2) k0_off9 k0_off10 k0_off9_inb k0_off10_inb 32 (by omega)
        k0_off9_eq k0_off10_eq j hj y) c h1 h2
  · intro c h1 h2
    exact storeV_chainV_rowSum g0 (32 * n.val) 48 (by omega) (by omega)
      (ldPieces (b0).view g0 n k0_off12 k0_off13 k0_off12_inb k0_off13_inb)
      (fun j hj y => ldPieces_apply (b0).view g0 n (Nat.le_of_eq trips2) k0_off12 k0_off13 k0_off12_inb k0_off13_inb 48 (by omega)
        k0_off12_eq k0_off13_eq j hj y) c h1 h2
  · intro c h1 h2
    exact storeV_chainV_rowSum g0 (32 * n.val) 64 (by omega) (by omega)
      (ldPieces (b0).view g0 n k0_off15 k0_off16 k0_off15_inb k0_off16_inb)
      (fun j hj y => ldPieces_apply (b0).view g0 n (Nat.le_of_eq trips2) k0_off15 k0_off16 k0_off15_inb k0_off16_inb 64 (by omega)
        k0_off15_eq k0_off16_eq j hj y) c h1 h2
  · intro c h1 h2
    exact storeV_chainV_rowSum g0 (32 * n.val) 80 (by omega) (by omega)
      (ldPieces (b0).view g0 n k0_off18 k0_off19 k0_off18_inb k0_off19_inb)
      (fun j hj y => ldPieces_apply (b0).view g0 n (Nat.le_of_eq trips2) k0_off18 k0_off19 k0_off18_inb k0_off19_inb 80 (by omega)
        k0_off18_eq k0_off19_eq j hj y) c h1 h2
  · intro c h1 h2
    exact storeV_chainV_rowSum g0 (32 * n.val) 96 (by omega) (by omega)
      (ldPieces (b0).view g0 n k0_off21 k0_off22 k0_off21_inb k0_off22_inb)
      (fun j hj y => ldPieces_apply (b0).view g0 n (Nat.le_of_eq trips2) k0_off21 k0_off22 k0_off21_inb k0_off22_inb 96 (by omega)
        k0_off21_eq k0_off22_eq j hj y) c h1 h2
  · intro c h1 h2
    exact storeV_chainV_rowSum g0 (32 * n.val) 112 (by omega) (by omega)
      (ldPieces (b0).view g0 n k0_off24 k0_off25 k0_off24_inb k0_off25_inb)
      (fun j hj y => ldPieces_apply (b0).view g0 n (Nat.le_of_eq trips2) k0_off24 k0_off25 k0_off24_inb k0_off25_inb 112 (by omega)
        k0_off24_eq k0_off25_eq j hj y) c h1 h2

end Body

end Cert.Proof.KI

end
-- ==== Proof.KI_Inner1.lean ====
/-
  One trip of the inner loop over row buffer 1, with its value: the symbolic run of the trip's body and, for what the eight
  stores leave in the accumulator, the row sum of the buffer's 32 rows.
-/
import proofs.«202836_g53523882443255_cont_9to1_m_1194_32_alg».proof.Proof.KI_Tile
import proofs.«202836_g53523882443255_cont_9to1_m_1194_32_alg».proof.Proof.KI_Pure
import proofs.«202836_g53523882443255_cont_9to1_m_1194_32_alg».proof.Proof.KI_Row

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section Body
variable [FloatOps F] (d : Dev nD) (L : grid0.Coords)

omit m ρ in
/-- The inner loop over a row buffer makes four trips. -/
theorem trips3 : k0_t3_loop.trips = 4 := by decide

omit m ρ in
/-- What the accumulator reads after a trip, from what it reads through its whole view. -/
theorem rowStep_of_read1 {R p0 : ℕ} {g0 : Buf (Elt F) ((b1).view.loc (V d (cV L) (jV L)))}
    {fa fa' : Buf (Elt F) ((sA).view.loc (V d (cV L) (jV L)))}
    (h : (∀ (r : Fin 320) (c : Fin 128), r.val ≠ R →
            (sA).view.read (Elt F) fa' (ix2 r c) = (sA).view.read (Elt F) fa (ix2 r c))
        ∧ (∀ (r : Fin 320) (c : Fin 128), r.val = R → (sA).view.read (Elt F) fa' (ix2 r c) = rowSum g0 p0 c)) :
    RowStep R p0 g0 fa fa' := h

omit m ρ in
set_option maxHeartbeats 4000000 in
/-- ONE TRIP OF THE INNER LOOP OVER ROW BUFFER 1. Trip `n` of the list-group `k` keeps the row buffer and rewrites row
    `16 * k + 4 * 1 + n` of the accumulator with the left-to-right sum of the buffer's rows `32 n, …, 32 n + 31`: eight chains
    of 32 loads of sixteen lanes, each stored into its sixteen columns of that row. -/
theorem inner1 (k : Fin k0_t1_loop.trips) (w : BitVec 32) (n : Fin k0_t3_loop.trips)
    (g0 : Buf (Elt F) ((b1).view.loc (V d (cV L) (jV L)))) (fa : Buf (Elt F) ((sA).view.loc (V d (cV L) (jV L)))) :
    (iprop(((b1).view.loc (V d (cV L) (jV L)) ↦{fullShare} g0) ∗ ((sA).view.loc (V d (cV L) (jV L)) ↦{fullShare} fa)) : sProp 𝕄)
      ⊢ wp frame (wpE (defs₀ (F := F)) 𝒱₀ (V d (cV L) (jV L)) none) Set.univ
          (k0_t3_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k w n ())
          fun _ => iprop(((b1).view.loc (V d (cV L) (jV L)) ↦{fullShare} g0)
            ∗ ∃ fa', ((sA).view.loc (V d (cV L) (jV L)) ↦{fullShare} fa') ∗ ⌜RowStep (16 * k.val + 4 * 1 + n.val) (32 * n.val) g0 fa fa'⌝) := by
  unfold k0_t3_body
  iintro ⟨Hb, HsA⟩
  sl_exec_parts
  sl_step
  isplitl [Hb]
  · iexact Hb
  iexists _
  isplitl [HsA]
  · iexact HsA
  ipureintro
  sl_unfold_run_names
  have hn : n.val < 4 := trips3 ▸ n.isLt
  have hR : 16 * k.val + n.val + 4 = 16 * k.val + 4 * 1 + n.val := by omega
  have e0 : k0_off30 k n = ![16 * k.val + 4 * 1 + n.val, 0] := by rw [k0_off30_eq k n, hR]
  have e1 : k0_off33 k n = ![16 * k.val + 4 * 1 + n.val, 16] := by rw [k0_off33_eq k n, hR]
  have e2 : k0_off36 k n = ![16 * k.val + 4 * 1 + n.val, 32] := by rw [k0_off36_eq k n, hR]
  have e3 : k0_off39 k n = ![16 * k.val + 4 * 1 + n.val, 48] := by rw [k0_off39_eq k n, hR]
  have e4 : k0_off42 k n = ![16 * k.val + 4 * 1 + n.val, 64] := by rw [k0_off42_eq k n, hR]
  have e5 : k0_off45 k n = ![16 * k.val + 4 * 1 + n.val, 80] := by rw [k0_off45_eq k n, hR]
  have e6 : k0_off48 k n = ![16 * k.val + 4 * 1 + n.val, 96] := by rw [k0_off48_eq k n, hR]
  have e7 : k0_off51 k n = ![16 * k.val + 4 * 1 + n.val, 112] := by rw [k0_off51_eq k n, hR]
  refine rowStep_of_read1 d L (rowStep_writes8 (R := 16 * k.val + 4 * 1 + n.val) (p0 := 32 * n.val) (sA).view g0 fa
    (k0_off30_inb k n) (k0_off33_inb k n) (k0_off36_inb k n) (k0_off39_inb k n) (k0_off42_inb k n) (k0_off45_inb k n) (k0_off48_inb k n) (k0_off51_inb k n)
    e0 e1 e2 e3 e4 e5 e6 e7
    _ _ _ _ _ _ _ _ ?_ ?_ ?_ ?_ ?_ ?_ ?_ ?_)
  · intro c h1 h2
    exact storeV_chainV_rowSum g0 (32 * n.val) 0 (by omega) (by omega)
      (ldPieces (b1).view g0 n k0_off28 k0_off29 k0_off28_inb k0_off29_inb)
      (fun j hj y => ldPieces_apply (b1).view g0 n (Nat.le_of_eq trips3) k0_off28 k0_off29 k0_off28_inb k0_off29_inb 0 (by omega)
        k0_off28_eq k0_off29_eq j hj y) c h1 h2
  · intro c h1 h2
    exact storeV_chainV_rowSum g0 (32 * n.val) 16 (by omega) (by omega)
      (ldPieces (b1).view g0 n k0_off31 k0_off32 k0_off31_inb k0_off32_inb)
      (fun j hj y => ldPieces_apply (b1).view g0 n (Nat.le_of_eq trips3) k0_off31 k0_off32 k0_off31_inb k0_off32_inb 16 (by omega)
        k0_off31_eq k0_off32_eq j hj y) c h1 h2
  · intro c h1 h2
    exact storeV_chainV_rowSum g0 (32 * n.val) 32 (by omega) (by omega)
      (ldPieces (b1).view g0 n k0_off34 k0_off35 k0_off34_inb k0_off35_inb)
      (fun j hj y => ldPieces_apply (b1).view g0 n (Nat.le_of_eq trips3) k0_off34 k0_off35 k0_off34_inb k0_off35_inb 32 (by omega)
        k0_off34_eq k0_off35_eq j hj y) c h1 h2
  · intro c h1 h2
    exact storeV_chainV_rowSum g0 (32 * n.val) 48 (by omega) (by omega)
      (ldPieces (b1).view g0 n k0_off37 k0_off38 k0_off37_inb k0_off38_inb)
      (fun j hj y => ldPieces_apply (b1).view g0 n (Nat.le_of_eq trips3) k0_off37 k0_off38 k0_off37_inb k0_off38_inb 48 (by omega)
        k0_off37_eq k0_off38_eq j hj y) c h1 h2
  · intro c h1 h2
    exact storeV_chainV_rowSum g0 (32 * n.val) 64 (by omega) (by omega)
      (ldPieces (b1).view g0 n k0_off40 k0_off41 k0_off40_inb k0_off41_inb)
      (fun j hj y => ldPieces_apply (b1).view g0 n (Nat.le_of_eq trips3) k0_off40 k0_off41 k0_off40_inb k0_off41_inb 64 (by omega)
        k0_off40_eq k0_off41_eq j hj y) c h1 h2
  · intro c h1 h2
    exact storeV_chainV_rowSum g0 (32 * n.val) 80 (by omega) (by omega)
      (ldPieces (b1).view g0 n k0_off43 k0_off44 k0_off43_inb k0_off44_inb)
      (fun j hj y => ldPieces_apply (b1).view g0 n (Nat.le_of_eq trips3) k0_off43 k0_off44 k0_off43_inb k0_off44_inb 80 (by omega)
        k0_off43_eq k0_off44_eq j hj y) c h1 h2
  · intro c h1 h2
    exact storeV_chainV_rowSum g0 (32 * n.val) 96 (by omega) (by omega)
      (ldPieces (b1).view g0 n k0_off46 k0_off47 k0_off46_inb k0_off47_inb)
      (fun j hj y => ldPieces_apply (b1).view g0 n (Nat.le_of_eq trips3) k0_off46 k0_off47 k0_off46_inb k0_off47_inb 96 (by omega)
        k0_off46_eq k0_off47_eq j hj y) c h1 h2
  · intro c h1 h2
    exact storeV_chainV_rowSum g0 (32 * n.val) 112 (by omega) (by omega)
      (ldPieces (b1).view g0 n k0_off49 k0_off50 k0_off49_inb k0_off50_inb)
      (fun j hj y => ldPieces_apply (b1).view g0 n (Nat.le_of_eq trips3) k0_off49 k0_off50 k0_off49_inb k0_off50_inb 112 (by omega)
        k0_off49_eq k0_off50_eq j hj y) c h1 h2

end Body

end Cert.Proof.KI

end
-- ==== Proof.KI_Inner2.lean ====
/-
  One trip of the inner loop over row buffer 2, with its value: the symbolic run of the trip's body and, for what the eight
  stores leave in the accumulator, the row sum of the buffer's 32 rows.
-/
import proofs.«202836_g53523882443255_cont_9to1_m_1194_32_alg».proof.Proof.KI_Tile
import proofs.«202836_g53523882443255_cont_9to1_m_1194_32_alg».proof.Proof.KI_Pure
import proofs.«202836_g53523882443255_cont_9to1_m_1194_32_alg».proof.Proof.KI_Row

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section Body
variable [FloatOps F] (d : Dev nD) (L : grid0.Coords)

omit m ρ in
/-- The inner loop over a row buffer makes four trips. -/
theorem trips4 : k0_t4_loop.trips = 4 := by decide

omit m ρ in
/-- What the accumulator reads after a trip, from what it reads through its whole view. -/
theorem rowStep_of_read2 {R p0 : ℕ} {g0 : Buf (Elt F) ((b2).view.loc (V d (cV L) (jV L)))}
    {fa fa' : Buf (Elt F) ((sA).view.loc (V d (cV L) (jV L)))}
    (h : (∀ (r : Fin 320) (c : Fin 128), r.val ≠ R →
            (sA).view.read (Elt F) fa' (ix2 r c) = (sA).view.read (Elt F) fa (ix2 r c))
        ∧ (∀ (r : Fin 320) (c : Fin 128), r.val = R → (sA).view.read (Elt F) fa' (ix2 r c) = rowSum g0 p0 c)) :
    RowStep R p0 g0 fa fa' := h

omit m ρ in
set_option maxHeartbeats 4000000 in
/-- ONE TRIP OF THE INNER LOOP OVER ROW BUFFER 2. Trip `n` of the list-group `k` keeps the row buffer and rewrites row
    `16 * k + 4 * 2 + n` of the accumulator with the left-to-right sum of the buffer's rows `32 n, …, 32 n + 31`: eight chains
    of 32 loads of sixteen lanes, each stored into its sixteen columns of that row. -/
theorem inner2 (k : Fin k0_t1_loop.trips) (w : BitVec 32) (n : Fin k0_t4_loop.trips)
    (g0 : Buf (Elt F) ((b2).view.loc (V d (cV L) (jV L)))) (fa : Buf (Elt F) ((sA).view.loc (V d (cV L) (jV L)))) :
    (iprop(((b2).view.loc (V d (cV L) (jV L)) ↦{fullShare} g0) ∗ ((sA).view.loc (V d (cV L) (jV L)) ↦{fullShare} fa)) : sProp 𝕄)
      ⊢ wp frame (wpE (defs₀ (F := F)) 𝒱₀ (V d (cV L) (jV L)) none) Set.univ
          (k0_t4_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 k w n ())
          fun _ => iprop(((b2).view.loc (V d (cV L) (jV L)) ↦{fullShare} g0)
            ∗ ∃ fa', ((sA).view.loc (V d (cV L) (jV L)) ↦{fullShare} fa') ∗ ⌜RowStep (16 * k.val + 4 * 2 + n.val) (32 * n.val) g0 fa fa'⌝) := by
  unfold k0_t4_body
  iintro ⟨Hb, HsA⟩
  sl_exec_parts
  sl_step
  isplitl [Hb]
  · iexact Hb
  iexists _
  isplitl [HsA]
  · iexact HsA
  ipureintro
  sl_unfold_run_names
  have hn : n.val < 4 := trips4 ▸ n.isLt
  have hR : 16 * k.val + n.val + 8 = 16 * k.val + 4 * 2 + n.val := by omega
  have e0 : k0_off55 k n = ![16 * k.val + 4 * 2 + n.val, 0] := by rw [k0_off55_eq k n, hR]
  have e1 : k0_off58 k n = ![16 * k.val + 4 * 2 + n.val, 16] := by rw [k0_off58_eq k n, hR]
  have e2 : k0_off61 k n = ![16 * k.val + 4 * 2 + n.val, 32] := by rw [k0_off61_eq k n, hR]
  have e3 : k0_off64 k n = ![16 * k.val + 4 * 2 + n.val, 48] := by rw [k0_off64_eq k n, hR]
  have e4 : k0_off67 k n = ![16 * k.val + 4 * 2 + n.val, 64] := by rw [k0_off67_eq k n, hR]
  have e5 : k0_off70 k n = ![16 * k.val + 4 * 2 + n.val, 80] := by rw [k0_off70_eq k n, hR]
  have e6 : k0_off73 k n = ![16 * k.val + 4 * 2 + n.val, 96] := by rw [k0_off73_eq k n, hR]
  have e7 : k0_off76 k n = ![16 * k.val + 4 * 2 + n.val, 112] := by rw [k0_off76_eq k n, hR]
  refine rowStep_of_read2 d L (rowStep_writes8 (R := 16 * k.val + 4 * 2 + n.val) (p0 := 32 * n.val) (sA).view g0 fa
    (k0_off55_inb k n) (k0_off58_inb k n) (k0_off61_inb k n) (k0_off64_inb k n) (k0_off67_inb k n) (k0_off70_inb k n) (k0_off73_inb k n) (k0_off76_inb k n)
    e0 e1 e2 e3 e4 e5 e6 e7
    _ _ _ _ _ _ _ _ ?_ ?_ ?_ ?_ ?_ ?_ ?_ ?_)
  · intro c h1 h2
    exact storeV_chainV_rowSum g0 (32 * n.val) 0 (by omega) (by omega)
      (ldPieces (b2).view g0 n k0_off53 k0_off54 k0_off53_inb k0_off54_inb)
      (fun j hj y => ldPieces_apply (b2).view g0 n (Nat.le_of_eq trips4) k0_off53 k0_off54 k0_off53_inb k0_off54_inb 0 (by omega)
        k0_off53_eq k0_off54_eq j hj y) c h1 h2
  · intro c h1 h2
    exact storeV_chainV_rowSum g0 (32 * n.val) 16 (by omega) (by omega)
      (ldPieces (b2).view g0 n k0_off56 k0_off57 k0_off56_inb k0_off57_inb)
      (fun j hj y => ldPieces_apply (b2).view g0 n (Nat.le_of_eq trips4) k0_off56 k0_off57 k0_off56_inb k0_off57_inb 16 (by omega)
        k0_off56_eq k0_off57_eq j hj y) c h1 h2
  · intro c h1 h2
    exact storeV_chainV_rowSum g0 (32 * n.val) 32 (by omega) (by omega)
      (ldPieces (b2).view g0 n k0_off59 k0_off60 k0_off59_inb k0_off60_inb)
      (fun j hj y => ldPieces_apply (b2).view g0 n (Nat.le_of_eq trips4) k0_off59 k0_off60 k0_off59_inb k0_off60_inb 32 (by omega)
        k0_off59_eq k0_off60_eq j hj y) c h1 h2
  · intro c h1 h2
    exact storeV_chainV_rowSum g0 (32 * n.val) 48 (by omega) (by omega)
      (ldPieces (b2).view g0 n k0_off62 k0_off63 k0_off62_inb k0_off63_inb)
      (fun j hj y => ldPieces_apply (b2).view g0 n (Nat.le_of_eq trips4) k0_off62 k0_off63 k0_off62_inb k0_off63_inb 48 (by omega)
        k0_off62_eq k0_off63_eq j hj y) c h1 h2
  · intro c h1 h2
    exact storeV_chainV_rowSum g0 (32 * n.val) 64 (by omega) (by omega)
      (ldPieces (b2).view g0 n k0_off65 k0_off66 k0_off65_inb k0_off66_inb)
      (fun j hj y => ldPieces_apply (b2).view g0 n (Nat.le_of_eq trips4) k0_off65 k0_off66 k0_off65_inb k0_off66_inb 64 (by omega)
        k0_off65_eq k0_off66_eq j hj y) c h1 h2
  · intro c h1 h2
    exact storeV_chainV_rowSum g0 (32 * n.val) 80 (by omega) (by omega)
      (ldPieces (b2).view g0 n k0_off68 k0_off69 k0_off68_inb k0_off69_inb)
      (fun j hj y => ldPieces_apply (b2).view g0 n (Nat.le_of_eq trips4) k0_off68 k0_off69 k0_off68_inb k0_off69_inb 80 (by omega)
        k0_off68_eq k0_off69_eq j hj y) c h1 h2
  · intro c h1 h2
    exact storeV_chainV_rowSum g0 (32 * n.val) 96 (by omega) (by omega)
      (ldPieces (b2).view g0 n k0_off71 k0_off72 k0_off71_inb k0_off72_inb)
      (fun j hj y => ldPieces_apply (b2).view g0 n (Nat.le_of_eq trips4) k0_off71 k0_off72 k0_off71_inb k0_off72_inb 96 (by omega)
        k0_off71_eq k0_off72_eq j hj y) c h1 h2
  · intro c h1 h2
    exact storeV_chainV_rowSum g0 (32 * n.val) 112 (by omega) (by omega)
      (ldPieces (b2).view g0 n k0_off74 k0_off75 k0_off74_inb k0_off75_inb)
      (fun j hj y => ldPieces_apply (b2).view g0 n (Nat.le_of_eq trips4) k0_off74 k0_off75 k0_off74_inb k0_off75_inb 112 (by omega)
        k0_off74_eq k0_off75_eq j hj y) c h1 h2

end Body

end Cert.Proof.KI

end
-- ==== Proof.KI_Inner3.lean ====
/-
  One trip of the inner loop over row buffer 3, with its value: the symbolic run of the trip's body and, for what the eight
  stores leave in the accumulator, the row sum of the buffer's 32 rows.
-/
import proofs.«202836_g53523882443255_cont_9to1_m_1194_32_alg».proof.Proof.KI_Tile
import proofs.«202836_g53523882443255_cont_9to1_m_1194_32_alg».proof.Proof.KI_Pure
import proofs.«202836_g53523882443255_cont_9to1_m_1194_32_alg».proof.Proof.KI_Row

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section Body
variable [FloatOps F] (d : Dev nD) (L : grid0.Coords)

omit m ρ in
/-- The inner loop over a row buffer makes four trips. -/
theorem trips5 : k0_t5_loop.trips = 4 := by decide

omit m ρ in
/-- What the accumulator reads after a trip, from what it reads through its whole view. -/
theorem rowStep_of_read3 {R p0 : ℕ} {g0 : Buf (Elt F) ((b3).view.loc (V d (cV L) (jV L)))}
    {fa fa' : Buf (Elt F) ((sA).view.loc (V d (cV L) (jV L)))}
    (h : (∀ (r : Fin 320) (c : Fin 128), r.val ≠ R →
            (sA).view.read (Elt F) fa' (ix2 r c) = (sA).view.read (Elt F) fa (ix2 r c))
        ∧ (∀ (r : Fin 320) (c : Fin 128), r.val = R → (sA).view.read (Elt F) fa' (ix2 r c) = rowSum g0 p0 c)) :
    RowStep R p0 g0 fa fa' := h

omit m ρ in
set_option maxHeartbeats 4000000 in
/-- ONE TRIP OF THE INNER LOOP OVER ROW BUFFER 3. Trip `n` of the list-group `k` keeps the row buffer and rewrites row
    `16 * k + 4 * 3 + n` of the accumulator with the left-to-right sum of the buffer's rows `32 n, …, 32 n + 31`: eight chains
    of 32 loads of sixteen lanes, each stored into its sixteen columns of that row. -/
theorem inner3 (k : Fin k0_t1_loop.trips) (w : BitVec 32) (n : Fin k0_t5_loop.trips)
    (g0 : Buf (Elt F) ((b3).view.loc (V d (cV L) (jV L)))) (fa : Buf (Elt F) ((sA).view.loc (V d (cV L) (jV L)))) :
    (iprop(((b3).view.loc (V d (cV L) (jV L)) ↦{fullShare} g0) ∗ ((sA).view.loc (V d (cV L) (jV L)) ↦{fullShare} fa)) : sProp 𝕄)
      ⊢ wp frame (wpE (defs₀ (F := F)) 𝒱₀ (V d (cV L) (jV L)) none) Set.univ
          (k0_t5_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 k w n ())
          fun _ => iprop(((b3).view.loc (V d (cV L) (jV L)) ↦{fullShare} g0)
            ∗ ∃ fa', ((sA).view.loc (V d (cV L) (jV L)) ↦{fullShare} fa') ∗ ⌜RowStep (16 * k.val + 4 * 3 + n.val) (32 * n.val) g0 fa fa'⌝) := by
  unfold k0_t5_body
  iintro ⟨Hb, HsA⟩
  sl_exec_parts
  sl_step
  isplitl [Hb]
  · iexact Hb
  iexists _
  isplitl [HsA]
  · iexact HsA
  ipureintro
  sl_unfold_run_names
  have hn : n.val < 4 := trips5 ▸ n.isLt
  have hR : 16 * k.val + n.val + 12 = 16 * k.val + 4 * 3 + n.val := by omega
  have e0 : k0_off80 k n = ![16 * k.val + 4 * 3 + n.val, 0] := by rw [k0_off80_eq k n, hR]
  have e1 : k0_off83 k n = ![16 * k.val + 4 * 3 + n.val, 16] := by rw [k0_off83_eq k n, hR]
  have e2 : k0_off86 k n = ![16 * k.val + 4 * 3 + n.val, 32] := by rw [k0_off86_eq k n, hR]
  have e3 : k0_off89 k n = ![16 * k.val + 4 * 3 + n.val, 48] := by rw [k0_off89_eq k n, hR]
  have e4 : k0_off92 k n = ![16 * k.val + 4 * 3 + n.val, 64] := by rw [k0_off92_eq k n, hR]
  have e5 : k0_off95 k n = ![16 * k.val + 4 * 3 + n.val, 80] := by rw [k0_off95_eq k n, hR]
  have e6 : k0_off98 k n = ![16 * k.val + 4 * 3 + n.val, 96] := by rw [k0_off98_eq k n, hR]
  have e7 : k0_off101 k n = ![16 * k.val + 4 * 3 + n.val, 112] := by rw [k0_off101_eq k n, hR]
  refine rowStep_of_read3 d L (rowStep_writes8 (R := 16 * k.val + 4 * 3 + n.val) (p0 := 32 * n.val) (sA).view g0 fa
    (k0_off80_inb k n) (k0_off83_inb k n) (k0_off86_inb k n) (k0_off89_inb k n) (k0_off92_inb k n) (k0_off95_inb k n) (k0_off98_inb k n) (k0_off101_inb k n)
    e0 e1 e2 e3 e4 e5 e6 e7
    _ _ _ _ _ _ _ _ ?_ ?_ ?_ ?_ ?_ ?_ ?_ ?_)
  · intro c h1 h2
    exact storeV_chainV_rowSum g0 (32 * n.val) 0 (by omega) (by omega)
      (ldPieces (b3).view g0 n k0_off78 k0_off79 k0_off78_inb k0_off79_inb)
      (fun j hj y => ldPieces_apply (b3).view g0 n (Nat.le_of_eq trips5) k0_off78 k0_off79 k0_off78_inb k0_off79_inb 0 (by omega)
        k0_off78_eq k0_off79_eq j hj y) c h1 h2
  · intro c h1 h2
    exact storeV_chainV_rowSum g0 (32 * n.val) 16 (by omega) (by omega)
      (ldPieces (b3).view g0 n k0_off81 k0_off82 k0_off81_inb k0_off82_inb)
      (fun j hj y => ldPieces_apply (b3).view g0 n (Nat.le_of_eq trips5) k0_off81 k0_off82 k0_off81_inb k0_off82_inb 16 (by omega)
        k0_off81_eq k0_off82_eq j hj y) c h1 h2
  · intro c h1 h2
    exact storeV_chainV_rowSum g0 (32 * n.val) 32 (by omega) (by omega)
      (ldPieces (b3).view g0 n k0_off84 k0_off85 k0_off84_inb k0_off85_inb)
      (fun j hj y => ldPieces_apply (b3).view g0 n (Nat.le_of_eq trips5) k0_off84 k0_off85 k0_off84_inb k0_off85_inb 32 (by omega)
        k0_off84_eq k0_off85_eq j hj y) c h1 h2
  · intro c h1 h2
    exact storeV_chainV_rowSum g0 (32 * n.val) 48 (by omega) (by omega)
      (ldPieces (b3).view g0 n k0_off87 k0_off88 k0_off87_inb k0_off88_inb)
      (fun j hj y => ldPieces_apply (b3).view g0 n (Nat.le_of_eq trips5) k0_off87 k0_off88 k0_off87_inb k0_off88_inb 48 (by omega)
        k0_off87_eq k0_off88_eq j hj y) c h1 h2
  · intro c h1 h2
    exact storeV_chainV_rowSum g0 (32 * n.val) 64 (by omega) (by omega)
      (ldPieces (b3).view g0 n k0_off90 k0_off91 k0_off90_inb k0_off91_inb)
      (fun j hj y => ldPieces_apply (b3).view g0 n (Nat.le_of_eq trips5) k0_off90 k0_off91 k0_off90_inb k0_off91_inb 64 (by omega)
        k0_off90_eq k0_off91_eq j hj y) c h1 h2
  · intro c h1 h2
    exact storeV_chainV_rowSum g0 (32 * n.val) 80 (by omega) (by omega)
      (ldPieces (b3).view g0 n k0_off93 k0_off94 k0_off93_inb k0_off94_inb)
      (fun j hj y => ldPieces_apply (b3).view g0 n (Nat.le_of_eq trips5) k0_off93 k0_off94 k0_off93_inb k0_off94_inb 80 (by omega)
        k0_off93_eq k0_off94_eq j hj y) c h1 h2
  · intro c h1 h2
    exact storeV_chainV_rowSum g0 (32 * n.val) 96 (by omega) (by omega)
      (ldPieces (b3).view g0 n k0_off96 k0_off97 k0_off96_inb k0_off97_inb)
      (fun j hj y => ldPieces_apply (b3).view g0 n (Nat.le_of_eq trips5) k0_off96 k0_off97 k0_off96_inb k0_off97_inb 96 (by omega)
        k0_off96_eq k0_off97_eq j hj y) c h1 h2
  · intro c h1 h2
    exact storeV_chainV_rowSum g0 (32 * n.val) 112 (by omega) (by omega)
      (ldPieces (b3).view g0 n k0_off99 k0_off100 k0_off99_inb k0_off100_inb)
      (fun j hj y => ldPieces_apply (b3).view g0 n (Nat.le_of_eq trips5) k0_off99 k0_off100 k0_off99_inb k0_off100_inb 112 (by omega)
        k0_off99_eq k0_off100_eq j hj y) c h1 h2

end Body

end Cert.Proof.KI

end
-- ==== Proof.KI_InnerRegion.lean ====
/-
  The four inner loops' trips against their invariants: one inner trip over a row buffer sums one more accumulator row.
-/
import proofs.«202836_g53523882443255_cont_9to1_m_1194_32_alg».proof.Proof.KI_Inv
import proofs.«202836_g53523882443255_cont_9to1_m_1194_32_alg».proof.Proof.KI_Inner0
import proofs.«202836_g53523882443255_cont_9to1_m_1194_32_alg».proof.Proof.KI_Inner1
import proofs.«202836_g53523882443255_cont_9to1_m_1194_32_alg».proof.Proof.KI_Inner2
import proofs.«202836_g53523882443255_cont_9to1_m_1194_32_alg».proof.Proof.KI_Inner3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section InnerRegion
variable [FloatOps F] (d : Dev nD) (L : grid0.Coords)

omit [FloatOps F] m ρ in
/-- A share of the scratch of lists held whole, spelt through one of its lists' views, is that share of the scratch. -/
theorem lst_whole (off : Fin 2 → ℕ) (hoff : ∀ a, off a + S1x128.size a ≤ S80x128.size a) (σ : PosShare TreeShare)
    (idxv : Buf (Elt F) ((sI).view.loc (V d (cV L) (jV L)))) :
    (View.loc (V d (cV L) (jV L)) (lstAt off hoff).view ↦{σ} idxv : sProp 𝕄) = ((sI).view.loc (V d (cV L) (jV L)) ↦{σ} idxv) := rfl

omit m ρ in
/-- One inner trip over row buffer 0 keeps the inner invariant: one more accumulator row summed. -/
theorem innerRegion0 (idxv : Buf (Elt F) ((sI).view.loc (V d (cV L) (jV L)))) (fx : Buf (Elt F) (fLoc d))
    (g : Buf (Elt F) ((b0).view.loc (V d (cV L) (jV L)))) (k : Fin k0_t1_loop.trips) (hg : g = bufVal idxv fx (4 * k.val + 0))
    (w : BitVec 32) (n : Fin k0_t2_loop.trips) (acc : Unit) :
    invI0 (F := F) d L idxv fx g (16 * k.val + 4 * 0) n.val acc
      ⊢ wp frame (wpE (defs₀ (F := F)) 𝒱₀ (V d (cV L) (jV L)) none) Set.univ
          (k0_t2_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k w n acc)
          (fun acc' => invI0 (F := F) d L idxv fx g (16 * k.val + 4 * 0) (n.val + 1) acc') := by
  have hk : k.val < 20 := Nat.lt_of_lt_of_eq k.isLt trips_eq
  unfold invI0
  iintro ⟨Hb, %fa', HsA, %hacc'⟩
  iapply ((inner0 (F := F) d L k w n g fa').trans (wp_mono frame _ _ fun _ => invI_step0 (F := F) d L idxv fx g k.val n.val hk (Nat.lt_of_lt_of_eq n.isLt (by decide)) hg fa' hacc')) $$ [Hb HsA]
  isplitl [Hb]; · iexact Hb
  iexact HsA

omit m ρ in
/-- One inner trip over row buffer 1 keeps the inner invariant: one more accumulator row summed. -/
theorem innerRegion1 (idxv : Buf (Elt F) ((sI).view.loc (V d (cV L) (jV L)))) (fx : Buf (Elt F) (fLoc d))
    (g : Buf (Elt F) ((b1).view.loc (V d (cV L) (jV L)))) (k : Fin k0_t1_loop.trips) (hg : g = bufVal idxv fx (4 * k.val + 1))
    (w : BitVec 32) (n : Fin k0_t3_loop.trips) (acc : Unit) :
    invI1 (F := F) d L idxv fx g (16 * k.val + 4 * 1) n.val acc
      ⊢ wp frame (wpE (defs₀ (F := F)) 𝒱₀ (V d (cV L) (jV L)) none) Set.univ
          (k0_t3_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k w n acc)
          (fun acc' => invI1 (F := F) d L idxv fx g (16 * k.val + 4 * 1) (n.val + 1) acc') := by
  have hk : k.val < 20 := Nat.lt_of_lt_of_eq k.isLt trips_eq
  unfold invI1
  iintro ⟨Hb, %fa', HsA, %hacc'⟩
  iapply ((inner1 (F := F) d L k w n g fa').trans (wp_mono frame _ _ fun _ => invI_step1 (F := F) d L idxv fx g k.val n.val hk (Nat.lt_of_lt_of_eq n.isLt (by decide)) hg fa' hacc')) $$ [Hb HsA]
  isplitl [Hb]; · iexact Hb
  iexact HsA

omit m ρ in
/-- One inner trip over row buffer 2 keeps the inner invariant: one more accumulator row summed. -/
theorem innerRegion2 (idxv : Buf (Elt F) ((sI).view.loc (V d (cV L) (jV L)))) (fx : Buf (Elt F) (fLoc d))
    (g : Buf (Elt F) ((b2).view.loc (V d (cV L) (jV L)))) (k : Fin k0_t1_loop.trips) (hg : g = bufVal idxv fx (4 * k.val + 2))
    (w : BitVec 32) (n : Fin k0_t4_loop.trips) (acc : Unit) :
    invI2 (F := F) d L idxv fx g (16 * k.val + 4 * 2) n.val acc
      ⊢ wp frame (wpE (defs₀ (F := F)) 𝒱₀ (V d (cV L) (jV L)) none) Set.univ
          (k0_t4_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 k w n acc)
          (fun acc' => invI2 (F := F) d L idxv fx g (16 * k.val + 4 * 2) (n.val + 1) acc') := by
  have hk : k.val < 20 := Nat.lt_of_lt_of_eq k.isLt trips_eq
  unfold invI2
  iintro ⟨Hb, %fa', HsA, %hacc'⟩
  iapply ((inner2 (F := F) d L k w n g fa').trans (wp_mono frame _ _ fun _ => invI_step2 (F := F) d L idxv fx g k.val n.val hk (Nat.lt_of_lt_of_eq n.isLt (by decide)) hg fa' hacc')) $$ [Hb HsA]
  isplitl [Hb]; · iexact Hb
  iexact HsA

omit m ρ in
/-- One inner trip over row buffer 3 keeps the inner invariant: one more accumulator row summed. -/
theorem innerRegion3 (idxv : Buf (Elt F) ((sI).view.loc (V d (cV L) (jV L)))) (fx : Buf (Elt F) (fLoc d))
    (g : Buf (Elt F) ((b3).view.loc (V d (cV L) (jV L)))) (k : Fin k0_t1_loop.trips) (hg : g = bufVal idxv fx (4 * k.val + 3))
    (w : BitVec 32) (n : Fin k0_t5_loop.trips) (acc : Unit) :
    invI3 (F := F) d L idxv fx g (16 * k.val + 4 * 3) n.val acc
      ⊢ wp frame (wpE (defs₀ (F := F)) 𝒱₀ (V d (cV L) (jV L)) none) Set.univ
          (k0_t5_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 k w n acc)
          (fun acc' => invI3 (F := F) d L idxv fx g (16 * k.val + 4 * 3) (n.val + 1) acc') := by
  have hk : k.val < 20 := Nat.lt_of_lt_of_eq k.isLt trips_eq
  unfold invI3
  iintro ⟨Hb, %fa', HsA, %hacc'⟩
  iapply ((inner3 (F := F) d L k w n g fa').trans (wp_mono frame _ _ fun _ => invI_step3 (F := F) d L idxv fx g k.val n.val hk (Nat.lt_of_lt_of_eq n.isLt (by decide)) hg fa' hacc')) $$ [Hb HsA]
  isplitl [Hb]; · iexact Hb
  iexact HsA

end InnerRegion

end Cert.Proof.KI

end
-- ==== Proof.KI_TripPos.lean ====
/-
  One outer trip of a vector subcore's task, any but the last.
-/
import proofs.«202836_g53523882443255_cont_9to1_m_1194_32_alg».proof.Proof.KI_InnerRegion

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section Trip
variable [FloatOps F] (d : Dev nD) (L : grid0.Coords)

set_option maxHeartbeats 16000000 in
set_option maxRecDepth 16384 in
/-- One outer trip before the last: each row buffer's gather awaited, its four rows summed into the accumulator, and the gather of its next list issued. -/
theorem trip_pos (O : CellTallies nD τ sig (HIx 1)) (W : Waits sig (HIx 1)) (idxv : Buf (Elt F) ((sI).view.loc (V d (cV L) (jV L))))
    (hin : ∀ (off : Fin 2 → ℕ) (hoff : ∀ a, off a + S1x128.size a ≤ S80x128.size a) (x : S128.Idx),
      ((lstAt off hoff).view.read (Elt F) idxv x).toNat < S100000x128.size gathers_S100000x128_S128x128.axis)
    (k : Fin k0_t1_loop.trips) (hlt : k.val < 19) (acc : Unit) :
    invO (F := F) m d L O W idxv k.val acc
      ⊢ wp frame (wpE (defs₀ (F := F)) 𝒱₀ (V d (cV L) (jV L)) none) Set.univ
          (k0_t1_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k acc)
          (fun acc' => invO (F := F) m d L O W idxv (k.val + 1) acc') := by
  have hk : k.val < 20 := Nat.lt_of_lt_of_eq k.isLt trips_eq
  have ht2 : Scf.trips k0_t2_loop.lb k0_t2_loop.ub k0_t2_loop.st = 4 := trips2
  have ht3 : Scf.trips k0_t3_loop.lb k0_t3_loop.ub k0_t3_loop.st = 4 := trips3
  have ht4 : Scf.trips k0_t4_loop.lb k0_t4_loop.ub k0_t4_loop.st = 4 := trips4
  have ht5 : Scf.trips k0_t5_loop.lb k0_t5_loop.ub k0_t5_loop.st = 4 := trips5
  have hk1 : k.val + 1 < 20 := by omega
  obtain ⟨hc1, hc2, hc3, hc4⟩ := cond_pos k hlt
  simp only [invO, grp0, grp1, grp2, grp3, dif_pos hk, dif_pos hk1]
  unfold k0_t1_body
  iintro ⟨#Hmw, ⟨%fa0, HsA, %hacc0⟩, HFr, ⟨%W', %hW', HO⟩, ⟨%g0, ⟨Hfl0, HIr0, HFr0, Hbr0⟩, %hg0⟩, ⟨%g1, ⟨Hfl1, HIr1, HFr1, Hbr1⟩, %hg1⟩, ⟨%g2, ⟨Hfl2, HIr2, HFr2, Hbr2⟩, %hg2⟩, ⟨%g3, ⟨Hfl3, HIr3, HFr3, Hbr3⟩, %hg3⟩⟩
  -- row buffer 0: its gather's wait, its four rows summed, the next list's gather issued
  sl_exec
  ihave HI0 := (Entails.of_eq (lst_whole (F := F) d L _ _ _ _)) $$ HIr0
  sl_for (invI0 (F := F) d L idxv (m (fLoc d)) g0 (16 * k.val + 4 * 0)) $$ [Hbr0 HsA]
  case region =>
    intro n acc'
    exact innerRegion0 (F := F) d L idxv (m (fLoc d)) g0 k hg0 _ n acc'
  · unfold invI0
    isplitl [Hbr0]; · iexact Hbr0
    iexists _; isplitl [HsA]; · iexact HsA
    ipureintro; exact accOK_cast (by omega) hacc0
  iintro %_ HI
  unfold invI0
  icases HI with ⟨Hbr0, %fa1, HsA, %hacc1⟩
  -- row buffer 1: its gather's wait, its four rows summed, the next list's gather issued
  sl_exec
  ihave HI1 := (Entails.of_eq (lst_whole (F := F) d L _ _ _ _)) $$ HIr1
  sl_for (invI1 (F := F) d L idxv (m (fLoc d)) g1 (16 * k.val + 4 * 1)) $$ [Hbr1 HsA]
  case region =>
    intro n acc'
    exact innerRegion1 (F := F) d L idxv (m (fLoc d)) g1 k hg1 _ n acc'
  · unfold invI1
    isplitl [Hbr1]; · iexact Hbr1
    iexists _; isplitl [HsA]; · iexact HsA
    ipureintro; exact accOK_cast (by omega) hacc1
  iintro %_ HI
  unfold invI1
  icases HI with ⟨Hbr1, %fa2, HsA, %hacc2⟩
  -- row buffer 2: its gather's wait, its four rows summed, the next list's gather issued
  sl_exec
  ihave HI2 := (Entails.of_eq (lst_whole (F := F) d L _ _ _ _)) $$ HIr2
  sl_for (invI2 (F := F) d L idxv (m (fLoc d)) g2 (16 * k.val + 4 * 2)) $$ [Hbr2 HsA]
  case region =>
    intro n acc'
    exact innerRegion2 (F := F) d L idxv (m (fLoc d)) g2 k hg2 _ n acc'
  · unfold invI2
    isplitl [Hbr2]; · iexact Hbr2
    iexists _; isplitl [HsA]; · iexact HsA
    ipureintro; exact accOK_cast (by omega) hacc2
  iintro %_ HI
  unfold invI2
  icases HI with ⟨Hbr2, %fa3, HsA, %hacc3⟩
  -- row buffer 3: its gather's wait, its four rows summed, the next list's gather issued
  sl_exec
  ihave HI3 := (Entails.of_eq (lst_whole (F := F) d L _ _ _ _)) $$ HIr3
  sl_for (invI3 (F := F) d L idxv (m (fLoc d)) g3 (16 * k.val + 4 * 3)) $$ [Hbr3 HsA]
  case region =>
    intro n acc'
    exact innerRegion3 (F := F) d L idxv (m (fLoc d)) g3 k hg3 _ n acc'
  · unfold invI3
    isplitl [Hbr3]; · iexact Hbr3
    iexists _; isplitl [HsA]; · iexact HsA
    ipureintro; exact accOK_cast (by omega) hacc3
  iintro %_ HI
  unfold invI3
  icases HI with ⟨Hbr3, %fa4, HsA, %hacc4⟩
  sl_exec
  sl_step
  isplitr; · iexact Hmw
  isplitl [HsA]
  · iexists _; isplitl [HsA]; · iexact HsA
    ipureintro; exact accOK_cast (by omega) hacc4
  isplitl [HFr]; · iexact HFr
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [Hfl0 HI0 HFr0 Hbr0]
  · iexists _
    isplitl [Hfl0 HI0 HFr0 Hbr0]
    · iapply (gatherGrp_congr (F := F) m d L b0 cc0_scratch6.sem _ (k0_off27 k) _ (k0_off27_inb k hc1) (hrow _ (by omega)) (nextOff k).1 (Transfers.shareTokN fullShare 0) idxv 0) $$ [Hfl0 HI0 HFr0 Hbr0]
      isplitl [Hfl0]; · iexact Hfl0
      isplitl [HI0]; · iexact HI0
      isplitl [HFr0]; · iexact HFr0
      iexact Hbr0
    · ipureintro; exact gathered_eq0 (F := F) d L _ idxv (m (fLoc d)) _ _ _ _ _ (4 * (k.val + 1) + 0) (by omega) (nextOff k).1
  isplitl [Hfl1 HI1 HFr1 Hbr1]
  · iexists _
    isplitl [Hfl1 HI1 HFr1 Hbr1]
    · iapply (gatherGrp_congr (F := F) m d L b1 cc0_scratch7.sem _ (k0_off52 k) _ (k0_off52_inb k hc2) (hrow _ (by omega)) (nextOff k).2.1 (Transfers.shareTokN fullShare 1) idxv 1) $$ [Hfl1 HI1 HFr1 Hbr1]
      isplitl [Hfl1]; · iexact Hfl1
      isplitl [HI1]; · iexact HI1
      isplitl [HFr1]; · iexact HFr1
      iexact Hbr1
    · ipureintro; exact gathered_eq1 (F := F) d L _ idxv (m (fLoc d)) _ _ _ _ _ (4 * (k.val + 1) + 1) (by omega) (nextOff k).2.1
  isplitl [Hfl2 HI2 HFr2 Hbr2]
  · iexists _
    isplitl [Hfl2 HI2 HFr2 Hbr2]
    · iapply (gatherGrp_congr (F := F) m d L b2 cc0_scratch8.sem _ (k0_off77 k) _ (k0_off77_inb k hc3) (hrow _ (by omega)) (nextOff k).2.2.1 (Transfers.shareTokN fullShare 2) idxv 2) $$ [Hfl2 HI2 HFr2 Hbr2]
      isplitl [Hfl2]; · iexact Hfl2
      isplitl [HI2]; · iexact HI2
      isplitl [HFr2]; · iexact HFr2
      iexact Hbr2
    · ipureintro; exact gathered_eq2 (F := F) d L _ idxv (m (fLoc d)) _ _ _ _ _ (4 * (k.val + 1) + 2) (by omega) (nextOff k).2.2.1
  · iexists _
    isplitl [Hfl3 HI3 HFr3 Hbr3]
    · iapply (gatherGrp_congr (F := F) m d L b3 cc0_scratch9.sem _ (k0_off102 k) _ (k0_off102_inb k hc4) (hrow _ (by omega)) (nextOff k).2.2.2 (Transfers.shareDrop fullShare 3) idxv 3) $$ [Hfl3 HI3 HFr3 Hbr3]
      isplitl [Hfl3]; · iexact Hfl3
      isplitl [HI3]; · iexact HI3
      isplitl [HFr3]; · iexact HFr3
      iexact Hbr3
    · ipureintro; exact gathered_eq3 (F := F) d L _ idxv (m (fLoc d)) _ _ _ _ _ (4 * (k.val + 1) + 3) (by omega) (nextOff k).2.2.2

end Trip

end Cert.Proof.KI

end
-- ==== Proof.KI_TripNeg.lean ====
/-
  One outer trip of a vector subcore's task, the last one.
-/
import proofs.«202836_g53523882443255_cont_9to1_m_1194_32_alg».proof.Proof.KI_InnerRegion

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section Trip
variable [FloatOps F] (d : Dev nD) (L : grid0.Coords)

set_option maxHeartbeats 16000000 in
set_option maxRecDepth 16384 in
/-- One outer trip, the last: each row buffer's gather awaited, its four rows summed into the accumulator; nothing more is issued. -/
theorem trip_neg (O : CellTallies nD τ sig (HIx 1)) (W : Waits sig (HIx 1)) (idxv : Buf (Elt F) ((sI).view.loc (V d (cV L) (jV L))))
    (hin : ∀ (off : Fin 2 → ℕ) (hoff : ∀ a, off a + S1x128.size a ≤ S80x128.size a) (x : S128.Idx),
      ((lstAt off hoff).view.read (Elt F) idxv x).toNat < S100000x128.size gathers_S100000x128_S128x128.axis)
    (k : Fin k0_t1_loop.trips) (hlt : ¬ k.val < 19) (acc : Unit) :
    invO (F := F) m d L O W idxv k.val acc
      ⊢ wp frame (wpE (defs₀ (F := F)) 𝒱₀ (V d (cV L) (jV L)) none) Set.univ
          (k0_t1_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1 0#32 1#32 k acc)
          (fun acc' => invO (F := F) m d L O W idxv (k.val + 1) acc') := by
  have hk : k.val < 20 := Nat.lt_of_lt_of_eq k.isLt trips_eq
  have ht2 : Scf.trips k0_t2_loop.lb k0_t2_loop.ub k0_t2_loop.st = 4 := trips2
  have ht3 : Scf.trips k0_t3_loop.lb k0_t3_loop.ub k0_t3_loop.st = 4 := trips3
  have ht4 : Scf.trips k0_t4_loop.lb k0_t4_loop.ub k0_t4_loop.st = 4 := trips4
  have ht5 : Scf.trips k0_t5_loop.lb k0_t5_loop.ub k0_t5_loop.st = 4 := trips5
  have hk1 : ¬ k.val + 1 < 20 := by omega
  obtain ⟨hc1, hc2, hc3, hc4⟩ := cond_neg k hlt
  simp only [invO, grp0, grp1, grp2, grp3, dif_pos hk, dif_neg hk1]
  unfold k0_t1_body
  iintro ⟨#Hmw, ⟨%fa0, HsA, %hacc0⟩, HFr, ⟨%W', %hW', HO⟩, ⟨%g0, ⟨Hfl0, HIr0, HFr0, Hbr0⟩, %hg0⟩, ⟨%g1, ⟨Hfl1, HIr1, HFr1, Hbr1⟩, %hg1⟩, ⟨%g2, ⟨Hfl2, HIr2, HFr2, Hbr2⟩, %hg2⟩, ⟨%g3, ⟨Hfl3, HIr3, HFr3, Hbr3⟩, %hg3⟩⟩
  -- row buffer 0: its gather's wait, its four rows summed
  sl_exec
  ihave HI0 := (Entails.of_eq (lst_whole (F := F) d L _ _ _ _)) $$ HIr0
  sl_for (invI0 (F := F) d L idxv (m (fLoc d)) g0 (16 * k.val + 4 * 0)) $$ [Hbr0 HsA]
  case region =>
    intro n acc'
    exact innerRegion0 (F := F) d L idxv (m (fLoc d)) g0 k hg0 _ n acc'
  · unfold invI0
    isplitl [Hbr0]; · iexact Hbr0
    iexists _; isplitl [HsA]; · iexact HsA
    ipureintro; exact accOK_cast (by omega) hacc0
  iintro %_ HI
  unfold invI0
  icases HI with ⟨Hbr0, %fa1, HsA, %hacc1⟩
  -- row buffer 1: its gather's wait, its four rows summed
  sl_exec
  ihave HI1 := (Entails.of_eq (lst_whole (F := F) d L _ _ _ _)) $$ HIr1
  sl_for (invI1 (F := F) d L idxv (m (fLoc d)) g1 (16 * k.val + 4 * 1)) $$ [Hbr1 HsA]
  case region =>
    intro n acc'
    exact innerRegion1 (F := F) d L idxv (m (fLoc d)) g1 k hg1 _ n acc'
  · unfold invI1
    isplitl [Hbr1]; · iexact Hbr1
    iexists _; isplitl [HsA]; · iexact HsA
    ipureintro; exact accOK_cast (by omega) hacc1
  iintro %_ HI
  unfold invI1
  icases HI with ⟨Hbr1, %fa2, HsA, %hacc2⟩
  -- row buffer 2: its gather's wait, its four rows summed
  sl_exec
  ihave HI2 := (Entails.of_eq (lst_whole (F := F) d L _ _ _ _)) $$ HIr2
  sl_for (invI2 (F := F) d L idxv (m (fLoc d)) g2 (16 * k.val + 4 * 2)) $$ [Hbr2 HsA]
  case region =>
    intro n acc'
    exact innerRegion2 (F := F) d L idxv (m (fLoc d)) g2 k hg2 _ n acc'
  · unfold invI2
    isplitl [Hbr2]; · iexact Hbr2
    iexists _; isplitl [HsA]; · iexact HsA
    ipureintro; exact accOK_cast (by omega) hacc2
  iintro %_ HI
  unfold invI2
  icases HI with ⟨Hbr2, %fa3, HsA, %hacc3⟩
  -- row buffer 3: its gather's wait, its four rows summed
  sl_exec
  ihave HI3 := (Entails.of_eq (lst_whole (F := F) d L _ _ _ _)) $$ HIr3
  sl_for (invI3 (F := F) d L idxv (m (fLoc d)) g3 (16 * k.val + 4 * 3)) $$ [Hbr3 HsA]
  case region =>
    intro n acc'
    exact innerRegion3 (F := F) d L idxv (m (fLoc d)) g3 k hg3 _ n acc'
  · unfold invI3
    isplitl [Hbr3]; · iexact Hbr3
    iexists _; isplitl [HsA]; · iexact HsA
    ipureintro; exact accOK_cast (by omega) hacc3
  iintro %_ HI
  unfold invI3
  icases HI with ⟨Hbr3, %fa4, HsA, %hacc4⟩
  sl_exec
  sl_step
  isplitr; · iexact Hmw
  isplitl [HsA]
  · iexists _; isplitl [HsA]; · iexact HsA
    ipureintro; exact accOK_cast (by omega) hacc4
  isplitl [HFr]; · iexact HFr
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [Hfl0 HI0 HFr0 Hbr0]
  · isplitl [Hbr0]; · iexists _; iexact Hbr0
    isplitl [Hfl0]; · iexact Hfl0
    isplitl [HI0]; · iexact HI0
    iexact HFr0
  isplitl [Hfl1 HI1 HFr1 Hbr1]
  · isplitl [Hbr1]; · iexists _; iexact Hbr1
    isplitl [Hfl1]; · iexact Hfl1
    isplitl [HI1]; · iexact HI1
    iexact HFr1
  isplitl [Hfl2 HI2 HFr2 Hbr2]
  · isplitl [Hbr2]; · iexists _; iexact Hbr2
    isplitl [Hfl2]; · iexact Hfl2
    isplitl [HI2]; · iexact HI2
    iexact HFr2
  · isplitl [Hbr3]; · iexists _; iexact Hbr3
    isplitl [Hfl3]; · iexact Hfl3
    isplitl [HI3]; · iexact HI3
    iexact HFr3

end Trip

end Cert.Proof.KI

end
-- ==== Proof.KI_Body.lean ====
/-
  One vector subcore's task, whole: the worker's slab of the index table lands in the scratch of lists; the first four
  lists' gathers are issued, one per row buffer, each on its own semaphore; twenty outer trips each await the four
  gathers in turn, sum every gathered row group into the accumulator and (but for the last trip) issue the next four;
  the accumulator then goes out to the worker's block of the result, which so holds, row by row, the left-to-right sum
  of the 32 feature rows its words name.
-/
import proofs.«202836_g53523882443255_cont_9to1_m_1194_32_alg».proof.Proof.KI_TripPos
import proofs.«202836_g53523882443255_cont_9to1_m_1194_32_alg».proof.Proof.KI_TripNeg

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

section Body
variable [FloatOps F] (ia : (d : Dev nD) → Buf (Elt F) (iLoc d)) (d : Dev nD) (L : grid0.Coords)

set_option maxHeartbeats 16000000 in
set_option maxRecDepth 16384 in
theorem tile_body (hF : (K (F := F)).Facts) (hia : IdxOK ia) (O : CellTallies nD τ sig (HIx 1)) (W : Waits sig (HIx 1)) (hO : ∀ g, O g none = 0) :
    iprop(levAts (K (F := F)).L (K (F := F)).lev ∗ emp
        ∗ goRes m ia d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__agg_body L fV (Memref.isWhole_whole _) iV (Memref.isWhole_whole _) oV (Memref.isWhole_whole _)
            sI (Memref.isWhole_whole _) sA (Memref.isWhole_whole _) b0 (Memref.isWhole_whole _) b1 (Memref.isWhole_whole _)
            b2 (Memref.isWhole_whole _) b3 (Memref.isWhole_whole _) cc0_scratch6 cc0_scratch7 cc0_scratch8 cc0_scratch9 cc0_scoped0 cc0_scoped1)
          fun _ => iprop(tdRes m ia d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__agg_body_eq_skeleton]; unfold cc0__agg_body_skel
  rw [(K (F := F)).scopedBufs_V hF d (cV L) (jV L), SparseCore.Cfg.scopedSems0_V (Val := Elt F) d (cV L) (jV L), ownSems0_V, ownBufs_V]
  iintro ⟨#Hlv, -, ⟨Hi, Hf, Ho⟩, ⟨⟨%fI, HsI⟩, ⟨%fA, HsA⟩, ⟨%f0, Hb0⟩, ⟨%f1, Hb1⟩, ⟨%f2, Hb2⟩, ⟨%f3, Hb3⟩, Hbufs⟩, ⟨Hs0, Hs1, Hs2, Hs3, Hs4, Hs5, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hi' := (Entails.of_eq (pts_iRowK (F := F) d L _).symm) $$ Hi
  ihave Ho' := (Entails.of_eq (pts_oRowK (F := F) d L _).symm) $$ Ho
  ihave Hf' := (Entails.of_eq (pts_fV (F := F) d L _ _).symm) $$ Hf
  ihave HsI' := (Entails.of_eq (pts_sc (F := F) d L cc0_scratch0 _).symm) $$ HsI
  ihave HsA' := (Entails.of_eq (pts_sc (F := F) d L cc0_scratch1 _).symm) $$ HsA
  ihave Hb0' := (Entails.of_eq (pts_sc (F := F) d L cc0_scratch2 _).symm) $$ Hb0
  ihave Hb1' := (Entails.of_eq (pts_sc (F := F) d L cc0_scratch3 _).symm) $$ Hb1
  ihave Hb2' := (Entails.of_eq (pts_sc (F := F) d L cc0_scratch4 _).symm) $$ Hb2
  ihave Hb3' := (Entails.of_eq (pts_sc (F := F) d L cc0_scratch5 _).symm) $$ Hb3
  -- the worker's slab of the index table into the scratch of lists
  sl_exec_parts
  have hin := list_lt (F := F) ia d L hia fI (tile_body.sl.dma0 ia d L) rfl
  -- the scratch of lists in four shares, one per row buffer; the feature share in four read tokens and a remainder
  ihave HX := (tok_split0 (F := F) Finset.univ fullShare _).1 $$ HsI'
  icases HX with ⟨HIt0, HId1⟩
  ihave HX := (tok_split (F := F) Finset.univ fullShare _ 1 2 rfl).1 $$ HId1
  icases HX with ⟨HIt1, HId2⟩
  ihave HX := (tok_split (F := F) Finset.univ fullShare _ 2 3 rfl).1 $$ HId2
  icases HX with ⟨HIt2, HIt3⟩
  ihave HX := (tok_split0 (F := F) Finset.univ (fq (wL L)) _).1 $$ Hf'
  icases HX with ⟨HFt0, HFd1⟩
  ihave HX := (tok_split (F := F) Finset.univ (fq (wL L)) _ 1 2 rfl).1 $$ HFd1
  icases HX with ⟨HFt1, HFd2⟩
  ihave HX := (tok_split (F := F) Finset.univ (fq (wL L)) _ 2 3 rfl).1 $$ HFd2
  icases HX with ⟨HFt2, HFd3⟩
  ihave HX := (tok_split (F := F) Finset.univ (fq (wL L)) _ 3 4 rfl).1 $$ HFd3
  icases HX with ⟨HFt3, HFr⟩
  -- the first four lists' gathers
  sl_exec
  sl_for (invO (F := F) m d L O (insert (SemLoc.dma cc0_scoped0.sem, (default : HIx 1)) W) (View.write (Elt F) (sI).view fI (tile_body.sl.dma0 ia d L) Finset.univ)) $$ [Hmw HsA' HFr HO Hs0 HIt0 HFt0 Hb0' Hs1 HIt1 HFt1 Hb1' Hs2 HIt2 HFt2 Hb2' Hs3 HIt3 HFt3 Hb3']
  case region =>
    intro k acc
    by_cases hlt : k.val < 19
    · exact trip_pos (F := F) m d L O (insert (SemLoc.dma cc0_scoped0.sem, (default : HIx 1)) W) (View.write (Elt F) (sI).view fI (tile_body.sl.dma0 ia d L) Finset.univ) hin k hlt acc
    · exact trip_neg (F := F) m d L O (insert (SemLoc.dma cc0_scoped0.sem, (default : HIx 1)) W) (View.write (Elt F) (sI).view fI (tile_body.sl.dma0 ia d L) Finset.univ) hin k hlt acc
  · unfold invO grp0 grp1 grp2 grp3
    rw [dif_pos (show 0 < 20 by decide), dif_pos (show 0 < 20 by decide), dif_pos (show 0 < 20 by decide), dif_pos (show 0 < 20 by decide)]
    isplitr; · iexact Hmw
    isplitl [HsA']
    · iexists _; isplitl [HsA']; · iexact HsA'
      ipureintro; exact fun r c h => absurd h (by omega)
    isplitl [HFr]; · iexact HFr
    isplitl [HO]
    · iexists _; isplitr
      swap; · iexact HO
      ipureintro; exact fun p hp => .inl hp
    isplitl [Hs0 HIt0 HFt0 Hb0']
    · iexists _
      isplitl [Hs0 HIt0 HFt0 Hb0']
      · iapply (gatherGrp_congr (F := F) m d L b0 cc0_scratch6.sem _ ![0, 0] _ inb_S80x128_S1x128_0_0 (hrow _ (by omega)) (by simp) (Transfers.shareTokN fullShare 0) (View.write (Elt F) (sI).view fI (tile_body.sl.dma0 ia d L) Finset.univ) 0) $$ [Hs0 HIt0 HFt0 Hb0']
        isplitl [Hs0]; · iexact Hs0
        isplitl [HIt0]; · iexact HIt0
        isplitl [HFt0]; · iexact HFt0
        iexact Hb0'
      · ipureintro; exact gathered_eq0 (F := F) d L _ (View.write (Elt F) (sI).view fI (tile_body.sl.dma0 ia d L) Finset.univ) (m (fLoc d)) _ _ _ _ _ (4 * 0 + 0) (by omega) (by simp)
    isplitl [Hs1 HIt1 HFt1 Hb1']
    · iexists _
      isplitl [Hs1 HIt1 HFt1 Hb1']
      · iapply (gatherGrp_congr (F := F) m d L b1 cc0_scratch7.sem _ ![1, 0] _ inb_S80x128_S1x128_1_0 (hrow _ (by omega)) (by simp) (Transfers.shareTokN fullShare 1) (View.write (Elt F) (sI).view fI (tile_body.sl.dma0 ia d L) Finset.univ) 1) $$ [Hs1 HIt1 HFt1 Hb1']
        isplitl [Hs1]; · iexact Hs1
        isplitl [HIt1]; · iexact HIt1
        isplitl [HFt1]; · iexact HFt1
        iexact Hb1'
      · ipureintro; exact gathered_eq1 (F := F) d L _ (View.write (Elt F) (sI).view fI (tile_body.sl.dma0 ia d L) Finset.univ) (m (fLoc d)) _ _ _ _ _ (4 * 0 + 1) (by omega) (by simp)
    isplitl [Hs2 HIt2 HFt2 Hb2']
    · iexists _
      isplitl [Hs2 HIt2 HFt2 Hb2']
      · iapply (gatherGrp_congr (F := F) m d L b2 cc0_scratch8.sem _ ![2, 0] _ inb_S80x128_S1x128_2_0 (hrow _ (by omega)) (by simp) (Transfers.shareTokN fullShare 2) (View.write (Elt F) (sI).view fI (tile_body.sl.dma0 ia d L) Finset.univ) 2) $$ [Hs2 HIt2 HFt2 Hb2']
        isplitl [Hs2]; · iexact Hs2
        isplitl [HIt2]; · iexact HIt2
        isplitl [HFt2]; · iexact HFt2
        iexact Hb2'
      · ipureintro; exact gathered_eq2 (F := F) d L _ (View.write (Elt F) (sI).view fI (tile_body.sl.dma0 ia d L) Finset.univ) (m (fLoc d)) _ _ _ _ _ (4 * 0 + 2) (by omega) (by simp)
    · iexists _
      isplitl [Hs3 HIt3 HFt3 Hb3']
      · iapply (gatherGrp_congr (F := F) m d L b3 cc0_scratch9.sem _ ![3, 0] _ inb_S80x128_S1x128_3_0 (hrow _ (by omega)) (by simp) (Transfers.shareDrop fullShare 3) (View.write (Elt F) (sI).view fI (tile_body.sl.dma0 ia d L) Finset.univ) 3) $$ [Hs3 HIt3 HFt3 Hb3']
        isplitl [Hs3]; · iexact Hs3
        isplitl [HIt3]; · iexact HIt3
        isplitl [HFt3]; · iexact HFt3
        iexact Hb3'
      · ipureintro; exact gathered_eq3 (F := F) d L _ (View.write (Elt F) (sI).view fI (tile_body.sl.dma0 ia d L) Finset.univ) (m (fLoc d)) _ _ _ _ _ (4 * 0 + 3) (by omega) (by simp)
  iintro %_ HI
  have hfin : ¬ k0_t1_loop.trips < 20 := by decide
  unfold invO grp0 grp1 grp2 grp3
  rw [dif_neg hfin, dif_neg hfin, dif_neg hfin, dif_neg hfin]
  icases HI with ⟨-, ⟨%faE, HsA, %haccE⟩, HFr, ⟨%WE, %hWE, HO⟩, ⟨⟨%gE0, Hbr0⟩, Hfl0, HI0, HFr0⟩, ⟨⟨%gE1, Hbr1⟩, Hfl1, HI1, HFr1⟩, ⟨⟨%gE2, Hbr2⟩, Hfl2, HI2, HFr2⟩, ⟨⟨%gE3, Hbr3⟩, Hfl3, HI3, HFr3⟩⟩
  -- the shares of the scratch of lists and of the feature table back together
  ihave HX2 := (tok_split (F := F) Finset.univ fullShare _ 2 3 rfl).2 $$ [HI2 HI3]
  · isplitl [HI2]; · iexact HI2
    iexact HI3
  ihave HX1 := (tok_split (F := F) Finset.univ fullShare _ 1 2 rfl).2 $$ [HI1 HX2]
  · isplitl [HI1]; · iexact HI1
    iexact HX2
  ihave HsI' := (tok_split0 (F := F) Finset.univ fullShare _).2 $$ [HI0 HX1]
  · isplitl [HI0]; · iexact HI0
    iexact HX1
  ihave HY3 := (tok_split (F := F) Finset.univ (fq (wL L)) _ 3 4 rfl).2 $$ [HFr3 HFr]
  · isplitl [HFr3]; · iexact HFr3
    iexact HFr
  ihave HY2 := (tok_split (F := F) Finset.univ (fq (wL L)) _ 2 3 rfl).2 $$ [HFr2 HY3]
  · isplitl [HFr2]; · iexact HFr2
    iexact HY3
  ihave HY1 := (tok_split (F := F) Finset.univ (fq (wL L)) _ 1 2 rfl).2 $$ [HFr1 HY2]
  · isplitl [HFr1]; · iexact HFr1
    iexact HY2
  ihave Hf' := (tok_split0 (F := F) Finset.univ (fq (wL L)) _).2 $$ [HFr0 HY1]
  · isplitl [HFr0]; · iexact HFr0
    iexact HY1
  -- the accumulator out to the worker's block of the result
  sl_exec
  sl_step
  isplitl [Hi' Hf' Ho']
  · isplitl [Hi']; · iapply (Entails.of_eq (pts_iRowK (F := F) d L _)); iexact Hi'
    isplitl [Hf']; · iexact Hf'
    iapply (out_block' (F := F) m ia d L (View.write (Elt F) (sI).view fI (tile_body.sl.dma0 ia d L) Finset.univ) (tile_body.sl.dma0_1 d L faE)
        (show AccOK (accVal (View.write (Elt F) (sI).view fI (tile_body.sl.dma0 ia d L) Finset.univ) (m (fLoc d))) 320 (tile_body.sl.dma0_1 d L faE) from accOK_cast (by decide) haccE)
        (fun c p => slab_apply' (F := F) d L fI (ia d) c p)) $$ Ho'
  isplitl [HsI' HsA Hbr0 Hbr1 Hbr2 Hbr3 Hbufs]
  · isplitl [HsI']; · iexists _; iexact HsI'
    isplitl [HsA]; · iexists _; iexact HsA
    isplitl [Hbr0]; · iexists _; iexact Hbr0
    isplitl [Hbr1]; · iexists _; iexact Hbr1
    isplitl [Hbr2]; · iexists _; iexact Hbr2
    isplitl [Hbr3]; · iexists _; iexact Hbr3
    iexact Hbufs
  isplitl [Hfl0 Hfl1 Hfl2 Hfl3 Hs4 Hs5 Hsems]
  · isplitl [Hfl0]; · iexact Hfl0
    isplitl [Hfl1]; · iexact Hfl1
    isplitl [Hfl2]; · iexact Hfl2
    isplitl [Hfl3]; · iexact Hfl3
    isplitl [Hs4]; · iexact Hs4
    isplitl [Hs5]; · iexact Hs5
    iexact Hsems
  iexists _; isplitr
  swap; · iexact HO
  ipureintro; intro p hp
  rcases Finset.mem_insert.mp hp with hp | hp; · exact .inr (hp ▸ rfl)
  rcases hWE p hp with hp | hp
  · rcases Finset.mem_insert.mp hp with hp | hp
    · exact .inr (hp ▸ rfl)
    · exact .inl hp
  · exact .inr hp

end Body

end Cert.Proof.KI

end
-- ==== Proof.KI_Obl.lean ====
/-
  The launch theorem's obligation for the vector-subcore call: the body table's entry for a vector subcore is the kernel
  function at its grid point, the grid point's worker number is the one the handshakes' payloads are stated at, and each
  task of the grid is one vector subcore's task (`tile_body`) at its grid point.
-/
import proofs.«202836_g53523882443255_cont_9to1_m_1194_32_alg».proof.Proof.KI_Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S32x80x128 EltTy.i32)
local notation "oV" => (Memref.whole Cert.KernelIdeal.main_v2_scv : Memref Cert.KernelIdeal.sig Kind.scVector Space.hbm Cert.KernelIdeal.S10240x128 EltTy.f32)
local notation "sI" => (Memref.whole Cert.KernelIdeal.cc0_scratch0 : Memref Cert.KernelIdeal.sig Kind.scVector Space.vmem Cert.KernelIdeal.S80x128 EltTy.i32)
local notation "sA" => (Memref.whole Cert.KernelIdeal.cc0_scratch1 : Memref Cert.KernelIdeal.sig Kind.scVector Space.vmem Cert.KernelIdeal.S320x128 EltTy.f32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

/-! ## The obligation -/

section Obl
variable [FloatOps F] (ia : (d : Dev nD) → Buf (Elt F) (iLoc d))

/-- The grid point of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

omit m ρ in
/-- The body table's entry for a vector subcore is the kernel function at the subcore's grid point. -/
theorem defs₀_vector (c : Fin τ.nSC) (s : Fin τ.nSub) :
    defs₀ (F := F) (.scVector c s) 0 ()
      = SparseCore.onTile hcore0 hsub0 (fun c s => cc0__agg_body (coordsV c s)
          fV (Memref.isWhole_whole _) iV (Memref.isWhole_whole _) oV (Memref.isWhole_whole _)
          sI (Memref.isWhole_whole _) sA (Memref.isWhole_whole _) b0 (Memref.isWhole_whole _) b1 (Memref.isWhole_whole _)
          b2 (Memref.isWhole_whole _) b3 (Memref.isWhole_whole _) cc0_scratch6 cc0_scratch7 cc0_scratch8 cc0_scratch9 cc0_scoped0 cc0_scoped1) ⟨⟩ c s := rfl

omit [FloatOps F] m ρ in
/-- A task that recorded no wait of its own call's index has, all the more, recorded none but that or none. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit m ρ in
/-- The worker number of the subcore at the grid point of task `(c, i)` is the one the handshakes' payloads are stated at. -/
theorem wL_coordsV (c : Fin ((K (F := F)).nCore 0)) (i : Fin ((K (F := F)).nSub 0))
    (hc : ((K (F := F)).core 0 c).val < grid0.bound 0) (hi : ((K (F := F)).sub 0 i).val < grid0.bound 1) :
    wL (coordsV ⟨((K (F := F)).core 0 c).val, hc⟩ ⟨((K (F := F)).sub 0 i).val, hi⟩) = wid (Fin.cast nCore_zero c) (Fin.cast nSub_zero i) := rfl

omit ρ in
set_option maxRecDepth 16384 in
/-- The launch theorem's obligation for the one vector-subcore call: each task of its grid is `tile_body` at its grid point. -/
theorem tileObl (hF : (K (F := F)).Facts) (hia : IdxOK ia) : (K (F := F)).TileObl (D (F := F)) 𝒱 (P m ia) v₀ 0 := by
  intro d c i O W hO _ _
  simp only [show (P m ia).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m ia d (coordsV ⟨_, hci.1⟩ ⟨_, hci.2⟩) hF hia O W hO).trans (wp_mono frame _ _ fun _ => obl_post)

end Obl

end Cert.Proof.KI

end
-- ==== Proof.IdealValue.lean ====
/-
  The kernel's value at the ideal instance is the specification.

  At the ideal instance a float is an extended real and the kernel's addition is the extended reals', so the kernel's
  left-to-right sum of 32 terms is their sum. Entry (r, c) of the program's result, r below 10000, is entry (r, c) of
  the kernel's result; word j of the 32 that row r sums sits in the re-laid index table at slab r / 320, list
  (r % 320) / 4, position 32 (r % 4) + j, which is word j of row 320 (r / 320) + 4 ((r % 320) / 4) + r % 4 = r of the
  neighbour lists: the result is the sum over the 32 neighbours of row r of entry c of the feature rows they name.
-/
import proofs.«202836_g53523882443255_cont_9to1_m_1194_32_alg».proof.Proof.KI_Launch
import proofs.«202836_g53523882443255_cont_9to1_m_1194_32_alg».proof.Proof.HostFactsI
import proofs.«202836_g53523882443255_cont_9to1_m_1194_32_alg».proof.Proof.Spec
import proofs.«202836_g53523882443255_cont_9to1_m_1194_32_alg».proof.Proof.Gen.Pre_input_domain

noncomputable section

open scoped BigOperators

namespace Cert.Proof.IdealValue

open Cert.KernelIdeal Cert.KernelIdeal.Gen
open Idealize.ShloMosaic Idealize.ShloMosaic.ValueIdx

/-- At the ideal instance the left-to-right sum of `g 0, …, g n` is their sum. -/
theorem foldRows_eq_sum (g : ℕ → EReal) (n : ℕ) :
    Cert.Proof.KI.foldRows (F := Ideal) (φ := .f32) g n = ∑ j ∈ Finset.range (n + 1), g j := by
  induction n with
  | zero => rw [Finset.sum_range_one]; rfl
  | succ n ih =>
    rw [Finset.sum_range_succ, ← ih]
    rfl

/-- Word `j` of the 32 that result row `r` sums, read in the host's index table, is word `j` of row `r` of the
    neighbour lists. -/
theorem iaOf_tabIdx (m : (ℓ : Loc nD τ sig) → Buf (Elt Ideal) ℓ) (d : Dev nD) (r : Fin 10000) (j : Fin 32) :
    Cert.Proof.KI.iaOf m d (Cert.Proof.KI.tabIdx (⟨r.val, by omega⟩ : Fin 10240) j.val j.isLt) = m (Cert.Proof.KI.tLoc d) (ix2 r j) := by
  have hr : 320 * (r.val / 320) + 4 * ((r.val % 320) / 4) + r.val % 4 = r.val := by omega
  refine (Cert.KernelIdeal.HostFacts.idxAll_apply (m (Cert.Proof.KI.tLoc d)) (⟨r.val / 320, by omega⟩ : Fin 32)
    (⟨(r.val % 320) / 4, by omega⟩ : Fin 80) (⟨r.val % 4, by omega⟩ : Fin 4) j).trans ?_
  rw [dif_pos (show 320 * (r.val / 320) + 4 * ((r.val % 320) / 4) + r.val % 4 < 10000 by omega)]
  exact congrArg (fun k : Fin 10000 => m (Cert.Proof.KI.tLoc d) (ix2 k j)) (Fin.ext hr)

/-- Entry (r, c) of the program's result at the ideal instance is the specification's. -/
theorem res_apply (m : (ℓ : Loc nD τ sig) → Buf (Elt Ideal) ℓ) (d : Dev nD)
    (ht : ∀ i, (m (Cert.Proof.KI.tLoc d) i).toNat < 100000) (r : Fin 10000) (c : Fin 128) :
    Cert.Proof.KI.resFn m d (ix2 r c) = Cert.Spec.aggAt (m (Cert.Proof.KI.fLoc d)) (m (Cert.Proof.KI.tLoc d)) r c := by
  unfold Cert.Proof.KI.resFn
  refine (Cert.KernelIdeal.HostFacts.slice_apply (F := Ideal) _ r c).trans ?_
  unfold Cert.Proof.KI.aggFold Cert.Spec.aggAt
  rw [foldRows_eq_sum, ← Fin.sum_univ_eq_sum_range (fun j => if hj : j < 32 then _ else _) 32]
  refine Finset.sum_congr rfl fun j _ => ?_
  rw [dif_pos j.isLt]
  exact congrArg (fun wd : BitVec 32 => m (Cert.Proof.KI.fLoc d) (ix2 (Cert.Spec.rowOf wd) c)) (iaOf_tabIdx m d r j)

end Cert.Proof.IdealValue

end
-- ==== Proof.RefTerm.lean ====
/-
  The reference's value as one pure term. The reference is `jnp.take` of the table's rows at the neighbour words followed
  by a sum over the neighbour axis. `jnp.take` wraps a negative word by adding the table's row count, gathers the rows
  (a gather clamps every start index into the table), marks the (row, neighbour) pairs whose wrapped word lies inside the
  table and puts a fill value at the others; the sum then runs over the 32 neighbours from zero. The definitions below
  compose the host operations in that order, over the table `x` and the words `t`; the last is the whole value.
-/
import proofs.«202836_g53523882443255_cont_9to1_m_1194_32_alg».proof.Proof.Gen.ReferenceIdeal
import Idealize.ShloMosaic.PureOps.Ideal

noncomputable section

namespace Cert.ReferenceIdeal.RefValue

open Cert.ReferenceIdeal Cert.ReferenceIdeal.Gen Idealize.ShloMosaic

section Term

variable {F : FTy → Type} [FloatOps F]

/-- The words after the wrap of negative ones: a word that is negative as a signed number has 100000 added. -/
def wrapped (t : IVec S10000x32 32) : IVec S10000x32 32 :=
  select (cmpi .slt t (broadcastInDim S10000x32 ![] bcast_S_S10000x32 (constantI S_ 32 0#32)))
    (addi t (broadcastInDim S10000x32 ![] bcast_S_S10000x32 (constantI S_ 32 100000#32))) t

/-- The wrapped words as the gather's start indices: one index vector of length one per (row, neighbour). -/
def starts (t : IVec S10000x32 32) : IVec S10000x32x1 32 :=
  broadcastInDim S10000x32x1 ![0, 1] bcast_S10000x32_S10000x32x1_0_1 (wrapped t)

/-- The mask of the (row, neighbour) pairs whose wrapped word lies in `[0, 99999]` as a signed number. -/
def inRange (t : IVec S10000x32 32) : IVec S10000x32 1 :=
  Host.reduce IntOp.andi
    (andi (cmpi .sge (starts t) (broadcastInDim S10000x32x1 ![] bcast_S_S10000x32x1 (constantI S_ 32 0#32)))
      (cmpi .sle (starts t) (broadcastInDim S10000x32x1 ![0, 1, 2] bcast_S1x1x1_S10000x32x1_0_1_2
        (broadcastInDim S1x1x1 ![2] bcast_S1_S1x1x1_2 (constantI S1 32 99999#32)))))
    (constantI S_ 1 1#1) reducesTo_S10000x32x1_S10000x32_d2 h_S_

/-- The gathered rows: at (row, neighbour, column) the table at the row the start index names, where the mask holds,
    and the fill value elsewhere. -/
def taken (x : FVec F S100000x128 .f32) (t : IVec S10000x32 32) : FVec F S10000x32x128 .f32 :=
  select (broadcastInDim S10000x32x128 ![0, 1] bcast_S10000x32_S10000x32x128_0_1 (inRange t))
    (Host.gather gather_S100000x128_S10000x32x1_S10000x32x128_2_0_n_n_0_2_1128 x (starts t))
    (broadcastInDim S10000x32x128 ![] bcast_S_S10000x32x128 (constant S_ .f32 0x7FC00000#32))

/-- The reference's value at any float instance: the gathered rows summed over the neighbour axis from zero. -/
def refOutF (x : FVec F S100000x128 .f32) (t : IVec S10000x32 32) : FVec F S10000x128 .f32 :=
  Host.reduceAdd (taken x t) (constant S_ .f32 0x00000000#32) reducesTo_S10000x32x128_S10000x128_d1 h_S_

end Term

/-- The reference's value at the ideal instance. -/
def refOut (x : FVec Ideal S100000x128 .f32) (t : IVec S10000x32 32) : FVec Ideal S10000x128 .f32 :=
  refOutF x t

end Cert.ReferenceIdeal.RefValue

end
-- ==== Proof.RefRun.lean ====
/-
  The reference's run. The reference is `jnp.take` of the table's rows at the neighbour words followed by a sum over
  the neighbour axis. Its @main calls the module-local function @_take, which itself calls @_where; with the two calls
  unfolded the program is a straight line of twenty-five host operations, each writing one buffer of its own from the whole
  contents of its operand buffers. So every weakly fair execution terminates, and the result buffer ends at the operations'
  composed pure term of the two argument arrays the program reads (`refOut`, defined with the term's parts in the module
  this one imports), every argument unchanged.
-/
import proofs.«202836_g53523882443255_cont_9to1_m_1194_32_alg».proof.Proof.RefTerm
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-! ## The program as a list of operations -/

variable {F : FTy → Type} [FloatOps F]

/-- @main's operations in order, the calls unfolded: @_take's twenty-three into `main_call0`'s buffers (the seventh of
    them @_where's select, into `main_call0.call0`'s), then @main's own two (the zero and the sum). -/
abbrev ops : List (HloOp τ sig (Elt F)) :=
  [ TRef.nullary main_call0.c (constantI S_ 32 0#32),
    TRef.unary main_call0.c main_call0.v0 (broadcastInDim S10000x32 ![] bcast_S_S10000x32),
    TRef.binary (.of main_arg2) main_call0.v0 main_call0.v1 (cmpi .slt),
    TRef.nullary main_call0.c_0 (constantI S_ 32 100000#32),
    TRef.unary main_call0.c_0 main_call0.v2 (broadcastInDim S10000x32 ![] bcast_S_S10000x32),
    TRef.binary (.of main_arg2) main_call0.v2 main_call0.v3 addi,
    TRef.ternary main_call0.v1 main_call0.v3 (.of main_arg2) main_call0.call0.v0 select,
    TRef.unary main_call0.call0.v0 main_call0.v5 (broadcastInDim S10000x32x1 ![0, 1] bcast_S10000x32_S10000x32x1_0_1),
    TRef.nullary main_call0.c_1 (constantI S1 32 99999#32),
    TRef.nullary main_call0.c_2 (constantI S_ 32 0#32),
    TRef.unary main_call0.c_2 main_call0.v6 (broadcastInDim S10000x32x1 ![] bcast_S_S10000x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S10000x32x1 ![0, 1, 2] bcast_S1x1x1_S10000x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S10000x32x1_S10000x32_d2 h_S_),
    TRef.binary (.of main_arg0) main_call0.v5 main_call0.v13 (fun x i => Host.gather gather_S100000x128_S10000x32x1_S10000x32x128_2_0_n_n_0_2_1128 x i),
    TRef.unary main_call0.v12 main_call0.v14 (broadcastInDim S10000x32x128 ![0, 1] bcast_S10000x32_S10000x32x128_0_1),
    TRef.nullary main_call0.cst (constant S_ .f32 0x7FC00000#32),
    TRef.unary main_call0.cst main_call0.v15 (broadcastInDim S10000x32x128 ![] bcast_S_S10000x32x128),
    TRef.ternary main_call0.v14 main_call0.v13 main_call0.v15 main_call0.v16 select,
    nullary main_cst (constant S_ .f32 0x00000000#32),
    binary main_v0 main_cst main_v1 ((fun x v => Host.reduceAdd x v reducesTo_S10000x32x128_S10000x128_d1 h_S_) : (⟨S10000x32x128, .f32⟩ : BufTy).Contents (Elt F) → (⟨S_, .f32⟩ : BufTy).Contents (Elt F) → (⟨S10000x128, .f32⟩ : BufTy).Contents (Elt F)) ]

set_option maxRecDepth 1024 in
/-- @main is that straight line: the two functions' definitions unfolded at their calls, both sides are one chain of
    host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub ..⟩

/-! ## The fold at the buffers the claim reads -/

attribute [local irreducible] Host.reduce Host.gather Host.reduceAdd in
set_option maxRecDepth 8192 in
set_option maxHeartbeats 1000000 in
/-- The fold at the result buffer is `refOutF` of the two argument arrays: the fold unrolled, each operation's result
    at the buffer it writes is its function's value and at any other buffer what was there; what is left is the
    composed term up to the typed references' casts, the identity at these literal references. The reduction, the
    gather and the sum are kept folded meanwhile: the equation never looks inside them. -/
theorem out_eq (V : Valuation τ sig (Elt F)) :
    after ops V (main_v1 : DevRef τ sig) = refOutF (V (main_arg0 : DevRef τ sig)) (V (main_arg2 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-! ## The run -/

/-- At the ideal instance, from any memory with zero counters: every weakly fair execution of @main terminates, the
    result buffer ends at `refOut` of the table and the neighbour words, and the three arguments end unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v1)
            = refOut (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run defs _ _).mono (fun _ h c => ⟨(h c main_v1).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefValue

end
-- ==== Proof.RefValue.lean ====
/-
  The reference's value, entry by entry. Under the hypothesis that every neighbour word is below 100000 — the table's row
  count — a word is not negative as a signed number and is at most 99999: the wrap of negative words takes the word itself,
  the in-range mask is all ones, and the gather's clamped start index is the word's unsigned value. So entry (r, d) of the
  reference's value is the sum over the 32 neighbours `j` of the table's entry `d` in the row word `t[r, j]` names, the
  initial zero of the sum absorbed: the specification's `aggAt`.
-/
import proofs.«202836_g53523882443255_cont_9to1_m_1194_32_alg».proof.Proof.RefTerm
import proofs.«202836_g53523882443255_cont_9to1_m_1194_32_alg».proof.Proof.Spec
import Idealize.ShloMosaic.Lib.IdealHost
import Idealize.ShloMosaic.Lib.Affine
import Idealize.ShloMosaic.Lib.ValueIdx
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx

/-! ## Words below 100000 -/

/-- A word below 100000 is its unsigned value as a signed number. -/
theorem toInt_of_lt {w : BitVec 32} (h : w.toNat < 100000) : w.toInt = (w.toNat : Int) :=
  BitVec.toInt_eq_toNat_of_lt (by omega)

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

section Value

variable (x : FVec Ideal S100000x128 .f32) (t : IVec S10000x32 32) (ht : ∀ i, (t i).toNat < 100000)
include ht

/-- No word is negative, so the wrap takes the word itself. -/
theorem wrapped_apply (i : S10000x32.Idx) : wrapped t i = t i := by
  have h0 : IntOp.cmpi .slt (t i) 0#32 = 0#1 := eq_zero_of_ne_one fun h => by
    have h1 := IntOp.cmpi_slt.mp h
    rw [toInt_of_lt (ht i), BitVec.toInt_zero] at h1
    omega
  show Scalar.select (IntOp.cmpi .slt (t i) 0#32) _ _ = _
  rw [h0, select_zero]

/-- The start index of (row, neighbour) is that word. -/
theorem starts_apply (k : S10000x32x1.Idx) : starts t k = t (ix2 (k 0) (k 1)) := by
  rw [← wrapped_apply t ht]
  unfold starts broadcastInDim
  refine congrArg (wrapped t) (funext fun a => ?_)
  match a with
  | ⟨0, _⟩ => rfl
  | ⟨1, _⟩ => rfl

/-- Every start index lies in `[0, 99999]`, so the mask is all ones. -/
theorem inRange_apply (j : S10000x32.Idx) : inRange t j = 1#1 := by
  unfold inRange
  rw [Host.reduce_eq_foldl]
  refine foldl_andi_one _ (fun k => ?_) _
  have hk := ht (ix2 (k 0) (k 1))
  refine IntOp.andi_eq_one.mpr ⟨?_, ?_⟩
  · show IntOp.cmpi .sge (starts t k) 0#32 = 1#1
    rw [IntOp.cmpi_sge, starts_apply t ht, toInt_of_lt hk, BitVec.toInt_zero]
    omega
  · show IntOp.cmpi .sle (starts t k) 99999#32 = 1#1
    rw [IntOp.cmpi_sle, starts_apply t ht, toInt_of_lt hk, show (99999#32 : BitVec 32).toInt = 99999 from by decide]
    omega

end Value

section Gather

variable (x : FVec Ideal S100000x128 .f32) (t : IVec S10000x32 32) (ht : ∀ i, (t i).toNat < 100000)
include ht

/-- The gather read at (row, neighbour, column). On the table's row axis — the collapsed one, the only one the start
    index names — the operand index is the start index read signed and clamped to the last row: the word's unsigned
    value; on the column axis it is the result's column. -/
theorem gather_apply (r : Fin 10000) (j : Fin 32) (d : Fin 128) :
    Host.gather gather_S100000x128_S10000x32x1_S10000x32x128_2_0_n_n_0_2_1128 x (starts t) (ix3 r j d)
      = x (ix2 (Cert.Spec.rowOf (t (ix2 r j))) d) := by
  unfold Host.gather
  refine congrArg x (funext fun a => Fin.ext ?_)
  match a with
  | ⟨0, _⟩ =>
    show gather_S100000x128_S10000x32x1_S10000x32x128_2_0_n_n_0_2_1128.start (ix3 r j d) (starts t) 0
        + gather_S100000x128_S10000x32x1_S10000x32x128_2_0_n_n_0_2_1128.batchCoord (ix3 r j d) 0
        + gather_S100000x128_S10000x32x1_S10000x32x128_2_0_n_n_0_2_1128.offCoord (ix3 r j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S10000x32x1_S10000x32x128_2_0_n_n_0_2_1128.startIndexMap from
      List.mem_singleton.mpr rfl)]
    rw [starts_apply t ht]
    show min (t (ix2 r j)).toInt.toNat (100000 - 1) = min (t (ix2 r j)).toNat 99999
    rw [toInt_of_lt (ht _), Int.toNat_natCast]
  | ⟨1, _⟩ =>
    show gather_S100000x128_S10000x32x1_S10000x32x128_2_0_n_n_0_2_1128.start (ix3 r j d) (starts t) 1
        + gather_S100000x128_S10000x32x1_S10000x32x128_2_0_n_n_0_2_1128.batchCoord (ix3 r j d) 1
        + gather_S100000x128_S10000x32x1_S10000x32x128_2_0_n_n_0_2_1128.offCoord (ix3 r j d) 1 = d.val
    rw [GatherDims.batchCoord_eq_zero _ _ _ List.not_mem_nil]
    have hs : gather_S100000x128_S10000x32x1_S10000x32x128_2_0_n_n_0_2_1128.start (ix3 r j d) (starts t) 1 = 0 := by
      unfold GatherDims.start
      rw [dif_neg (show (1 : Fin 2) ∉ gather_S100000x128_S10000x32x1_S10000x32x128_2_0_n_n_0_2_1128.startIndexMap from by decide)]
    rw [hs]
    simp only [Nat.add_zero, Nat.zero_add]
    rfl

/-- The gathered rows at (row, neighbour, column): the mask holds, so the table's entry. -/
theorem taken_apply (r : Fin 10000) (j : Fin 32) (d : Fin 128) :
    taken x t (ix3 r j d) = x (ix2 (Cert.Spec.rowOf (t (ix2 r j))) d) := by
  have hm : broadcastInDim S10000x32x128 ![0, 1] bcast_S10000x32_S10000x32x128_0_1 (inRange t) (ix3 r j d) = 1#1 := by
    unfold broadcastInDim
    exact inRange_apply t ht _
  unfold taken
  rw [select_apply, hm, select_one, gather_apply x t ht]

/-- Entry (r, d) of the reference's value is the specification's: the sum over the 32 neighbours of the table's entries,
    the initial zero absorbed. -/
theorem refOut_apply (r : Fin 10000) (d : Fin 128) : refOut x t (ix2 r d) = Cert.Spec.aggAt x t r d := by
  have hR : Shape.Reduces S10000x32x128 [1] S10000x128 := by decide
  show Host.reduceAdd (taken x t) (constant S_ .f32 0x00000000#32) reducesTo_S10000x32x128_S10000x128_d1 h_S_ (ix2 r d) = _
  rw [hostReduceAdd_apply, Ideal.hostReduceAdd_single _ hR]
  show Ideal.ofBits .f32 0x00000000#32 + ∑ k : Fin 32, taken x t (hR.lift (ix2 r d) k) = ∑ k : Fin 32, x (ix2 (Cert.Spec.rowOf (t (ix2 r k))) d)
  rw [Ideal.ofBits_zero_f32, zero_add]
  refine Finset.sum_congr rfl fun k _ => ?_
  have hl : hR.lift (ix2 r d) k = ix3 r k d := by
    funext a
    refine Fin.ext ?_
    match a with
    | ⟨0, _⟩ => rfl
    | ⟨1, _⟩ => rfl
    | ⟨2, _⟩ => rfl
  rw [hl, taken_apply x t ht]

end Gather

end Cert.ReferenceIdeal.RefValue

end
-- ==== Proof.lean ====
/-
  The claim: its five conjuncts from the two launches, the tasks' obligation, the reference's run and the two values.

  Both sides are equal, entry by entry, to the shared specification: entry (r, c) of either result is the sum over the
  32 neighbours of row r of entry c of the feature rows they name. The kernel's side: the program's result is the
  first 10000 rows of the kernel's value at the host's index table, which is that sum (the words are below 100000 by
  the precondition). The reference's side: its gather and sum are that sum. The three frames are the same runs with
  the result forgotten; the idealization rewrote no operation.
-/
import proofs.«202836_g53523882443255_cont_9to1_m_1194_32_alg».proof.Defs
import proofs.«202836_g53523882443255_cont_9to1_m_1194_32_alg».proof.Proof.KA_Launch
import proofs.«202836_g53523882443255_cont_9to1_m_1194_32_alg».proof.Proof.KA_Obl
import proofs.«202836_g53523882443255_cont_9to1_m_1194_32_alg».proof.Proof.KI_Launch
import proofs.«202836_g53523882443255_cont_9to1_m_1194_32_alg».proof.Proof.KI_Obl
import proofs.«202836_g53523882443255_cont_9to1_m_1194_32_alg».proof.Proof.IdealValue
import proofs.«202836_g53523882443255_cont_9to1_m_1194_32_alg».proof.Proof.RefRun
import proofs.«202836_g53523882443255_cont_9to1_m_1194_32_alg».proof.Proof.RefValue
import proofs.«202836_g53523882443255_cont_9to1_m_1194_32_alg».proof.Proof.Gen.ReferenceIdeal
import proofs.«202836_g53523882443255_cont_9to1_m_1194_32_alg».proof.Proof.Gen.Pre_input_domain

noncomputable section

namespace Cert.Proof

open Idealize.ShloMosaic Idealize.SL.Sem Idealize.ShloMosaic.ValueIdx

/-- The precondition bounds the neighbour words, hence every word of the host's index table (as printed). -/
theorem idxOK_of_pre_B (m : (ℓ : Loc Cert.Kernel.nD Cert.Kernel.τ Cert.Kernel.sig) → Buf (Elt Bits) ℓ) (h : Cert.Pre_Kernel m) :
    Cert.Proof.KA.IdxOK (Cert.Proof.KA.iaOf m) := fun d j =>
  Cert.Kernel.HostFacts.idxAll_lt (m (Cert.Proof.KA.tLoc d)) (Cert.Kernel.HostFacts.words_lt (F := Bits) _ _ _ (h d)) j

/-- The same at the ideal instance. -/
theorem idxOK_of_pre_I (m : (ℓ : Loc Cert.KernelIdeal.nD Cert.KernelIdeal.τ Cert.KernelIdeal.sig) → Buf (Elt Ideal) ℓ)
    (h : Cert.Pre_KernelIdeal m) : Cert.Proof.KI.IdxOK (Cert.Proof.KI.iaOf m) := fun d j =>
  Cert.KernelIdeal.HostFacts.idxAll_lt (m (Cert.Proof.KI.tLoc d)) (Cert.KernelIdeal.HostFacts.words_lt (F := Ideal) _ _ _ (h d)) j

theorem frame_Kernel : Cert.frame_Kernel := by
  intro m g hpre
  have htileB := Cert.Proof.KA.tileObl (F := Bits) m (Cert.Proof.KA.iaOf m) Cert.Proof.KA.facts (idxOK_of_pre_B m hpre)
  exact (θ_run Cert.Kernel.defs _ _).mono (fun _ h c => (h c).2) (Cert.Proof.KA.run_main (F := Bits) m g htileB)

theorem frame_KernelIdeal : Cert.frame_KernelIdeal := by
  intro m g hpre
  have htileI := Cert.Proof.KI.tileObl (F := Ideal) m (Cert.Proof.KI.iaOf m) Cert.Proof.KI.facts (idxOK_of_pre_I m hpre)
  exact (θ_run Cert.KernelIdeal.defs _ _).mono (fun _ h c => (h c).2) (Cert.Proof.KI.run_main (F := Ideal) m g htileI)

theorem frame_ReferenceIdeal : Cert.frame_ReferenceIdeal := fun m g _ =>
  (θ_run Cert.ReferenceIdeal.defs _ _).mono (fun _ h c => (h c).2) (Cert.ReferenceIdeal.RefValue.run m g)

theorem algebraic : Cert.algebraic_KernelIdeal_ReferenceIdeal := by
  intro m g m' g' hpre hagree
  have htileI := Cert.Proof.KI.tileObl (F := Ideal) m (Cert.Proof.KI.iaOf m) Cert.Proof.KI.facts (idxOK_of_pre_I m hpre)
  refine ⟨fun c => Cert.Proof.KI.resFn m c, ?_, ?_⟩
  · exact (θ_run Cert.KernelIdeal.defs _ _).mono (fun _ h c => h c) (Cert.Proof.KI.run_main (F := Ideal) m g htileI)
  · refine (θ_run Cert.ReferenceIdeal.defs _ _).mono (fun _ h c => ⟨?_, (h c).2⟩) (Cert.ReferenceIdeal.RefValue.run m' g')
    have ht : ∀ i, (m (Cert.Proof.KI.tLoc c) i).toNat < 100000 :=
      Cert.KernelIdeal.HostFacts.words_lt (F := Ideal) _ _ _ (hpre c)
    rw [(h c).1, (hagree c).1, (hagree c).2.2]
    funext i
    rw [eq_ix2 i]
    exact (Cert.ReferenceIdeal.RefValue.refOut_apply _ _ ht _ _).trans (Cert.Proof.IdealValue.res_apply m c ht _ _).symm

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
